-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part2 {F : FTy → Type} [FloatOps F] (main_arg1 : IVec S8192x16 32) (main_arg8 : FVec F S512x512 .f32) (main_arg9 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_c_16 : IVec S_ 32 := constantI S_ 32 8192#32
  let main_v44 : IVec S8192x16 32 := broadcastInDim S8192x16 ![] bcast_S_S8192x16 main_c_16
  let main_v45 : IVec S8192x16 1 := cmpi .slt main_arg1 main_v44
  let main_c_17 : IVec S_ 1 := constantI S_ 1 1#1
  let main_v46 : IVec S_ 1 := (fun x v => Host.reduce IntOp.andi x v reducesTo_S8192x16_S_d0_1 h_S_) main_v45 main_c_17
  let main_v47 : IVec S_ 1 := andi main_v43 main_v46
  main_v47

def fn_part1 {F : FTy → Type} [FloatOps F] (main_arg1 : IVec S8192x16 32) (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_v33

def fn {F : FTy → Type} [FloatOps F] (main_arg0 : FVec F S8192x128 .f32) (main_arg1 : IVec S8192x16 32) (main_arg2 : FVec F S128x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_arg8 main_arg9 main_v13 main_v16
-- ==== Kernel.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S8192 : Shape := ⟨1, ![8192]⟩
abbrev S8192x1 : Shape := ⟨2, ![8192, 1]⟩
abbrev S_ : Shape := ⟨0, ![]⟩
abbrev S8192x8192 : Shape := ⟨2, ![8192, 8192]⟩
abbrev S131072 : Shape := ⟨1, ![131072]⟩
abbrev S131072x1 : Shape := ⟨2, ![131072, 1]⟩
abbrev S131072x2 : Shape := ⟨2, ![131072, 2]⟩
abbrev S1024x1024 : Shape := ⟨2, ![1024, 1024]⟩
abbrev S1x512 : Shape := ⟨2, ![1, 512]⟩
abbrev S8192x512 : Shape := ⟨2, ![8192, 512]⟩
abbrev S2048x128 : Shape := ⟨2, ![2048, 128]⟩
abbrev S2048x512 : Shape := ⟨2, ![2048, 512]⟩
abbrev S2048x1024 : Shape := ⟨2, ![2048, 1024]⟩
abbrev S1024x512 : Shape := ⟨2, ![1024, 512]⟩
abbrev S1024x1 : Shape := ⟨2, ![1024, 1]⟩
abbrev S2048x1 : Shape := ⟨2, ![2048, 1]⟩

abbrev nBuf : Space → Nat
  | .hbm => 67
  | .vmem => 49
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8192, .i32⟩
  | .hbm, ⟨11, _⟩ => ⟨S8192x1, .i32⟩
  | .hbm, ⟨12, _⟩ => ⟨S8192x16, .i32⟩
  | .hbm, ⟨13, _⟩ => ⟨S_, .i32⟩
  | .hbm, ⟨14, _⟩ => ⟨S8192x16, .i32⟩
  | .hbm, ⟨15, _⟩ => ⟨S8192x16, .i1⟩
  | .hbm, ⟨16, _⟩ => ⟨S_, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S8192x16, .f32⟩
  | .hbm, ⟨21, _⟩ => ⟨S_, .f32⟩
  | .hbm, ⟨22, _⟩ => ⟨S8192x8192, .f32⟩
  | .hbm, ⟨23, _⟩ => ⟨S131072, .i32⟩
  | .hbm, ⟨24, _⟩ => ⟨S131072, .i32⟩
  | .hbm, ⟨25, _⟩ => ⟨S131072, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x1, .i32⟩
  | .hbm, ⟨42, _⟩ => ⟨S131072x2, .i32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1, .f32⟩
  | .hbm, ⟨53, _⟩ => ⟨S8192x8192, .bf16⟩
  | .hbm, ⟨54, _⟩ => ⟨S8192x128, .bf16⟩
  | .hbm, ⟨55, _⟩ => ⟨S128x512, .bf16⟩
  | .hbm, ⟨56, _⟩ => ⟨S1x512, .f32⟩
  | .hbm, ⟨57, _⟩ => ⟨S8192x512, .bf16⟩
  | .hbm, ⟨58, _⟩ => ⟨S512x512, .bf16⟩
  | .hbm, ⟨59, _⟩ => ⟨S1x512, .f32⟩
  | .hbm, ⟨60, _⟩ => ⟨S8192x512, .bf16⟩
  | .hbm, ⟨61, _⟩ => ⟨S512x512, .bf16⟩
  | .hbm, ⟨62, _⟩ => ⟨S1x512, .f32⟩
  | .hbm, ⟨63, _⟩ => ⟨S8192x512, .bf16⟩
  | .hbm, ⟨64, _⟩ => ⟨S512x512, .bf16⟩
  | .hbm, ⟨65, _⟩ => ⟨S1x512, .f32⟩
  | .hbm, ⟨66, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x128, .bf16⟩
  | .local _ .vmem, ⟨5, _⟩ => ⟨S2048x128, .bf16⟩
  | .local _ .vmem, ⟨6, _⟩ => ⟨S128x512, .bf16⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S2048x1024, .bf16⟩
  | .local _ .vmem, ⟨12, _⟩ => ⟨S1024x512, .bf16⟩
  | .local _ .vmem, ⟨13, _⟩ => ⟨S1024x512, .bf16⟩
  | .local _ .vmem, ⟨14, _⟩ => ⟨S1024x1, .f32⟩
  | .local _ .vmem, ⟨15, _⟩ => ⟨S1024x1, .f32⟩
  | .local _ .vmem, ⟨16, _⟩ => ⟨S512x512, .bf16⟩
  | .local _ .vmem, ⟨17, _⟩ => ⟨S1x512, .f32⟩
  | .local _ .vmem, ⟨18, _⟩ => ⟨S2048x1, .f32⟩
  | .local _ .vmem, ⟨19, _⟩ => ⟨S2048x1, .f32⟩
  | .local _ .vmem, ⟨20, _⟩ => ⟨S2048x512, .bf16⟩
  | .local _ .vmem, ⟨21, _⟩ => ⟨S2048x512, .bf16⟩
  | .local _ .vmem, ⟨22, _⟩ => ⟨S2048x512, .f32⟩
  | .local _ .vmem, ⟨23, _⟩ => ⟨S2048x1024, .bf16⟩
  | .local _ .vmem, ⟨24, _⟩ => ⟨S2048x1024, .bf16⟩
  | .local _ .vmem, ⟨25, _⟩ => ⟨S1024x512, .bf16⟩
  | .local _ .vmem, ⟨26, _⟩ => ⟨S1024x512, .bf16⟩
  | .local _ .vmem, ⟨27, _⟩ => ⟨S1024x1, .f32⟩
  | .local _ .vmem, ⟨28, _⟩ => ⟨S1024x1, .f32⟩
  | .local _ .vmem, ⟨29, _⟩ => ⟨S512x512, .bf16⟩
  | .local _ .vmem, ⟨30, _⟩ => ⟨S1x512, .f32⟩
  | .local _ .vmem, ⟨31, _⟩ => ⟨S2048x1, .f32⟩
  | .local _ .vmem, ⟨32, _⟩ => ⟨S2048x1, .f32⟩
  | .local _ .vmem, ⟨33, _⟩ => ⟨S2048x512, .bf16⟩
  | .local _ .vmem, ⟨34, _⟩ => ⟨S2048x512, .bf16⟩
  | .local _ .vmem, ⟨35, _⟩ => ⟨S2048x512, .f32⟩
  | .local _ .vmem, ⟨36, _⟩ => ⟨S2048x1024, .bf16⟩
  | .local _ .vmem, ⟨37, _⟩ => ⟨S2048x1024, .bf16⟩
  | .local _ .vmem, ⟨38, _⟩ => ⟨S1024x512, .bf16⟩
  | .local _ .vmem, ⟨39, _⟩ => ⟨S1024x512, .bf16⟩
  | .local _ .vmem, ⟨40, _⟩ => ⟨S1024x1, .f32⟩
  | .local _ .vmem, ⟨41, _⟩ => ⟨S1024x1, .f32⟩
  | .local _ .vmem, ⟨42, _⟩ => ⟨S512x512, .bf16⟩
  | .local _ .vmem, ⟨43, _⟩ => ⟨S1x512, .f32⟩
  | .local _ .vmem, ⟨44, _⟩ => ⟨S2048x1, .f32⟩
  | .local _ .vmem, ⟨45, _⟩ => ⟨S2048x1, .f32⟩
  | .local _ .vmem, ⟨46, _⟩ => ⟨S2048x512, .f32⟩
  | .local _ .vmem, ⟨47, _⟩ => ⟨S2048x512, .f32⟩
  | .local _ .vmem, ⟨48, _⟩ => ⟨S2048x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc4_stg6_1 : Ref sig .tc := ⟨.vmem, 47, rfl⟩
abbrev cc4_scratch0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let arg1 : BitVec 32 := BitVec.ofNat 32 (i 1).val
  let v2 : BitVec 1 := Scalar.cmpi .eq arg0 arg1
  let v3 : BitVec 32 := Scalar.extui v2
  let c0_i32 : BitVec 32 := 0#32
  let v4 : BitVec 1 := Scalar.cmpi .ne v3 c0_i32
  v4

def k0_cond2 (i : grid0.Coords) : BitVec 1 :=
  let arg0 : BitVec 32 := BitVec.ofNat 32 (i 0).val
  let arg1 : BitVec 32 := BitVec.ofNat 32 (i 1).val
  let v5 : BitVec 1 := Scalar.cmpi .ne arg0 arg1
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S2048x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S2048x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 1 → Memref sig .tc .vmem S512x512 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S2048x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S2048x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  bcast_S_S8192x8192 : S_.BroadcastsInDim S8192x8192 (![] : Fin 0 → Fin S8192x8192.rank)
  shapeCasts_S8192x16_S131072 : S8192x16.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x16_S8192_d1 : S8192x16.ReducesTo [1] S8192
  h_S_ : 0 < S_.numel
  bcast_S_S8192 : S_.BroadcastsInDim S8192 (![] : Fin 0 → Fin S8192.rank)
  shapeCasts_S8192_S8192x1 : S8192.ShapeCasts S8192x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x1024_d0_w32 : S1024x1024.Iotas .tc 32 [0]
  iota_S1024x1024_d1_w32 : S1024x1024.Iotas .tc 32 [1]
  natLt_1_32 : 1 < 32
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  scatter_S8192x8192_S131072x2_S131072_n_01_01_1_wf : ScatterDims.WF S8192x8192 S131072x2 S131072 [] [0, 1] [0, 1] 1
  dot_S2048x128_S128x512_S2048x512_1_0_0_1_n_n_wf : DotDims.WF S2048x128 S128x512 S2048x512 [1] [0] [0] [1] [] []
  dot_S2048x1024_S1024x512_S2048x512_1_0_0_1_n_n_wf : DotDims.WF S2048x1024 S1024x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .bf16 = 32 ∨ (Rect.block (s := S8192x8192) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .bf16 = 32 ∨ (Rect.block (s := S8192x128) S2048x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .bf16 = 32 ∨ (Rect.block (s := S8192x512) S2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S8192x1.size a
  hwx2_5 : ∀ i : grid2.Coords, EltTy.bits .f32 = 32 ∨ (Rect.block (s := S8192x1) S2048x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x512.size a ≤ S8192x512.size a
  hwx2_6 : ∀ i : grid2.Coords, EltTy.bits .bf16 = 32 ∨ (Rect.block (s := S8192x512) S2048x512.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .bf16 = 32 ∨ (Rect.block (s := S8192x8192) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S8192x1.size a
  hwx3_5 : ∀ i : grid3.Coords, EltTy.bits .f32 = 32 ∨ (Rect.block (s := S8192x1) S2048x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x512.size a ≤ S8192x512.size a
  hwx3_6 : ∀ i : grid3.Coords, EltTy.bits .bf16 = 32 ∨ (Rect.block (s := S8192x512) S2048x512.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S8192x8192.size a
  hwx4_0 : ∀ i : grid4.Coords, EltTy.bits .bf16 = 32 ∨ (Rect.block (s := S8192x8192) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S8192x512.size a
  hwx4_1 : ∀ i : grid4.Coords, EltTy.bits .bf16 = 32 ∨ (Rect.block (s := S8192x512) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1.size a ≤ S8192x1.size a
  hwx4_2 : ∀ i : grid4.Coords, EltTy.bits .f32 = 32 ∨ (Rect.block (s := S8192x1) S1024x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S512x512.size a
  hwx4_3 : ∀ i : grid4.Coords, EltTy.bits .bf16 = 32 ∨ (Rect.block (s := S512x512) S512x512.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S8192x1.size a
  hwx4_5 : ∀ i : grid4.Coords, EltTy.bits .f32 = 32 ∨ (Rect.block (s := S8192x1) S2048x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x512.size a ≤ S8192x512.size a
  hwx4_6 : ∀ i : grid4.Coords, EltTy.bits .f32 = 32 ∨ (Rect.block (s := S8192x512) S2048x512.size (cc4_transform_6 i) (hinb4_6 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v24) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win1_0 : Pipeline.Window sig grid1 :=
  Pipeline.Window.ofSpec (Memref.whole main_v32) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S2048x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38) S2048x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v31) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v30) S2048x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v41) S2048x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v31) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S512x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v30) S2048x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v44) S2048x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x16 : Shape := ⟨2, ![8192, 16]⟩
abbrev S128x512 : Shape := ⟨2, ![128, 512]⟩
abbrev S512 : Shape := ⟨1, ![512]⟩
abbrev S512x512 : Shape := ⟨2, ![512, 512]⟩
abbrev S8192 : Shape := ⟨1, ![8192]⟩
abbrev S8192x1 : Shape := ⟨2, ![8192, 1]⟩
abbrev S_ : Shape := ⟨0, ![]⟩
abbrev S8192x8192 : Shape := ⟨2, ![8192, 8192]⟩
abbrev S131072 : Shape := ⟨1, ![131072]⟩
abbrev S131072x1 : Shape := ⟨2, ![131072, 1]⟩
abbrev S131072x2 : Shape := ⟨2, ![131072, 2]⟩
abbrev S1x8192 : Shape := ⟨2, ![1, 8192]⟩
abbrev S8192x512 : Shape := ⟨2, ![8192, 512]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .i32⟩
  | .hbm, ⟨2, _⟩ => ⟨S128x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8192, .i32⟩
  | .hbm, ⟨11, _⟩ => ⟨S8192x1, .i32⟩
  | .hbm, ⟨12, _⟩ => ⟨S8192x16, .i32⟩
  | .hbm, ⟨13, _⟩ => ⟨S_, .i32⟩
  | .hbm, ⟨14, _⟩ => ⟨S8192x16, .i32⟩
  | .hbm, ⟨15, _⟩ => ⟨S8192x16, .i1⟩
  | .hbm, ⟨16, _⟩ => ⟨S_, .i32⟩
  | .hbm, ⟨17, _⟩ => ⟨S_, .i32⟩
  | .hbm, ⟨18, _⟩ => ⟨S8192x16, .i32⟩
  | .hbm, ⟨19, _⟩ => ⟨S8192x16, .i32⟩
  | .hbm, ⟨20, _⟩ => ⟨S8192x16, .f32⟩
  | .hbm, ⟨21, _⟩ => ⟨S_, .f32⟩
  | .hbm, ⟨22, _⟩ => ⟨S8192x8192, .f32⟩
  | .hbm, ⟨23, _⟩ => ⟨S131072, .i32⟩
  | .hbm, ⟨24, _⟩ => ⟨S131072, .i32⟩
  | .hbm, ⟨25, _⟩ => ⟨S131072, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S_, .i32⟩
  | .hbm, ⟨34, _⟩ => ⟨S131072, .i32⟩
  | .hbm, ⟨35, _⟩ => ⟨S131072, .i1⟩
  | .hbm, ⟨36, _⟩ => ⟨S_, .i32⟩
  | .hbm, ⟨37, _⟩ => ⟨S131072, .i32⟩
  | .hbm, ⟨38, _⟩ => ⟨S131072, .i32⟩
  | .hbm, ⟨39, _⟩ => ⟨S131072, .i32⟩
  | .hbm, ⟨40, _⟩ => ⟨S131072x1, .i32⟩
  | .hbm, ⟨41, _⟩ => ⟨S131072x1, .i32⟩
  | .hbm, ⟨42, _⟩ => ⟨S131072x2, .i32⟩
  | .hbm, ⟨43, _⟩ => ⟨S8192x8192, .f32⟩
  | .hbm, ⟨44, _⟩ => ⟨S8192x8192, .i32⟩
  | .hbm, ⟨45, _⟩ => ⟨S8192x8192, .i32⟩
  | .hbm, ⟨46, _⟩ => ⟨S_, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .i1⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S1x8192, .f32⟩
  | .hbm, ⟨68, _⟩ => ⟨S8192x8192, .f32⟩
  | .hbm, ⟨69, _⟩ => ⟨S8192x8192, .f32⟩
  | .hbm, ⟨70, _⟩ => ⟨S8192x512, .f32⟩
  | .hbm, ⟨71, _⟩ => ⟨S1x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S1x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S8192x512, .f32⟩
  | .hbm, ⟨92, _⟩ => ⟨S1x512, .f32⟩
  | .hbm, ⟨93, _⟩ => ⟨S8192x512, .f32⟩
  | .hbm, ⟨94, _⟩ => ⟨S8192x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_cst : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  bcast_S_S8192x8192 : S_.BroadcastsInDim S8192x8192 (![] : Fin 0 → Fin S8192x8192.rank)
  shapeCasts_S8192x16_S131072 : S8192x16.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  scatter_S8192x8192_S131072x2_S131072_n_01_01_1_wf : ScatterDims.WF S8192x8192 S131072x2 S131072 [] [0, 1] [0, 1] 1
  dot_S8192x128_S128x512_S8192x512_1_0_0_1_n_n_wf : DotDims.WF S8192x128 S128x512 S8192x512 [1] [0] [0] [1] [] []
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Region0.lean ====
/- The first kernel launch of @main: the dense 8192 x 8192 adjacency matrix gets its self loops and is narrowed to
   bf16, tile by tile. The grid is 8 x 8; step `t` handles the 1024 x 1024 tile in tile-row `t / 8` and tile-column
   `t % 8`. A tile on the diagonal of the tiling contains a stretch of the matrix diagonal — exactly the tile's own
   diagonal — so there the body stores bf16(tile + identity); any other tile contains none of it and the body stores
   bf16(tile). This module says what the body finds in its two buffers at a step, what it leaves there, and proves
   that the printed body does so. -/
import proofs.«127076_j34282428956966_2_alg».proof.Proof.Gen.KernelIdeal.Launch
import proofs.«127076_j34282428956966_2_alg».proof.Proof.Gen.KernelIdeal.Skeleton
import proofs.«127076_j34282428956966_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds at the moment the region starts; everything below is relative to it
variable (V : (c : Dev nD) → (b : Ref sig .tc) → Buf (Elt F) ((c : Thread nD τ).loc b))

/-! ## Which arrays the two operands are -/

theorem arr0_0 : Pipeline.arrRef spec0 0 = main_v24 := rfl
theorem arr0_1 : Pipeline.arrRef spec0 1 = main_v31 := rfl

/-! ## The tile of each operand a grid step works on -/

/-- The 1024 x 1024 tile of operand `w` (0: the f32 adjacency matrix, 1: its bf16 copy with self loops) in tile-row
    `t / 8` and tile-column `t % 8`, cut out of the operand as it stands when the launch begins. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body of step `t` finds tile `t` of the adjacency matrix in its first buffer: every step has its own tile copied
    in, and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## On the diagonal of the tiling, or off it -/

/-- The test guarding the body's first store: the tile-row equals the tile-column. -/
abbrev onDiag (i : grid0.Coords) : Prop := k0_cond1 i = 1#1
/-- The test guarding its second store: they differ. -/
abbrev offDiag (i : grid0.Coords) : Prop := k0_cond2 i = 1#1

/-- Step `t` has tile-row `t / 8` and tile-column `t % 8`, so the first test holds exactly at the steps 0, 9, 18, …, 63
    (checked at each of the 64 steps), -/
theorem onDiag_iff : ∀ t : Fin cfg0.N, onDiag (grid0.coords t) ↔ t.val / 8 = t.val % 8 :=
  (by decide +kernel : ∀ t : Fin grid0.N, onDiag (grid0.coords t) ↔ t.val / 8 = t.val % 8)
/-- and the second exactly at the other 56. -/
theorem offDiag_iff : ∀ t : Fin cfg0.N, offDiag (grid0.coords t) ↔ ¬t.val / 8 = t.val % 8 :=
  (by decide +kernel : ∀ t : Fin grid0.N, offDiag (grid0.coords t) ↔ ¬t.val / 8 = t.val % 8)

/-- One of the two stores happens at every step, so at no step is either buffer left as the body found it: the input's
    by definition, -/
theorem in_live0 : ∀ t : Fin cfg0.N, cfg0.idle 0 (grid0.coords t) = false := by decide +kernel
/-- the output's because the two tests are complementary (checked at each of the 64 steps). -/
theorem out_live0 : ∀ t : Fin cfg0.N, cfg0.idle 1 (grid0.coords t) = false := by decide +kernel

/-! ## The body reads and writes whole tiles -/

/-- All 1024 x 1024 entries of a tile buffer. -/
abbrev allTile0 : Rect S1024x1024 := Rect.unit (s := S1024x1024) ![0, 0] S1024x1024.size inb_S1024x1024_S1024x1024_0_0

/-! ## What a step leaves in the output buffer -/

/-- On the diagonal of the tiling: the one store writes `k0_pay2` of the input tile — the tile plus the 1024 x 1024
    identity (row index = column index), narrowed to bf16 — over the whole buffer. -/
def out0_diag_1 (x0 : Vec F S1024x1024 .f32) : Vec F S1024x1024 .bf16 :=
  View.canon [⟨allTile0, k0_pay2 (View.ld x0 allTile0)⟩]

/-- Off it: the one store writes `k0_pay3` of the input tile — the tile narrowed to bf16 — over the whole buffer. -/
def out0_off_1 (x0 : Vec F S1024x1024 .f32) : Vec F S1024x1024 .bf16 :=
  View.canon [⟨allTile0, k0_pay3 (View.ld x0 allTile0)⟩]

/-- Every entry of the output buffer lies in that one store's rectangle. -/
theorem store_fills_out0 (p0 : Vec F S1024x1024 .bf16) (y : S1024x1024.Idx) :
    ∃ pc ∈ ([⟨allTile0, p0⟩] : List (View.Piece (Elt F) S1024x1024 .bf16)), y ∈ pc.1.set :=
  View.cover_of_tiled [⟨allTile0, p0⟩] S1024x1024.size (by rfl) y

/-! ## The printed body does that -/

set_option maxHeartbeats 1000000 in
/-- At coordinates on the diagonal, run on two whole buffers holding a tile `x0` and anything at all, the body ends
    with the tile untouched and the output buffer at `out0_diag_1 x0`: the first branch is taken (it loads the old
    output, drops it, and stores), the second is skipped. -/
theorem sound_kernel0_diag (c : Dev nD) (E : Set ℕ) (i : grid0.Coords)
    (arg0 : Memref sig .tc .vmem S1024x1024 .f32) (harg0 : arg0.IsWhole) (arg1 : Memref sig .tc .vmem S1024x1024 .bf16) (harg1 : arg1.IsWhole)
    (hd : onDiag i) (ho : ¬offDiag i)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_diag_1 x0)) -∗ K ⟨⟩))
      ⊢ wp frame (wpE (defs₀ (F := F)) Variants.none c none) E (cc0__adj_selfloop_kernel i arg0 harg0 arg1 harg1) K := by
  simp only [cc0__adj_selfloop_kernel_eq_skeleton]; unfold cc0__adj_selfloop_kernel_skel
  unfold owns
  iintro ⟨⟨%f0, %hf0, H0⟩, ⟨%d1, %f1, -, H1⟩, Hk⟩
  subst hf0
  sl_exec (disch := first | exact hd | exact ho)
  sl_step
  iapply Hk
  isplitl [H0]
  · iexists f0; isplitr; · ipureintro; rfl
    iexact H0
  iexists _; isplitr
  swap; · iexact H1
  ipureintro
  exact View.read_writes_eq_canon _ _ _ (store_fills_out0 _)

set_option maxHeartbeats 1000000 in
/-- At coordinates off the diagonal the first branch is skipped and the second taken: the output buffer ends at
    `out0_off_1 x0`. -/
theorem sound_kernel0_off (c : Dev nD) (E : Set ℕ) (i : grid0.Coords)
    (arg0 : Memref sig .tc .vmem S1024x1024 .f32) (harg0 : arg0.IsWhole) (arg1 : Memref sig .tc .vmem S1024x1024 .bf16) (harg1 : arg1.IsWhole)
    (hd : ¬onDiag i) (ho : offDiag i)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_off_1 x0)) -∗ K ⟨⟩))
      ⊢ wp frame (wpE (defs₀ (F := F)) Variants.none c none) E (cc0__adj_selfloop_kernel i arg0 harg0 arg1 harg1) K := by
  simp only [cc0__adj_selfloop_kernel_eq_skeleton]; unfold cc0__adj_selfloop_kernel_skel
  unfold owns
  iintro ⟨⟨%f0, %hf0, H0⟩, ⟨%d1, %f1, -, H1⟩, Hk⟩
  subst hf0
  sl_exec (disch := first | exact hd | exact ho)
  sl_step
  iapply Hk
  isplitl [H0]
  · iexists f0; isplitr; · ipureintro; rfl
    iexact H0
  iexists _; isplitr
  swap; · iexact H1
  ipureintro
  exact View.read_writes_eq_canon _ _ _ (store_fills_out0 _)

/-! ## The launch's bookkeeping -/

/-- The output tile of step `t`: the input tile `t` with the identity added where `t / 8 = t % 8`, without it elsewhere,
    narrowed to bf16. -/
def out0_1 (c : Dev nD) (t : Fin cfg0.N) : Vec F S1024x1024 .bf16 :=
  if t.val / 8 = t.val % 8 then out0_diag_1 (iblk0 V c 0 t) else out0_off_1 (iblk0 V c 0 t)

theorem out0_1_diag (c : Dev nD) (t : Fin cfg0.N) (h : t.val / 8 = t.val % 8) :
    out0_1 V c t = out0_diag_1 (iblk0 V c 0 t) := if_pos h
theorem out0_1_off (c : Dev nD) (t : Fin cfg0.N) (h : ¬t.val / 8 = t.val % 8) :
    out0_1 V c t = out0_off_1 (iblk0 V c 0 t) := if_neg h

/-- What the launch is held to on core `c`: the two operands start as `V` has them; step `t` leaves the input buffer
    holding the tile it was given and the output buffer holding `out0_1` of it; nothing else the core owns is touched,
    no transfer is left pending, and every buffer is owned outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 V c t
  Φ _ := Pipeline.ΦA spec0 c
  q _ := fullShare
  owed _ := 0

/-- The operands start as `V` has them. -/
theorem A_eq0 (c : Dev nD) (w : Fin cfg0.W) : (dat0 V c).A w = V c (Pipeline.arrRef spec0 w) := by
  dsimp only [dat0]

/-- Step `t` leaves the input tile as it found it, -/
theorem after0_0 (c : Dev nD) (t : Fin cfg0.N) : (dat0 V c).after 0 t = iblk0 V c 0 t := by dsimp only [dat0]
/-- and tile `t` of the output at `out0_1`. -/
theorem after0_1 (c : Dev nD) (t : Fin cfg0.N) : (dat0 V c).after 1 t = out0_1 V c t := by dsimp only [dat0]

/-- What the input buffer holds when step `t`'s body starts. -/
theorem before0_0 (c : Dev nD) (t : Fin cfg0.N) (d) : (dat0 V c).before 0 t d = iblk0 V c 0 t :=
  before0_0_of V (dat0 V c) (A_eq0 V c 0) (after0_0 V c) t d

/-! ## One step of the launch -/

/-- What the core holds when step `t`'s body is called: the untouched rest, no pending transfer, and the two buffers
    the step is currently on, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and when it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- Step `t`: the input buffer holds tile `t`; `t / 8 = t % 8` or not decides which of the two runs above applies;
    since a store happens either way, both buffers come back at the contents `dat0` states. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [in_live0 t], after0_0]
  rw [show (dat0 V c).leavesExact 1 t = owns (c : Thread nD τ) (st0_1 t) fullShare ((dat0 V c).after 1 t) from by
    unfold Dat.leavesExact; rw [out_live0 t], after0_1]
  by_cases h : t.val / 8 = t.val % 8
  · rw [out0_1_diag V c t h]
    iintro ⟨HΦ, Ho, ⟨%d0, H0⟩, ⟨%d1, H1⟩⟩
    iapply (sound_kernel0_diag c Set.univ (grid0.coords t) _ _ _ _ ((onDiag_iff t).mpr h) (fun h' => (offDiag_iff t).mp h' h) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [out0_1_off V c t h]
    iintro ⟨HΦ, Ho, ⟨%d0, H0⟩, ⟨%d1, H1⟩⟩
    iapply (sound_kernel0_off c Set.univ (grid0.coords t) _ _ _ _ (fun h' => h ((onDiag_iff t).mp h')) ((offDiag_iff t).mpr h) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- Every step of the launch keeps to `dat0`. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/- The embedding layer of the network, h0 = bf16(x · W_emb + b_emb), as the second kernel launch of @main runs it:
   four grid steps, step `t` producing rows 2048·t … 2048·t + 2047 of the 8192 x 512 result from the same rows of the
   node features, the whole 128 x 512 weight matrix and the 1 x 512 bias. This module says what the body finds in
   its four buffers at a step, what it leaves there, and proves that the printed body does so. -/
import proofs.«127076_j34282428956966_2_alg».proof.Proof.Gen.KernelIdeal.Launch
import proofs.«127076_j34282428956966_2_alg».proof.Proof.Gen.KernelIdeal.Skeleton
import proofs.«127076_j34282428956966_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds at the moment the region starts; everything below is relative to it
variable (V : (c : Dev nD) → (b : Ref sig .tc) → Buf (Elt F) ((c : Thread nD τ).loc b))

/-! ## Which arrays the four operands are -/

theorem arr1_0 : Pipeline.arrRef spec1 0 = main_v32 := rfl
theorem arr1_1 : Pipeline.arrRef spec1 1 = main_v33 := rfl
theorem arr1_2 : Pipeline.arrRef spec1 2 = main_v34 := rfl
theorem arr1_3 : Pipeline.arrRef spec1 3 = main_v35 := rfl

/-! ## The slice of each operand a grid step works on -/

/-- The slice of operand `w` that step `t` works on, cut out of the operand as it stands when the launch begins:
    rows 2048·t … 2048·t + 2047 of the features (`w = 0`) and of the result (`w = 3`); all of the weights
    (`w = 1`) and of the bias (`w = 2`) whatever the step. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body of step `t` finds rows 2048·t … of the features in its first buffer: a fresh slab is copied in for every
    step, and the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body of step `t` finds the whole weight matrix in its second buffer. It is copied in once, before step 0; the
    later steps copy nothing, but they ask for the same block (0, 0) as step 0 did, and no step writes to the buffer, so
    what step 0 found is still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row in the third buffer: copied in once, asked for at block (0, 0) by every step, never
    written. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole buffers -/

/-- All 2048 x 128 entries of the feature slab, -/
abbrev allX1 : Rect S2048x128 := Rect.unit (s := S2048x128) ![0, 0] S2048x128.size inb_S2048x128_S2048x128_0_0
/-- all 128 x 512 weights, -/
abbrev allW1 : Rect S128x512 := Rect.unit (s := S128x512) ![0, 0] S128x512.size inb_S128x512_S128x512_0_0
/-- the 1 x 512 bias row, -/
abbrev allB1 : Rect S1x512 := Rect.unit (s := S1x512) ![0, 0] S1x512.size inb_S1x512_S1x512_0_0
/-- and all 2048 x 512 entries of the result slab. -/
abbrev allH1 : Rect S2048x512 := Rect.unit (s := S2048x512) ![0, 0] S2048x512.size inb_S2048x512_S2048x512_0_0

/-! ## What a step leaves in the result buffer -/

/-- The result slab of a step as a function of its three inputs: the one store of the body writes `k1_pay1` — the
    slab times the weights, plus the bias row on every row, narrowed to bf16 — over the whole buffer. -/
def out1_3 (x0 : Vec F S2048x128 .bf16) (x1 : Vec F S128x512 .bf16) (x2 : Vec F S1x512 .f32) : Vec F S2048x512 .bf16 :=
  View.canon [⟨allH1, k1_pay1 (View.ld x0 allX1) (View.ld x1 allW1) (View.ld x2 allB1)⟩]

/-- Every entry of the result buffer lies in that one store's rectangle. -/
theorem store_fills_out1 (p0 : Vec F S2048x512 .bf16) (y : S2048x512.Idx) :
    ∃ pc ∈ ([⟨allH1, p0⟩] : List (View.Piece (Elt F) S2048x512 .bf16)), y ∈ pc.1.set :=
  View.cover_of_tiled [⟨allH1, p0⟩] S2048x512.size (by rfl) y

/-! ## The printed body does that -/

set_option maxHeartbeats 1000000 in
/-- Run on four whole buffers holding a feature slab `x0`, the weights `x1`, the bias `x2` and anything at all in the
    result buffer, the body ends with the three inputs untouched and the result buffer at `out1_3 x0 x1 x2`: it loads
    the four buffers (the old result is loaded and dropped) and stores once. -/
theorem sound_kernel1 (c : Dev nD) (E : Set ℕ) (i : grid1.Coords)
    (arg0 : Memref sig .tc .vmem S2048x128 .bf16) (harg0 : arg0.IsWhole) (arg1 : Memref sig .tc .vmem S128x512 .bf16) (harg1 : arg1.IsWhole)
    (arg2 : Memref sig .tc .vmem S1x512 .f32) (harg2 : arg2.IsWhole) (arg3 : Memref sig .tc .vmem S2048x512 .bf16) (harg3 : arg3.IsWhole)
    (x0 : Vec F S2048x128 .bf16) (x1 : Vec F S128x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__embed_kernel i arg0 harg0 arg1 harg1 arg2 harg2 arg3 harg3) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_fills_out1 _)

/-! ## The launch's bookkeeping -/

/-- What the launch is held to on core `c`: the four operands start as `V` has them; step `t` leaves each input buffer
    holding the slice it was given and the result buffer holding `out1_3` of the three slices; nothing else the core
    owns is touched, no transfer is left pending, and every buffer is owned outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The operands start as `V` has them. -/
theorem A_eq1 (c : Dev nD) (w : Fin cfg1.W) : (dat1 V c).A w = V c (Pipeline.arrRef spec1 w) := by
  dsimp only [dat1]

/-- Step `t` leaves the feature slab, the weights and the bias as it found them, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- and rows 2048·t … of the result at bf16(slab · W + bias). -/
theorem after1_3 (c : Dev nD) (t : Fin cfg1.N) :
    (dat1 V c).after 3 t = out1_3 (iblk1 V c 0 t) (iblk1 V c 1 t) (iblk1 V c 2 t) := by dsimp only [dat1]

/-- What the three input buffers hold when step `t`'s body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## One step of the launch -/

/-- What the core holds when step `t`'s body is called: the untouched rest, no pending transfer, and the four buffers
    the step is currently on, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- Step `t`: the three input buffers hold the step's slices, so the body's run above applies with them; what the
    body does not use is handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every step of the launch keeps to `dat1`. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Region2Runs.lean ====
/- Region 2 of @main (the first graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.KernelIdeal.Launch
import proofs.«127076_j34282428956966_2_alg».proof.Proof.Gen.KernelIdeal.Skeleton
import proofs.«127076_j34282428956966_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is only read by the body. Where the pipeline skips its fetch the block index is the one of the point before,
    so the buffer still carries this point's block: fetched or not, the body finds the block of the array as it stood on entry. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is only read by the body. Where the pipeline skips its fetch the block index is the one of the point before,
    so the buffer still carries this point's block: fetched or not, the body finds the block of the array as it stood on entry. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 is only read by the body. Where the pipeline skips its fetch the block index is the one of the point before,
    so the buffer still carries this point's block: fetched or not, the body finds the block of the array as it stood on entry. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 is only read by the body. Where the pipeline skips its fetch the block index is the one of the point before,
    so the buffer still carries this point's block: fetched or not, the body finds the block of the array as it stood on entry. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 is only read by the body. Where the pipeline skips its fetch the block index is the one of the point before,
    so the buffer still carries this point's block: fetched or not, the body finds the block of the array as it stood on entry. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 is only read by the body. Where the pipeline skips its fetch the block index is the one of the point before,
    so the buffer still carries this point's block: fetched or not, the body finds the block of the array as it stood on entry. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two conditions on the grid coordinates -/

/-- "k = 0": the accumulator is zeroed first. -/
abbrev cond2_0 (i : grid2.Coords) : Prop := (Scalar.cmpi .ne (Scalar.extui (Scalar.cmpi .eq (BitVec.ofNat 32 (i 1).val) 0#32)) 0#32) = 1#1
/-- It holds at the points t with t % 8 = 0. -/
theorem hcond2_0 : ∀ t : Fin cfg2.N, cond2_0 (grid2.coords t) ↔ t.val % 8 = 0 :=
  (by decide +kernel : ∀ t : Fin grid2.N, cond2_0 (grid2.coords t) ↔ t.val % 8 = 0)

/-- "k = 7": the output block is computed and stored. -/
abbrev cond2_1 (i : grid2.Coords) : Prop := k2_cond2 i = 1#1
/-- It holds at the points t with t % 8 = 7. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- Where k ≠ 7 nothing is stored into the output window, and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- Where k = 7 the output window is stored into. -/
theorem liveAt2_6 : ∀ t : Fin cfg2.N, cond2_1 (grid2.coords t) → cfg2.idle 6 (grid2.coords t) = false := by decide +kernel

/-! ## Which buffers the body is handed at point t -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x512 .bf16 := win2_6.stage (cfg2.slots t 6)
abbrev hs2_6 (t : Fin cfg2.N) : (ms2_6 t).IsWhole := hstage2_6 ((cfg2.slots t 6).cast nbuf2_6)
/-- The accumulator: a whole scoped buffer of the kernel's own, kept between points. -/
abbrev scM2_0 : Memref sig .tc .vmem S2048x512 .f32 := Memref.whole cc2_scratch0

/-- The scoped buffers other than the staging buffers and the accumulator: never opened. -/
abbrev restBut2 (c : Dev nD) : sProp 𝕄 :=
  Pipeline.scopedRestBut (Ix := Unit) (Name := ℕ) (U := UR sig nD τ) (Lvl := ℕ) (Val := Elt F) spec2 c [cc2_scratch0]

/-- What the launch gives the layer to work with besides its windows: its private buffers other than the staging ones,
    and the random-number register. Here the accumulator is taken out of those buffers and shown as a memref holding
    something. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.KernelIdeal.Hand

end
-- ==== Proof.Region2RunA.lean ====
/- Region 2, the body's run where k = 0: the accumulator is zeroed, then one product is added. Only the adjacency block,
   the feature block and its row scale are read; the accumulator may hold anything before, and ends with the two stores
   listed (last first). The list is found by running the body. -/
import proofs.«127076_j34282428956966_2_alg».proof.Proof.Region2Runs

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region2RunB.lean ====
/- Region 2, the body's run where 0 < k < 7: one product is added to the accumulator, which holds what the point before left. -/
import proofs.«127076_j34282428956966_2_alg».proof.Proof.Region2RunA

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region2RunC.lean ====
/- Region 2, the body's run where k = 7: the last product is added to the accumulator, and the output block is computed from it
   (row scale, weight matrix, bias) and stored. All six input windows are read; the output buffer may hold anything before. -/
import proofs.«127076_j34282428956966_2_alg».proof.Proof.Region2RunB

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .bf16)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, ?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.Region2Named.lean ====
/- Region 2: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.Region2RunC
import Idealize.ShloMosaic.Lib.Pipeline.Value

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz2 : (![0, 0] : Fin 2 → ℕ) = fun _ => 0 := by funext a; fin_cases a <;> rfl

/-! ## k = 0: zeroed, then one product added -/

/-- The two whole-buffer stores into the accumulator tile it. -/
theorem scover2_A_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (y : S2048x512.Idx) :
    ∃ pc ∈ (kernelRun2_A c i arg2 harg2 arg3 harg3 arg4 harg4 arg5 harg5 arg6 harg6 arg7 harg7 arg8 harg8 arg9 harg9 hc0 hc1 x0 x1 x2).1, y ∈ pc.1.set :=
  View.cover_of_tiledL (kernelRun2_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc2_A_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun2_A c i arg2 harg2 arg3 harg3 arg4 harg4 arg5 harg5 arg6 harg6 arg7 harg7 arg8 harg8 arg9 harg9 hc0 hc1 x0 x1 x2).1) = k2_pay2 x1 x2 (k2_pay1 (F := F)) x0 := by
  rw [View.read_writes_eq_canon _ _ _ (scover2_A_0 c i arg2 harg2 arg3 harg3 arg4 harg4 arg5 harg5 arg6 harg6 arg7 harg7 arg8 harg8 arg9 harg9 hc0 hc1 x0 x1 x2)]
  unfold kernelRun2_A; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2,
    View.readCov_unit_zero (S := S2048x512) _ hz2]

/-- The body where k = 0, over the payload names. -/
theorem sound_kernel2_A (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k2_pay2 x1 x2 (k2_pay1 (F := F)) x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, HS0, Hk⟩
  iapply ((kernelRun2_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc2_A_eq c i arg2 harg2 arg3 harg3 arg4 harg4 arg5 harg5 arg6 harg6 arg7 harg7 arg8 harg8 arg9 harg9 hc0 hc1 x0 x1 x2 es0

/-! ## 0 < k < 7: one product added -/

theorem scover2_B_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 xs0).1, y ∈ pc.1.set :=
  View.cover_of_tiledL (kernelRun2_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc2_B_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun2_B c i arg2 harg2 arg3 harg3 arg4 harg4 arg5 harg5 arg6 harg6 arg7 harg7 arg8 harg8 arg9 harg9 hc0 hc1 x0 x1 x2 xs0).1) = k2_pay2 x1 x2 xs0 x0 := by
  rw [View.read_writes_eq_canon _ _ _ (scover2_B_0 c i arg2 harg2 arg3 harg3 arg4 harg4 arg5 harg5 arg6 harg6 arg7 harg7 arg8 harg8 arg9 harg9 hc0 hc1 x0 x1 x2 xs0)]
  unfold kernelRun2_B; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2,
    View.readCov_unit_zero (S := S2048x512) _ hz2]

/-- The body where 0 < k < 7, over the payload names. -/
theorem sound_kernel2_B (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k2_pay2 x1 x2 xs0 x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, HS0, Hk⟩
  iapply ((kernelRun2_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc2_B_eq c i arg2 harg2 arg3 harg3 arg4 harg4 arg5 harg5 arg6 harg6 arg7 harg7 arg8 harg8 arg9 harg9 hc0 hc1 x0 x1 x2 xs0 es0

/-! ## k = 7: the last product added, the output block stored -/

theorem scover2_C_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover2_C_6 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc2_C_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun2_C c i arg2 harg2 arg3 harg3 arg4 harg4 arg5 harg5 arg6 harg6 arg7 harg7 arg8 harg8 arg9 harg9 hc0 hc1 x0 x1 x2 x3 x4 x5 xs0).2.1) = k2_pay2 x1 x2 xs0 x0 := by
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2, View.ld_unit_zero (S := S512x512) hz2, View.ld_unit_zero (S := S1x512) hz2, View.ld_unit_zero (S := S2048x1) hz2,
    View.readCov_unit_zero (S := S2048x512) _ hz2]

/-- The output window's buffer then reads: the final step (row scale, weights, bias) of the accumulator just written,
    which the load before it reads back. -/
theorem out2_C_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun2_C c i arg2 harg2 arg3 harg3 arg4 harg4 arg5 harg5 arg6 harg6 arg7 harg7 arg8 harg8 arg9 harg9 hc0 hc1 x0 x1 x2 x3 x4 x5 xs0).1) = k2_pay3 (k2_pay2 x1 x2 xs0 x0) x5 x3 x4 := by
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2, View.ld_unit_zero (S := S512x512) hz2, View.ld_unit_zero (S := S1x512) hz2, View.ld_unit_zero (S := S2048x1) hz2,
    View.readCov_unit_zero (S := S2048x512) _ hz2]

/-- The body where k = 7, over the payload names. -/
theorem sound_kernel2_C (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay3 (k2_pay2 x1 x2 xs0 x0) x5 x3 x4) ∗ owns (c : Thread nD τ) arg9 fullShare (k2_pay2 x1 x2 xs0 x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, H3, H4, H5, H6, HS0, Hk⟩
  iapply ((kernelRun2_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out2_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc2_C_eq c i arg2 harg2 arg3 harg3 arg4 harg4 arg5 harg5 arg6 harg6 arg7 harg7 arg8 harg8 arg9 harg9 hc0 hc1 x0 x1 x2 x3 x4 x5 xs0 es0

end Cert.KernelIdeal.Hand

end
-- ==== Proof.Region2.lean ====
/- Region 2: what holds after every point, and that the body keeps it so. After point t the accumulator holds the sum, over the
   k-steps of t's row block so far, of adjacency block times row-scaled feature block (`accAt2`, by recursion on the
   point: restarted from zeros where k = 0); where k = 7 the output window holds the final step of it (`outAt2`).
   The accumulator is a scoped buffer of the kernel's own, so it rides in the region invariant: before the first
   point at anything, afterwards at `accAt2` of the point before. -/
import proofs.«127076_j34282428956966_2_alg».proof.Proof.Region2Named

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep2 (c : Dev nD) (t : Fin cfg2.N) (acc : Vec F S2048x512 .f32) : Vec F S2048x512 .f32 :=
  k2_pay2 (iblk2 V c 1 t) (iblk2 V c 2 t) acc (iblk2 V c 0 t)

/-- What the accumulator holds once point number `n` is done: one step applied to zeros if `n` starts a row block (k = 0),
    otherwise to what point `n - 1` left. -/
def accAt2 (c : Dev nD) : (n : ℕ) → n < cfg2.N → Vec F S2048x512 .f32
  | 0, hn => accStep2 V c ⟨0, hn⟩ (k2_pay1 (F := F))
  | n + 1, hn =>
    if (n + 1) % 8 = 0 then accStep2 V c ⟨n + 1, hn⟩ (k2_pay1 (F := F))
    else accStep2 V c ⟨n + 1, hn⟩ (accAt2 c n (Nat.lt_of_succ_lt hn))

/-- At a point with k = 0: one step from zeros. -/
theorem accAt2_first (c : Dev nD) (t : Fin cfg2.N) (h0 : t.val % 8 = 0) :
    accAt2 V c t.val t.isLt = accStep2 V c t (k2_pay1 (F := F)) := by
  obtain ⟨n, hn⟩ := t
  cases n with
  | zero => rfl
  | succ n => exact (if_pos h0)

/-- At a point with k ≠ 0: one step from what the point before left. -/
theorem accAt2_next (c : Dev nD) (t : Fin cfg2.N) (h0 : ¬t.val % 8 = 0) :
    accAt2 V c t.val t.isLt = accStep2 V c t (accAt2 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt2 (c : Dev nD) (t : Fin cfg2.N) : Vec F S2048x512 .bf16 :=
  k2_pay3 (accAt2 V c t.val t.isLt) (iblk2 V c 5 t) (iblk2 V c 3 t) (iblk2 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn)) ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega))) ∗ restBut2 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt2`;
    between points the invariant is `PhiS2`; the core is in debt to no one; and the vector of inverse square-root
    degrees, on which windows 2 and 5 both stand, is held half by each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ t := PhiS2 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The seven windows' buffers after the body, read off the proof data. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

/-- So the body always finds an input's block in its buffer, whether or not the point fetched it. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## One point of the grid -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h1 : t.val % 8 = 7
  · have h0 : ¬t.val % 8 = 0 := by omega
    have hz : t.val ≠ 0 := by omega
    rw [show (dat2 V c).leavesExact 6 t = owns (c : Thread nD τ) (ms2_6 t) fullShare ((dat2 V c).after 6 t) from by
      unfold Dat.leavesExact; rw [liveAt2_6 t ((hcond2_1 t).mpr h1)], after2_6]
    unfold outAt2
    rw [accAt2_next V c t h0]; unfold accStep2
    rw [PhiS2_castSucc V c t, PhiS2_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t)
      (accAt2 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 8 = 0
    · rw [accAt2_first V c t h0]; unfold accStep2
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h))
          (iblk2 V c 0 t) (iblk2 V c 1 t) (iblk2 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h))
          (iblk2 V c 0 t) (iblk2 V c 1 t) (iblk2 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt2_next V c t h0]; unfold accStep2
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h))
        (iblk2 V c 0 t) (iblk2 V c 1 t) (iblk2 V c 2 t)
        (accAt2 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation2 (c : Dev nD) : BodyObligation (dat2 (F := F) V c) (defs₀ (F := F)) Variants.none () Set.univ := fun t => by
  rw [bigSep_W2, bigSep_W2]
  exact sound_body2 V c t

/-- On entry the accumulator may hold anything: the launch's invariant is the one before point 0. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Once a point has run, forgetting which sum the accumulator holds gives the launch's invariant back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]; · iexists _; iexact HS0
    iexact Hr
  iexact Hg

/-- In particular after the last point. -/
theorem hout2 (c : Dev nD) : (dat2 V c).Φ (Fin.last cfg2.N) ⊢ Pipeline.ΦA spec2 c :=
  Phi_out2 V c _ (by rw [Fin.val_last]; have : cfg2.N = 32 := N_2; omega)

end Region

end Cert.KernelIdeal.Hand

end
-- ==== Proof.Region3Runs.lean ====
/- Region 3 of @main (the second graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.KernelIdeal.Launch
import proofs.«127076_j34282428956966_2_alg».proof.Proof.Gen.KernelIdeal.Skeleton
import proofs.«127076_j34282428956966_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is only read by the body. Where the pipeline skips its fetch the block index is the one of the point before,
    so the buffer still carries this point's block: fetched or not, the body finds the block of the array as it stood on entry. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is only read by the body. Where the pipeline skips its fetch the block index is the one of the point before,
    so the buffer still carries this point's block: fetched or not, the body finds the block of the array as it stood on entry. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 is only read by the body. Where the pipeline skips its fetch the block index is the one of the point before,
    so the buffer still carries this point's block: fetched or not, the body finds the block of the array as it stood on entry. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is only read by the body. Where the pipeline skips its fetch the block index is the one of the point before,
    so the buffer still carries this point's block: fetched or not, the body finds the block of the array as it stood on entry. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 is only read by the body. Where the pipeline skips its fetch the block index is the one of the point before,
    so the buffer still carries this point's block: fetched or not, the body finds the block of the array as it stood on entry. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 is only read by the body. Where the pipeline skips its fetch the block index is the one of the point before,
    so the buffer still carries this point's block: fetched or not, the body finds the block of the array as it stood on entry. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Blocks

/-! ## The body's two conditions on the grid coordinates -/

/-- "k = 0": the accumulator is zeroed first. -/
abbrev cond3_0 (i : grid3.Coords) : Prop := (Scalar.cmpi .ne (Scalar.extui (Scalar.cmpi .eq (BitVec.ofNat 32 (i 1).val) 0#32)) 0#32) = 1#1
/-- It holds at the points t with t % 8 = 0. -/
theorem hcond3_0 : ∀ t : Fin cfg3.N, cond3_0 (grid3.coords t) ↔ t.val % 8 = 0 :=
  (by decide +kernel : ∀ t : Fin grid3.N, cond3_0 (grid3.coords t) ↔ t.val % 8 = 0)

/-- "k = 7": the output block is computed and stored. -/
abbrev cond3_1 (i : grid3.Coords) : Prop := k3_cond2 i = 1#1
/-- It holds at the points t with t % 8 = 7. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
/-- Where k ≠ 7 nothing is stored into the output window, and its block is not written back. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- Where k = 7 the output window is stored into. -/
theorem liveAt3_6 : ∀ t : Fin cfg3.N, cond3_1 (grid3.coords t) → cfg3.idle 6 (grid3.coords t) = false := by decide +kernel

/-! ## Which buffers the body is handed at point t -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x512 .bf16 := win3_6.stage (cfg3.slots t 6)
abbrev hs3_6 (t : Fin cfg3.N) : (ms3_6 t).IsWhole := hstage3_6 ((cfg3.slots t 6).cast nbuf3_6)
/-- The accumulator: a whole scoped buffer of the kernel's own, kept between points. -/
abbrev scM3_0 : Memref sig .tc .vmem S2048x512 .f32 := Memref.whole cc3_scratch0

/-- The scoped buffers other than the staging buffers and the accumulator: never opened. -/
abbrev restBut3 (c : Dev nD) : sProp 𝕄 :=
  Pipeline.scopedRestBut (Ix := Unit) (Name := ℕ) (U := UR sig nD τ) (Lvl := ℕ) (Val := Elt F) spec3 c [cc3_scratch0]

/-- What the launch gives the layer to work with besides its windows: its private buffers other than the staging ones,
    and the random-number register. Here the accumulator is taken out of those buffers and shown as a memref holding
    something. -/
theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.KernelIdeal.Hand

end
-- ==== Proof.Region3RunA.lean ====
/- Region 3, the body's run where k = 0: the accumulator is zeroed, then one product is added. Only the adjacency block,
   the feature block and its row scale are read; the accumulator may hold anything before, and ends with the two stores
   listed (last first). The list is found by running the body. -/
import proofs.«127076_j34282428956966_2_alg».proof.Proof.Region3Runs

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region3RunB.lean ====
/- Region 3, the body's run where 0 < k < 7: one product is added to the accumulator, which holds what the point before left. -/
import proofs.«127076_j34282428956966_2_alg».proof.Proof.Region3RunA

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region3RunC.lean ====
/- Region 3, the body's run where k = 7: the last product is added to the accumulator, and the output block is computed from it
   (row scale, weight matrix, bias) and stored. All six input windows are read; the output buffer may hold anything before. -/
import proofs.«127076_j34282428956966_2_alg».proof.Proof.Region3RunB

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .bf16)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, ?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.Region3Named.lean ====
/- Region 3: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.Region3RunC
import Idealize.ShloMosaic.Lib.Pipeline.Value

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz3 : (![0, 0] : Fin 2 → ℕ) = fun _ => 0 := by funext a; fin_cases a <;> rfl

/-! ## k = 0: zeroed, then one product added -/

/-- The two whole-buffer stores into the accumulator tile it. -/
theorem scover3_A_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (y : S2048x512.Idx) :
    ∃ pc ∈ (kernelRun3_A c i arg2 harg2 arg3 harg3 arg4 harg4 arg5 harg5 arg6 harg6 arg7 harg7 arg8 harg8 arg9 harg9 hc0 hc1 x0 x1 x2).1, y ∈ pc.1.set :=
  View.cover_of_tiledL (kernelRun3_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc3_A_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun3_A c i arg2 harg2 arg3 harg3 arg4 harg4 arg5 harg5 arg6 harg6 arg7 harg7 arg8 harg8 arg9 harg9 hc0 hc1 x0 x1 x2).1) = k3_pay2 x1 x2 (k3_pay1 (F := F)) x0 := by
  rw [View.read_writes_eq_canon _ _ _ (scover3_A_0 c i arg2 harg2 arg3 harg3 arg4 harg4 arg5 harg5 arg6 harg6 arg7 harg7 arg8 harg8 arg9 harg9 hc0 hc1 x0 x1 x2)]
  unfold kernelRun3_A; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3,
    View.readCov_unit_zero (S := S2048x512) _ hz3]

/-- The body where k = 0, over the payload names. -/
theorem sound_kernel3_A (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k3_pay2 x1 x2 (k3_pay1 (F := F)) x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, HS0, Hk⟩
  iapply ((kernelRun3_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc3_A_eq c i arg2 harg2 arg3 harg3 arg4 harg4 arg5 harg5 arg6 harg6 arg7 harg7 arg8 harg8 arg9 harg9 hc0 hc1 x0 x1 x2 es0

/-! ## 0 < k < 7: one product added -/

theorem scover3_B_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (y : S2048x512.Idx) :
    ∃ pc ∈ (kernelRun3_B c i arg2 harg2 arg3 harg3 arg4 harg4 arg5 harg5 arg6 harg6 arg7 harg7 arg8 harg8 arg9 harg9 hc0 hc1 x0 x1 x2 xs0).1, y ∈ pc.1.set :=
  View.cover_of_tiledL (kernelRun3_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc3_B_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun3_B c i arg2 harg2 arg3 harg3 arg4 harg4 arg5 harg5 arg6 harg6 arg7 harg7 arg8 harg8 arg9 harg9 hc0 hc1 x0 x1 x2 xs0).1) = k3_pay2 x1 x2 xs0 x0 := by
  rw [View.read_writes_eq_canon _ _ _ (scover3_B_0 c i arg2 harg2 arg3 harg3 arg4 harg4 arg5 harg5 arg6 harg6 arg7 harg7 arg8 harg8 arg9 harg9 hc0 hc1 x0 x1 x2 xs0)]
  unfold kernelRun3_B; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3,
    View.readCov_unit_zero (S := S2048x512) _ hz3]

/-- The body where 0 < k < 7, over the payload names. -/
theorem sound_kernel3_B (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k3_pay2 x1 x2 xs0 x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, HS0, Hk⟩
  iapply ((kernelRun3_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc3_B_eq c i arg2 harg2 arg3 harg3 arg4 harg4 arg5 harg5 arg6 harg6 arg7 harg7 arg8 harg8 arg9 harg9 hc0 hc1 x0 x1 x2 xs0 es0

/-! ## k = 7: the last product added, the output block stored -/

theorem scover3_C_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun3_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover3_C_6 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun3_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc3_C_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun3_C c i arg2 harg2 arg3 harg3 arg4 harg4 arg5 harg5 arg6 harg6 arg7 harg7 arg8 harg8 arg9 harg9 hc0 hc1 x0 x1 x2 x3 x4 x5 xs0).2.1) = k3_pay2 x1 x2 xs0 x0 := by
  rw [View.read_writes_eq_canon _ _ _ (scover3_C_0 c i arg2 harg2 arg3 harg3 arg4 harg4 arg5 harg5 arg6 harg6 arg7 harg7 arg8 harg8 arg9 harg9 hc0 hc1 x0 x1 x2 x3 x4 x5 xs0)]
  unfold kernelRun3_C; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3, View.ld_unit_zero (S := S512x512) hz3, View.ld_unit_zero (S := S1x512) hz3, View.ld_unit_zero (S := S2048x1) hz3,
    View.readCov_unit_zero (S := S2048x512) _ hz3]

/-- The output window's buffer then reads: the final step (row scale, weights, bias) of the accumulator just written,
    which the load before it reads back. -/
theorem out3_C_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun3_C c i arg2 harg2 arg3 harg3 arg4 harg4 arg5 harg5 arg6 harg6 arg7 harg7 arg8 harg8 arg9 harg9 hc0 hc1 x0 x1 x2 x3 x4 x5 xs0).1) = k3_pay3 (k3_pay2 x1 x2 xs0 x0) x5 x3 x4 := by
  rw [View.read_writes_eq_canon _ _ _ (cover3_C_6 c i arg2 harg2 arg3 harg3 arg4 harg4 arg5 harg5 arg6 harg6 arg7 harg7 arg8 harg8 arg9 harg9 hc0 hc1 x0 x1 x2 x3 x4 x5 xs0)]
  unfold kernelRun3_C; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3, View.ld_unit_zero (S := S512x512) hz3, View.ld_unit_zero (S := S1x512) hz3, View.ld_unit_zero (S := S2048x1) hz3,
    View.readCov_unit_zero (S := S2048x512) _ hz3]

/-- The body where k = 7, over the payload names. -/
theorem sound_kernel3_C (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k3_pay3 (k3_pay2 x1 x2 xs0 x0) x5 x3 x4) ∗ owns (c : Thread nD τ) arg9 fullShare (k3_pay2 x1 x2 xs0 x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, H3, H4, H5, H6, HS0, Hk⟩
  iapply ((kernelRun3_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out3_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc3_C_eq c i arg2 harg2 arg3 harg3 arg4 harg4 arg5 harg5 arg6 harg6 arg7 harg7 arg8 harg8 arg9 harg9 hc0 hc1 x0 x1 x2 x3 x4 x5 xs0 es0

end Cert.KernelIdeal.Hand

end
-- ==== Proof.Region3.lean ====
/- Region 3: what holds after every point, and that the body keeps it so. After point t the accumulator holds the sum, over the
   k-steps of t's row block so far, of adjacency block times row-scaled feature block (`accAt3`, by recursion on the
   point: restarted from zeros where k = 0); where k = 7 the output window holds the final step of it (`outAt3`).
   The accumulator is a scoped buffer of the kernel's own, so it rides in the region invariant: before the first
   point at anything, afterwards at `accAt3` of the point before. -/
import proofs.«127076_j34282428956966_2_alg».proof.Proof.Region3Named

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep3 (c : Dev nD) (t : Fin cfg3.N) (acc : Vec F S2048x512 .f32) : Vec F S2048x512 .f32 :=
  k3_pay2 (iblk3 V c 1 t) (iblk3 V c 2 t) acc (iblk3 V c 0 t)

/-- What the accumulator holds once point number `n` is done: one step applied to zeros if `n` starts a row block (k = 0),
    otherwise to what point `n - 1` left. -/
def accAt3 (c : Dev nD) : (n : ℕ) → n < cfg3.N → Vec F S2048x512 .f32
  | 0, hn => accStep3 V c ⟨0, hn⟩ (k3_pay1 (F := F))
  | n + 1, hn =>
    if (n + 1) % 8 = 0 then accStep3 V c ⟨n + 1, hn⟩ (k3_pay1 (F := F))
    else accStep3 V c ⟨n + 1, hn⟩ (accAt3 c n (Nat.lt_of_succ_lt hn))

/-- At a point with k = 0: one step from zeros. -/
theorem accAt3_first (c : Dev nD) (t : Fin cfg3.N) (h0 : t.val % 8 = 0) :
    accAt3 V c t.val t.isLt = accStep3 V c t (k3_pay1 (F := F)) := by
  obtain ⟨n, hn⟩ := t
  cases n with
  | zero => rfl
  | succ n => exact (if_pos h0)

/-- At a point with k ≠ 0: one step from what the point before left. -/
theorem accAt3_next (c : Dev nD) (t : Fin cfg3.N) (h0 : ¬t.val % 8 = 0) :
    accAt3 V c t.val t.isLt = accStep3 V c t (accAt3 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt3 (c : Dev nD) (t : Fin cfg3.N) : Vec F S2048x512 .bf16 :=
  k3_pay3 (accAt3 V c t.val t.isLt) (iblk3 V c 5 t) (iblk3 V c 3 t) (iblk3 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega))) ∗ restBut3 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt3`;
    between points the invariant is `PhiS3`; the core is in debt to no one; and the vector of inverse square-root
    degrees, on which windows 2 and 5 both stand, is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => outAt3 V c t
  Φ t := PhiS3 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- The seven windows' buffers after the body, read off the proof data. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = outAt3 V c t := by dsimp only [dat3]

/-- So the body always finds an input's block in its buffer, whether or not the point fetched it. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## One point of the grid -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h1 : t.val % 8 = 7
  · have h0 : ¬t.val % 8 = 0 := by omega
    have hz : t.val ≠ 0 := by omega
    rw [show (dat3 V c).leavesExact 6 t = owns (c : Thread nD τ) (ms3_6 t) fullShare ((dat3 V c).after 6 t) from by
      unfold Dat.leavesExact; rw [liveAt3_6 t ((hcond3_1 t).mpr h1)], after3_6]
    unfold outAt3
    rw [accAt3_next V c t h0]; unfold accStep3
    rw [PhiS3_castSucc V c t, PhiS3_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1)
      (iblk3 V c 0 t) (iblk3 V c 1 t) (iblk3 V c 2 t) (iblk3 V c 3 t) (iblk3 V c 4 t) (iblk3 V c 5 t)
      (accAt3 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat3 V c) 6 t (idleAt3_6 t (fun h => h1 ((hcond3_1 t).mp h))) (noFlush3_6 t (fun h => h1 ((hcond3_1 t).mp h)))]
    by_cases h0 : t.val % 8 = 0
    · rw [accAt3_first V c t h0]; unfold accStep3
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h))
          (iblk3 V c 0 t) (iblk3 V c 1 t) (iblk3 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h))
          (iblk3 V c 0 t) (iblk3 V c 1 t) (iblk3 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt3_next V c t h0]; unfold accStep3
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h))
        (iblk3 V c 0 t) (iblk3 V c 1 t) (iblk3 V c 2 t)
        (accAt3 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation3 (c : Dev nD) : BodyObligation (dat3 (F := F) V c) (defs₀ (F := F)) Variants.none () Set.univ := fun t => by
  rw [bigSep_W3, bigSep_W3]
  exact sound_body3 V c t

/-- On entry the accumulator may hold anything: the launch's invariant is the one before point 0. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- Once a point has run, forgetting which sum the accumulator holds gives the launch's invariant back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]; · iexists _; iexact HS0
    iexact Hr
  iexact Hg

/-- In particular after the last point. -/
theorem hout3 (c : Dev nD) : (dat3 V c).Φ (Fin.last cfg3.N) ⊢ Pipeline.ΦA spec3 c :=
  Phi_out3 V c _ (by rw [Fin.val_last]; have : cfg3.N = 32 := N_3; omega)

end Region

end Cert.KernelIdeal.Hand

end
-- ==== Proof.Region4Runs.lean ====
/- Region 4 of @main (the third and last graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.KernelIdeal.Launch
import proofs.«127076_j34282428956966_2_alg».proof.Proof.Gen.KernelIdeal.Skeleton
import proofs.«127076_j34282428956966_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is only read by the body. Where the pipeline skips its fetch the block index is the one of the point before,
    so the buffer still carries this point's block: fetched or not, the body finds the block of the array as it stood on entry. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 is only read by the body. Where the pipeline skips its fetch the block index is the one of the point before,
    so the buffer still carries this point's block: fetched or not, the body finds the block of the array as it stood on entry. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 is only read by the body. Where the pipeline skips its fetch the block index is the one of the point before,
    so the buffer still carries this point's block: fetched or not, the body finds the block of the array as it stood on entry. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is only read by the body. Where the pipeline skips its fetch the block index is the one of the point before,
    so the buffer still carries this point's block: fetched or not, the body finds the block of the array as it stood on entry. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 is only read by the body. Where the pipeline skips its fetch the block index is the one of the point before,
    so the buffer still carries this point's block: fetched or not, the body finds the block of the array as it stood on entry. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 is only read by the body. Where the pipeline skips its fetch the block index is the one of the point before,
    so the buffer still carries this point's block: fetched or not, the body finds the block of the array as it stood on entry. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Blocks

/-! ## The body's two conditions on the grid coordinates -/

/-- "k = 0": the accumulator is zeroed first. -/
abbrev cond4_0 (i : grid4.Coords) : Prop := (Scalar.cmpi .ne (Scalar.extui (Scalar.cmpi .eq (BitVec.ofNat 32 (i 1).val) 0#32)) 0#32) = 1#1
/-- It holds at the points t with t % 8 = 0. -/
theorem hcond4_0 : ∀ t : Fin cfg4.N, cond4_0 (grid4.coords t) ↔ t.val % 8 = 0 :=
  (by decide +kernel : ∀ t : Fin grid4.N, cond4_0 (grid4.coords t) ↔ t.val % 8 = 0)

/-- "k = 7": the output block is computed and stored. -/
abbrev cond4_1 (i : grid4.Coords) : Prop := k4_cond2 i = 1#1
/-- It holds at the points t with t % 8 = 7. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
/-- Where k ≠ 7 nothing is stored into the output window, and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- Where k = 7 the output window is stored into. -/
theorem liveAt4_6 : ∀ t : Fin cfg4.N, cond4_1 (grid4.coords t) → cfg4.idle 6 (grid4.coords t) = false := by decide +kernel

/-! ## Which buffers the body is handed at point t -/
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x512 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2048x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x512 .f32 := win4_6.stage (cfg4.slots t 6)
abbrev hs4_6 (t : Fin cfg4.N) : (ms4_6 t).IsWhole := hstage4_6 ((cfg4.slots t 6).cast nbuf4_6)
/-- The accumulator: a whole scoped buffer of the kernel's own, kept between points. -/
abbrev scM4_0 : Memref sig .tc .vmem S2048x512 .f32 := Memref.whole cc4_scratch0

/-- The scoped buffers other than the staging buffers and the accumulator: never opened. -/
abbrev restBut4 (c : Dev nD) : sProp 𝕄 :=
  Pipeline.scopedRestBut (Ix := Unit) (Name := ℕ) (U := UR sig nD τ) (Lvl := ℕ) (Val := Elt F) spec4 c [cc4_scratch0]

/-- What the launch gives the layer to work with besides its windows: its private buffers other than the staging ones,
    and the random-number register. Here the accumulator is taken out of those buffers and shown as a memref holding
    something. -/
theorem PhiA4_eq (c : Dev nD) :
    (Pipeline.ΦA spec4 c : sProp 𝕄)
      = iprop(iprop(iprop((∃ d, owns (c : Thread nD τ) scM4_0 fullShare d)) ∗ restBut4 (F := F) c) ∗ (∃ r, prngReg c r)) := by
  unfold Pipeline.ΦA; rw [scopedRest4_split]; simp only [scM4_0, owns_whole]; try rfl

end Cert.KernelIdeal.Hand

end
-- ==== Proof.Region4RunA.lean ====
/- Region 4, the body's run where k = 0: the accumulator is zeroed, then one product is added. Only the adjacency block,
   the feature block and its row scale are read; the accumulator may hold anything before, and ends with the two stores
   listed (last first). The list is found by running the body. -/
import proofs.«127076_j34282428956966_2_alg».proof.Proof.Region4Runs

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region4RunB.lean ====
/- Region 4, the body's run where 0 < k < 7: one product is added to the accumulator, which holds what the point before left. -/
import proofs.«127076_j34282428956966_2_alg».proof.Proof.Region4RunA

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Region4RunC.lean ====
/- Region 4, the body's run where k = 7: the last product is added to the accumulator, and the output block is computed from it
   (row scale, weight matrix, bias) and stored. All six input windows are read; the output buffer may hold anything before. -/
import proofs.«127076_j34282428956966_2_alg».proof.Proof.Region4RunB

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, ?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.Region4Named.lean ====
/- Region 4: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.Region4RunC
import Idealize.ShloMosaic.Lib.Pipeline.Value

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz4 : (![0, 0] : Fin 2 → ℕ) = fun _ => 0 := by funext a; fin_cases a <;> rfl

/-! ## k = 0: zeroed, then one product added -/

/-- The two whole-buffer stores into the accumulator tile it. -/
theorem scover4_A_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (y : S2048x512.Idx) :
    ∃ pc ∈ (kernelRun4_A c i arg2 harg2 arg3 harg3 arg4 harg4 arg5 harg5 arg6 harg6 arg7 harg7 arg8 harg8 arg9 harg9 hc0 hc1 x0 x1 x2).1, y ∈ pc.1.set :=
  View.cover_of_tiledL (kernelRun4_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc4_A_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun4_A c i arg2 harg2 arg3 harg3 arg4 harg4 arg5 harg5 arg6 harg6 arg7 harg7 arg8 harg8 arg9 harg9 hc0 hc1 x0 x1 x2).1) = k4_pay2 x1 x2 (k4_pay1 (F := F)) x0 := by
  rw [View.read_writes_eq_canon _ _ _ (scover4_A_0 c i arg2 harg2 arg3 harg3 arg4 harg4 arg5 harg5 arg6 harg6 arg7 harg7 arg8 harg8 arg9 harg9 hc0 hc1 x0 x1 x2)]
  unfold kernelRun4_A; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4,
    View.readCov_unit_zero (S := S2048x512) _ hz4]

/-- The body where k = 0, over the payload names. -/
theorem sound_kernel4_A (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k4_pay2 x1 x2 (k4_pay1 (F := F)) x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, HS0, Hk⟩
  iapply ((kernelRun4_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc4_A_eq c i arg2 harg2 arg3 harg3 arg4 harg4 arg5 harg5 arg6 harg6 arg7 harg7 arg8 harg8 arg9 harg9 hc0 hc1 x0 x1 x2 es0

/-! ## 0 < k < 7: one product added -/

theorem scover4_B_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (y : S2048x512.Idx) :
    ∃ pc ∈ (kernelRun4_B c i arg2 harg2 arg3 harg3 arg4 harg4 arg5 harg5 arg6 harg6 arg7 harg7 arg8 harg8 arg9 harg9 hc0 hc1 x0 x1 x2 xs0).1, y ∈ pc.1.set :=
  View.cover_of_tiledL (kernelRun4_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc4_B_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun4_B c i arg2 harg2 arg3 harg3 arg4 harg4 arg5 harg5 arg6 harg6 arg7 harg7 arg8 harg8 arg9 harg9 hc0 hc1 x0 x1 x2 xs0).1) = k4_pay2 x1 x2 xs0 x0 := by
  rw [View.read_writes_eq_canon _ _ _ (scover4_B_0 c i arg2 harg2 arg3 harg3 arg4 harg4 arg5 harg5 arg6 harg6 arg7 harg7 arg8 harg8 arg9 harg9 hc0 hc1 x0 x1 x2 xs0)]
  unfold kernelRun4_B; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4,
    View.readCov_unit_zero (S := S2048x512) _ hz4]

/-- The body where 0 < k < 7, over the payload names. -/
theorem sound_kernel4_B (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k4_pay2 x1 x2 xs0 x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, HS0, Hk⟩
  iapply ((kernelRun4_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc4_B_eq c i arg2 harg2 arg3 harg3 arg4 harg4 arg5 harg5 arg6 harg6 arg7 harg7 arg8 harg8 arg9 harg9 hc0 hc1 x0 x1 x2 xs0 es0

/-! ## k = 7: the last product added, the output block stored -/

theorem scover4_C_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun4_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover4_C_6 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun4_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc4_C_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun4_C c i arg2 harg2 arg3 harg3 arg4 harg4 arg5 harg5 arg6 harg6 arg7 harg7 arg8 harg8 arg9 harg9 hc0 hc1 x0 x1 x2 x3 x4 x5 xs0).2.1) = k4_pay2 x1 x2 xs0 x0 := by
  rw [View.read_writes_eq_canon _ _ _ (scover4_C_0 c i arg2 harg2 arg3 harg3 arg4 harg4 arg5 harg5 arg6 harg6 arg7 harg7 arg8 harg8 arg9 harg9 hc0 hc1 x0 x1 x2 x3 x4 x5 xs0)]
  unfold kernelRun4_C; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4, View.ld_unit_zero (S := S512x512) hz4, View.ld_unit_zero (S := S1x512) hz4, View.ld_unit_zero (S := S2048x1) hz4,
    View.readCov_unit_zero (S := S2048x512) _ hz4]

/-- The output window's buffer then reads: the final step (row scale, weights, bias) of the accumulator just written,
    which the load before it reads back. -/
theorem out4_C_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun4_C c i arg2 harg2 arg3 harg3 arg4 harg4 arg5 harg5 arg6 harg6 arg7 harg7 arg8 harg8 arg9 harg9 hc0 hc1 x0 x1 x2 x3 x4 x5 xs0).1) = k4_pay3 (k4_pay2 x1 x2 xs0 x0) x5 x3 x4 := by
  rw [View.read_writes_eq_canon _ _ _ (cover4_C_6 c i arg2 harg2 arg3 harg3 arg4 harg4 arg5 harg5 arg6 harg6 arg7 harg7 arg8 harg8 arg9 harg9 hc0 hc1 x0 x1 x2 x3 x4 x5 xs0)]
  unfold kernelRun4_C; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4, View.ld_unit_zero (S := S512x512) hz4, View.ld_unit_zero (S := S1x512) hz4, View.ld_unit_zero (S := S2048x1) hz4,
    View.readCov_unit_zero (S := S2048x512) _ hz4]

/-- The body where k = 7, over the payload names. -/
theorem sound_kernel4_C (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k4_pay3 (k4_pay2 x1 x2 xs0 x0) x5 x3 x4) ∗ owns (c : Thread nD τ) arg9 fullShare (k4_pay2 x1 x2 xs0 x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, H3, H4, H5, H6, HS0, Hk⟩
  iapply ((kernelRun4_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out4_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc4_C_eq c i arg2 harg2 arg3 harg3 arg4 harg4 arg5 harg5 arg6 harg6 arg7 harg7 arg8 harg8 arg9 harg9 hc0 hc1 x0 x1 x2 x3 x4 x5 xs0 es0

end Cert.KernelIdeal.Hand

end
-- ==== Proof.Region4.lean ====
/- Region 4: what holds after every point, and that the body keeps it so. After point t the accumulator holds the sum, over the
   k-steps of t's row block so far, of adjacency block times row-scaled feature block (`accAt4`, by recursion on the
   point: restarted from zeros where k = 0); where k = 7 the output window holds the final step of it (`outAt4`).
   The accumulator is a scoped buffer of the kernel's own, so it rides in the region invariant: before the first
   point at anything, afterwards at `accAt4` of the point before. -/
import proofs.«127076_j34282428956966_2_alg».proof.Proof.Region4Named

-- the blocks here have up to 2048 rows, and deciding that an index sits inside a stored rectangle unfolds once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep4 (c : Dev nD) (t : Fin cfg4.N) (acc : Vec F S2048x512 .f32) : Vec F S2048x512 .f32 :=
  k4_pay2 (iblk4 V c 1 t) (iblk4 V c 2 t) acc (iblk4 V c 0 t)

/-- What the accumulator holds once point number `n` is done: one step applied to zeros if `n` starts a row block (k = 0),
    otherwise to what point `n - 1` left. -/
def accAt4 (c : Dev nD) : (n : ℕ) → n < cfg4.N → Vec F S2048x512 .f32
  | 0, hn => accStep4 V c ⟨0, hn⟩ (k4_pay1 (F := F))
  | n + 1, hn =>
    if (n + 1) % 8 = 0 then accStep4 V c ⟨n + 1, hn⟩ (k4_pay1 (F := F))
    else accStep4 V c ⟨n + 1, hn⟩ (accAt4 c n (Nat.lt_of_succ_lt hn))

/-- At a point with k = 0: one step from zeros. -/
theorem accAt4_first (c : Dev nD) (t : Fin cfg4.N) (h0 : t.val % 8 = 0) :
    accAt4 V c t.val t.isLt = accStep4 V c t (k4_pay1 (F := F)) := by
  obtain ⟨n, hn⟩ := t
  cases n with
  | zero => rfl
  | succ n => exact (if_pos h0)

/-- At a point with k ≠ 0: one step from what the point before left. -/
theorem accAt4_next (c : Dev nD) (t : Fin cfg4.N) (h0 : ¬t.val % 8 = 0) :
    accAt4 V c t.val t.isLt = accStep4 V c t (accAt4 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt4 (c : Dev nD) (t : Fin cfg4.N) : Vec F S2048x512 .f32 :=
  k4_pay3 (accAt4 V c t.val t.isLt) (iblk4 V c 5 t) (iblk4 V c 3 t) (iblk4 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn)) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn)) ∗ restBut4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega))) ∗ restBut4 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt4`;
    between points the invariant is `PhiS4`; the core is in debt to no one; and the vector of inverse square-root
    degrees, on which windows 2 and 5 both stand, is held half by each. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => outAt4 V c t
  Φ t := PhiS4 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- The seven windows' buffers after the body, read off the proof data. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = outAt4 V c t := by dsimp only [dat4]

/-- So the body always finds an input's block in its buffer, whether or not the point fetched it. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## One point of the grid -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h1 : t.val % 8 = 7
  · have h0 : ¬t.val % 8 = 0 := by omega
    have hz : t.val ≠ 0 := by omega
    rw [show (dat4 V c).leavesExact 6 t = owns (c : Thread nD τ) (ms4_6 t) fullShare ((dat4 V c).after 6 t) from by
      unfold Dat.leavesExact; rw [liveAt4_6 t ((hcond4_1 t).mpr h1)], after4_6]
    unfold outAt4
    rw [accAt4_next V c t h0]; unfold accStep4
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1)
      (iblk4 V c 0 t) (iblk4 V c 1 t) (iblk4 V c 2 t) (iblk4 V c 3 t) (iblk4 V c 4 t) (iblk4 V c 5 t)
      (accAt4 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat4 V c) 6 t (idleAt4_6 t (fun h => h1 ((hcond4_1 t).mp h))) (noFlush4_6 t (fun h => h1 ((hcond4_1 t).mp h)))]
    by_cases h0 : t.val % 8 = 0
    · rw [accAt4_first V c t h0]; unfold accStep4
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h))
          (iblk4 V c 0 t) (iblk4 V c 1 t) (iblk4 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h))
          (iblk4 V c 0 t) (iblk4 V c 1 t) (iblk4 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt4_next V c t h0]; unfold accStep4
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h))
        (iblk4 V c 0 t) (iblk4 V c 1 t) (iblk4 V c 2 t)
        (accAt4 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation4 (c : Dev nD) : BodyObligation (dat4 (F := F) V c) (defs₀ (F := F)) Variants.none () Set.univ := fun t => by
  rw [bigSep_W4, bigSep_W4]
  exact sound_body4 V c t

/-- On entry the accumulator may hold anything: the launch's invariant is the one before point 0. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- Once a point has run, forgetting which sum the accumulator holds gives the launch's invariant back. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]; · iexists _; iexact HS0
    iexact Hr
  iexact Hg

/-- In particular after the last point. -/
theorem hout4 (c : Dev nD) : (dat4 V c).Φ (Fin.last cfg4.N) ⊢ Pipeline.ΦA spec4 c :=
  Phi_out4 V c _ (by rw [Fin.val_last]; have : cfg4.N = 32 := N_4; omega)

end Region

end Cert.KernelIdeal.Hand

end
-- ==== Proof.Fold.lean ====
/-
  The buffer contents of the TensorCore along @main, item by item.

  @main is twelve items: three stretches of host operations (the edge list turned into the dense adjacency counts, the
  degrees and their inverse square roots), then five kernel regions with a short stretch of host operations before each
  of the last four (the casts and reshapes of that layer's weights and bias). A host stretch changes the buffers it
  writes to the operations' values of what was there; a kernel region changes exactly ONE buffer, the array of its
  output window, to what the pipeline's write-backs leave there, and nothing else. `B J c` is what core `c`'s buffers
  hold before item `J` (so `B 0` is the launch memory and `B 12` what @main ends with), and `E J c` is `B J c` looked up by
  the TensorCore's own buffer names — the form in which the region at item `J` is told its arrays.
-/
import proofs.«127076_j34282428956966_2_alg».proof.Proof.Region0
import proofs.«127076_j34282428956966_2_alg».proof.Proof.Region1
import proofs.«127076_j34282428956966_2_alg».proof.Proof.Region2
import proofs.«127076_j34282428956966_2_alg».proof.Proof.Region3
import proofs.«127076_j34282428956966_2_alg».proof.Proof.Region4
import proofs.«127076_j34282428956966_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents before each item -/

/-- Before item 0: the launch memory. -/
abbrev B0 : Dev nD → Valuation τ sig (Elt F) := fun c b => m ((c : Dev nD), b)
/-- Before item 1: the stretch `hostOps0` has run over the contents before it. -/
abbrev B1 : Dev nD → Valuation τ sig (Elt F) := fun c => StableHlo.after hostOps0 (B0 m c)
/-- Before item 2: the stretch `hostOps0_1` has run over the contents before it. -/
abbrev B2 : Dev nD → Valuation τ sig (Elt F) := fun c => StableHlo.after hostOps0_1 (B1 m c)
/-- Before item 3: the stretch `hostOps0_2` has run over the contents before it. -/
abbrev B3 : Dev nD → Valuation τ sig (Elt F) := fun c => StableHlo.after hostOps0_2 (B2 m c)
/-- The contents region 0 starts from, looked up by the TensorCore's buffer names. -/
abbrev E3 : (c : Dev nD) → (b : Ref sig .tc) → Buf (Elt F) ((c : Thread nD τ).loc b) := fun c b => B3 m c b
/-- Before item 4: region 0 has changed `main_v31`, its output window's array, to what its write-backs leave. -/
def B4 (c : Dev nD) : Valuation τ sig (Elt F) :=
  Function.update (B3 m c) main_v31 ((dat0 (E3 m) c).arrAt 1 cfg0.N)
/-- Before item 5: the stretch `hostOps1` has run over the contents before it. -/
abbrev B5 : Dev nD → Valuation τ sig (Elt F) := fun c => StableHlo.after hostOps1 (B4 m c)
/-- The contents region 1 starts from, looked up by the TensorCore's buffer names. -/
abbrev E5 : (c : Dev nD) → (b : Ref sig .tc) → Buf (Elt F) ((c : Thread nD τ).loc b) := fun c b => B5 m c b
/-- Before item 6: region 1 has changed `main_v35`, its output window's array, to what its write-backs leave. -/
def B6 (c : Dev nD) : Valuation τ sig (Elt F) :=
  Function.update (B5 m c) main_v35 ((dat1 (E5 m) c).arrAt 3 cfg1.N)
/-- Before item 7: the stretch `hostOps2` has run over the contents before it. -/
abbrev B7 : Dev nD → Valuation τ sig (Elt F) := fun c => StableHlo.after hostOps2 (B6 m c)
/-- The contents region 2 starts from, looked up by the TensorCore's buffer names. -/
abbrev E7 : (c : Dev nD) → (b : Ref sig .tc) → Buf (Elt F) ((c : Thread nD τ).loc b) := fun c b => B7 m c b
/-- Before item 8: region 2 has changed `main_v38`, its output window's array, to what its write-backs leave. -/
def B8 (c : Dev nD) : Valuation τ sig (Elt F) :=
  Function.update (B7 m c) main_v38 ((dat2 (E7 m) c).arrAt 6 cfg2.N)
/-- Before item 9: the stretch `hostOps3` has run over the contents before it. -/
abbrev B9 : Dev nD → Valuation τ sig (Elt F) := fun c => StableHlo.after hostOps3 (B8 m c)
/-- The contents region 3 starts from, looked up by the TensorCore's buffer names. -/
abbrev E9 : (c : Dev nD) → (b : Ref sig .tc) → Buf (Elt F) ((c : Thread nD τ).loc b) := fun c b => B9 m c b
/-- Before item 10: region 3 has changed `main_v41`, its output window's array, to what its write-backs leave. -/
def B10 (c : Dev nD) : Valuation τ sig (Elt F) :=
  Function.update (B9 m c) main_v41 ((dat3 (E9 m) c).arrAt 6 cfg3.N)
/-- Before item 11: the stretch `hostOps4` has run over the contents before it. -/
abbrev B11 : Dev nD → Valuation τ sig (Elt F) := fun c => StableHlo.after hostOps4 (B10 m c)
/-- The contents region 4 starts from, looked up by the TensorCore's buffer names. -/
abbrev E11 : (c : Dev nD) → (b : Ref sig .tc) → Buf (Elt F) ((c : Thread nD τ).loc b) := fun c b => B11 m c b
/-- Before item 12: region 4 has changed `main_v44`, its output window's array, to what its write-backs leave. -/
def B12 (c : Dev nD) : Valuation τ sig (Elt F) :=
  Function.update (B11 m c) main_v44 ((dat4 (E11 m) c).arrAt 6 cfg4.N)

/-! ## What each item leaves alone

A host stretch leaves every buffer that is not among those it writes; a region every buffer but its output's array. -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ≠ main_v31) : B4 m c r = B3 m c r := by
  unfold B4
  exact Function.update_of_ne (StableHlo.devRef_ne_of_ne h : (Proc.devRef .tc r : DevRef τ sig) ≠ Proc.devRef .tc main_v31) _ _
theorem B4_out (c : Dev nD) : B4 m c main_v31 = (dat0 (E3 m) c).arrAt 1 cfg0.N := by
  unfold B4
  exact Function.update_self _ _ _
theorem B5_of (c : Dev nD) (r : Ref sig .tc) (h : r ∉ hostOps1_W) : B5 m c r = B4 m c r :=
  StableHlo.after_of_writes_sub hostOps1 _ hostOps1_writes h
theorem B6_of (c : Dev nD) (r : Ref sig .tc) (h : r ≠ main_v35) : B6 m c r = B5 m c r := by
  unfold B6
  exact Function.update_of_ne (StableHlo.devRef_ne_of_ne h : (Proc.devRef .tc r : DevRef τ sig) ≠ Proc.devRef .tc main_v35) _ _
theorem B6_out (c : Dev nD) : B6 m c main_v35 = (dat1 (E5 m) c).arrAt 3 cfg1.N := by
  unfold B6
  exact Function.update_self _ _ _
theorem B7_of (c : Dev nD) (r : Ref sig .tc) (h : r ∉ hostOps2_W) : B7 m c r = B6 m c r :=
  StableHlo.after_of_writes_sub hostOps2 _ hostOps2_writes h
theorem B8_of (c : Dev nD) (r : Ref sig .tc) (h : r ≠ main_v38) : B8 m c r = B7 m c r := by
  unfold B8
  exact Function.update_of_ne (StableHlo.devRef_ne_of_ne h : (Proc.devRef .tc r : DevRef τ sig) ≠ Proc.devRef .tc main_v38) _ _
theorem B8_out (c : Dev nD) : B8 m c main_v38 = (dat2 (E7 m) c).arrAt 6 cfg2.N := by
  unfold B8
  exact Function.update_self _ _ _
theorem B9_of (c : Dev nD) (r : Ref sig .tc) (h : r ∉ hostOps3_W) : B9 m c r = B8 m c r :=
  StableHlo.after_of_writes_sub hostOps3 _ hostOps3_writes h
theorem B10_of (c : Dev nD) (r : Ref sig .tc) (h : r ≠ main_v41) : B10 m c r = B9 m c r := by
  unfold B10
  exact Function.update_of_ne (StableHlo.devRef_ne_of_ne h : (Proc.devRef .tc r : DevRef τ sig) ≠ Proc.devRef .tc main_v41) _ _
theorem B10_out (c : Dev nD) : B10 m c main_v41 = (dat3 (E9 m) c).arrAt 6 cfg3.N := by
  unfold B10
  exact Function.update_self _ _ _
theorem B11_of (c : Dev nD) (r : Ref sig .tc) (h : r ∉ hostOps4_W) : B11 m c r = B10 m c r :=
  StableHlo.after_of_writes_sub hostOps4 _ hostOps4_writes h
theorem B12_of (c : Dev nD) (r : Ref sig .tc) (h : r ≠ main_v44) : B12 m c r = B11 m c r := by
  unfold B12
  exact Function.update_of_ne (StableHlo.devRef_ne_of_ne h : (Proc.devRef .tc r : DevRef τ sig) ≠ Proc.devRef .tc main_v44) _ _
theorem B12_out (c : Dev nD) : B12 m c main_v44 = (dat4 (E11 m) c).arrAt 6 cfg4.N := by
  unfold B12
  exact Function.update_self _ _ _

/-! ## The arguments end as launched

No host stretch writes an argument and no region's output array is one, so an argument's buffer is walked back item by
item to the launch memory. -/

theorem B12_main_arg0 (c : Dev nD) : B12 m c main_arg0 = m ((c : Thread nD τ).loc main_arg0) :=
  (B12_of m c main_arg0 (by decide)).trans <| (B11_of m c main_arg0 (by decide)).trans <| (B10_of m c main_arg0 (by decide)).trans <| (B9_of m c main_arg0 (by decide)).trans <| (B8_of m c main_arg0 (by decide)).trans <| (B7_of m c main_arg0 (by decide)).trans <| (B6_of m c main_arg0 (by decide)).trans <| (B5_of m c main_arg0 (by decide)).trans <| (B4_of m c main_arg0 (by decide)).trans <| (B3_of m c main_arg0 (by decide)).trans <| (B2_of m c main_arg0 (by decide)).trans <| (B1_of m c main_arg0 (by decide)).trans <| rfl
theorem B12_main_arg1 (c : Dev nD) : B12 m c main_arg1 = m ((c : Thread nD τ).loc main_arg1) :=
  (B12_of m c main_arg1 (by decide)).trans <| (B11_of m c main_arg1 (by decide)).trans <| (B10_of m c main_arg1 (by decide)).trans <| (B9_of m c main_arg1 (by decide)).trans <| (B8_of m c main_arg1 (by decide)).trans <| (B7_of m c main_arg1 (by decide)).trans <| (B6_of m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide)).trans <| rfl
theorem B12_main_arg2 (c : Dev nD) : B12 m c main_arg2 = m ((c : Thread nD τ).loc main_arg2) :=
  (B12_of m c main_arg2 (by decide)).trans <| (B11_of m c main_arg2 (by decide)).trans <| (B10_of m c main_arg2 (by decide)).trans <| (B9_of m c main_arg2 (by decide)).trans <| (B8_of m c main_arg2 (by decide)).trans <| (B7_of m c main_arg2 (by decide)).trans <| (B6_of m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide)).trans <| rfl
theorem B12_main_arg3 (c : Dev nD) : B12 m c main_arg3 = m ((c : Thread nD τ).loc main_arg3) :=
  (B12_of m c main_arg3 (by decide)).trans <| (B11_of m c main_arg3 (by decide)).trans <| (B10_of m c main_arg3 (by decide)).trans <| (B9_of m c main_arg3 (by decide)).trans <| (B8_of m c main_arg3 (by decide)).trans <| (B7_of m c main_arg3 (by decide)).trans <| (B6_of m c main_arg3 (by decide)).trans <| (B5_of m c main_arg3 (by decide)).trans <| (B4_of m c main_arg3 (by decide)).trans <| (B3_of m c main_arg3 (by decide)).trans <| (B2_of m c main_arg3 (by decide)).trans <| (B1_of m c main_arg3 (by decide)).trans <| rfl
theorem B12_main_arg4 (c : Dev nD) : B12 m c main_arg4 = m ((c : Thread nD τ).loc main_arg4) :=
  (B12_of m c main_arg4 (by decide)).trans <| (B11_of m c main_arg4 (by decide)).trans <| (B10_of m c main_arg4 (by decide)).trans <| (B9_of m c main_arg4 (by decide)).trans <| (B8_of m c main_arg4 (by decide)).trans <| (B7_of m c main_arg4 (by decide)).trans <| (B6_of m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide)).trans <| rfl
theorem B12_main_arg5 (c : Dev nD) : B12 m c main_arg5 = m ((c : Thread nD τ).loc main_arg5) :=
  (B12_of m c main_arg5 (by decide)).trans <| (B11_of m c main_arg5 (by decide)).trans <| (B10_of m c main_arg5 (by decide)).trans <| (B9_of m c main_arg5 (by decide)).trans <| (B8_of m c main_arg5 (by decide)).trans <| (B7_of m c main_arg5 (by decide)).trans <| (B6_of m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide)).trans <| rfl
theorem B12_main_arg6 (c : Dev nD) : B12 m c main_arg6 = m ((c : Thread nD τ).loc main_arg6) :=
  (B12_of m c main_arg6 (by decide)).trans <| (B11_of m c main_arg6 (by decide)).trans <| (B10_of m c main_arg6 (by decide)).trans <| (B9_of m c main_arg6 (by decide)).trans <| (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide)).trans <| rfl
theorem B12_main_arg7 (c : Dev nD) : B12 m c main_arg7 = m ((c : Thread nD τ).loc main_arg7) :=
  (B12_of m c main_arg7 (by decide)).trans <| (B11_of m c main_arg7 (by decide)).trans <| (B10_of m c main_arg7 (by decide)).trans <| (B9_of m c main_arg7 (by decide)).trans <| (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide)).trans <| rfl
theorem B12_main_arg8 (c : Dev nD) : B12 m c main_arg8 = m ((c : Thread nD τ).loc main_arg8) :=
  (B12_of m c main_arg8 (by decide)).trans <| (B11_of m c main_arg8 (by decide)).trans <| (B10_of m c main_arg8 (by decide)).trans <| (B9_of m c main_arg8 (by decide)).trans <| (B8_of m c main_arg8 (by decide)).trans <| (B7_of m c main_arg8 (by decide)).trans <| (B6_of m c main_arg8 (by decide)).trans <| (B5_of m c main_arg8 (by decide)).trans <| (B4_of m c main_arg8 (by decide)).trans <| (B3_of m c main_arg8 (by decide)).trans <| (B2_of m c main_arg8 (by decide)).trans <| (B1_of m c main_arg8 (by decide)).trans <| rfl
theorem B12_main_arg9 (c : Dev nD) : B12 m c main_arg9 = m ((c : Thread nD τ).loc main_arg9) :=
  (B12_of m c main_arg9 (by decide)).trans <| (B11_of m c main_arg9 (by decide)).trans <| (B10_of m c main_arg9 (by decide)).trans <| (B9_of m c main_arg9 (by decide)).trans <| (B8_of m c main_arg9 (by decide)).trans <| (B7_of m c main_arg9 (by decide)).trans <| (B6_of m c main_arg9 (by decide)).trans <| (B5_of m c main_arg9 (by decide)).trans <| (B4_of m c main_arg9 (by decide)).trans <| (B3_of m c main_arg9 (by decide)).trans <| (B2_of m c main_arg9 (by decide)).trans <| (B1_of m c main_arg9 (by decide)).trans <| rfl

end Cert.KernelIdeal.Hand

end
-- ==== Proof.LibSharedSplit.lean ====
/-
  Windows that stand on one buffer.

  A pipeline holds its windows' arrays one window at a time, each at a share of its own, while the thread that enters
  the pipeline holds the DISTINCT buffers behind those arrays, each once, at the full share. When every window stands on
  a buffer of its own the two are the same separating conjunction re-indexed. Here two windows `w₁ ≠ w₂` stand on one
  buffer and every other window on a buffer of its own: the conjunction over the distinct buffers, each at the full
  share, is then the conjunction over the windows in which the shared buffer is dealt between `w₁` and `w₂` by two
  shares that compose to the full one, every other window holding its buffer at the full share.

  Nothing here mentions memory: a buffer's assertion is any family `Φ b s` indexed by the buffer and a share-like
  parameter, with `Φ b full = Φ b left ∗ Φ b right`; so the contents are those of the buffer, not of the window, and the
  statement has no dependent types.
-/
import Idealize.SL.ProofMode.BigOp

namespace Idealize.SL.BI

open Idealize.SL Idealize.SL.RA
open scoped Idealize.SL.BI
open Idealize.SL.BI.BIBase Idealize.SL.BI.Laws

universe u v w

variable {M : Type u} [URA M] {I : Type v} {J : Type w} [Fintype I] [DecidableEq I] [DecidableEq J]

/-- The buffers behind the windows `f w`, each once at `full`, against the windows one by one, when `w₁` and `w₂`
    stand on one buffer (`hf`) dealt between them as `left` and `right` (`hop`, `h₁`, `h₂`), `f` is injective
    away from `w₂` (`hinj`) and every other window holds its buffer at `full` (`hσ`). -/
theorem bigSep_image_two_on_one {S : Type*} (f : I → J) (w₁ w₂ : I) (hne : w₁ ≠ w₂) (hf : f w₁ = f w₂)
    (hinj : Set.InjOn f ((Finset.univ.erase w₂ : Finset I) : Set I))
    (Φ : J → S → sProp M) (full left right : S)
    (hop : ∀ b, Φ b full = iprop(Φ b left ∗ Φ b right))
    (σ : I → S) (h₁ : σ w₁ = left) (h₂ : σ w₂ = right) (hσ : ∀ w, w ≠ w₁ → w ≠ w₂ → σ w = full) :
    bigSep ((Finset.univ : Finset I).image f) (fun b => Φ b full) = bigSep Finset.univ (fun w => Φ (f w) (σ w)) := by
  classical
  have himg : (Finset.univ : Finset I).image f = (Finset.univ.erase w₂).image f := by
    ext b
    simp only [Finset.mem_image, Finset.mem_univ, true_and, Finset.mem_erase, and_true]
    constructor
    · rintro ⟨x, rfl⟩
      by_cases h : x = w₂
      · exact ⟨w₁, hne, by rw [h, hf]⟩
      · exact ⟨x, h, rfl⟩
    · rintro ⟨x, _, rfl⟩; exact ⟨x, rfl⟩
  have hw₁ : w₁ ∈ (Finset.univ.erase w₂ : Finset I) := Finset.mem_erase.mpr ⟨hne, Finset.mem_univ _⟩
  have hR : bigSep ((Finset.univ.erase w₂ : Finset I).erase w₁) (fun x => Φ (f x) full)
      = bigSep ((Finset.univ.erase w₂ : Finset I).erase w₁) (fun x => Φ (f x) (σ x)) :=
    bigSep_congr fun x hx => by
      rw [hσ x (Finset.ne_of_mem_erase hx) (Finset.ne_of_mem_erase (Finset.mem_of_mem_erase hx))]
  rw [himg, bigSep_image_of_injOn hinj, bigSep_erase hw₁, bigSep_univ_split w₂ (Φ := fun x => Φ (f x) (σ x)),
    bigSep_erase hw₁ (Φ := fun x => Φ (f x) (σ x)), hR, h₁, h₂, ← hf, hop (f w₁)]
  refine equiv_iff.mp ⟨?_, ?_⟩
  · exact fun a h => sep_assoc a (sep_mono sep_comm (fun _ h => h) a h)
  · exact fun a h => sep_mono sep_comm (fun _ h => h) a (sep_assoc' a h)

end Idealize.SL.BI
-- ==== Proof.LibSharedRegion.lean ====
/-
  Entering and leaving a pipeline two of whose windows stand on one array.

  Before a kernel region the thread owns each unscoped buffer of its core exactly once and entirely, with contents
  `V`. The pipeline instead accounts for arrays window by window (`Dat.arrays`), window `w` with share `dat.share w`. When two INPUT windows `w₁ ≠ w₂` read one array and every other window an array of its own, the proof
  data deal that array between the two by the left and the right half of the full share (an input is only read, and
  either half suffices to read), and the unscoped buffers at `V` ARE the arrays at `V`'s contents beside the buffers
  that are no window's array. Being an equation it serves in both directions: read left to right it is the region's
  entry, read right to left — at the contents the region leaves — its exit, the two halves put back together.
-/
import Idealize.ShloMosaic.Lib.Pipeline.Frame
import proofs.«127076_j34282428956966_2_alg».proof.Proof.LibSharedSplit

noncomputable section

namespace Idealize.ShloMosaic.Pipeline

open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- When every array is a whole buffer, the pipeline's arrays are one points-to per window, window `w` holding its
    buffer at the share `dat.share w`. -/
theorem Dat.arrays_eq_shares (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

/-- One full points-to per DISTINCT array is the same resource as one points-to per WINDOW, provided `w₁` and `w₂` are
    the only two windows on a common array and hold it by the left and the right half, while each remaining window has
    an array to itself at the full share. The contents are `V`'s on both sides. -/
theorem arrBufs_eq_arrays_two_on_one (harr : ∀ w, (cfg.spec w).arr.IsWhole) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) = dat.arrays F := by
  classical
  rw [Dat.arrays_eq_shares dat harr F]
  unfold arrBufs
  rw [BI.bigSep_image_two_on_one (arrRef cfg.spec) w₁ w₂ hne hf hinj
    (fun b s => (((c.tc : Thread nD τ).loc b) ↦{s} V b : sProp 𝕄)) fullShare fullShare.left fullShare.right
    (fun b => BI.equiv_iff.mp
      ⟨(pointsTo_share (ℓ := (c.tc : Thread nD τ).loc b) (f := V b) (PosShare.mem_left_op_right fullShare)).1,
       (pointsTo_share (ℓ := (c.tc : Thread nD τ).loc b) (f := V b) (PosShare.mem_left_op_right fullShare)).2⟩) dat.share h₁ h₂ hσ]
  exact bigSep_congr fun w _ => by rw [hF w]

/-- Whatever the windows share, a core's unscoped buffers split into those some window reads or writes and the
    others (the library's split, at this one configuration). -/
theorem unscopedBufs_eq_arrBufs_rest (hunscoped : ∀ w, (arrRef cfg.spec w).isScoped = false)
    (V : (b : Ref sig .tc) → Buf Val ((c.tc : Thread nD τ).loc b)) :
    (unscopedBufs c V : sProp 𝕄) = iprop(arrBufs cfg.spec c V ∗ unscopedRest cfg.spec c V) :=
  PerCore.unscopedBufs_split₀ (P := Unit) (fun _ _ => cfg) () c hunscoped V

/-- ENTRY and EXIT in one equation: all unscoped buffers at `V` amount to the pipeline's per-window arrays, filled from
    `V`, together with the buffers no window touches — under the two-windows-on-one-array hypotheses above. -/
theorem unscopedBufs_eq_arrays_two_on_one (harr : ∀ w, (cfg.spec w).arr.IsWhole)
    (hunscoped : ∀ w, (arrRef cfg.spec w).isScoped = false) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (unscopedBufs c V : sProp 𝕄) = iprop(dat.arrays F ∗ unscopedRest cfg.spec c V) := by
  rw [unscopedBufs_eq_arrBufs_rest (cfg := cfg) hunscoped V,
    arrBufs_eq_arrays_two_on_one dat harr w₁ w₂ hne hf hinj h₁ h₂ hσ V F hF]

/-- Changing the contents only AT the windows' arrays does not change what is held of the untouched buffers. -/
theorem unscopedRest_congr {gr W : Nat} (win : Fin W → WinSpec sig gr) (c : Dev nD)
    (V V' : (b : Ref sig .tc) → Buf Val ((c.tc : Thread nD τ).loc b))
    (h : ∀ b, b ∉ Finset.univ.image (arrRef win) → V' b = V b) :
    (unscopedRest win c V : sProp 𝕄) = unscopedRest win c V' := by
  classical
  unfold unscopedRest
  exact bigSep_congr fun b hb => by rw [h b (Finset.mem_sdiff.mp hb).2]

end Idealize.ShloMosaic.Pipeline

end
-- ==== Proof.MainRun.lean ====
/-
  The run of the idealized kernel's @main, and what it leaves in the result buffer.

  Every weakly fair execution of @main from a memory with zero counters ends, nothing faulting, with the result buffer at
  what the LAST region's write-backs leave there — `(dat4 …).arrAt 6 N`, read through the fold of buffer contents of
  Fold.lean — and every argument as launched. @main is cut into its twelve items; a host stretch is run over the
  unscoped buffers held whole at the contents before it, and a kernel region takes out of those buffers its windows'
  arrays, runs its pipeline, and puts the arrays back at the contents the write-backs leave.

  Regions 2, 3 and 4 read the vector of inverse square roots of the degrees through TWO windows (the rows of the
  contraction block and the rows of the output block), so their pipelines hold that one array by the two halves of the
  full share; LibSharedRegion.lean is the entry and the exit of such a pipeline. Regions 0 and 1 have an array per window.
-/
import proofs.«127076_j34282428956966_2_alg».proof.Proof.Fold
import proofs.«127076_j34282428956966_2_alg».proof.Proof.LibSharedRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves: its arrays at the write-backs' contents, every other buffer as entered -/

/-- The contents region 0 leaves, read at the TensorCore's references. -/
abbrev X4 : (c : Dev nD) → (b : Ref sig .tc) → Buf (Elt F) ((c : Thread nD τ).loc b) := fun c b => B4 m c b
/-- Each array of region 0 ends at what the pipeline leaves in it: an input as entered, the output at its write-backs. -/
theorem exit_arr0 (c : Dev nD) (w : Fin cfg0.W) :
    (dat0 (E3 m) c).arrAt w cfg0.N = X4 m c (Pipeline.arrRef spec0 w) := by
  match w with
  | ⟨0, _⟩ => exact ((dat0 (E3 m) c).arrAt_in 0 rfl _).trans ((A_eq0 (E3 m) c 0).trans (B4_of m c _ (by decide)).symm)
  | ⟨1, _⟩ => exact (B4_out m c).symm
/-- A buffer that is no array of region 0 ends as entered. -/
theorem exit_rest0 (c : Dev nD) : ∀ b, b ∉ Finset.univ.image (Pipeline.arrRef spec0) → X4 m c b = E3 m c b :=
  fun b hb => B4_of m c b fun e => hb (Finset.mem_image.mpr ⟨1, Finset.mem_univ _, e.symm⟩)

/-- The contents region 1 leaves, read at the TensorCore's references. -/
abbrev X6 : (c : Dev nD) → (b : Ref sig .tc) → Buf (Elt F) ((c : Thread nD τ).loc b) := fun c b => B6 m c b
/-- Each array of region 1 ends at what the pipeline leaves in it: an input as entered, the output at its write-backs. -/
theorem exit_arr1 (c : Dev nD) (w : Fin cfg1.W) :
    (dat1 (E5 m) c).arrAt w cfg1.N = X6 m c (Pipeline.arrRef spec1 w) := by
  match w with
  | ⟨0, _⟩ => exact ((dat1 (E5 m) c).arrAt_in 0 rfl _).trans ((A_eq1 (E5 m) c 0).trans (B6_of m c _ (by decide)).symm)
  | ⟨1, _⟩ => exact ((dat1 (E5 m) c).arrAt_in 1 rfl _).trans ((A_eq1 (E5 m) c 1).trans (B6_of m c _ (by decide)).symm)
  | ⟨2, _⟩ => exact ((dat1 (E5 m) c).arrAt_in 2 rfl _).trans ((A_eq1 (E5 m) c 2).trans (B6_of m c _ (by decide)).symm)
  | ⟨3, _⟩ => exact (B6_out m c).symm
/-- A buffer that is no array of region 1 ends as entered. -/
theorem exit_rest1 (c : Dev nD) : ∀ b, b ∉ Finset.univ.image (Pipeline.arrRef spec1) → X6 m c b = E5 m c b :=
  fun b hb => B6_of m c b fun e => hb (Finset.mem_image.mpr ⟨3, Finset.mem_univ _, e.symm⟩)

/-- The contents region 2 leaves, read at the TensorCore's references. -/
abbrev X8 : (c : Dev nD) → (b : Ref sig .tc) → Buf (Elt F) ((c : Thread nD τ).loc b) := fun c b => B8 m c b
set_option maxHeartbeats 4000000 in
/-- Each array of region 2 ends at what the pipeline leaves in it: an input as entered, the output at its write-backs. -/
theorem exit_arr2 (c : Dev nD) (w : Fin cfg2.W) :
    (dat2 (E7 m) c).arrAt w cfg2.N = X8 m c (Pipeline.arrRef spec2 w) := by
  match w with
  | ⟨0, _⟩ => exact ((dat2 (E7 m) c).arrAt_in 0 rfl _).trans ((A_eq2 (E7 m) c 0).trans (B8_of m c _ (by decide)).symm)
  | ⟨1, _⟩ => exact ((dat2 (E7 m) c).arrAt_in 1 rfl _).trans ((A_eq2 (E7 m) c 1).trans (B8_of m c _ (by decide)).symm)
  | ⟨2, _⟩ => exact ((dat2 (E7 m) c).arrAt_in 2 rfl _).trans ((A_eq2 (E7 m) c 2).trans (B8_of m c _ (by decide)).symm)
  | ⟨3, _⟩ => exact ((dat2 (E7 m) c).arrAt_in 3 rfl _).trans ((A_eq2 (E7 m) c 3).trans (B8_of m c _ (by decide)).symm)
  | ⟨4, _⟩ => exact ((dat2 (E7 m) c).arrAt_in 4 rfl _).trans ((A_eq2 (E7 m) c 4).trans (B8_of m c _ (by decide)).symm)
  | ⟨5, _⟩ => exact ((dat2 (E7 m) c).arrAt_in 5 rfl _).trans ((A_eq2 (E7 m) c 5).trans (B8_of m c _ (by decide)).symm)
  | ⟨6, _⟩ => exact (B8_out m c).symm
/-- A buffer that is no array of region 2 ends as entered. -/
theorem exit_rest2 (c : Dev nD) : ∀ b, b ∉ Finset.univ.image (Pipeline.arrRef spec2) → X8 m c b = E7 m c b :=
  fun b hb => B8_of m c b fun e => hb (Finset.mem_image.mpr ⟨6, Finset.mem_univ _, e.symm⟩)

/-- The contents region 3 leaves, read at the TensorCore's references. -/
abbrev X10 : (c : Dev nD) → (b : Ref sig .tc) → Buf (Elt F) ((c : Thread nD τ).loc b) := fun c b => B10 m c b
set_option maxHeartbeats 4000000 in
/-- Each array of region 3 ends at what the pipeline leaves in it: an input as entered, the output at its write-backs. -/
theorem exit_arr3 (c : Dev nD) (w : Fin cfg3.W) :
    (dat3 (E9 m) c).arrAt w cfg3.N = X10 m c (Pipeline.arrRef spec3 w) := by
  match w with
  | ⟨0, _⟩ => exact ((dat3 (E9 m) c).arrAt_in 0 rfl _).trans ((A_eq3 (E9 m) c 0).trans (B10_of m c _ (by decide)).symm)
  | ⟨1, _⟩ => exact ((dat3 (E9 m) c).arrAt_in 1 rfl _).trans ((A_eq3 (E9 m) c 1).trans (B10_of m c _ (by decide)).symm)
  | ⟨2, _⟩ => exact ((dat3 (E9 m) c).arrAt_in 2 rfl _).trans ((A_eq3 (E9 m) c 2).trans (B10_of m c _ (by decide)).symm)
  | ⟨3, _⟩ => exact ((dat3 (E9 m) c).arrAt_in 3 rfl _).trans ((A_eq3 (E9 m) c 3).trans (B10_of m c _ (by decide)).symm)
  | ⟨4, _⟩ => exact ((dat3 (E9 m) c).arrAt_in 4 rfl _).trans ((A_eq3 (E9 m) c 4).trans (B10_of m c _ (by decide)).symm)
  | ⟨5, _⟩ => exact ((dat3 (E9 m) c).arrAt_in 5 rfl _).trans ((A_eq3 (E9 m) c 5).trans (B10_of m c _ (by decide)).symm)
  | ⟨6, _⟩ => exact (B10_out m c).symm
/-- A buffer that is no array of region 3 ends as entered. -/
theorem exit_rest3 (c : Dev nD) : ∀ b, b ∉ Finset.univ.image (Pipeline.arrRef spec3) → X10 m c b = E9 m c b :=
  fun b hb => B10_of m c b fun e => hb (Finset.mem_image.mpr ⟨6, Finset.mem_univ _, e.symm⟩)

/-- The contents region 4 leaves, read at the TensorCore's references. -/
abbrev X12 : (c : Dev nD) → (b : Ref sig .tc) → Buf (Elt F) ((c : Thread nD τ).loc b) := fun c b => B12 m c b
set_option maxHeartbeats 4000000 in
/-- Each array of region 4 ends at what the pipeline leaves in it: an input as entered, the output at its write-backs. -/
theorem exit_arr4 (c : Dev nD) (w : Fin cfg4.W) :
    (dat4 (E11 m) c).arrAt w cfg4.N = X12 m c (Pipeline.arrRef spec4 w) := by
  match w with
  | ⟨0, _⟩ => exact ((dat4 (E11 m) c).arrAt_in 0 rfl _).trans ((A_eq4 (E11 m) c 0).trans (B12_of m c _ (by decide)).symm)
  | ⟨1, _⟩ => exact ((dat4 (E11 m) c).arrAt_in 1 rfl _).trans ((A_eq4 (E11 m) c 1).trans (B12_of m c _ (by decide)).symm)
  | ⟨2, _⟩ => exact ((dat4 (E11 m) c).arrAt_in 2 rfl _).trans ((A_eq4 (E11 m) c 2).trans (B12_of m c _ (by decide)).symm)
  | ⟨3, _⟩ => exact ((dat4 (E11 m) c).arrAt_in 3 rfl _).trans ((A_eq4 (E11 m) c 3).trans (B12_of m c _ (by decide)).symm)
  | ⟨4, _⟩ => exact ((dat4 (E11 m) c).arrAt_in 4 rfl _).trans ((A_eq4 (E11 m) c 4).trans (B12_of m c _ (by decide)).symm)
  | ⟨5, _⟩ => exact ((dat4 (E11 m) c).arrAt_in 5 rfl _).trans ((A_eq4 (E11 m) c 5).trans (B12_of m c _ (by decide)).symm)
  | ⟨6, _⟩ => exact (B12_out m c).symm
/-- A buffer that is no array of region 4 ends as entered. -/
theorem exit_rest4 (c : Dev nD) : ∀ b, b ∉ Finset.univ.image (Pipeline.arrRef spec4) → X12 m c b = E11 m c b :=
  fun b hb => B12_of m c b fun e => hb (Finset.mem_image.mpr ⟨6, Finset.mem_univ _, e.symm⟩)

/-! ## The proof data family and what rides beside the buffers -/

/-- Every pipeline's proof data at the contents its region is entered with: a literal match on the pipeline's index. -/
def pdats : (p : Fin 5) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
abbrev 𝒱₀ : Variants := Variants.none
/-- No core waits on another: no level is assigned. -/
abbrev L : GSem nD τ sig → Finset Unit := fun _ => ∅
abbrev lv : GSem nD τ sig → Unit → ℕ := fun _ _ => 0
/-- Beside the buffers a core carries its generator register, at some state, and the fact that it owes nothing. -/
abbrev R (c : Dev nD) : sProp 𝕄 := iprop((∃ r, prngReg c r) ∗ ∃ W, owes (c : Thread nD τ) (0 : CellTallies nD τ sig Unit) W)
/-- The segment of a host stretch started at buffer contents `W`; `R` is carried through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when @main returns, apart from owing nothing: its unscoped buffers with contents `B12` and its
    random-number register in some state. -/
abbrev Tₙ (c : Dev nD) : sProp 𝕄 := iprop(StableHlo.held (c : Thread nD τ) (Pipeline.ucRefs τ sig) (B12 m c) ∗ ∃ r, prngReg c r)

/-! ## The layers' shared array: which windows stand on it, and at which shares -/

/-- Away from window 5 the windows of pipeline 2 stand on distinct arrays. -/
theorem arr_inj_but5_2 : Set.InjOn (Pipeline.arrRef spec2) ((Finset.univ.erase 5 : Finset (Fin cfg2.W)) : Set (Fin cfg2.W)) := by
  have key : ∀ a b : Fin 7, a ≠ 5 → b ≠ 5 → Pipeline.arrRef spec2 a = Pipeline.arrRef spec2 b → a = b := by decide
  exact fun a ha b hb e => key a b (Finset.ne_of_mem_erase (Finset.mem_coe.mp ha)) (Finset.ne_of_mem_erase (Finset.mem_coe.mp hb)) e
/-- Every window of pipeline 2 but 2 and 5 holds its array at the full share. -/
theorem share_full_but_2 (c : Dev nD) (V : (c : Dev nD) → (b : Ref sig .tc) → Buf (Elt F) ((c : Thread nD τ).loc b)) :
    ∀ w : Fin cfg2.W, w ≠ 2 → w ≠ 5 → (dat2 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 2: the unscoped buffers at `V c` are its arrays at `V c`'s contents and the rest. -/
theorem bufs_eq_arrays2 (c : Dev nD) (V : (c : Dev nD) → (b : Ref sig .tc) → Buf (Elt F) ((c : Thread nD τ).loc b))
    (W : (b : Ref sig .tc) → Buf (Elt F) ((c : Thread nD τ).loc b))
    (A : (w : Fin cfg2.W) → Buf (Elt F) ((cfg2.spec w).arr.view.loc (c.tc : Thread nD τ))) (hA : ∀ w, A w = W (Pipeline.arrRef spec2 w)) :
    (unscopedBufs c W : sProp 𝕄) = iprop((dat2 V c).arrays A ∗ Pipeline.unscopedRest spec2 c W) :=
  Pipeline.unscopedBufs_eq_arrays_two_on_one (dat2 V c) arr_whole2 (by decide) 2 5 (by decide) (by decide) arr_inj_but5_2
    rfl rfl (share_full_but_2 c V) W A hA

/-- Away from window 5 the windows of pipeline 3 stand on distinct arrays. -/
theorem arr_inj_but5_3 : Set.InjOn (Pipeline.arrRef spec3) ((Finset.univ.erase 5 : Finset (Fin cfg3.W)) : Set (Fin cfg3.W)) := by
  have key : ∀ a b : Fin 7, a ≠ 5 → b ≠ 5 → Pipeline.arrRef spec3 a = Pipeline.arrRef spec3 b → a = b := by decide
  exact fun a ha b hb e => key a b (Finset.ne_of_mem_erase (Finset.mem_coe.mp ha)) (Finset.ne_of_mem_erase (Finset.mem_coe.mp hb)) e
/-- Every window of pipeline 3 but 2 and 5 holds its array at the full share. -/
theorem share_full_but_3 (c : Dev nD) (V : (c : Dev nD) → (b : Ref sig .tc) → Buf (Elt F) ((c : Thread nD τ).loc b)) :
    ∀ w : Fin cfg3.W, w ≠ 2 → w ≠ 5 → (dat3 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 3: the unscoped buffers at `V c` are its arrays at `V c`'s contents and the rest. -/
theorem bufs_eq_arrays3 (c : Dev nD) (V : (c : Dev nD) → (b : Ref sig .tc) → Buf (Elt F) ((c : Thread nD τ).loc b))
    (W : (b : Ref sig .tc) → Buf (Elt F) ((c : Thread nD τ).loc b))
    (A : (w : Fin cfg3.W) → Buf (Elt F) ((cfg3.spec w).arr.view.loc (c.tc : Thread nD τ))) (hA : ∀ w, A w = W (Pipeline.arrRef spec3 w)) :
    (unscopedBufs c W : sProp 𝕄) = iprop((dat3 V c).arrays A ∗ Pipeline.unscopedRest spec3 c W) :=
  Pipeline.unscopedBufs_eq_arrays_two_on_one (dat3 V c) arr_whole3 (by decide) 2 5 (by decide) (by decide) arr_inj_but5_3
    rfl rfl (share_full_but_3 c V) W A hA

/-- Away from window 5 the windows of pipeline 4 stand on distinct arrays. -/
theorem arr_inj_but5_4 : Set.InjOn (Pipeline.arrRef spec4) ((Finset.univ.erase 5 : Finset (Fin cfg4.W)) : Set (Fin cfg4.W)) := by
  have key : ∀ a b : Fin 7, a ≠ 5 → b ≠ 5 → Pipeline.arrRef spec4 a = Pipeline.arrRef spec4 b → a = b := by decide
  exact fun a ha b hb e => key a b (Finset.ne_of_mem_erase (Finset.mem_coe.mp ha)) (Finset.ne_of_mem_erase (Finset.mem_coe.mp hb)) e
/-- Every window of pipeline 4 but 2 and 5 holds its array at the full share. -/
theorem share_full_but_4 (c : Dev nD) (V : (c : Dev nD) → (b : Ref sig .tc) → Buf (Elt F) ((c : Thread nD τ).loc b)) :
    ∀ w : Fin cfg4.W, w ≠ 2 → w ≠ 5 → (dat4 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 4: the unscoped buffers at `V c` are its arrays at `V c`'s contents and the rest. -/
theorem bufs_eq_arrays4 (c : Dev nD) (V : (c : Dev nD) → (b : Ref sig .tc) → Buf (Elt F) ((c : Thread nD τ).loc b))
    (W : (b : Ref sig .tc) → Buf (Elt F) ((c : Thread nD τ).loc b))
    (A : (w : Fin cfg4.W) → Buf (Elt F) ((cfg4.spec w).arr.view.loc (c.tc : Thread nD τ))) (hA : ∀ w, A w = W (Pipeline.arrRef spec4 w)) :
    (unscopedBufs c W : sProp 𝕄) = iprop((dat4 V c).arrays A ∗ Pipeline.unscopedRest spec4 c W) :=
  Pipeline.unscopedBufs_eq_arrays_two_on_one (dat4 V c) arr_whole4 (by decide) 2 5 (by decide) (by decide) arr_inj_but5_4
    rfl rfl (share_full_but_4 c V) W A hA

/-! ## The regions as segments -/

set_option backward.isDefEq.respectTransparency.types false in
/-- REGION 0, entered with every unscoped buffer at `B3` and left with them at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, entered with every unscoped buffer at `B5` and left with them at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (X6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2, entered with every unscoped buffer at `B7` and left with them at `B8`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit : (unscopedBufs c (E7 m c) : sProp 𝕄)
        ⊢ iprop((pdats m 2 c).arrays ((pdats m 2 c).arrAt · 0) ∗ Pipeline.unscopedRest spec2 c (E7 m c)) :=
      Entails.of_eq (bufs_eq_arrays2 c (E7 m) (E7 m c) _ (fun w => A_eq2 (E7 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 2).pre c (fun _ => fullShare) (adm 2).1 ∗ Pipeline.scopedRest spec2 c)
        ⊢ (Pipeline.ΦA spec2 c : sProp 𝕄) by
      unfold Pipeline.ΦA
      iintro ⟨Hp, -, Hr⟩
      isplitl [Hr]; · iexact Hr
      iexact Hp).trans (hin2 (E7 m) c)
  hout c := (hout2 (E7 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 2 c).arrays ((pdats m 2 c).arrAt · cfg2.N) ∗ Pipeline.unscopedRest spec2 c (E7 m c))
        ⊢ (unscopedBufs c (X8 m c) : sProp 𝕄) := by
      rw [Pipeline.unscopedRest_congr spec2 c (E7 m c) (X8 m c) (exit_rest2 m c)]
      exact Entails.of_eq (bufs_eq_arrays2 c (E7 m) (X8 m c) _ (exit_arr2 m c)).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3, entered with every unscoped buffer at `B9` and left with them at `B10`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit : (unscopedBufs c (E9 m c) : sProp 𝕄)
        ⊢ iprop((pdats m 3 c).arrays ((pdats m 3 c).arrAt · 0) ∗ Pipeline.unscopedRest spec3 c (E9 m c)) :=
      Entails.of_eq (bufs_eq_arrays3 c (E9 m) (E9 m c) _ (fun w => A_eq3 (E9 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 3).pre c (fun _ => fullShare) (adm 3).1 ∗ Pipeline.scopedRest spec3 c)
        ⊢ (Pipeline.ΦA spec3 c : sProp 𝕄) by
      unfold Pipeline.ΦA
      iintro ⟨Hp, -, Hr⟩
      isplitl [Hr]; · iexact Hr
      iexact Hp).trans (hin3 (E9 m) c)
  hout c := (hout3 (E9 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 3 c).arrays ((pdats m 3 c).arrAt · cfg3.N) ∗ Pipeline.unscopedRest spec3 c (E9 m c))
        ⊢ (unscopedBufs c (X10 m c) : sProp 𝕄) := by
      rw [Pipeline.unscopedRest_congr spec3 c (E9 m c) (X10 m c) (exit_rest3 m c)]
      exact Entails.of_eq (bufs_eq_arrays3 c (E9 m) (X10 m c) _ (exit_arr3 m c)).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4, entered with every unscoped buffer at `B11` and left with them at `B12`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E11 m) c).loose
  hwaits := Pipeline.hwaits_of_owed_zero _ _ _ _ L lv 4 fun _ _ => rfl
  pre c := iprop(StableHlo.held (c : Thread nD τ) (Pipeline.ucRefs τ sig) (B11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E11 m c)
  hentry c := by
    rw [Pipeline.ownSems0_none]
    have hsplit : (unscopedBufs c (E11 m c) : sProp 𝕄)
        ⊢ iprop((pdats m 4 c).arrays ((pdats m 4 c).arrAt · 0) ∗ Pipeline.unscopedRest spec4 c (E11 m c)) :=
      Entails.of_eq (bufs_eq_arrays4 c (E11 m) (E11 m c) _ (fun w => A_eq4 (E11 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 4).pre c (fun _ => fullShare) (adm 4).1 ∗ Pipeline.scopedRest spec4 c)
        ⊢ (Pipeline.ΦA spec4 c : sProp 𝕄) by
      unfold Pipeline.ΦA
      iintro ⟨Hp, -, Hr⟩
      isplitl [Hr]; · iexact Hr
      iexact Hp).trans (hin4 (E11 m) c)
  hout c := (hout4 (E11 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 4 c).arrays ((pdats m 4 c).arrAt · cfg4.N) ∗ Pipeline.unscopedRest spec4 c (E11 m c))
        ⊢ (unscopedBufs c (X12 m c) : sProp 𝕄) := by
      rw [Pipeline.unscopedRest_congr spec4 c (E11 m c) (X12 m c) (exit_rest4 m c)]
      exact Entails.of_eq (bufs_eq_arrays4 c (E11 m) (X12 m c) _ (exit_arr4 m c)).symm
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the run -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m),
    .host (hseg hostOps4 hostOps4_sub hostOps4_fresh (B10 m)),
    .region (reg4 m) ]
/-- @main is the run of these items, in this order. -/
theorem main_run (c : Dev nD) : main (F := F) c = Pipeline.Seg.run (segs m) := (main_chain c).trans (by chain_rfl)

set_option backward.isDefEq.respectTransparency.types false in
/-- THE RUN. Start @main in memory `m`, all semaphore counters zero. Then it terminates under every fair schedule and
    never faults; when it has, the result buffer contains exactly what the write-backs of region 4 put there, and the
    ten argument buffers are as they were in `m`. -/
theorem run (ρ : Dev nD → PrngReg) : θ_run defs (onTc (τ := τ) (main (F := F))) ⟨m, fun _ => 0, ρ⟩ (fun r => ∀ c : Dev nD,
      r.2.mem ((c.tc : Thread nD τ).loc main_v44) = (dat4 (E11 m) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c =>
      ⟨(h c _ (mem_uc main_v44 (by decide))).trans (B12_out m c),
       (h c _ (mem_uc main_arg0 (by decide))).trans (B12_main_arg0 m c),
       (h c _ (mem_uc main_arg1 (by decide))).trans (B12_main_arg1 m c),
       (h c _ (mem_uc main_arg2 (by decide))).trans (B12_main_arg2 m c),
       (h c _ (mem_uc main_arg3 (by decide))).trans (B12_main_arg3 m c),
       (h c _ (mem_uc main_arg4 (by decide))).trans (B12_main_arg4 m c),
       (h c _ (mem_uc main_arg5 (by decide))).trans (B12_main_arg5 m c),
       (h c _ (mem_uc main_arg6 (by decide))).trans (B12_main_arg6 m c),
       (h c _ (mem_uc main_arg7 (by decide))).trans (B12_main_arg7 m c),
       (h c _ (mem_uc main_arg8 (by decide))).trans (B12_main_arg8 m c),
       (h c _ (mem_uc main_arg9 (by decide))).trans (B12_main_arg9 m c)⟩)

end Cert.KernelIdeal.Hand

end
-- ==== Proof.WordRegion0.lean ====
/- The first kernel launch of @main: the dense 8192 x 8192 adjacency matrix gets its self loops and is narrowed to
   bf16, tile by tile. The grid is 8 x 8; step `t` handles the 1024 x 1024 tile in tile-row `t / 8` and tile-column
   `t % 8`. A tile on the diagonal of the tiling contains a stretch of the matrix diagonal — exactly the tile's own
   diagonal — so there the body stores bf16(tile + identity); any other tile contains none of it and the body stores
   bf16(tile). This module says what the body finds in its two buffers at a step, what it leaves there, and proves
   that the printed body does so. -/
import proofs.«127076_j34282428956966_2_alg».proof.Proof.Gen.Kernel.Launch
import proofs.«127076_j34282428956966_2_alg».proof.Proof.Gen.Kernel.Skeleton
import proofs.«127076_j34282428956966_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds at the moment the region starts; everything below is relative to it
variable (V : (c : Dev nD) → (b : Ref sig .tc) → Buf (Elt F) ((c : Thread nD τ).loc b))

/-! ## Which arrays the two operands are -/

theorem arr0_0 : Pipeline.arrRef spec0 0 = main_v24 := rfl
theorem arr0_1 : Pipeline.arrRef spec0 1 = main_v31 := rfl

/-! ## The tile of each operand a grid step works on -/

/-- The 1024 x 1024 tile of operand `w` (0: the f32 adjacency matrix, 1: its bf16 copy with self loops) in tile-row
    `t / 8` and tile-column `t % 8`, cut out of the operand as it stands when the launch begins. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body of step `t` finds tile `t` of the adjacency matrix in its first buffer: every step has its own tile copied
    in, and the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## On the diagonal of the tiling, or off it -/

/-- The test guarding the body's first store: the tile-row equals the tile-column. -/
abbrev onDiag (i : grid0.Coords) : Prop := k0_cond1 i = 1#1
/-- The test guarding its second store: they differ. -/
abbrev offDiag (i : grid0.Coords) : Prop := k0_cond2 i = 1#1

/-- Step `t` has tile-row `t / 8` and tile-column `t % 8`, so the first test holds exactly at the steps 0, 9, 18, …, 63
    (checked at each of the 64 steps), -/
theorem onDiag_iff : ∀ t : Fin cfg0.N, onDiag (grid0.coords t) ↔ t.val / 8 = t.val % 8 :=
  (by decide +kernel : ∀ t : Fin grid0.N, onDiag (grid0.coords t) ↔ t.val / 8 = t.val % 8)
/-- and the second exactly at the other 56. -/
theorem offDiag_iff : ∀ t : Fin cfg0.N, offDiag (grid0.coords t) ↔ ¬t.val / 8 = t.val % 8 :=
  (by decide +kernel : ∀ t : Fin grid0.N, offDiag (grid0.coords t) ↔ ¬t.val / 8 = t.val % 8)

/-- One of the two stores happens at every step, so at no step is either buffer left as the body found it: the input's
    by definition, -/
theorem in_live0 : ∀ t : Fin cfg0.N, cfg0.idle 0 (grid0.coords t) = false := by decide +kernel
/-- the output's because the two tests are complementary (checked at each of the 64 steps). -/
theorem out_live0 : ∀ t : Fin cfg0.N, cfg0.idle 1 (grid0.coords t) = false := by decide +kernel

/-! ## The body reads and writes whole tiles -/

/-- All 1024 x 1024 entries of a tile buffer. -/
abbrev allTile0 : Rect S1024x1024 := Rect.unit (s := S1024x1024) ![0, 0] S1024x1024.size inb_S1024x1024_S1024x1024_0_0

/-! ## What a step leaves in the output buffer -/

/-- On the diagonal of the tiling: the one store writes `k0_pay2` of the input tile — the tile plus the 1024 x 1024
    identity (row index = column index), narrowed to bf16 — over the whole buffer. -/
def out0_diag_1 (x0 : Vec F S1024x1024 .f32) : Vec F S1024x1024 .bf16 :=
  View.canon [⟨allTile0, k0_pay2 (View.ld x0 allTile0)⟩]

/-- Off it: the one store writes `k0_pay3` of the input tile — the tile narrowed to bf16 — over the whole buffer. -/
def out0_off_1 (x0 : Vec F S1024x1024 .f32) : Vec F S1024x1024 .bf16 :=
  View.canon [⟨allTile0, k0_pay3 (View.ld x0 allTile0)⟩]

/-- Every entry of the output buffer lies in that one store's rectangle. -/
theorem store_fills_out0 (p0 : Vec F S1024x1024 .bf16) (y : S1024x1024.Idx) :
    ∃ pc ∈ ([⟨allTile0, p0⟩] : List (View.Piece (Elt F) S1024x1024 .bf16)), y ∈ pc.1.set :=
  View.cover_of_tiled [⟨allTile0, p0⟩] S1024x1024.size (by rfl) y

/-! ## The printed body does that -/

set_option maxHeartbeats 1000000 in
/-- At coordinates on the diagonal, run on two whole buffers holding a tile `x0` and anything at all, the body ends
    with the tile untouched and the output buffer at `out0_diag_1 x0`: the first branch is taken (it loads the old
    output, drops it, and stores), the second is skipped. -/
theorem sound_kernel0_diag (c : Dev nD) (E : Set ℕ) (i : grid0.Coords)
    (arg0 : Memref sig .tc .vmem S1024x1024 .f32) (harg0 : arg0.IsWhole) (arg1 : Memref sig .tc .vmem S1024x1024 .bf16) (harg1 : arg1.IsWhole)
    (hd : onDiag i) (ho : ¬offDiag i)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_diag_1 x0)) -∗ K ⟨⟩))
      ⊢ wp frame (wpE (defs₀ (F := F)) Variants.none c none) E (cc0__adj_selfloop_kernel i arg0 harg0 arg1 harg1) K := by
  simp only [cc0__adj_selfloop_kernel_eq_skeleton]; unfold cc0__adj_selfloop_kernel_skel
  unfold owns
  iintro ⟨⟨%f0, %hf0, H0⟩, ⟨%d1, %f1, -, H1⟩, Hk⟩
  subst hf0
  sl_exec (disch := first | exact hd | exact ho)
  sl_step
  iapply Hk
  isplitl [H0]
  · iexists f0; isplitr; · ipureintro; rfl
    iexact H0
  iexists _; isplitr
  swap; · iexact H1
  ipureintro
  exact View.read_writes_eq_canon _ _ _ (store_fills_out0 _)

set_option maxHeartbeats 1000000 in
/-- At coordinates off the diagonal the first branch is skipped and the second taken: the output buffer ends at
    `out0_off_1 x0`. -/
theorem sound_kernel0_off (c : Dev nD) (E : Set ℕ) (i : grid0.Coords)
    (arg0 : Memref sig .tc .vmem S1024x1024 .f32) (harg0 : arg0.IsWhole) (arg1 : Memref sig .tc .vmem S1024x1024 .bf16) (harg1 : arg1.IsWhole)
    (hd : ¬onDiag i) (ho : offDiag i)
    (x0 : Vec F S1024x1024 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_off_1 x0)) -∗ K ⟨⟩))
      ⊢ wp frame (wpE (defs₀ (F := F)) Variants.none c none) E (cc0__adj_selfloop_kernel i arg0 harg0 arg1 harg1) K := by
  simp only [cc0__adj_selfloop_kernel_eq_skeleton]; unfold cc0__adj_selfloop_kernel_skel
  unfold owns
  iintro ⟨⟨%f0, %hf0, H0⟩, ⟨%d1, %f1, -, H1⟩, Hk⟩
  subst hf0
  sl_exec (disch := first | exact hd | exact ho)
  sl_step
  iapply Hk
  isplitl [H0]
  · iexists f0; isplitr; · ipureintro; rfl
    iexact H0
  iexists _; isplitr
  swap; · iexact H1
  ipureintro
  exact View.read_writes_eq_canon _ _ _ (store_fills_out0 _)

/-! ## The launch's bookkeeping -/

/-- The output tile of step `t`: the input tile `t` with the identity added where `t / 8 = t % 8`, without it elsewhere,
    narrowed to bf16. -/
def out0_1 (c : Dev nD) (t : Fin cfg0.N) : Vec F S1024x1024 .bf16 :=
  if t.val / 8 = t.val % 8 then out0_diag_1 (iblk0 V c 0 t) else out0_off_1 (iblk0 V c 0 t)

theorem out0_1_diag (c : Dev nD) (t : Fin cfg0.N) (h : t.val / 8 = t.val % 8) :
    out0_1 V c t = out0_diag_1 (iblk0 V c 0 t) := if_pos h
theorem out0_1_off (c : Dev nD) (t : Fin cfg0.N) (h : ¬t.val / 8 = t.val % 8) :
    out0_1 V c t = out0_off_1 (iblk0 V c 0 t) := if_neg h

/-- What the launch is held to on core `c`: the two operands start as `V` has them; step `t` leaves the input buffer
    holding the tile it was given and the output buffer holding `out0_1` of it; nothing else the core owns is touched,
    no transfer is left pending, and every buffer is owned outright. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 V c t
  Φ _ := Pipeline.ΦA spec0 c
  q _ := fullShare
  owed _ := 0

/-- The operands start as `V` has them. -/
theorem A_eq0 (c : Dev nD) (w : Fin cfg0.W) : (dat0 V c).A w = V c (Pipeline.arrRef spec0 w) := by
  dsimp only [dat0]

/-- Step `t` leaves the input tile as it found it, -/
theorem after0_0 (c : Dev nD) (t : Fin cfg0.N) : (dat0 V c).after 0 t = iblk0 V c 0 t := by dsimp only [dat0]
/-- and tile `t` of the output at `out0_1`. -/
theorem after0_1 (c : Dev nD) (t : Fin cfg0.N) : (dat0 V c).after 1 t = out0_1 V c t := by dsimp only [dat0]

/-- What the input buffer holds when step `t`'s body starts. -/
theorem before0_0 (c : Dev nD) (t : Fin cfg0.N) (d) : (dat0 V c).before 0 t d = iblk0 V c 0 t :=
  before0_0_of V (dat0 V c) (A_eq0 V c 0) (after0_0 V c) t d

/-! ## One step of the launch -/

/-- What the core holds when step `t`'s body is called: the untouched rest, no pending transfer, and the two buffers
    the step is currently on, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and when it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- Step `t`: the input buffer holds tile `t`; `t / 8 = t % 8` or not decides which of the two runs above applies;
    since a store happens either way, both buffers come back at the contents `dat0` states. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [in_live0 t], after0_0]
  rw [show (dat0 V c).leavesExact 1 t = owns (c : Thread nD τ) (st0_1 t) fullShare ((dat0 V c).after 1 t) from by
    unfold Dat.leavesExact; rw [out_live0 t], after0_1]
  by_cases h : t.val / 8 = t.val % 8
  · rw [out0_1_diag V c t h]
    iintro ⟨HΦ, Ho, ⟨%d0, H0⟩, ⟨%d1, H1⟩⟩
    iapply (sound_kernel0_diag c Set.univ (grid0.coords t) _ _ _ _ ((onDiag_iff t).mpr h) (fun h' => (offDiag_iff t).mp h' h) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [out0_1_off V c t h]
    iintro ⟨HΦ, Ho, ⟨%d0, H0⟩, ⟨%d1, H1⟩⟩
    iapply (sound_kernel0_off c Set.univ (grid0.coords t) _ _ _ _ (fun h' => h ((onDiag_iff t).mp h')) ((offDiag_iff t).mpr h) (iblk0 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- Every step of the launch keeps to `dat0`. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordRegion1.lean ====
/- The embedding layer of the network, h0 = bf16(x · W_emb + b_emb), as the second kernel launch of @main runs it:
   four grid steps, step `t` producing rows 2048·t … 2048·t + 2047 of the 8192 x 512 result from the same rows of the
   node features, the whole 128 x 512 weight matrix and the 1 x 512 bias. This module says what the body finds in
   its four buffers at a step, what it leaves there, and proves that the printed body does so. -/
import proofs.«127076_j34282428956966_2_alg».proof.Proof.Gen.Kernel.Launch
import proofs.«127076_j34282428956966_2_alg».proof.Proof.Gen.Kernel.Skeleton
import proofs.«127076_j34282428956966_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds at the moment the region starts; everything below is relative to it
variable (V : (c : Dev nD) → (b : Ref sig .tc) → Buf (Elt F) ((c : Thread nD τ).loc b))

/-! ## Which arrays the four operands are -/

theorem arr1_0 : Pipeline.arrRef spec1 0 = main_v32 := rfl
theorem arr1_1 : Pipeline.arrRef spec1 1 = main_v33 := rfl
theorem arr1_2 : Pipeline.arrRef spec1 2 = main_v34 := rfl
theorem arr1_3 : Pipeline.arrRef spec1 3 = main_v35 := rfl

/-! ## The slice of each operand a grid step works on -/

/-- The slice of operand `w` that step `t` works on, cut out of the operand as it stands when the launch begins:
    rows 2048·t … 2048·t + 2047 of the features (`w = 0`) and of the result (`w = 3`); all of the weights
    (`w = 1`) and of the bias (`w = 2`) whatever the step. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body of step `t` finds rows 2048·t … of the features in its first buffer: a fresh slab is copied in for every
    step, and the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body of step `t` finds the whole weight matrix in its second buffer. It is copied in once, before step 0; the
    later steps copy nothing, but they ask for the same block (0, 0) as step 0 did, and no step writes to the buffer, so
    what step 0 found is still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias row in the third buffer: copied in once, asked for at block (0, 0) by every step, never
    written. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body reads and writes whole buffers -/

/-- All 2048 x 128 entries of the feature slab, -/
abbrev allX1 : Rect S2048x128 := Rect.unit (s := S2048x128) ![0, 0] S2048x128.size inb_S2048x128_S2048x128_0_0
/-- all 128 x 512 weights, -/
abbrev allW1 : Rect S128x512 := Rect.unit (s := S128x512) ![0, 0] S128x512.size inb_S128x512_S128x512_0_0
/-- the 1 x 512 bias row, -/
abbrev allB1 : Rect S1x512 := Rect.unit (s := S1x512) ![0, 0] S1x512.size inb_S1x512_S1x512_0_0
/-- and all 2048 x 512 entries of the result slab. -/
abbrev allH1 : Rect S2048x512 := Rect.unit (s := S2048x512) ![0, 0] S2048x512.size inb_S2048x512_S2048x512_0_0

/-! ## What a step leaves in the result buffer -/

/-- The result slab of a step as a function of its three inputs: the one store of the body writes `k1_pay1` — the
    slab times the weights, plus the bias row on every row, narrowed to bf16 — over the whole buffer. -/
def out1_3 (x0 : Vec F S2048x128 .bf16) (x1 : Vec F S128x512 .bf16) (x2 : Vec F S1x512 .f32) : Vec F S2048x512 .bf16 :=
  View.canon [⟨allH1, k1_pay1 (View.ld x0 allX1) (View.ld x1 allW1) (View.ld x2 allB1)⟩]

/-- Every entry of the result buffer lies in that one store's rectangle. -/
theorem store_fills_out1 (p0 : Vec F S2048x512 .bf16) (y : S2048x512.Idx) :
    ∃ pc ∈ ([⟨allH1, p0⟩] : List (View.Piece (Elt F) S2048x512 .bf16)), y ∈ pc.1.set :=
  View.cover_of_tiled [⟨allH1, p0⟩] S2048x512.size (by rfl) y

/-! ## The printed body does that -/

set_option maxHeartbeats 1000000 in
/-- Run on four whole buffers holding a feature slab `x0`, the weights `x1`, the bias `x2` and anything at all in the
    result buffer, the body ends with the three inputs untouched and the result buffer at `out1_3 x0 x1 x2`: it loads
    the four buffers (the old result is loaded and dropped) and stores once. -/
theorem sound_kernel1 (c : Dev nD) (E : Set ℕ) (i : grid1.Coords)
    (arg0 : Memref sig .tc .vmem S2048x128 .bf16) (harg0 : arg0.IsWhole) (arg1 : Memref sig .tc .vmem S128x512 .bf16) (harg1 : arg1.IsWhole)
    (arg2 : Memref sig .tc .vmem S1x512 .f32) (harg2 : arg2.IsWhole) (arg3 : Memref sig .tc .vmem S2048x512 .bf16) (harg3 : arg3.IsWhole)
    (x0 : Vec F S2048x128 .bf16) (x1 : Vec F S128x512 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__embed_kernel i arg0 harg0 arg1 harg1 arg2 harg2 arg3 harg3) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_fills_out1 _)

/-! ## The launch's bookkeeping -/

/-- What the launch is held to on core `c`: the four operands start as `V` has them; step `t` leaves each input buffer
    holding the slice it was given and the result buffer holding `out1_3` of the three slices; nothing else the core
    owns is touched, no transfer is left pending, and every buffer is owned outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The operands start as `V` has them. -/
theorem A_eq1 (c : Dev nD) (w : Fin cfg1.W) : (dat1 V c).A w = V c (Pipeline.arrRef spec1 w) := by
  dsimp only [dat1]

/-- Step `t` leaves the feature slab, the weights and the bias as it found them, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
/-- and rows 2048·t … of the result at bf16(slab · W + bias). -/
theorem after1_3 (c : Dev nD) (t : Fin cfg1.N) :
    (dat1 V c).after 3 t = out1_3 (iblk1 V c 0 t) (iblk1 V c 1 t) (iblk1 V c 2 t) := by dsimp only [dat1]

/-- What the three input buffers hold when step `t`'s body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## One step of the launch -/

/-- What the core holds when step `t`'s body is called: the untouched rest, no pending transfer, and the four buffers
    the step is currently on, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and when it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- Step `t`: the three input buffers hold the step's slices, so the body's run above applies with them; what the
    body does not use is handed through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Every step of the launch keeps to `dat1`. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordRegion2Runs.lean ====
/- Region 2 of @main (the first graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.Kernel.Launch
import proofs.«127076_j34282428956966_2_alg».proof.Proof.Gen.Kernel.Skeleton
import proofs.«127076_j34282428956966_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 is only read by the body. Where the pipeline skips its fetch the block index is the one of the point before,
    so the buffer still carries this point's block: fetched or not, the body finds the block of the array as it stood on entry. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 is only read by the body. Where the pipeline skips its fetch the block index is the one of the point before,
    so the buffer still carries this point's block: fetched or not, the body finds the block of the array as it stood on entry. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 is only read by the body. Where the pipeline skips its fetch the block index is the one of the point before,
    so the buffer still carries this point's block: fetched or not, the body finds the block of the array as it stood on entry. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3 is only read by the body. Where the pipeline skips its fetch the block index is the one of the point before,
    so the buffer still carries this point's block: fetched or not, the body finds the block of the array as it stood on entry. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4 is only read by the body. Where the pipeline skips its fetch the block index is the one of the point before,
    so the buffer still carries this point's block: fetched or not, the body finds the block of the array as it stood on entry. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5 is only read by the body. Where the pipeline skips its fetch the block index is the one of the point before,
    so the buffer still carries this point's block: fetched or not, the body finds the block of the array as it stood on entry. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's two conditions on the grid coordinates -/

/-- "k = 0": the accumulator is zeroed first. -/
abbrev cond2_0 (i : grid2.Coords) : Prop := (Scalar.cmpi .ne (Scalar.extui (Scalar.cmpi .eq (BitVec.ofNat 32 (i 1).val) 0#32)) 0#32) = 1#1
/-- It holds at the points t with t % 8 = 0. -/
theorem hcond2_0 : ∀ t : Fin cfg2.N, cond2_0 (grid2.coords t) ↔ t.val % 8 = 0 :=
  (by decide +kernel : ∀ t : Fin grid2.N, cond2_0 (grid2.coords t) ↔ t.val % 8 = 0)

/-- "k = 7": the output block is computed and stored. -/
abbrev cond2_1 (i : grid2.Coords) : Prop := k2_cond2 i = 1#1
/-- It holds at the points t with t % 8 = 7. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- Where k ≠ 7 nothing is stored into the output window, and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- Where k = 7 the output window is stored into. -/
theorem liveAt2_6 : ∀ t : Fin cfg2.N, cond2_1 (grid2.coords t) → cfg2.idle 6 (grid2.coords t) = false := by decide +kernel

/-! ## Which buffers the body is handed at point t -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x512 .bf16 := win2_6.stage (cfg2.slots t 6)
abbrev hs2_6 (t : Fin cfg2.N) : (ms2_6 t).IsWhole := hstage2_6 ((cfg2.slots t 6).cast nbuf2_6)
/-- The accumulator: a whole scoped buffer of the kernel's own, kept between points. -/
abbrev scM2_0 : Memref sig .tc .vmem S2048x512 .f32 := Memref.whole cc2_scratch0

/-- The scoped buffers other than the staging buffers and the accumulator: never opened. -/
abbrev restBut2 (c : Dev nD) : sProp 𝕄 :=
  Pipeline.scopedRestBut (Ix := Unit) (Name := ℕ) (U := UR sig nD τ) (Lvl := ℕ) (Val := Elt F) spec2 c [cc2_scratch0]

/-- What the launch gives the layer to work with besides its windows: its private buffers other than the staging ones,
    and the random-number register. Here the accumulator is taken out of those buffers and shown as a memref holding
    something. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.Kernel.Hand

end
-- ==== Proof.WordRegion2RunA.lean ====
/- Region 2, the body's run where k = 0: the accumulator is zeroed, then one product is added. Only the adjacency block,
   the feature block and its row scale are read; the accumulator may hold anything before, and ends with the two stores
   listed (last first). The list is found by running the body. -/
import proofs.«127076_j34282428956966_2_alg».proof.Proof.WordRegion2Runs

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion2RunB.lean ====
/- Region 2, the body's run where 0 < k < 7: one product is added to the accumulator, which holds what the point before left. -/
import proofs.«127076_j34282428956966_2_alg».proof.Proof.WordRegion2RunA

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion2RunC.lean ====
/- Region 2, the body's run where k = 7: the last product is added to the accumulator, and the output block is computed from it
   (row scale, weight matrix, bias) and stored. All six input windows are read; the output buffer may hold anything before. -/
import proofs.«127076_j34282428956966_2_alg».proof.Proof.WordRegion2RunB

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .bf16)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__gcn_layer_kernel_relu i arg2 harg2 arg3 harg3 arg4 harg4 arg5 harg5 arg6 harg6 arg7 harg7 arg8 harg8 arg9 harg9) K } := by
  refine ⟨?_, ?_, fun E K => ?run⟩
  case run =>
    simp only [cc2__gcn_layer_kernel_relu_eq_skeleton]; unfold cc2__gcn_layer_kernel_relu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.WordRegion2Named.lean ====
/- Region 2: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.WordRegion2RunC
import Idealize.ShloMosaic.Lib.Pipeline.Value

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz2 : (![0, 0] : Fin 2 → ℕ) = fun _ => 0 := by funext a; fin_cases a <;> rfl

/-! ## k = 0: zeroed, then one product added -/

/-- The two whole-buffer stores into the accumulator tile it. -/
theorem scover2_A_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (y : S2048x512.Idx) :
    ∃ pc ∈ (kernelRun2_A c i arg2 harg2 arg3 harg3 arg4 harg4 arg5 harg5 arg6 harg6 arg7 harg7 arg8 harg8 arg9 harg9 hc0 hc1 x0 x1 x2).1, y ∈ pc.1.set :=
  View.cover_of_tiledL (kernelRun2_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc2_A_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun2_A c i arg2 harg2 arg3 harg3 arg4 harg4 arg5 harg5 arg6 harg6 arg7 harg7 arg8 harg8 arg9 harg9 hc0 hc1 x0 x1 x2).1) = k2_pay2 x1 x2 (k2_pay1 (F := F)) x0 := by
  rw [View.read_writes_eq_canon _ _ _ (scover2_A_0 c i arg2 harg2 arg3 harg3 arg4 harg4 arg5 harg5 arg6 harg6 arg7 harg7 arg8 harg8 arg9 harg9 hc0 hc1 x0 x1 x2)]
  unfold kernelRun2_A; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2,
    View.readCov_unit_zero (S := S2048x512) _ hz2]

/-- The body where k = 0, over the payload names. -/
theorem sound_kernel2_A (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond2_0 i) (hc1 : ¬cond2_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k2_pay2 x1 x2 (k2_pay1 (F := F)) x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, HS0, Hk⟩
  iapply ((kernelRun2_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc2_A_eq c i arg2 harg2 arg3 harg3 arg4 harg4 arg5 harg5 arg6 harg6 arg7 harg7 arg8 harg8 arg9 harg9 hc0 hc1 x0 x1 x2 es0

/-! ## 0 < k < 7: one product added -/

theorem scover2_B_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 xs0).1, y ∈ pc.1.set :=
  View.cover_of_tiledL (kernelRun2_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc2_B_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun2_B c i arg2 harg2 arg3 harg3 arg4 harg4 arg5 harg5 arg6 harg6 arg7 harg7 arg8 harg8 arg9 harg9 hc0 hc1 x0 x1 x2 xs0).1) = k2_pay2 x1 x2 xs0 x0 := by
  rw [View.read_writes_eq_canon _ _ _ (scover2_B_0 c i arg2 harg2 arg3 harg3 arg4 harg4 arg5 harg5 arg6 harg6 arg7 harg7 arg8 harg8 arg9 harg9 hc0 hc1 x0 x1 x2 xs0)]
  unfold kernelRun2_B; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2,
    View.readCov_unit_zero (S := S2048x512) _ hz2]

/-- The body where 0 < k < 7, over the payload names. -/
theorem sound_kernel2_B (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : ¬cond2_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k2_pay2 x1 x2 xs0 x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, HS0, Hk⟩
  iapply ((kernelRun2_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc2_B_eq c i arg2 harg2 arg3 harg3 arg4 harg4 arg5 harg5 arg6 harg6 arg7 harg7 arg8 harg8 arg9 harg9 hc0 hc1 x0 x1 x2 xs0 es0

/-! ## k = 7: the last product added, the output block stored -/

theorem scover2_C_0 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover2_C_6 (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc2_C_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun2_C c i arg2 harg2 arg3 harg3 arg4 harg4 arg5 harg5 arg6 harg6 arg7 harg7 arg8 harg8 arg9 harg9 hc0 hc1 x0 x1 x2 x3 x4 x5 xs0).2.1) = k2_pay2 x1 x2 xs0 x0 := by
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2, View.ld_unit_zero (S := S512x512) hz2, View.ld_unit_zero (S := S1x512) hz2, View.ld_unit_zero (S := S2048x1) hz2,
    View.readCov_unit_zero (S := S2048x512) _ hz2]

/-- The output window's buffer then reads: the final step (row scale, weights, bias) of the accumulator just written,
    which the load before it reads back. -/
theorem out2_C_eq (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun2_C c i arg2 harg2 arg3 harg3 arg4 harg4 arg5 harg5 arg6 harg6 arg7 harg7 arg8 harg8 arg9 harg9 hc0 hc1 x0 x1 x2 x3 x4 x5 xs0).1) = k2_pay3 (k2_pay2 x1 x2 xs0 x0) x5 x3 x4 := by
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C; dsimp only
  sl_unfold_words
  rw [View.canon_cons_unit_zero hz2]
  simp only [View.readAt_eq_ld, Memref.IsWhole.read_unread, View.ld_unit_zero (S := S1024x512) hz2, View.ld_unit_zero (S := S1024x1) hz2, View.ld_unit_zero (S := S2048x1024) hz2, View.ld_unit_zero (S := S2048x512) hz2, View.ld_unit_zero (S := S512x512) hz2, View.ld_unit_zero (S := S1x512) hz2, View.ld_unit_zero (S := S2048x1) hz2,
    View.readCov_unit_zero (S := S2048x512) _ hz2]

/-- The body where k = 7, over the payload names. -/
theorem sound_kernel2_C (c : Dev nD) (i : grid2.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond2_0 i) (hc1 : cond2_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay3 (k2_pay2 x1 x2 xs0 x0) x5 x3 x4) ∗ owns (c : Thread nD τ) arg9 fullShare (k2_pay2 x1 x2 xs0 x0)) -∗ K ⟨⟩))
      ⊢ wp frame (wpE (defs₀ (F := F)) Variants.none c none) E (cc2__gcn_layer_kernel_relu i arg2 harg2 arg3 harg3 arg4 harg4 arg5 harg5 arg6 harg6 arg7 harg7 arg8 harg8 arg9 harg9) K := by
  iintro ⟨H0, H1, H2, H3, H4, H5, H6, HS0, Hk⟩
  iapply ((kernelRun2_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out2_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc2_C_eq c i arg2 harg2 arg3 harg3 arg4 harg4 arg5 harg5 arg6 harg6 arg7 harg7 arg8 harg8 arg9 harg9 hc0 hc1 x0 x1 x2 x3 x4 x5 xs0 es0

end Cert.Kernel.Hand

end
-- ==== Proof.WordRegion2.lean ====
/- Region 2: what holds after every point, and that the body keeps it so. After point t the accumulator holds the sum, over the
   k-steps of t's row block so far, of adjacency block times row-scaled feature block (`accAt2`, by recursion on the
   point: restarted from zeros where k = 0); where k = 7 the output window holds the final step of it (`outAt2`).
   The accumulator is a scoped buffer of the kernel's own, so it rides in the region invariant: before the first
   point at anything, afterwards at `accAt2` of the point before. -/
import proofs.«127076_j34282428956966_2_alg».proof.Proof.WordRegion2Named

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep2 (c : Dev nD) (t : Fin cfg2.N) (acc : Vec F S2048x512 .f32) : Vec F S2048x512 .f32 :=
  k2_pay2 (iblk2 V c 1 t) (iblk2 V c 2 t) acc (iblk2 V c 0 t)

/-- What the accumulator holds once point number `n` is done: one step applied to zeros if `n` starts a row block (k = 0),
    otherwise to what point `n - 1` left. -/
def accAt2 (c : Dev nD) : (n : ℕ) → n < cfg2.N → Vec F S2048x512 .f32
  | 0, hn => accStep2 V c ⟨0, hn⟩ (k2_pay1 (F := F))
  | n + 1, hn =>
    if (n + 1) % 8 = 0 then accStep2 V c ⟨n + 1, hn⟩ (k2_pay1 (F := F))
    else accStep2 V c ⟨n + 1, hn⟩ (accAt2 c n (Nat.lt_of_succ_lt hn))

/-- At a point with k = 0: one step from zeros. -/
theorem accAt2_first (c : Dev nD) (t : Fin cfg2.N) (h0 : t.val % 8 = 0) :
    accAt2 V c t.val t.isLt = accStep2 V c t (k2_pay1 (F := F)) := by
  obtain ⟨n, hn⟩ := t
  cases n with
  | zero => rfl
  | succ n => exact (if_pos h0)

/-- At a point with k ≠ 0: one step from what the point before left. -/
theorem accAt2_next (c : Dev nD) (t : Fin cfg2.N) (h0 : ¬t.val % 8 = 0) :
    accAt2 V c t.val t.isLt = accStep2 V c t (accAt2 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt2 (c : Dev nD) (t : Fin cfg2.N) : Vec F S2048x512 .bf16 :=
  k2_pay3 (accAt2 V c t.val t.isLt) (iblk2 V c 5 t) (iblk2 V c 3 t) (iblk2 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn)) ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (accAt2 V c (n - 1) (by omega))) ∗ restBut2 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt2`;
    between points the invariant is `PhiS2`; the core is in debt to no one; and the vector of inverse square-root
    degrees, on which windows 2 and 5 both stand, is held half by each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outAt2 V c t
  Φ t := PhiS2 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The seven windows' buffers after the body, read off the proof data. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outAt2 V c t := by dsimp only [dat2]

/-- So the body always finds an input's block in its buffer, whether or not the point fetched it. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## One point of the grid -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h1 : t.val % 8 = 7
  · have h0 : ¬t.val % 8 = 0 := by omega
    have hz : t.val ≠ 0 := by omega
    rw [show (dat2 V c).leavesExact 6 t = owns (c : Thread nD τ) (ms2_6 t) fullShare ((dat2 V c).after 6 t) from by
      unfold Dat.leavesExact; rw [liveAt2_6 t ((hcond2_1 t).mpr h1)], after2_6]
    unfold outAt2
    rw [accAt2_next V c t h0]; unfold accStep2
    rw [PhiS2_castSucc V c t, PhiS2_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1)
      (iblk2 V c 0 t) (iblk2 V c 1 t) (iblk2 V c 2 t) (iblk2 V c 3 t) (iblk2 V c 4 t) (iblk2 V c 5 t)
      (accAt2 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 8 = 0
    · rw [accAt2_first V c t h0]; unfold accStep2
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h))
          (iblk2 V c 0 t) (iblk2 V c 1 t) (iblk2 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h))
          (iblk2 V c 0 t) (iblk2 V c 1 t) (iblk2 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt2_next V c t h0]; unfold accStep2
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h))
        (iblk2 V c 0 t) (iblk2 V c 1 t) (iblk2 V c 2 t)
        (accAt2 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation2 (c : Dev nD) : BodyObligation (dat2 (F := F) V c) (defs₀ (F := F)) Variants.none () Set.univ := fun t => by
  rw [bigSep_W2, bigSep_W2]
  exact sound_body2 V c t

/-- On entry the accumulator may hold anything: the launch's invariant is the one before point 0. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Once a point has run, forgetting which sum the accumulator holds gives the launch's invariant back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]; · iexists _; iexact HS0
    iexact Hr
  iexact Hg

/-- In particular after the last point. -/
theorem hout2 (c : Dev nD) : (dat2 V c).Φ (Fin.last cfg2.N) ⊢ Pipeline.ΦA spec2 c :=
  Phi_out2 V c _ (by rw [Fin.val_last]; have : cfg2.N = 32 := N_2; omega)

end Region

end Cert.Kernel.Hand

end
-- ==== Proof.WordRegion3Runs.lean ====
/- Region 3 of @main (the second graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.Kernel.Launch
import proofs.«127076_j34282428956966_2_alg».proof.Proof.Gen.Kernel.Skeleton
import proofs.«127076_j34282428956966_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0 is only read by the body. Where the pipeline skips its fetch the block index is the one of the point before,
    so the buffer still carries this point's block: fetched or not, the body finds the block of the array as it stood on entry. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1 is only read by the body. Where the pipeline skips its fetch the block index is the one of the point before,
    so the buffer still carries this point's block: fetched or not, the body finds the block of the array as it stood on entry. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2 is only read by the body. Where the pipeline skips its fetch the block index is the one of the point before,
    so the buffer still carries this point's block: fetched or not, the body finds the block of the array as it stood on entry. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Window 3 is only read by the body. Where the pipeline skips its fetch the block index is the one of the point before,
    so the buffer still carries this point's block: fetched or not, the body finds the block of the array as it stood on entry. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Window 4 is only read by the body. Where the pipeline skips its fetch the block index is the one of the point before,
    so the buffer still carries this point's block: fetched or not, the body finds the block of the array as it stood on entry. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Window 5 is only read by the body. Where the pipeline skips its fetch the block index is the one of the point before,
    so the buffer still carries this point's block: fetched or not, the body finds the block of the array as it stood on entry. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Blocks

/-! ## The body's two conditions on the grid coordinates -/

/-- "k = 0": the accumulator is zeroed first. -/
abbrev cond3_0 (i : grid3.Coords) : Prop := (Scalar.cmpi .ne (Scalar.extui (Scalar.cmpi .eq (BitVec.ofNat 32 (i 1).val) 0#32)) 0#32) = 1#1
/-- It holds at the points t with t % 8 = 0. -/
theorem hcond3_0 : ∀ t : Fin cfg3.N, cond3_0 (grid3.coords t) ↔ t.val % 8 = 0 :=
  (by decide +kernel : ∀ t : Fin grid3.N, cond3_0 (grid3.coords t) ↔ t.val % 8 = 0)

/-- "k = 7": the output block is computed and stored. -/
abbrev cond3_1 (i : grid3.Coords) : Prop := k3_cond2 i = 1#1
/-- It holds at the points t with t % 8 = 7. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl
/-- Where k ≠ 7 nothing is stored into the output window, and its block is not written back. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- Where k = 7 the output window is stored into. -/
theorem liveAt3_6 : ∀ t : Fin cfg3.N, cond3_1 (grid3.coords t) → cfg3.idle 6 (grid3.coords t) = false := by decide +kernel

/-! ## Which buffers the body is handed at point t -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x512 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x512 .bf16 := win3_6.stage (cfg3.slots t 6)
abbrev hs3_6 (t : Fin cfg3.N) : (ms3_6 t).IsWhole := hstage3_6 ((cfg3.slots t 6).cast nbuf3_6)
/-- The accumulator: a whole scoped buffer of the kernel's own, kept between points. -/
abbrev scM3_0 : Memref sig .tc .vmem S2048x512 .f32 := Memref.whole cc3_scratch0

/-- The scoped buffers other than the staging buffers and the accumulator: never opened. -/
abbrev restBut3 (c : Dev nD) : sProp 𝕄 :=
  Pipeline.scopedRestBut (Ix := Unit) (Name := ℕ) (U := UR sig nD τ) (Lvl := ℕ) (Val := Elt F) spec3 c [cc3_scratch0]

/-- What the launch gives the layer to work with besides its windows: its private buffers other than the staging ones,
    and the random-number register. Here the accumulator is taken out of those buffers and shown as a memref holding
    something. -/
theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.Kernel.Hand

end
-- ==== Proof.WordRegion3RunA.lean ====
/- Region 3, the body's run where k = 0: the accumulator is zeroed, then one product is added. Only the adjacency block,
   the feature block and its row scale are read; the accumulator may hold anything before, and ends with the two stores
   listed (last first). The list is found by running the body. -/
import proofs.«127076_j34282428956966_2_alg».proof.Proof.WordRegion3Runs

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_A (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion3RunB.lean ====
/- Region 3, the body's run where 0 < k < 7: one product is added to the accumulator, which holds what the point before left. -/
import proofs.«127076_j34282428956966_2_alg».proof.Proof.WordRegion3RunA

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_B (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion3RunC.lean ====
/- Region 3, the body's run where k = 7: the last product is added to the accumulator, and the output block is computed from it
   (row scale, weight matrix, bias) and stored. All six input windows are read; the output buffer may hold anything before. -/
import proofs.«127076_j34282428956966_2_alg».proof.Proof.WordRegion3RunB

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun3_C (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .bf16)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc3__gcn_layer_kernel_relu i arg2 harg2 arg3 harg3 arg4 harg4 arg5 harg5 arg6 harg6 arg7 harg7 arg8 harg8 arg9 harg9) K } := by
  refine ⟨?_, ?_, fun E K => ?run⟩
  case run =>
    simp only [cc3__gcn_layer_kernel_relu_eq_skeleton]; unfold cc3__gcn_layer_kernel_relu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.WordRegion3Named.lean ====
/- Region 3: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.WordRegion3RunC
import Idealize.ShloMosaic.Lib.Pipeline.Value

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz3 : (![0, 0] : Fin 2 → ℕ) = fun _ => 0 := by funext a; fin_cases a <;> rfl

/-! ## k = 0: zeroed, then one product added -/

/-- The two whole-buffer stores into the accumulator tile it. -/
theorem scover3_A_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (y : S2048x512.Idx) :
    ∃ pc ∈ (kernelRun3_A c i arg2 harg2 arg3 harg3 arg4 harg4 arg5 harg5 arg6 harg6 arg7 harg7 arg8 harg8 arg9 harg9 hc0 hc1 x0 x1 x2).1, y ∈ pc.1.set :=
  View.cover_of_tiledL (kernelRun3_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc3_A_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun3_A c i arg2 harg2 arg3 harg3 arg4 harg4 arg5 harg5 arg6 harg6 arg7 harg7 arg8 harg8 arg9 harg9 hc0 hc1 x0 x1 x2).1) = k3_pay2 x1 x2 (k3_pay1 (F := F)) x0 := by
  rw [View.read_writes_eq_canon _ _ _ (scover3_A_0 c i arg2 harg2 arg3 harg3 arg4 harg4 arg5 harg5 arg6 harg6 arg7 harg7 arg8 harg8 arg9 harg9 hc0 hc1 x0 x1 x2)]
  unfold kernelRun3_A; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3,
    View.readCov_unit_zero (S := S2048x512) _ hz3]

/-- The body where k = 0, over the payload names. -/
theorem sound_kernel3_A (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : cond3_0 i) (hc1 : ¬cond3_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k3_pay2 x1 x2 (k3_pay1 (F := F)) x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, HS0, Hk⟩
  iapply ((kernelRun3_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc3_A_eq c i arg2 harg2 arg3 harg3 arg4 harg4 arg5 harg5 arg6 harg6 arg7 harg7 arg8 harg8 arg9 harg9 hc0 hc1 x0 x1 x2 es0

/-! ## 0 < k < 7: one product added -/

theorem scover3_B_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (y : S2048x512.Idx) :
    ∃ pc ∈ (kernelRun3_B c i arg2 harg2 arg3 harg3 arg4 harg4 arg5 harg5 arg6 harg6 arg7 harg7 arg8 harg8 arg9 harg9 hc0 hc1 x0 x1 x2 xs0).1, y ∈ pc.1.set :=
  View.cover_of_tiledL (kernelRun3_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc3_B_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun3_B c i arg2 harg2 arg3 harg3 arg4 harg4 arg5 harg5 arg6 harg6 arg7 harg7 arg8 harg8 arg9 harg9 hc0 hc1 x0 x1 x2 xs0).1) = k3_pay2 x1 x2 xs0 x0 := by
  rw [View.read_writes_eq_canon _ _ _ (scover3_B_0 c i arg2 harg2 arg3 harg3 arg4 harg4 arg5 harg5 arg6 harg6 arg7 harg7 arg8 harg8 arg9 harg9 hc0 hc1 x0 x1 x2 xs0)]
  unfold kernelRun3_B; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3,
    View.readCov_unit_zero (S := S2048x512) _ hz3]

/-- The body where 0 < k < 7, over the payload names. -/
theorem sound_kernel3_B (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : ¬cond3_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k3_pay2 x1 x2 xs0 x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, HS0, Hk⟩
  iapply ((kernelRun3_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc3_B_eq c i arg2 harg2 arg3 harg3 arg4 harg4 arg5 harg5 arg6 harg6 arg7 harg7 arg8 harg8 arg9 harg9 hc0 hc1 x0 x1 x2 xs0 es0

/-! ## k = 7: the last product added, the output block stored -/

theorem scover3_C_0 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun3_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun3_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover3_C_6 (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun3_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun3_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc3_C_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun3_C c i arg2 harg2 arg3 harg3 arg4 harg4 arg5 harg5 arg6 harg6 arg7 harg7 arg8 harg8 arg9 harg9 hc0 hc1 x0 x1 x2 x3 x4 x5 xs0).2.1) = k3_pay2 x1 x2 xs0 x0 := by
  rw [View.read_writes_eq_canon _ _ _ (scover3_C_0 c i arg2 harg2 arg3 harg3 arg4 harg4 arg5 harg5 arg6 harg6 arg7 harg7 arg8 harg8 arg9 harg9 hc0 hc1 x0 x1 x2 x3 x4 x5 xs0)]
  unfold kernelRun3_C; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3, View.ld_unit_zero (S := S512x512) hz3, View.ld_unit_zero (S := S1x512) hz3, View.ld_unit_zero (S := S2048x1) hz3,
    View.readCov_unit_zero (S := S2048x512) _ hz3]

/-- The output window's buffer then reads: the final step (row scale, weights, bias) of the accumulator just written,
    which the load before it reads back. -/
theorem out3_C_eq (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun3_C c i arg2 harg2 arg3 harg3 arg4 harg4 arg5 harg5 arg6 harg6 arg7 harg7 arg8 harg8 arg9 harg9 hc0 hc1 x0 x1 x2 x3 x4 x5 xs0).1) = k3_pay3 (k3_pay2 x1 x2 xs0 x0) x5 x3 x4 := by
  rw [View.read_writes_eq_canon _ _ _ (cover3_C_6 c i arg2 harg2 arg3 harg3 arg4 harg4 arg5 harg5 arg6 harg6 arg7 harg7 arg8 harg8 arg9 harg9 hc0 hc1 x0 x1 x2 x3 x4 x5 xs0)]
  unfold kernelRun3_C; dsimp only
  sl_unfold_words
  rw [View.canon_cons_unit_zero hz3]
  simp only [View.readAt_eq_ld, Memref.IsWhole.read_unread, View.ld_unit_zero (S := S1024x512) hz3, View.ld_unit_zero (S := S1024x1) hz3, View.ld_unit_zero (S := S2048x1024) hz3, View.ld_unit_zero (S := S2048x512) hz3, View.ld_unit_zero (S := S512x512) hz3, View.ld_unit_zero (S := S1x512) hz3, View.ld_unit_zero (S := S2048x1) hz3,
    View.readCov_unit_zero (S := S2048x512) _ hz3]

/-- The body where k = 7, over the payload names. -/
theorem sound_kernel3_C (c : Dev nD) (i : grid3.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .bf16) (harg8 : arg8.IsWhole) (arg9 : Memref sig .tc .vmem S2048x512 .f32) (harg9 : arg9.IsWhole) (hc0 : ¬cond3_0 i) (hc1 : cond3_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k3_pay3 (k3_pay2 x1 x2 xs0 x0) x5 x3 x4) ∗ owns (c : Thread nD τ) arg9 fullShare (k3_pay2 x1 x2 xs0 x0)) -∗ K ⟨⟩))
      ⊢ wp frame (wpE (defs₀ (F := F)) Variants.none c none) E (cc3__gcn_layer_kernel_relu i arg2 harg2 arg3 harg3 arg4 harg4 arg5 harg5 arg6 harg6 arg7 harg7 arg8 harg8 arg9 harg9) K := by
  iintro ⟨H0, H1, H2, H3, H4, H5, H6, HS0, Hk⟩
  iapply ((kernelRun3_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out3_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc3_C_eq c i arg2 harg2 arg3 harg3 arg4 harg4 arg5 harg5 arg6 harg6 arg7 harg7 arg8 harg8 arg9 harg9 hc0 hc1 x0 x1 x2 x3 x4 x5 xs0 es0

end Cert.Kernel.Hand

end
-- ==== Proof.WordRegion3.lean ====
/- Region 3: what holds after every point, and that the body keeps it so. After point t the accumulator holds the sum, over the
   k-steps of t's row block so far, of adjacency block times row-scaled feature block (`accAt3`, by recursion on the
   point: restarted from zeros where k = 0); where k = 7 the output window holds the final step of it (`outAt3`).
   The accumulator is a scoped buffer of the kernel's own, so it rides in the region invariant: before the first
   point at anything, afterwards at `accAt3` of the point before. -/
import proofs.«127076_j34282428956966_2_alg».proof.Proof.WordRegion3Named

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep3 (c : Dev nD) (t : Fin cfg3.N) (acc : Vec F S2048x512 .f32) : Vec F S2048x512 .f32 :=
  k3_pay2 (iblk3 V c 1 t) (iblk3 V c 2 t) acc (iblk3 V c 0 t)

/-- What the accumulator holds once point number `n` is done: one step applied to zeros if `n` starts a row block (k = 0),
    otherwise to what point `n - 1` left. -/
def accAt3 (c : Dev nD) : (n : ℕ) → n < cfg3.N → Vec F S2048x512 .f32
  | 0, hn => accStep3 V c ⟨0, hn⟩ (k3_pay1 (F := F))
  | n + 1, hn =>
    if (n + 1) % 8 = 0 then accStep3 V c ⟨n + 1, hn⟩ (k3_pay1 (F := F))
    else accStep3 V c ⟨n + 1, hn⟩ (accAt3 c n (Nat.lt_of_succ_lt hn))

/-- At a point with k = 0: one step from zeros. -/
theorem accAt3_first (c : Dev nD) (t : Fin cfg3.N) (h0 : t.val % 8 = 0) :
    accAt3 V c t.val t.isLt = accStep3 V c t (k3_pay1 (F := F)) := by
  obtain ⟨n, hn⟩ := t
  cases n with
  | zero => rfl
  | succ n => exact (if_pos h0)

/-- At a point with k ≠ 0: one step from what the point before left. -/
theorem accAt3_next (c : Dev nD) (t : Fin cfg3.N) (h0 : ¬t.val % 8 = 0) :
    accAt3 V c t.val t.isLt = accStep3 V c t (accAt3 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt3 (c : Dev nD) (t : Fin cfg3.N) : Vec F S2048x512 .bf16 :=
  k3_pay3 (accAt3 V c t.val t.isLt) (iblk3 V c 5 t) (iblk3 V c 3 t) (iblk3 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn)) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn)) ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega))) ∗ restBut3 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt3`;
    between points the invariant is `PhiS3`; the core is in debt to no one; and the vector of inverse square-root
    degrees, on which windows 2 and 5 both stand, is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => outAt3 V c t
  Φ t := PhiS3 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

/-- The seven windows' buffers after the body, read off the proof data. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = outAt3 V c t := by dsimp only [dat3]

/-- So the body always finds an input's block in its buffer, whether or not the point fetched it. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## One point of the grid -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  by_cases h1 : t.val % 8 = 7
  · have h0 : ¬t.val % 8 = 0 := by omega
    have hz : t.val ≠ 0 := by omega
    rw [show (dat3 V c).leavesExact 6 t = owns (c : Thread nD τ) (ms3_6 t) fullShare ((dat3 V c).after 6 t) from by
      unfold Dat.leavesExact; rw [liveAt3_6 t ((hcond3_1 t).mpr h1)], after3_6]
    unfold outAt3
    rw [accAt3_next V c t h0]; unfold accStep3
    rw [PhiS3_castSucc V c t, PhiS3_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) ((hcond3_1 t).mpr h1)
      (iblk3 V c 0 t) (iblk3 V c 1 t) (iblk3 V c 2 t) (iblk3 V c 3 t) (iblk3 V c 4 t) (iblk3 V c 5 t)
      (accAt3 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat3 V c) 6 t (idleAt3_6 t (fun h => h1 ((hcond3_1 t).mp h))) (noFlush3_6 t (fun h => h1 ((hcond3_1 t).mp h)))]
    by_cases h0 : t.val % 8 = 0
    · rw [accAt3_first V c t h0]; unfold accStep3
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h))
          (iblk3 V c 0 t) (iblk3 V c 1 t) (iblk3 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) ((hcond3_0 t).mpr h0) (fun h => h1 ((hcond3_1 t).mp h))
          (iblk3 V c 0 t) (iblk3 V c 1 t) (iblk3 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt3_next V c t h0]; unfold accStep3
      rw [PhiS3_castSucc V c t, PhiS3_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) (fun h => h0 ((hcond3_0 t).mp h)) (fun h => h1 ((hcond3_1 t).mp h))
        (iblk3 V c 0 t) (iblk3 V c 1 t) (iblk3 V c 2 t)
        (accAt3 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation3 (c : Dev nD) : BodyObligation (dat3 (F := F) V c) (defs₀ (F := F)) Variants.none () Set.univ := fun t => by
  rw [bigSep_W3, bigSep_W3]
  exact sound_body3 V c t

/-- On entry the accumulator may hold anything: the launch's invariant is the one before point 0. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- Once a point has run, forgetting which sum the accumulator holds gives the launch's invariant back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]; · iexists _; iexact HS0
    iexact Hr
  iexact Hg

/-- In particular after the last point. -/
theorem hout3 (c : Dev nD) : (dat3 V c).Φ (Fin.last cfg3.N) ⊢ Pipeline.ΦA spec3 c :=
  Phi_out3 V c _ (by rw [Fin.val_last]; have : cfg3.N = 32 := N_3; omega)

end Region

end Cert.Kernel.Hand

end
-- ==== Proof.WordRegion4Runs.lean ====
/- Region 4 of @main (the third and last graph-convolution layer): what its three control cases share.
   The grid is 4 x 8; point t has coordinates (i, k) = (t / 8, t % 8). At k = 0 the body zeroes its accumulator
   (a scratch buffer kept between points), at every k it adds one 2048 x 1024 by 1024 x 512 product to it, and at
   k = 7 it also scales the accumulator by rows, multiplies by the weight matrix, adds the bias, applies what the layer
   ends with, and stores the 2048 x 512 output block. Here: the slice of every window's array that a point works on, the two conditions as facts about t % 8, the points
   at which the output window is left alone, the buffers a point's body receives, and the accumulator taken out of the
   layer's private buffers. -/
import proofs.«127076_j34282428956966_2_alg».proof.Proof.Gen.Kernel.Launch
import proofs.«127076_j34282428956966_2_alg».proof.Proof.Gen.Kernel.Skeleton
import proofs.«127076_j34282428956966_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- what every TensorCore buffer holds when this layer's call starts
variable (V : (c : Dev nD) → (b : Ref sig .tc) → Buf (Elt F) ((c : Thread nD τ).loc b))

/-- The part of window `w`'s array that point `t` works on, the array taken at its contents on entry to the layer. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 is only read by the body. Where the pipeline skips its fetch the block index is the one of the point before,
    so the buffer still carries this point's block: fetched or not, the body finds the block of the array as it stood on entry. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 is only read by the body. Where the pipeline skips its fetch the block index is the one of the point before,
    so the buffer still carries this point's block: fetched or not, the body finds the block of the array as it stood on entry. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2 is only read by the body. Where the pipeline skips its fetch the block index is the one of the point before,
    so the buffer still carries this point's block: fetched or not, the body finds the block of the array as it stood on entry. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Window 3 is only read by the body. Where the pipeline skips its fetch the block index is the one of the point before,
    so the buffer still carries this point's block: fetched or not, the body finds the block of the array as it stood on entry. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Window 4 is only read by the body. Where the pipeline skips its fetch the block index is the one of the point before,
    so the buffer still carries this point's block: fetched or not, the body finds the block of the array as it stood on entry. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Window 5 is only read by the body. Where the pipeline skips its fetch the block index is the one of the point before,
    so the buffer still carries this point's block: fetched or not, the body finds the block of the array as it stood on entry. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Blocks

/-! ## The body's two conditions on the grid coordinates -/

/-- "k = 0": the accumulator is zeroed first. -/
abbrev cond4_0 (i : grid4.Coords) : Prop := (Scalar.cmpi .ne (Scalar.extui (Scalar.cmpi .eq (BitVec.ofNat 32 (i 1).val) 0#32)) 0#32) = 1#1
/-- It holds at the points t with t % 8 = 0. -/
theorem hcond4_0 : ∀ t : Fin cfg4.N, cond4_0 (grid4.coords t) ↔ t.val % 8 = 0 :=
  (by decide +kernel : ∀ t : Fin grid4.N, cond4_0 (grid4.coords t) ↔ t.val % 8 = 0)

/-- "k = 7": the output block is computed and stored. -/
abbrev cond4_1 (i : grid4.Coords) : Prop := k4_cond2 i = 1#1
/-- It holds at the points t with t % 8 = 7. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
/-- Where k ≠ 7 nothing is stored into the output window, and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- Where k = 7 the output window is stored into. -/
theorem liveAt4_6 : ∀ t : Fin cfg4.N, cond4_1 (grid4.coords t) → cfg4.idle 6 (grid4.coords t) = false := by decide +kernel

/-! ## Which buffers the body is handed at point t -/
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x512 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x512 .bf16 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x512 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S2048x1 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x512 .f32 := win4_6.stage (cfg4.slots t 6)
abbrev hs4_6 (t : Fin cfg4.N) : (ms4_6 t).IsWhole := hstage4_6 ((cfg4.slots t 6).cast nbuf4_6)
/-- The accumulator: a whole scoped buffer of the kernel's own, kept between points. -/
abbrev scM4_0 : Memref sig .tc .vmem S2048x512 .f32 := Memref.whole cc4_scratch0

/-- The scoped buffers other than the staging buffers and the accumulator: never opened. -/
abbrev restBut4 (c : Dev nD) : sProp 𝕄 :=
  Pipeline.scopedRestBut (Ix := Unit) (Name := ℕ) (U := UR sig nD τ) (Lvl := ℕ) (Val := Elt F) spec4 c [cc4_scratch0]

/-- What the launch gives the layer to work with besides its windows: its private buffers other than the staging ones,
    and the random-number register. Here the accumulator is taken out of those buffers and shown as a memref holding
    something. -/
theorem PhiA4_eq (c : Dev nD) :
    (Pipeline.ΦA spec4 c : sProp 𝕄)
      = iprop(iprop(iprop((∃ d, owns (c : Thread nD τ) scM4_0 fullShare d)) ∗ restBut4 (F := F) c) ∗ (∃ r, prngReg c r)) := by
  unfold Pipeline.ΦA; rw [scopedRest4_split]; simp only [scM4_0, owns_whole]; try rfl

end Cert.Kernel.Hand

end
-- ==== Proof.WordRegion4RunA.lean ====
/- Region 4, the body's run where k = 0: the accumulator is zeroed, then one product is added. Only the adjacency block,
   the feature block and its row scale are read; the accumulator may hold anything before, and ends with the two stores
   listed (last first). The list is found by running the body. -/
import proofs.«127076_j34282428956966_2_alg».proof.Proof.WordRegion4Runs

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_A (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i)
    (x0 : Vec F S2048x1024 .bf16) (x1 : Vec F S1024x512 .bf16) (x2 : Vec F S1024x1 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion4RunB.lean ====
/- Region 4, the body's run where 0 < k < 7: one product is added to the accumulator, which holds what the point before left. -/
import proofs.«127076_j34282428956966_2_alg».proof.Proof.WordRegion4RunA

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_B (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i)
    (x0 : Vec F S2048x1024 .bf16) (x1 : Vec F S1024x512 .bf16) (x2 : Vec F S1024x1 .f32) (xs0 : Vec F S2048x512 .f32) :
    { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.WordRegion4RunC.lean ====
/- Region 4, the body's run where k = 7: the last product is added to the accumulator, and the output block is computed from it
   (row scale, weight matrix, bias) and stored. All six input windows are read; the output buffer may hold anything before. -/
import proofs.«127076_j34282428956966_2_alg».proof.Proof.WordRegion4RunB

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun4_C (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i)
    (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc4__gcn_layer_kernel_norelu i arg2 harg2 arg3 harg3 arg4 harg4 arg5 harg5 arg6 harg6 arg7 harg7 arg8 harg8 arg9 harg9) K } := by
  refine ⟨?_, ?_, fun E K => ?run⟩
  case run =>
    simp only [cc4__gcn_layer_kernel_norelu_eq_skeleton]; unfold cc4__gcn_layer_kernel_norelu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.WordRegion4Named.lean ====
/- Region 4: what each control case leaves, NAMED. The accumulator after a point is the accumulate step
   (the product of the adjacency block with the row-scaled feature block, added to what the accumulator held) applied
   to zeros where k = 0 and to the previous contents elsewhere; where k = 7 the output block is the final step
   (row scale, weight matrix, bias, and what the layer ends with) of that. The runs found the stores as lists; here each list is read
   back as one payload term, and the body's triple is restated per case over those terms. -/
import proofs.«127076_j34282428956966_2_alg».proof.Proof.WordRegion4RunC
import Idealize.ShloMosaic.Lib.Pipeline.Value

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every load and store of this body is of a whole buffer: both offsets are zero. -/
theorem hz4 : (![0, 0] : Fin 2 → ℕ) = fun _ => 0 := by funext a; fin_cases a <;> rfl

/-! ## k = 0: zeroed, then one product added -/

/-- The two whole-buffer stores into the accumulator tile it. -/
theorem scover4_A_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (y : S2048x512.Idx) :
    ∃ pc ∈ (kernelRun4_A c i arg2 harg2 arg3 harg3 arg4 harg4 arg5 harg5 arg6 harg6 arg7 harg7 arg8 harg8 arg9 harg9 hc0 hc1 x0 x1 x2).1, y ∈ pc.1.set :=
  View.cover_of_tiledL (kernelRun4_A c i arg2 harg2 arg3 harg3 arg4 harg4 arg5 harg5 arg6 harg6 arg7 harg7 arg8 harg8 arg9 harg9 hc0 hc1 x0 x1 x2).1 S2048x512.size (by sl_kernel_rfl) y

/-- The accumulator then reads: one accumulate step from zeros (the later store hides the zeroing one, and the load
    between them reads the zeros back). -/
theorem acc4_A_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (f : arg9.view.ty.Contents (Elt F)) :
    arg9.view.read (Elt F) (arg9.view.writes (Elt F) f (kernelRun4_A c i arg2 harg2 arg3 harg3 arg4 harg4 arg5 harg5 arg6 harg6 arg7 harg7 arg8 harg8 arg9 harg9 hc0 hc1 x0 x1 x2).1) = k4_pay2 x1 x2 (k4_pay1 (F := F)) x0 := by
  rw [View.read_writes_eq_canon _ _ _ (scover4_A_0 c i arg2 harg2 arg3 harg3 arg4 harg4 arg5 harg5 arg6 harg6 arg7 harg7 arg8 harg8 arg9 harg9 hc0 hc1 x0 x1 x2)]
  unfold kernelRun4_A; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4,
    View.readCov_unit_zero (S := S2048x512) _ hz4]

/-- The body where k = 0, over the payload names. -/
theorem sound_kernel4_A (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : cond4_0 i) (hc1 : ¬cond4_1 i) (x0 : Vec F S2048x1024 .bf16) (x1 : Vec F S1024x512 .bf16) (x2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg9 fullShare (k4_pay2 x1 x2 (k4_pay1 (F := F)) x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, HS0, Hk⟩
  iapply ((kernelRun4_A c i arg2 harg2 arg3 harg3 arg4 harg4 arg5 harg5 arg6 harg6 arg7 harg7 arg8 harg8 arg9 harg9 hc0 hc1 x0 x1 x2).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc4_A_eq c i arg2 harg2 arg3 harg3 arg4 harg4 arg5 harg5 arg6 harg6 arg7 harg7 arg8 harg8 arg9 harg9 hc0 hc1 x0 x1 x2 es0

/-! ## 0 < k < 7: one product added -/

theorem scover4_B_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (y : S2048x512.Idx) :
    ∃ pc ∈ (kernelRun4_B c i arg2 harg2 arg3 harg3 arg4 harg4 arg5 harg5 arg6 harg6 arg7 harg7 arg8 harg8 arg9 harg9 hc0 hc1 x0 x1 x2 xs0).1, y ∈ pc.1.set :=
  View.cover_of_tiledL (kernelRun4_B c i arg2 harg2 arg3 harg3 arg4 harg4 arg5 harg5 arg6 harg6 arg7 harg7 arg8 harg8 arg9 harg9 hc0 hc1 x0 x1 x2 xs0).1 S2048x512.size (by sl_kernel_rfl) y

/-- The accumulator then reads: one accumulate step from what it held. -/
theorem acc4_B_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (f : arg9.view.ty.Contents (Elt F)) :
    arg9.view.read (Elt F) (arg9.view.writes (Elt F) f (kernelRun4_B c i arg2 harg2 arg3 harg3 arg4 harg4 arg5 harg5 arg6 harg6 arg7 harg7 arg8 harg8 arg9 harg9 hc0 hc1 x0 x1 x2 xs0).1) = k4_pay2 x1 x2 xs0 x0 := by
  rw [View.read_writes_eq_canon _ _ _ (scover4_B_0 c i arg2 harg2 arg3 harg3 arg4 harg4 arg5 harg5 arg6 harg6 arg7 harg7 arg8 harg8 arg9 harg9 hc0 hc1 x0 x1 x2 xs0)]
  unfold kernelRun4_B; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4,
    View.readCov_unit_zero (S := S2048x512) _ hz4]

/-- The body where 0 < k < 7, over the payload names. -/
theorem sound_kernel4_B (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : ¬cond4_1 i) (x0 : Vec F S2048x1024 .bf16) (x1 : Vec F S1024x512 .bf16) (x2 : Vec F S1024x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg9 fullShare (k4_pay2 x1 x2 xs0 x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, HS0, Hk⟩
  iapply ((kernelRun4_B c i arg2 harg2 arg3 harg3 arg4 harg4 arg5 harg5 arg6 harg6 arg7 harg7 arg8 harg8 arg9 harg9 hc0 hc1 x0 x1 x2 xs0).2 E K)
  isplitl [H0]; · iexact H0
  isplitl [H1]; · iexact H1
  isplitl [H2]; · iexact H2
  isplitl [HS0]; · iexact HS0
  iintro ⟨H0, H1, H2, ⟨%es0, HS0⟩⟩
  iapply Hk
  isplitl [H0]; · iexact H0
  isplitl [H1]; · iexact H1
  isplitl [H2]; · iexact H2
  unfold owns; iexists _; isplitr
  swap; · iexact HS0
  ipureintro; exact acc4_B_eq c i arg2 harg2 arg3 harg3 arg4 harg4 arg5 harg5 arg6 harg6 arg7 harg7 arg8 harg8 arg9 harg9 hc0 hc1 x0 x1 x2 xs0 es0

/-! ## k = 7: the last product added, the output block stored -/

theorem scover4_C_0 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun4_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 x5 xs0).2.1 S2048x512.size (by sl_kernel_rfl) y

/-- The one store into the output window's buffer fills it. -/
theorem cover4_C_6 (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (y : S2048x512.Idx) :
    ∃ pc ∈ (kernelRun4_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun4_C c i arg2 harg2 arg3 harg3 arg4 harg4 arg5 harg5 arg6 harg6 arg7 harg7 arg8 harg8 arg9 harg9 hc0 hc1 x0 x1 x2 x3 x4 x5 xs0).1 S2048x512.size (by sl_kernel_rfl) y

/-- The accumulator then reads: one accumulate step from what it held. -/
theorem acc4_C_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg9.view.ty.Contents (Elt F)) :
    arg9.view.read (Elt F) (arg9.view.writes (Elt F) f (kernelRun4_C c i arg2 harg2 arg3 harg3 arg4 harg4 arg5 harg5 arg6 harg6 arg7 harg7 arg8 harg8 arg9 harg9 hc0 hc1 x0 x1 x2 x3 x4 x5 xs0).2.1) = k4_pay2 x1 x2 xs0 x0 := by
  rw [View.read_writes_eq_canon _ _ _ (scover4_C_0 c i arg2 harg2 arg3 harg3 arg4 harg4 arg5 harg5 arg6 harg6 arg7 harg7 arg8 harg8 arg9 harg9 hc0 hc1 x0 x1 x2 x3 x4 x5 xs0)]
  unfold kernelRun4_C; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4, View.ld_unit_zero (S := S512x512) hz4, View.ld_unit_zero (S := S1x512) hz4, View.ld_unit_zero (S := S2048x1) hz4,
    View.readCov_unit_zero (S := S2048x512) _ hz4]

/-- The output window's buffer then reads: the final step (row scale, weights, bias) of the accumulator just written,
    which the load before it reads back. -/
theorem out4_C_eq (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (f : arg8.view.ty.Contents (Elt F)) :
    arg8.view.read (Elt F) (arg8.view.writes (Elt F) f (kernelRun4_C c i arg2 harg2 arg3 harg3 arg4 harg4 arg5 harg5 arg6 harg6 arg7 harg7 arg8 harg8 arg9 harg9 hc0 hc1 x0 x1 x2 x3 x4 x5 xs0).1) = k4_pay3 (k4_pay2 x1 x2 xs0 x0) x5 x3 x4 := by
  rw [View.read_writes_eq_canon _ _ _ (cover4_C_6 c i arg2 harg2 arg3 harg3 arg4 harg4 arg5 harg5 arg6 harg6 arg7 harg7 arg8 harg8 arg9 harg9 hc0 hc1 x0 x1 x2 x3 x4 x5 xs0)]
  unfold kernelRun4_C; dsimp only
  sl_unfold_words
  rw [View.canon_cons_unit_zero hz4]
  simp only [View.readAt_eq_ld, Memref.IsWhole.read_unread, View.ld_unit_zero (S := S1024x512) hz4, View.ld_unit_zero (S := S1024x1) hz4, View.ld_unit_zero (S := S2048x1024) hz4, View.ld_unit_zero (S := S2048x512) hz4, View.ld_unit_zero (S := S512x512) hz4, View.ld_unit_zero (S := S1x512) hz4, View.ld_unit_zero (S := S2048x1) hz4,
    View.readCov_unit_zero (S := S2048x512) _ hz4]

/-- The body where k = 7, over the payload names. -/
theorem sound_kernel4_C (c : Dev nD) (i : grid4.Coords) (arg2 : Memref sig .tc .vmem S2048x1024 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S2048x1 .f32) (harg7 : arg7.IsWhole) (arg8 : Memref sig .tc .vmem S2048x512 .f32) (harg8 : arg8.IsWhole) (arg9 : Memref sig .tc .vmem S2048x512 .f32) (harg9 : arg9.IsWhole) (hc0 : ¬cond4_0 i) (hc1 : cond4_1 i) (x0 : Vec F S2048x1024 .bf16) (x1 : Vec F S1024x512 .bf16) (x2 : Vec F S1024x1 .f32) (x3 : Vec F S512x512 .bf16) (x4 : Vec F S1x512 .f32) (x5 : Vec F S2048x1 .f32) (xs0 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k4_pay3 (k4_pay2 x1 x2 xs0 x0) x5 x3 x4) ∗ owns (c : Thread nD τ) arg9 fullShare (k4_pay2 x1 x2 xs0 x0)) -∗ K ⟨⟩))
      ⊢ wp frame (wpE (defs₀ (F := F)) Variants.none c none) E (cc4__gcn_layer_kernel_norelu i arg2 harg2 arg3 harg3 arg4 harg4 arg5 harg5 arg6 harg6 arg7 harg7 arg8 harg8 arg9 harg9) K := by
  iintro ⟨H0, H1, H2, H3, H4, H5, H6, HS0, Hk⟩
  iapply ((kernelRun4_C c i arg2 harg2 arg3 harg3 arg4 harg4 arg5 harg5 arg6 harg6 arg7 harg7 arg8 harg8 arg9 harg9 hc0 hc1 x0 x1 x2 x3 x4 x5 xs0).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, ⟨%e6, H6⟩, ⟨%es0, HS0⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact out4_C_eq c i arg2 harg2 arg3 harg3 arg4 harg4 arg5 harg5 arg6 harg6 arg7 harg7 arg8 harg8 arg9 harg9 hc0 hc1 x0 x1 x2 x3 x4 x5 xs0 e6
  unfold owns; iexists _; isplitr
  swap; · iexact HS0
  ipureintro; exact acc4_C_eq c i arg2 harg2 arg3 harg3 arg4 harg4 arg5 harg5 arg6 harg6 arg7 harg7 arg8 harg8 arg9 harg9 hc0 hc1 x0 x1 x2 x3 x4 x5 xs0 es0

end Cert.Kernel.Hand

end
-- ==== Proof.WordRegion4.lean ====
/- Region 4: what holds after every point, and that the body keeps it so. After point t the accumulator holds the sum, over the
   k-steps of t's row block so far, of adjacency block times row-scaled feature block (`accAt4`, by recursion on the
   point: restarted from zeros where k = 0); where k = 7 the output window holds the final step of it (`outAt4`).
   The accumulator is a scoped buffer of the kernel's own, so it rides in the region invariant: before the first
   point at anything, afterwards at `accAt4` of the point before. -/
import proofs.«127076_j34282428956966_2_alg».proof.Proof.WordRegion4Named

-- the blocks here have up to 2048 rows, and deciding that an index sits inside a stored rectangle unfolds once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- what every TensorCore buffer holds when this layer's call starts
variable (V : (c : Dev nD) → (b : Ref sig .tc) → Buf (Elt F) ((c : Thread nD τ).loc b))

/-! ## What the accumulator and the output hold, point by point -/

/-- One accumulate step at point `t` from accumulator contents `acc`: the skeleton's payload at the point's blocks
    (window 1 the features, window 2 their row scale, window 0 the adjacency). -/
def accStep4 (c : Dev nD) (t : Fin cfg4.N) (acc : Vec F S2048x512 .f32) : Vec F S2048x512 .f32 :=
  k4_pay2 (iblk4 V c 1 t) (iblk4 V c 2 t) acc (iblk4 V c 0 t)

/-- What the accumulator holds once point number `n` is done: one step applied to zeros if `n` starts a row block (k = 0),
    otherwise to what point `n - 1` left. -/
def accAt4 (c : Dev nD) : (n : ℕ) → n < cfg4.N → Vec F S2048x512 .f32
  | 0, hn => accStep4 V c ⟨0, hn⟩ (k4_pay1 (F := F))
  | n + 1, hn =>
    if (n + 1) % 8 = 0 then accStep4 V c ⟨n + 1, hn⟩ (k4_pay1 (F := F))
    else accStep4 V c ⟨n + 1, hn⟩ (accAt4 c n (Nat.lt_of_succ_lt hn))

/-- At a point with k = 0: one step from zeros. -/
theorem accAt4_first (c : Dev nD) (t : Fin cfg4.N) (h0 : t.val % 8 = 0) :
    accAt4 V c t.val t.isLt = accStep4 V c t (k4_pay1 (F := F)) := by
  obtain ⟨n, hn⟩ := t
  cases n with
  | zero => rfl
  | succ n => exact (if_pos h0)

/-- At a point with k ≠ 0: one step from what the point before left. -/
theorem accAt4_next (c : Dev nD) (t : Fin cfg4.N) (h0 : ¬t.val % 8 = 0) :
    accAt4 V c t.val t.isLt = accStep4 V c t (accAt4 V c (t.val - 1) (Nat.lt_of_le_of_lt (Nat.sub_le _ _) t.isLt)) := by
  obtain ⟨n, hn⟩ := t
  cases n with
  | zero => exact absurd (Nat.zero_mod _) h0
  | succ n => exact (if_neg h0)

/-- What the output window's buffer holds after the body where k = 7: the final step (window 5 the row scale,
    window 3 the weights, window 4 the bias) of the accumulator. Elsewhere nothing consults it. -/
def outAt4 (c : Dev nD) (t : Fin cfg4.N) : Vec F S2048x512 .f32 :=
  k4_pay3 (accAt4 V c t.val t.isLt) (iblk4 V c 5 t) (iblk4 V c 3 t) (iblk4 V c 4 t)

/-! ## The region invariant -/

/-- The invariant just before point number `n`. For `n = 0` it is the launch's own (accumulator contents unknown); for
    `n > 0` it pins the accumulator to what point `n - 1` left, keeps the remaining private buffers closed, and has the
    random-number register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn)) ∗ restBut4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn)) ∗ restBut4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega))) ∗ restBut4 (F := F) c) ∗ (∃ r, prngReg c r)) := by
  cases n with
  | zero => exact absurd rfl hz
  | succ n => rfl

/-! ## The proof data -/

/-- All that the pipeline theorem wants to know about this layer on one core. The seven arrays are taken at their entry
    contents; an input window's buffer still shows its block once the body is done, the output window's shows `outAt4`;
    between points the invariant is `PhiS4`; the core is in debt to no one; and the vector of inverse square-root
    degrees, on which windows 2 and 5 both stand, is held half by each. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => outAt4 V c t
  Φ t := PhiS4 V c t.val (Nat.le_of_lt_succ t.isLt)
  q w := match w with
    | ⟨0, _⟩ => fullShare
    | ⟨1, _⟩ => fullShare
    | ⟨2, _⟩ => fullShare.left
    | ⟨3, _⟩ => fullShare
    | ⟨4, _⟩ => fullShare
    | ⟨5, _⟩ => fullShare.right
    | ⟨6, _⟩ => fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

/-- The seven windows' buffers after the body, read off the proof data. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = outAt4 V c t := by dsimp only [dat4]

/-- So the body always finds an input's block in its buffer, whether or not the point fetched it. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## One point of the grid -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4000000 in
/-- The body at any point. Every input's buffer holds its block; t % 8 says which of the three cases the point is in.
    The invariant lends the accumulator (at anything before the first point, else at what the point before left) and
    gets it back at this point's sum; the other scoped buffers and the generator register pass through unopened.
    Where k ≠ 7 the output's buffer is returned exactly as it was handed over. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  by_cases h1 : t.val % 8 = 7
  · have h0 : ¬t.val % 8 = 0 := by omega
    have hz : t.val ≠ 0 := by omega
    rw [show (dat4 V c).leavesExact 6 t = owns (c : Thread nD τ) (ms4_6 t) fullShare ((dat4 V c).after 6 t) from by
      unfold Dat.leavesExact; rw [liveAt4_6 t ((hcond4_1 t).mpr h1)], after4_6]
    unfold outAt4
    rw [accAt4_next V c t h0]; unfold accStep4
    rw [PhiS4_castSucc V c t, PhiS4_pos V c _ _ hz]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) ((hcond4_1 t).mpr h1)
      (iblk4 V c 0 t) (iblk4 V c 1 t) (iblk4 V c 2 t) (iblk4 V c 3 t) (iblk4 V c 4 t) (iblk4 V c 5 t)
      (accAt4 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, H6, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat4 V c) 6 t (idleAt4_6 t (fun h => h1 ((hcond4_1 t).mp h))) (noFlush4_6 t (fun h => h1 ((hcond4_1 t).mp h)))]
    by_cases h0 : t.val % 8 = 0
    · rw [accAt4_first V c t h0]; unfold accStep4
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h))
          (iblk4 V c 0 t) (iblk4 V c 1 t) (iblk4 V c 2 t) Set.univ _)
        isplitl [H0]; · iexact H0
        isplitl [H1]; · iexact H1
        isplitl [H2]; · iexact H2
        isplitl [HS0]; · iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS4_castSucc V c t, PhiS4_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
        iapply (sound_kernel4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) ((hcond4_0 t).mpr h0) (fun h => h1 ((hcond4_1 t).mp h))
          (iblk4 V c 0 t) (iblk4 V c 1 t) (iblk4 V c 2 t) Set.univ _)
        isplitl [H0]; · iexact H0
        isplitl [H1]; · iexact H1
        isplitl [H2]; · iexact H2
        isplitl [HS0]; · iexists _; iexact HS0
        iintro ⟨H0, H1, H2, HS0⟩
        isplitl [HS0 Hr Hg]
        · isplitl [HS0 Hr]
          · isplitl [HS0]; · iexact HS0
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
    · have hz : t.val ≠ 0 := fun e => h0 (by rw [e])
      rw [accAt4_next V c t h0]; unfold accStep4
      rw [PhiS4_castSucc V c t, PhiS4_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) (fun h => h0 ((hcond4_0 t).mp h)) (fun h => h1 ((hcond4_1 t).mp h))
        (iblk4 V c 0 t) (iblk4 V c 1 t) (iblk4 V c 2 t)
        (accAt4 V c (t.val - 1) (Nat.lt_of_le_of_lt (Nat.sub_le _ _) t.isLt)) Set.univ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- What the pipeline theorem asks of the body, for all points at once. -/
theorem body_obligation4 (c : Dev nD) : BodyObligation (dat4 (F := F) V c) (defs₀ (F := F)) Variants.none () Set.univ := fun t => by
  rw [bigSep_W4, bigSep_W4]
  exact sound_body4 V c t

/-- On entry the accumulator may hold anything: the launch's invariant is the one before point 0. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- Once a point has run, forgetting which sum the accumulator holds gives the launch's invariant back. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]; · iexists _; iexact HS0
    iexact Hr
  iexact Hg

/-- In particular after the last point. -/
theorem hout4 (c : Dev nD) : (dat4 V c).Φ (Fin.last cfg4.N) ⊢ Pipeline.ΦA spec4 c :=
  Phi_out4 V c _ (by rw [Fin.val_last]; have : cfg4.N = 32 := N_4; omega)

end Region

end Cert.Kernel.Hand

end
-- ==== Proof.WordFold.lean ====
/-
  The buffer contents of the TensorCore along @main, item by item.

  @main is twelve items: three stretches of host operations (the edge list turned into the dense adjacency counts, the
  degrees and their inverse square roots), then five kernel regions with a short stretch of host operations before each
  of the last four (the casts and reshapes of that layer's weights and bias). A host stretch changes the buffers it
  writes to the operations' values of what was there; a kernel region changes exactly ONE buffer, the array of its
  output window, to what the pipeline's write-backs leave there, and nothing else. `B J c` is what core `c`'s buffers
  hold before item `J` (so `B 0` is the launch memory and `B 12` what @main ends with), and `E J c` is `B J c` looked up by
  the TensorCore's own buffer names — the form in which the region at item `J` is told its arrays.
-/
import proofs.«127076_j34282428956966_2_alg».proof.Proof.WordRegion0
import proofs.«127076_j34282428956966_2_alg».proof.Proof.WordRegion1
import proofs.«127076_j34282428956966_2_alg».proof.Proof.WordRegion2
import proofs.«127076_j34282428956966_2_alg».proof.Proof.WordRegion3
import proofs.«127076_j34282428956966_2_alg».proof.Proof.WordRegion4
import proofs.«127076_j34282428956966_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents before each item -/

/-- Before item 0: the launch memory. -/
abbrev B0 : Dev nD → Valuation τ sig (Elt F) := fun c b => m ((c : Dev nD), b)
/-- Before item 1: the stretch `hostOps0` has run over the contents before it. -/
abbrev B1 : Dev nD → Valuation τ sig (Elt F) := fun c => StableHlo.after hostOps0 (B0 m c)
/-- Before item 2: the stretch `hostOps0_1` has run over the contents before it. -/
abbrev B2 : Dev nD → Valuation τ sig (Elt F) := fun c => StableHlo.after hostOps0_1 (B1 m c)
/-- Before item 3: the stretch `hostOps0_2` has run over the contents before it. -/
abbrev B3 : Dev nD → Valuation τ sig (Elt F) := fun c => StableHlo.after hostOps0_2 (B2 m c)
/-- The contents region 0 starts from, looked up by the TensorCore's buffer names. -/
abbrev E3 : (c : Dev nD) → (b : Ref sig .tc) → Buf (Elt F) ((c : Thread nD τ).loc b) := fun c b => B3 m c b
/-- Before item 4: region 0 has changed `main_v31`, its output window's array, to what its write-backs leave. -/
def B4 (c : Dev nD) : Valuation τ sig (Elt F) :=
  Function.update (B3 m c) main_v31 ((dat0 (E3 m) c).arrAt 1 cfg0.N)
/-- Before item 5: the stretch `hostOps1` has run over the contents before it. -/
abbrev B5 : Dev nD → Valuation τ sig (Elt F) := fun c => StableHlo.after hostOps1 (B4 m c)
/-- The contents region 1 starts from, looked up by the TensorCore's buffer names. -/
abbrev E5 : (c : Dev nD) → (b : Ref sig .tc) → Buf (Elt F) ((c : Thread nD τ).loc b) := fun c b => B5 m c b
/-- Before item 6: region 1 has changed `main_v35`, its output window's array, to what its write-backs leave. -/
def B6 (c : Dev nD) : Valuation τ sig (Elt F) :=
  Function.update (B5 m c) main_v35 ((dat1 (E5 m) c).arrAt 3 cfg1.N)
/-- Before item 7: the stretch `hostOps2` has run over the contents before it. -/
abbrev B7 : Dev nD → Valuation τ sig (Elt F) := fun c => StableHlo.after hostOps2 (B6 m c)
/-- The contents region 2 starts from, looked up by the TensorCore's buffer names. -/
abbrev E7 : (c : Dev nD) → (b : Ref sig .tc) → Buf (Elt F) ((c : Thread nD τ).loc b) := fun c b => B7 m c b
/-- Before item 8: region 2 has changed `main_v38`, its output window's array, to what its write-backs leave. -/
def B8 (c : Dev nD) : Valuation τ sig (Elt F) :=
  Function.update (B7 m c) main_v38 ((dat2 (E7 m) c).arrAt 6 cfg2.N)
/-- Before item 9: the stretch `hostOps3` has run over the contents before it. -/
abbrev B9 : Dev nD → Valuation τ sig (Elt F) := fun c => StableHlo.after hostOps3 (B8 m c)
/-- The contents region 3 starts from, looked up by the TensorCore's buffer names. -/
abbrev E9 : (c : Dev nD) → (b : Ref sig .tc) → Buf (Elt F) ((c : Thread nD τ).loc b) := fun c b => B9 m c b
/-- Before item 10: region 3 has changed `main_v41`, its output window's array, to what its write-backs leave. -/
def B10 (c : Dev nD) : Valuation τ sig (Elt F) :=
  Function.update (B9 m c) main_v41 ((dat3 (E9 m) c).arrAt 6 cfg3.N)
/-- Before item 11: the stretch `hostOps4` has run over the contents before it. -/
abbrev B11 : Dev nD → Valuation τ sig (Elt F) := fun c => StableHlo.after hostOps4 (B10 m c)
/-- The contents region 4 starts from, looked up by the TensorCore's buffer names. -/
abbrev E11 : (c : Dev nD) → (b : Ref sig .tc) → Buf (Elt F) ((c : Thread nD τ).loc b) := fun c b => B11 m c b
/-- Before item 12: region 4 has changed `main_v44`, its output window's array, to what its write-backs leave. -/
def B12 (c : Dev nD) : Valuation τ sig (Elt F) :=
  Function.update (B11 m c) main_v44 ((dat4 (E11 m) c).arrAt 6 cfg4.N)

/-! ## What each item leaves alone

A host stretch leaves every buffer that is not among those it writes; a region every buffer but its output's array. -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B3_of (c : Dev nD) (r : Ref sig .tc) (h : r ∉ hostOps0_2_W) : B3 m c r = B2 m c r :=
  StableHlo.after_of_writes_sub hostOps0_2 _ hostOps0_2_writes h
theorem B4_of (c : Dev nD) (r : Ref sig .tc) (h : r ≠ main_v31) : B4 m c r = B3 m c r := by
  unfold B4
  exact Function.update_of_ne (StableHlo.devRef_ne_of_ne h : (Proc.devRef .tc r : DevRef τ sig) ≠ Proc.devRef .tc main_v31) _ _
theorem B4_out (c : Dev nD) : B4 m c main_v31 = (dat0 (E3 m) c).arrAt 1 cfg0.N := by
  unfold B4
  exact Function.update_self _ _ _
theorem B5_of (c : Dev nD) (r : Ref sig .tc) (h : r ∉ hostOps1_W) : B5 m c r = B4 m c r :=
  StableHlo.after_of_writes_sub hostOps1 _ hostOps1_writes h
theorem B6_of (c : Dev nD) (r : Ref sig .tc) (h : r ≠ main_v35) : B6 m c r = B5 m c r := by
  unfold B6
  exact Function.update_of_ne (StableHlo.devRef_ne_of_ne h : (Proc.devRef .tc r : DevRef τ sig) ≠ Proc.devRef .tc main_v35) _ _
theorem B6_out (c : Dev nD) : B6 m c main_v35 = (dat1 (E5 m) c).arrAt 3 cfg1.N := by
  unfold B6
  exact Function.update_self _ _ _
theorem B7_of (c : Dev nD) (r : Ref sig .tc) (h : r ∉ hostOps2_W) : B7 m c r = B6 m c r :=
  StableHlo.after_of_writes_sub hostOps2 _ hostOps2_writes h
theorem B8_of (c : Dev nD) (r : Ref sig .tc) (h : r ≠ main_v38) : B8 m c r = B7 m c r := by
  unfold B8
  exact Function.update_of_ne (StableHlo.devRef_ne_of_ne h : (Proc.devRef .tc r : DevRef τ sig) ≠ Proc.devRef .tc main_v38) _ _
theorem B8_out (c : Dev nD) : B8 m c main_v38 = (dat2 (E7 m) c).arrAt 6 cfg2.N := by
  unfold B8
  exact Function.update_self _ _ _
theorem B9_of (c : Dev nD) (r : Ref sig .tc) (h : r ∉ hostOps3_W) : B9 m c r = B8 m c r :=
  StableHlo.after_of_writes_sub hostOps3 _ hostOps3_writes h
theorem B10_of (c : Dev nD) (r : Ref sig .tc) (h : r ≠ main_v41) : B10 m c r = B9 m c r := by
  unfold B10
  exact Function.update_of_ne (StableHlo.devRef_ne_of_ne h : (Proc.devRef .tc r : DevRef τ sig) ≠ Proc.devRef .tc main_v41) _ _
theorem B10_out (c : Dev nD) : B10 m c main_v41 = (dat3 (E9 m) c).arrAt 6 cfg3.N := by
  unfold B10
  exact Function.update_self _ _ _
theorem B11_of (c : Dev nD) (r : Ref sig .tc) (h : r ∉ hostOps4_W) : B11 m c r = B10 m c r :=
  StableHlo.after_of_writes_sub hostOps4 _ hostOps4_writes h
theorem B12_of (c : Dev nD) (r : Ref sig .tc) (h : r ≠ main_v44) : B12 m c r = B11 m c r := by
  unfold B12
  exact Function.update_of_ne (StableHlo.devRef_ne_of_ne h : (Proc.devRef .tc r : DevRef τ sig) ≠ Proc.devRef .tc main_v44) _ _
theorem B12_out (c : Dev nD) : B12 m c main_v44 = (dat4 (E11 m) c).arrAt 6 cfg4.N := by
  unfold B12
  exact Function.update_self _ _ _

/-! ## The arguments end as launched

No host stretch writes an argument and no region's output array is one, so an argument's buffer is walked back item by
item to the launch memory. -/

theorem B12_main_arg0 (c : Dev nD) : B12 m c main_arg0 = m ((c : Thread nD τ).loc main_arg0) :=
  (B12_of m c main_arg0 (by decide)).trans <| (B11_of m c main_arg0 (by decide)).trans <| (B10_of m c main_arg0 (by decide)).trans <| (B9_of m c main_arg0 (by decide)).trans <| (B8_of m c main_arg0 (by decide)).trans <| (B7_of m c main_arg0 (by decide)).trans <| (B6_of m c main_arg0 (by decide)).trans <| (B5_of m c main_arg0 (by decide)).trans <| (B4_of m c main_arg0 (by decide)).trans <| (B3_of m c main_arg0 (by decide)).trans <| (B2_of m c main_arg0 (by decide)).trans <| (B1_of m c main_arg0 (by decide)).trans <| rfl
theorem B12_main_arg1 (c : Dev nD) : B12 m c main_arg1 = m ((c : Thread nD τ).loc main_arg1) :=
  (B12_of m c main_arg1 (by decide)).trans <| (B11_of m c main_arg1 (by decide)).trans <| (B10_of m c main_arg1 (by decide)).trans <| (B9_of m c main_arg1 (by decide)).trans <| (B8_of m c main_arg1 (by decide)).trans <| (B7_of m c main_arg1 (by decide)).trans <| (B6_of m c main_arg1 (by decide)).trans <| (B5_of m c main_arg1 (by decide)).trans <| (B4_of m c main_arg1 (by decide)).trans <| (B3_of m c main_arg1 (by decide)).trans <| (B2_of m c main_arg1 (by decide)).trans <| (B1_of m c main_arg1 (by decide)).trans <| rfl
theorem B12_main_arg2 (c : Dev nD) : B12 m c main_arg2 = m ((c : Thread nD τ).loc main_arg2) :=
  (B12_of m c main_arg2 (by decide)).trans <| (B11_of m c main_arg2 (by decide)).trans <| (B10_of m c main_arg2 (by decide)).trans <| (B9_of m c main_arg2 (by decide)).trans <| (B8_of m c main_arg2 (by decide)).trans <| (B7_of m c main_arg2 (by decide)).trans <| (B6_of m c main_arg2 (by decide)).trans <| (B5_of m c main_arg2 (by decide)).trans <| (B4_of m c main_arg2 (by decide)).trans <| (B3_of m c main_arg2 (by decide)).trans <| (B2_of m c main_arg2 (by decide)).trans <| (B1_of m c main_arg2 (by decide)).trans <| rfl
theorem B12_main_arg3 (c : Dev nD) : B12 m c main_arg3 = m ((c : Thread nD τ).loc main_arg3) :=
  (B12_of m c main_arg3 (by decide)).trans <| (B11_of m c main_arg3 (by decide)).trans <| (B10_of m c main_arg3 (by decide)).trans <| (B9_of m c main_arg3 (by decide)).trans <| (B8_of m c main_arg3 (by decide)).trans <| (B7_of m c main_arg3 (by decide)).trans <| (B6_of m c main_arg3 (by decide)).trans <| (B5_of m c main_arg3 (by decide)).trans <| (B4_of m c main_arg3 (by decide)).trans <| (B3_of m c main_arg3 (by decide)).trans <| (B2_of m c main_arg3 (by decide)).trans <| (B1_of m c main_arg3 (by decide)).trans <| rfl
theorem B12_main_arg4 (c : Dev nD) : B12 m c main_arg4 = m ((c : Thread nD τ).loc main_arg4) :=
  (B12_of m c main_arg4 (by decide)).trans <| (B11_of m c main_arg4 (by decide)).trans <| (B10_of m c main_arg4 (by decide)).trans <| (B9_of m c main_arg4 (by decide)).trans <| (B8_of m c main_arg4 (by decide)).trans <| (B7_of m c main_arg4 (by decide)).trans <| (B6_of m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide)).trans <| rfl
theorem B12_main_arg5 (c : Dev nD) : B12 m c main_arg5 = m ((c : Thread nD τ).loc main_arg5) :=
  (B12_of m c main_arg5 (by decide)).trans <| (B11_of m c main_arg5 (by decide)).trans <| (B10_of m c main_arg5 (by decide)).trans <| (B9_of m c main_arg5 (by decide)).trans <| (B8_of m c main_arg5 (by decide)).trans <| (B7_of m c main_arg5 (by decide)).trans <| (B6_of m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide)).trans <| rfl
theorem B12_main_arg6 (c : Dev nD) : B12 m c main_arg6 = m ((c : Thread nD τ).loc main_arg6) :=
  (B12_of m c main_arg6 (by decide)).trans <| (B11_of m c main_arg6 (by decide)).trans <| (B10_of m c main_arg6 (by decide)).trans <| (B9_of m c main_arg6 (by decide)).trans <| (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide)).trans <| rfl
theorem B12_main_arg7 (c : Dev nD) : B12 m c main_arg7 = m ((c : Thread nD τ).loc main_arg7) :=
  (B12_of m c main_arg7 (by decide)).trans <| (B11_of m c main_arg7 (by decide)).trans <| (B10_of m c main_arg7 (by decide)).trans <| (B9_of m c main_arg7 (by decide)).trans <| (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide)).trans <| rfl
theorem B12_main_arg8 (c : Dev nD) : B12 m c main_arg8 = m ((c : Thread nD τ).loc main_arg8) :=
  (B12_of m c main_arg8 (by decide)).trans <| (B11_of m c main_arg8 (by decide)).trans <| (B10_of m c main_arg8 (by decide)).trans <| (B9_of m c main_arg8 (by decide)).trans <| (B8_of m c main_arg8 (by decide)).trans <| (B7_of m c main_arg8 (by decide)).trans <| (B6_of m c main_arg8 (by decide)).trans <| (B5_of m c main_arg8 (by decide)).trans <| (B4_of m c main_arg8 (by decide)).trans <| (B3_of m c main_arg8 (by decide)).trans <| (B2_of m c main_arg8 (by decide)).trans <| (B1_of m c main_arg8 (by decide)).trans <| rfl
theorem B12_main_arg9 (c : Dev nD) : B12 m c main_arg9 = m ((c : Thread nD τ).loc main_arg9) :=
  (B12_of m c main_arg9 (by decide)).trans <| (B11_of m c main_arg9 (by decide)).trans <| (B10_of m c main_arg9 (by decide)).trans <| (B9_of m c main_arg9 (by decide)).trans <| (B8_of m c main_arg9 (by decide)).trans <| (B7_of m c main_arg9 (by decide)).trans <| (B6_of m c main_arg9 (by decide)).trans <| (B5_of m c main_arg9 (by decide)).trans <| (B4_of m c main_arg9 (by decide)).trans <| (B3_of m c main_arg9 (by decide)).trans <| (B2_of m c main_arg9 (by decide)).trans <| (B1_of m c main_arg9 (by decide)).trans <| rfl

end Cert.Kernel.Hand

end
-- ==== Proof.WordMainRun.lean ====
/-
  The run of the word-level kernel's @main, and what it leaves in the result buffer.

  Every weakly fair execution of @main from a memory with zero counters ends, nothing faulting, with the result buffer at
  what the LAST region's write-backs leave there — `(dat4 …).arrAt 6 N`, read through the fold of buffer contents of
  Fold.lean — and every argument as launched. @main is cut into its twelve items; a host stretch is run over the
  unscoped buffers held whole at the contents before it, and a kernel region takes out of those buffers its windows'
  arrays, runs its pipeline, and puts the arrays back at the contents the write-backs leave.

  Regions 2, 3 and 4 read the vector of inverse square roots of the degrees through TWO windows (the rows of the
  contraction block and the rows of the output block), so their pipelines hold that one array by the two halves of the
  full share; LibSharedRegion.lean is the entry and the exit of such a pipeline. Regions 0 and 1 have an array per window.
-/
import proofs.«127076_j34282428956966_2_alg».proof.Proof.WordFold
import proofs.«127076_j34282428956966_2_alg».proof.Proof.LibSharedRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region leaves: its arrays at the write-backs' contents, every other buffer as entered -/

/-- The contents region 0 leaves, read at the TensorCore's references. -/
abbrev X4 : (c : Dev nD) → (b : Ref sig .tc) → Buf (Elt F) ((c : Thread nD τ).loc b) := fun c b => B4 m c b
/-- Each array of region 0 ends at what the pipeline leaves in it: an input as entered, the output at its write-backs. -/
theorem exit_arr0 (c : Dev nD) (w : Fin cfg0.W) :
    (dat0 (E3 m) c).arrAt w cfg0.N = X4 m c (Pipeline.arrRef spec0 w) := by
  match w with
  | ⟨0, _⟩ => exact ((dat0 (E3 m) c).arrAt_in 0 rfl _).trans ((A_eq0 (E3 m) c 0).trans (B4_of m c _ (by decide)).symm)
  | ⟨1, _⟩ => exact (B4_out m c).symm
/-- A buffer that is no array of region 0 ends as entered. -/
theorem exit_rest0 (c : Dev nD) : ∀ b, b ∉ Finset.univ.image (Pipeline.arrRef spec0) → X4 m c b = E3 m c b :=
  fun b hb => B4_of m c b fun e => hb (Finset.mem_image.mpr ⟨1, Finset.mem_univ _, e.symm⟩)

/-- The contents region 1 leaves, read at the TensorCore's references. -/
abbrev X6 : (c : Dev nD) → (b : Ref sig .tc) → Buf (Elt F) ((c : Thread nD τ).loc b) := fun c b => B6 m c b
/-- Each array of region 1 ends at what the pipeline leaves in it: an input as entered, the output at its write-backs. -/
theorem exit_arr1 (c : Dev nD) (w : Fin cfg1.W) :
    (dat1 (E5 m) c).arrAt w cfg1.N = X6 m c (Pipeline.arrRef spec1 w) := by
  match w with
  | ⟨0, _⟩ => exact ((dat1 (E5 m) c).arrAt_in 0 rfl _).trans ((A_eq1 (E5 m) c 0).trans (B6_of m c _ (by decide)).symm)
  | ⟨1, _⟩ => exact ((dat1 (E5 m) c).arrAt_in 1 rfl _).trans ((A_eq1 (E5 m) c 1).trans (B6_of m c _ (by decide)).symm)
  | ⟨2, _⟩ => exact ((dat1 (E5 m) c).arrAt_in 2 rfl _).trans ((A_eq1 (E5 m) c 2).trans (B6_of m c _ (by decide)).symm)
  | ⟨3, _⟩ => exact (B6_out m c).symm
/-- A buffer that is no array of region 1 ends as entered. -/
theorem exit_rest1 (c : Dev nD) : ∀ b, b ∉ Finset.univ.image (Pipeline.arrRef spec1) → X6 m c b = E5 m c b :=
  fun b hb => B6_of m c b fun e => hb (Finset.mem_image.mpr ⟨3, Finset.mem_univ _, e.symm⟩)

/-- The contents region 2 leaves, read at the TensorCore's references. -/
abbrev X8 : (c : Dev nD) → (b : Ref sig .tc) → Buf (Elt F) ((c : Thread nD τ).loc b) := fun c b => B8 m c b
set_option maxHeartbeats 4000000 in
/-- Each array of region 2 ends at what the pipeline leaves in it: an input as entered, the output at its write-backs. -/
theorem exit_arr2 (c : Dev nD) (w : Fin cfg2.W) :
    (dat2 (E7 m) c).arrAt w cfg2.N = X8 m c (Pipeline.arrRef spec2 w) := by
  match w with
  | ⟨0, _⟩ => exact ((dat2 (E7 m) c).arrAt_in 0 rfl _).trans ((A_eq2 (E7 m) c 0).trans (B8_of m c _ (by decide)).symm)
  | ⟨1, _⟩ => exact ((dat2 (E7 m) c).arrAt_in 1 rfl _).trans ((A_eq2 (E7 m) c 1).trans (B8_of m c _ (by decide)).symm)
  | ⟨2, _⟩ => exact ((dat2 (E7 m) c).arrAt_in 2 rfl _).trans ((A_eq2 (E7 m) c 2).trans (B8_of m c _ (by decide)).symm)
  | ⟨3, _⟩ => exact ((dat2 (E7 m) c).arrAt_in 3 rfl _).trans ((A_eq2 (E7 m) c 3).trans (B8_of m c _ (by decide)).symm)
  | ⟨4, _⟩ => exact ((dat2 (E7 m) c).arrAt_in 4 rfl _).trans ((A_eq2 (E7 m) c 4).trans (B8_of m c _ (by decide)).symm)
  | ⟨5, _⟩ => exact ((dat2 (E7 m) c).arrAt_in 5 rfl _).trans ((A_eq2 (E7 m) c 5).trans (B8_of m c _ (by decide)).symm)
  | ⟨6, _⟩ => exact (B8_out m c).symm
/-- A buffer that is no array of region 2 ends as entered. -/
theorem exit_rest2 (c : Dev nD) : ∀ b, b ∉ Finset.univ.image (Pipeline.arrRef spec2) → X8 m c b = E7 m c b :=
  fun b hb => B8_of m c b fun e => hb (Finset.mem_image.mpr ⟨6, Finset.mem_univ _, e.symm⟩)

/-- The contents region 3 leaves, read at the TensorCore's references. -/
abbrev X10 : (c : Dev nD) → (b : Ref sig .tc) → Buf (Elt F) ((c : Thread nD τ).loc b) := fun c b => B10 m c b
set_option maxHeartbeats 4000000 in
/-- Each array of region 3 ends at what the pipeline leaves in it: an input as entered, the output at its write-backs. -/
theorem exit_arr3 (c : Dev nD) (w : Fin cfg3.W) :
    (dat3 (E9 m) c).arrAt w cfg3.N = X10 m c (Pipeline.arrRef spec3 w) := by
  match w with
  | ⟨0, _⟩ => exact ((dat3 (E9 m) c).arrAt_in 0 rfl _).trans ((A_eq3 (E9 m) c 0).trans (B10_of m c _ (by decide)).symm)
  | ⟨1, _⟩ => exact ((dat3 (E9 m) c).arrAt_in 1 rfl _).trans ((A_eq3 (E9 m) c 1).trans (B10_of m c _ (by decide)).symm)
  | ⟨2, _⟩ => exact ((dat3 (E9 m) c).arrAt_in 2 rfl _).trans ((A_eq3 (E9 m) c 2).trans (B10_of m c _ (by decide)).symm)
  | ⟨3, _⟩ => exact ((dat3 (E9 m) c).arrAt_in 3 rfl _).trans ((A_eq3 (E9 m) c 3).trans (B10_of m c _ (by decide)).symm)
  | ⟨4, _⟩ => exact ((dat3 (E9 m) c).arrAt_in 4 rfl _).trans ((A_eq3 (E9 m) c 4).trans (B10_of m c _ (by decide)).symm)
  | ⟨5, _⟩ => exact ((dat3 (E9 m) c).arrAt_in 5 rfl _).trans ((A_eq3 (E9 m) c 5).trans (B10_of m c _ (by decide)).symm)
  | ⟨6, _⟩ => exact (B10_out m c).symm
/-- A buffer that is no array of region 3 ends as entered. -/
theorem exit_rest3 (c : Dev nD) : ∀ b, b ∉ Finset.univ.image (Pipeline.arrRef spec3) → X10 m c b = E9 m c b :=
  fun b hb => B10_of m c b fun e => hb (Finset.mem_image.mpr ⟨6, Finset.mem_univ _, e.symm⟩)

/-- The contents region 4 leaves, read at the TensorCore's references. -/
abbrev X12 : (c : Dev nD) → (b : Ref sig .tc) → Buf (Elt F) ((c : Thread nD τ).loc b) := fun c b => B12 m c b
set_option maxHeartbeats 4000000 in
/-- Each array of region 4 ends at what the pipeline leaves in it: an input as entered, the output at its write-backs. -/
theorem exit_arr4 (c : Dev nD) (w : Fin cfg4.W) :
    (dat4 (E11 m) c).arrAt w cfg4.N = X12 m c (Pipeline.arrRef spec4 w) := by
  match w with
  | ⟨0, _⟩ => exact ((dat4 (E11 m) c).arrAt_in 0 rfl _).trans ((A_eq4 (E11 m) c 0).trans (B12_of m c _ (by decide)).symm)
  | ⟨1, _⟩ => exact ((dat4 (E11 m) c).arrAt_in 1 rfl _).trans ((A_eq4 (E11 m) c 1).trans (B12_of m c _ (by decide)).symm)
  | ⟨2, _⟩ => exact ((dat4 (E11 m) c).arrAt_in 2 rfl _).trans ((A_eq4 (E11 m) c 2).trans (B12_of m c _ (by decide)).symm)
  | ⟨3, _⟩ => exact ((dat4 (E11 m) c).arrAt_in 3 rfl _).trans ((A_eq4 (E11 m) c 3).trans (B12_of m c _ (by decide)).symm)
  | ⟨4, _⟩ => exact ((dat4 (E11 m) c).arrAt_in 4 rfl _).trans ((A_eq4 (E11 m) c 4).trans (B12_of m c _ (by decide)).symm)
  | ⟨5, _⟩ => exact ((dat4 (E11 m) c).arrAt_in 5 rfl _).trans ((A_eq4 (E11 m) c 5).trans (B12_of m c _ (by decide)).symm)
  | ⟨6, _⟩ => exact (B12_out m c).symm
/-- A buffer that is no array of region 4 ends as entered. -/
theorem exit_rest4 (c : Dev nD) : ∀ b, b ∉ Finset.univ.image (Pipeline.arrRef spec4) → X12 m c b = E11 m c b :=
  fun b hb => B12_of m c b fun e => hb (Finset.mem_image.mpr ⟨6, Finset.mem_univ _, e.symm⟩)

/-! ## The proof data family and what rides beside the buffers -/

/-- Every pipeline's proof data at the contents its region is entered with: a literal match on the pipeline's index. -/
def pdats : (p : Fin 5) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
  | ⟨2, _⟩ => fun c => dat2 (E7 m) c
  | ⟨3, _⟩ => fun c => dat3 (E9 m) c
  | ⟨4, _⟩ => fun c => dat4 (E11 m) c
abbrev 𝒱₀ : Variants := Variants.none
/-- No core waits on another: no level is assigned. -/
abbrev L : GSem nD τ sig → Finset Unit := fun _ => ∅
abbrev lv : GSem nD τ sig → Unit → ℕ := fun _ _ => 0
/-- Beside the buffers a core carries its generator register, at some state, and the fact that it owes nothing. -/
abbrev R (c : Dev nD) : sProp 𝕄 := iprop((∃ r, prngReg c r) ∗ ∃ W, owes (c : Thread nD τ) (0 : CellTallies nD τ sig Unit) W)
/-- The segment of a host stretch started at buffer contents `W`; `R` is carried through untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds when @main returns, apart from owing nothing: its unscoped buffers with contents `B12` and its
    random-number register in some state. -/
abbrev Tₙ (c : Dev nD) : sProp 𝕄 := iprop(StableHlo.held (c : Thread nD τ) (Pipeline.ucRefs τ sig) (B12 m c) ∗ ∃ r, prngReg c r)

/-! ## The layers' shared array: which windows stand on it, and at which shares -/

/-- Away from window 5 the windows of pipeline 2 stand on distinct arrays. -/
theorem arr_inj_but5_2 : Set.InjOn (Pipeline.arrRef spec2) ((Finset.univ.erase 5 : Finset (Fin cfg2.W)) : Set (Fin cfg2.W)) := by
  have key : ∀ a b : Fin 7, a ≠ 5 → b ≠ 5 → Pipeline.arrRef spec2 a = Pipeline.arrRef spec2 b → a = b := by decide
  exact fun a ha b hb e => key a b (Finset.ne_of_mem_erase (Finset.mem_coe.mp ha)) (Finset.ne_of_mem_erase (Finset.mem_coe.mp hb)) e
/-- Every window of pipeline 2 but 2 and 5 holds its array at the full share. -/
theorem share_full_but_2 (c : Dev nD) (V : (c : Dev nD) → (b : Ref sig .tc) → Buf (Elt F) ((c : Thread nD τ).loc b)) :
    ∀ w : Fin cfg2.W, w ≠ 2 → w ≠ 5 → (dat2 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 2: the unscoped buffers at `V c` are its arrays at `V c`'s contents and the rest. -/
theorem bufs_eq_arrays2 (c : Dev nD) (V : (c : Dev nD) → (b : Ref sig .tc) → Buf (Elt F) ((c : Thread nD τ).loc b))
    (W : (b : Ref sig .tc) → Buf (Elt F) ((c : Thread nD τ).loc b))
    (A : (w : Fin cfg2.W) → Buf (Elt F) ((cfg2.spec w).arr.view.loc (c.tc : Thread nD τ))) (hA : ∀ w, A w = W (Pipeline.arrRef spec2 w)) :
    (unscopedBufs c W : sProp 𝕄) = iprop((dat2 V c).arrays A ∗ Pipeline.unscopedRest spec2 c W) :=
  Pipeline.unscopedBufs_eq_arrays_two_on_one (dat2 V c) arr_whole2 (by decide) 2 5 (by decide) (by decide) arr_inj_but5_2
    rfl rfl (share_full_but_2 c V) W A hA

/-- Away from window 5 the windows of pipeline 3 stand on distinct arrays. -/
theorem arr_inj_but5_3 : Set.InjOn (Pipeline.arrRef spec3) ((Finset.univ.erase 5 : Finset (Fin cfg3.W)) : Set (Fin cfg3.W)) := by
  have key : ∀ a b : Fin 7, a ≠ 5 → b ≠ 5 → Pipeline.arrRef spec3 a = Pipeline.arrRef spec3 b → a = b := by decide
  exact fun a ha b hb e => key a b (Finset.ne_of_mem_erase (Finset.mem_coe.mp ha)) (Finset.ne_of_mem_erase (Finset.mem_coe.mp hb)) e
/-- Every window of pipeline 3 but 2 and 5 holds its array at the full share. -/
theorem share_full_but_3 (c : Dev nD) (V : (c : Dev nD) → (b : Ref sig .tc) → Buf (Elt F) ((c : Thread nD τ).loc b)) :
    ∀ w : Fin cfg3.W, w ≠ 2 → w ≠ 5 → (dat3 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 3: the unscoped buffers at `V c` are its arrays at `V c`'s contents and the rest. -/
theorem bufs_eq_arrays3 (c : Dev nD) (V : (c : Dev nD) → (b : Ref sig .tc) → Buf (Elt F) ((c : Thread nD τ).loc b))
    (W : (b : Ref sig .tc) → Buf (Elt F) ((c : Thread nD τ).loc b))
    (A : (w : Fin cfg3.W) → Buf (Elt F) ((cfg3.spec w).arr.view.loc (c.tc : Thread nD τ))) (hA : ∀ w, A w = W (Pipeline.arrRef spec3 w)) :
    (unscopedBufs c W : sProp 𝕄) = iprop((dat3 V c).arrays A ∗ Pipeline.unscopedRest spec3 c W) :=
  Pipeline.unscopedBufs_eq_arrays_two_on_one (dat3 V c) arr_whole3 (by decide) 2 5 (by decide) (by decide) arr_inj_but5_3
    rfl rfl (share_full_but_3 c V) W A hA

/-- Away from window 5 the windows of pipeline 4 stand on distinct arrays. -/
theorem arr_inj_but5_4 : Set.InjOn (Pipeline.arrRef spec4) ((Finset.univ.erase 5 : Finset (Fin cfg4.W)) : Set (Fin cfg4.W)) := by
  have key : ∀ a b : Fin 7, a ≠ 5 → b ≠ 5 → Pipeline.arrRef spec4 a = Pipeline.arrRef spec4 b → a = b := by decide
  exact fun a ha b hb e => key a b (Finset.ne_of_mem_erase (Finset.mem_coe.mp ha)) (Finset.ne_of_mem_erase (Finset.mem_coe.mp hb)) e
/-- Every window of pipeline 4 but 2 and 5 holds its array at the full share. -/
theorem share_full_but_4 (c : Dev nD) (V : (c : Dev nD) → (b : Ref sig .tc) → Buf (Elt F) ((c : Thread nD τ).loc b)) :
    ∀ w : Fin cfg4.W, w ≠ 2 → w ≠ 5 → (dat4 V c).share w = fullShare := fun w h2 h5 =>
  match w with
  | ⟨0, _⟩ => rfl
  | ⟨1, _⟩ => rfl
  | ⟨2, _⟩ => absurd rfl h2
  | ⟨3, _⟩ => rfl
  | ⟨4, _⟩ => rfl
  | ⟨5, _⟩ => absurd rfl h5
  | ⟨6, _⟩ => rfl
/-- ENTRY and EXIT of pipeline 4: the unscoped buffers at `V c` are its arrays at `V c`'s contents and the rest. -/
theorem bufs_eq_arrays4 (c : Dev nD) (V : (c : Dev nD) → (b : Ref sig .tc) → Buf (Elt F) ((c : Thread nD τ).loc b))
    (W : (b : Ref sig .tc) → Buf (Elt F) ((c : Thread nD τ).loc b))
    (A : (w : Fin cfg4.W) → Buf (Elt F) ((cfg4.spec w).arr.view.loc (c.tc : Thread nD τ))) (hA : ∀ w, A w = W (Pipeline.arrRef spec4 w)) :
    (unscopedBufs c W : sProp 𝕄) = iprop((dat4 V c).arrays A ∗ Pipeline.unscopedRest spec4 c W) :=
  Pipeline.unscopedBufs_eq_arrays_two_on_one (dat4 V c) arr_whole4 (by decide) 2 5 (by decide) (by decide) arr_inj_but5_4
    rfl rfl (share_full_but_4 c V) W A hA

/-! ## The regions as segments -/

set_option backward.isDefEq.respectTransparency.types false in
/-- REGION 0, entered with every unscoped buffer at `B3` and left with them at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (X4 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1, entered with every unscoped buffer at `B5` and left with them at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (X6 m c) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2, entered with every unscoped buffer at `B7` and left with them at `B8`. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E7 m) c).loose
  hwaits := Pipeline.hwaits_of_owed_zero _ _ _ _ L lv 2 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit : (unscopedBufs c (E7 m c) : sProp 𝕄)
        ⊢ iprop((pdats m 2 c).arrays ((pdats m 2 c).arrAt · 0) ∗ Pipeline.unscopedRest spec2 c (E7 m c)) :=
      Entails.of_eq (bufs_eq_arrays2 c (E7 m) (E7 m c) _ (fun w => A_eq2 (E7 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 2).pre c (fun _ => fullShare) (adm 2).1 ∗ Pipeline.scopedRest spec2 c)
        ⊢ (Pipeline.ΦA spec2 c : sProp 𝕄) by
      unfold Pipeline.ΦA
      iintro ⟨Hp, -, Hr⟩
      isplitl [Hr]; · iexact Hr
      iexact Hp).trans (hin2 (E7 m) c)
  hout c := (hout2 (E7 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 2 c).arrays ((pdats m 2 c).arrAt · cfg2.N) ∗ Pipeline.unscopedRest spec2 c (E7 m c))
        ⊢ (unscopedBufs c (X8 m c) : sProp 𝕄) := by
      rw [Pipeline.unscopedRest_congr spec2 c (E7 m c) (X8 m c) (exit_rest2 m c)]
      exact Entails.of_eq (bufs_eq_arrays2 c (E7 m) (X8 m c) _ (exit_arr2 m c)).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3, entered with every unscoped buffer at `B9` and left with them at `B10`. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (E9 m) c).loose
  hwaits := Pipeline.hwaits_of_owed_zero _ _ _ _ L lv 3 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit : (unscopedBufs c (E9 m c) : sProp 𝕄)
        ⊢ iprop((pdats m 3 c).arrays ((pdats m 3 c).arrAt · 0) ∗ Pipeline.unscopedRest spec3 c (E9 m c)) :=
      Entails.of_eq (bufs_eq_arrays3 c (E9 m) (E9 m c) _ (fun w => A_eq3 (E9 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 3).pre c (fun _ => fullShare) (adm 3).1 ∗ Pipeline.scopedRest spec3 c)
        ⊢ (Pipeline.ΦA spec3 c : sProp 𝕄) by
      unfold Pipeline.ΦA
      iintro ⟨Hp, -, Hr⟩
      isplitl [Hr]; · iexact Hr
      iexact Hp).trans (hin3 (E9 m) c)
  hout c := (hout3 (E9 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 3 c).arrays ((pdats m 3 c).arrAt · cfg3.N) ∗ Pipeline.unscopedRest spec3 c (E9 m c))
        ⊢ (unscopedBufs c (X10 m c) : sProp 𝕄) := by
      rw [Pipeline.unscopedRest_congr spec3 c (E9 m c) (X10 m c) (exit_rest3 m c)]
      exact Entails.of_eq (bufs_eq_arrays3 c (E9 m) (X10 m c) _ (exit_arr3 m c)).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4, entered with every unscoped buffer at `B11` and left with them at `B12`. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (E11 m) c).loose
  hwaits := Pipeline.hwaits_of_owed_zero _ _ _ _ L lv 4 fun _ _ => rfl
  pre c := iprop(StableHlo.held (c : Thread nD τ) (Pipeline.ucRefs τ sig) (B11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E11 m c)
  hentry c := by
    rw [Pipeline.ownSems0_none]
    have hsplit : (unscopedBufs c (E11 m c) : sProp 𝕄)
        ⊢ iprop((pdats m 4 c).arrays ((pdats m 4 c).arrAt · 0) ∗ Pipeline.unscopedRest spec4 c (E11 m c)) :=
      Entails.of_eq (bufs_eq_arrays4 c (E11 m) (E11 m c) _ (fun w => A_eq4 (E11 m) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop((∃ r, prngReg c r) ∗ Pipeline.prefHeld (pcfgs (F := F) 4).pre c (fun _ => fullShare) (adm 4).1 ∗ Pipeline.scopedRest spec4 c)
        ⊢ (Pipeline.ΦA spec4 c : sProp 𝕄) by
      unfold Pipeline.ΦA
      iintro ⟨Hp, -, Hr⟩
      isplitl [Hr]; · iexact Hr
      iexact Hp).trans (hin4 (E11 m) c)
  hout c := (hout4 (E11 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 4 c).arrays ((pdats m 4 c).arrAt · cfg4.N) ∗ Pipeline.unscopedRest spec4 c (E11 m c))
        ⊢ (unscopedBufs c (X12 m c) : sProp 𝕄) := by
      rw [Pipeline.unscopedRest_congr spec4 c (E11 m c) (X12 m c) (exit_rest4 m c)]
      exact Entails.of_eq (bufs_eq_arrays4 c (E11 m) (X12 m c) _ (exit_arr4 m c)).symm
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the run -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m),
    .host (hseg hostOps4 hostOps4_sub hostOps4_fresh (B10 m)),
    .region (reg4 m) ]
/-- @main is the run of these items, in this order. -/
theorem main_run (c : Dev nD) : main (F := F) c = Pipeline.Seg.run (segs m) := (main_chain c).trans (by chain_rfl)

set_option backward.isDefEq.respectTransparency.types false in
/-- THE RUN. Start @main in memory `m`, all semaphore counters zero. Then it terminates under every fair schedule and
    never faults; when it has, the result buffer contains exactly what the write-backs of region 4 put there, and the
    ten argument buffers are as they were in `m`. -/
theorem run (ρ : Dev nD → PrngReg) : θ_run defs (onTc (τ := τ) (main (F := F))) ⟨m, fun _ => 0, ρ⟩ (fun r => ∀ c : Dev nD,
      r.2.mem ((c.tc : Thread nD τ).loc main_v44) = (dat4 (E11 m) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m c b)
    (hfin := fun c s' => by
      iintro ⟨⟨Hh, -⟩, HSI⟩
      unfold StableHlo.held
      imodintro
      iapply (pointsTo_read_all (Pipeline.ucRefs τ sig) (fun b => (((c : Thread nD τ)).1, b)) (B12 m c) s')
      isplitl [Hh] <;> iassumption)
    (hQ := fun s h c =>
      ⟨(h c _ (mem_uc main_v44 (by decide))).trans (B12_out m c),
       (h c _ (mem_uc main_arg0 (by decide))).trans (B12_main_arg0 m c),
       (h c _ (mem_uc main_arg1 (by decide))).trans (B12_main_arg1 m c),
       (h c _ (mem_uc main_arg2 (by decide))).trans (B12_main_arg2 m c),
       (h c _ (mem_uc main_arg3 (by decide))).trans (B12_main_arg3 m c),
       (h c _ (mem_uc main_arg4 (by decide))).trans (B12_main_arg4 m c),
       (h c _ (mem_uc main_arg5 (by decide))).trans (B12_main_arg5 m c),
       (h c _ (mem_uc main_arg6 (by decide))).trans (B12_main_arg6 m c),
       (h c _ (mem_uc main_arg7 (by decide))).trans (B12_main_arg7 m c),
       (h c _ (mem_uc main_arg8 (by decide))).trans (B12_main_arg8 m c),
       (h c _ (mem_uc main_arg9 (by decide))).trans (B12_main_arg9 m c)⟩)

end Cert.Kernel.Hand

end
-- ==== Proof.AdjScatter.lean ====
import Idealize.ShloMosaic.PureOps.ShapeOps
import Idealize.ShloMosaic.PureOps.Ideal
import Idealize.ShloMosaic.PureOps.Contract
import Idealize.ShloMosaic.PureOps.Ideal.Laws
import Idealize.ShloMosaic.Lib.ValueIdx
import Mathlib

/-!
# The accumulating scatter of 131072 updates into an 8192 × 8192 matrix, read at an entry

The scatter takes one update per position `n < 131072`; its two-component index vector at `n`
is read signed as a (row, column) pair, and the update is added at that entry when the pair lies
inside the matrix and dropped otherwise. Hence the entry `(r, c)` of the result is the operand's
entry plus the sum of the updates whose pair is exactly `(r, c)`.

When the row component of position `n` is `n / 16` (sixteen consecutive positions per row)
and every column component lies inside the matrix, each update lands in its own row, so the sum of
row `r` of the result is the sum of row `r` of the operand plus the sixteen updates of that row.
-/

open Idealize.ShloMosaic Idealize.ShloMosaic.ValueIdx

namespace Cert.Spec

abbrev S8192x8192 : Shape := ⟨2, ![8192, 8192]⟩
abbrev S131072 : Shape := ⟨1, ![131072]⟩
abbrev S131072x2 : Shape := ⟨2, ![131072, 2]⟩

variable (wf : ScatterDims.WF S8192x8192 S131072x2 S131072 [] [0, 1] [0, 1] 1)

/-- The scatter's dimension numbers: no window axes, both operand axes inserted and addressed by
    the two components of the index vector, which lies along axis 1 of the index array. -/
abbrev scat : ScatterDims S8192x8192 S131072x2 S131072 := ⟨[], [0, 1], [0, 1], 1, wf⟩

/-- There is no window: the window coordinate is zero on both operand axes. -/
theorem window_zero (j : S131072.Idx) (a : Fin 2) : (scat wf).window j a = 0 := by
  unfold ScatterDims.window
  have h : ∀ a : Fin 2, a ∉ S8192x8192.kept [0, 1] := by decide
  rw [dif_neg (h a)]

/-- The start on operand axis `a` for update position `n` is component `a` of the index vector
    at `n`, read signed. -/
theorem start_eq (n : Fin 131072) (I : IVec S131072x2 32) (a : Fin 2) :
    (scat wf).start (ix1 n) I a = (I (ix2 n a)).toInt := by
  have hm : ∀ a : Fin 2, a ∈ ([0, 1] : List (Fin 2)) := by decide
  unfold ScatterDims.start
  split
  · congr 2
    funext b
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  · rename_i ha
    exact absurd (hm a) ha

/-- Update position `n` lands at the entry `(r, c)` exactly when its index vector, read signed,
    is `(r, c)`. -/
theorem resultIdx_eq_some_iff (n : Fin 131072) (I : IVec S131072x2 32) (r c : Fin 8192) :
    (scat wf).resultIdx? (ix1 n) I = some (ix2 r c) ↔
      (I (ix2 n 0)).toInt = (r.val : Int) ∧ (I (ix2 n 1)).toInt = (c.val : Int) := by
  unfold ScatterDims.resultIdx?
  simp only [window_zero, start_eq]
  constructor
  · intro h
    split at h
    · rename_i hh
      have h' := Option.some.inj h
      have h0 := congrArg (fun f => (f 0).val) h'
      have h1 := congrArg (fun f => (f 1).val) h'
      simp only at h0 h1
      have := hh 0; have := hh 1
      constructor
      · show (I (ix2 n 0)).toInt = ((ix2 r c : S8192x8192.Idx) 0).val; rw [← h0]; simp at *; omega
      · show (I (ix2 n 1)).toInt = ((ix2 r c : S8192x8192.Idx) 1).val; rw [← h1]; simp at *; omega
    · exact absurd h (by simp)
  · rintro ⟨h0, h1⟩
    have hh : ∀ a : Fin 2, 0 ≤ (I (ix2 n a)).toInt + ((0 : Nat) : Int) ∧
        (I (ix2 n a)).toInt + ((0 : Nat) : Int) < (S8192x8192.size a : Int) := by
      intro a
      match a with
      | ⟨0, _⟩ =>
        show 0 ≤ (I (ix2 n 0)).toInt + _ ∧ (I (ix2 n 0)).toInt + _ < ((8192 : Nat) : Int)
        rw [h0]; have := r.isLt; omega
      | ⟨1, _⟩ =>
        show 0 ≤ (I (ix2 n 1)).toInt + _ ∧ (I (ix2 n 1)).toInt + _ < ((8192 : Nat) : Int)
        rw [h1]; have := c.isLt; omega
    rw [dif_pos hh]
    congr 1
    funext a
    match a with
    | ⟨0, _⟩ => apply Fin.ext; show ((I (ix2 n 0)).toInt + _).toNat = r.val; rw [h0]; simp
    | ⟨1, _⟩ => apply Fin.ext; show ((I (ix2 n 1)).toInt + _).toNat = c.val; rw [h1]; simp

/-- The positions of the update vector are the numbers below 131072. -/
def posEquiv : S131072.Idx ≃ Fin 131072 where
  toFun j := j 0
  invFun n := ix1 n
  left_inv j := (eq_ix1 j).symm
  right_inv _ := rfl

/-- The scatter read at an entry: the operand's entry plus the updates whose index vector, read
    signed, is that entry. -/
theorem scatterAdd_apply (x : S8192x8192.Idx → EReal) (I : IVec S131072x2 32) (upd : S131072.Idx → EReal)
    (r c : Fin 8192) :
    Ideal.hostScatterAdd (scat wf) x I upd (ix2 r c)
      = x (ix2 r c) + ∑ n : Fin 131072,
          if (I (ix2 n 0)).toInt = (r.val : Int) ∧ (I (ix2 n 1)).toInt = (c.val : Int) then upd (ix1 n) else 0 := by
  unfold Ideal.hostScatterAdd
  refine congrArg (fun t => x (ix2 r c) + t) ?_
  rw [Finset.sum_filter, ← Equiv.sum_comp posEquiv.symm]
  refine Finset.sum_congr rfl fun n _ => ?_
  show (if (scat wf).resultIdx? (ix1 n) I = some (ix2 r c) then upd (ix1 n) else 0) = _
  exact if_congr (resultIdx_eq_some_iff wf n I r c) rfl rfl

/-- Sixteen consecutive positions per row: a sum over the positions of row `r` is a sum over the
    sixteen slots of that row. -/
theorem sum_row_positions {M : Type*} [AddCommMonoid M] (f : Fin 131072 → M) (r : Fin 8192) :
    (∑ n : Fin 131072, if n.val / 16 = r.val then f n else 0)
      = ∑ m : Fin 16, f ⟨16 * r.val + m.val, by have := r.isLt; have := m.isLt; omega⟩ := by
  have e : Fin 8192 × Fin 16 ≃ Fin 131072 := finProdFinEquiv
  have hv : ∀ p : Fin 8192 × Fin 16, ((finProdFinEquiv p : Fin (8192 * 16)) : Nat) = p.2.val + 16 * p.1.val := fun _ => rfl
  rw [← Equiv.sum_comp (finProdFinEquiv : Fin 8192 × Fin 16 ≃ Fin (8192 * 16)), Fintype.sum_prod_type]
  have h1 : ∀ (a : Fin 8192) (b : Fin 16),
      (if ((finProdFinEquiv (a, b) : Fin (8192 * 16)) : Nat) / 16 = r.val then f (finProdFinEquiv (a, b)) else 0)
        = if a = r then f ⟨16 * r.val + b.val, by have := r.isLt; have := b.isLt; omega⟩ else 0 := by
    intro a b
    have hd : ((finProdFinEquiv (a, b) : Fin (8192 * 16)) : Nat) / 16 = a.val := by
      rw [hv]; have := b.isLt; show (b.val + 16 * a.val) / 16 = a.val; omega
    by_cases h : a = r
    · subst h
      rw [if_pos hd, if_pos rfl]
      congr 1
      apply Fin.ext
      rw [hv]; show b.val + 16 * a.val = 16 * a.val + b.val; omega
    · rw [if_neg (by rw [hd]; exact fun hh => h (Fin.ext hh)), if_neg h]
  simp only [h1]
  rw [Finset.sum_comm]
  simp only [Finset.sum_ite_eq', Finset.mem_univ, if_true]

/-- Row sums. When position `n` carries the row `n / 16` and a column inside the matrix, the sum
    of row `r` of the scatter's result is the sum of row `r` of the operand plus the sixteen
    updates of that row: every update lands, and it lands in its own row. -/
theorem scatterAdd_rowsum (x : S8192x8192.Idx → EReal) (I : IVec S131072x2 32) (upd : S131072.Idx → EReal)
    (hrow : ∀ n : Fin 131072, (I (ix2 n 0)).toInt = ((n.val / 16 : Nat) : Int))
    (hcol : ∀ n : Fin 131072, 0 ≤ (I (ix2 n 1)).toInt ∧ (I (ix2 n 1)).toInt < 8192) (r : Fin 8192) :
    ∑ c : Fin 8192, Ideal.hostScatterAdd (scat wf) x I upd (ix2 r c)
      = ∑ c : Fin 8192, x (ix2 r c)
        + ∑ m : Fin 16, upd (ix1 ⟨16 * r.val + m.val, by have := r.isLt; have := m.isLt; omega⟩) := by
  simp only [scatterAdd_apply]
  rw [Finset.sum_add_distrib, Finset.sum_comm]
  refine congrArg (fun t => (∑ c : Fin 8192, x (ix2 r c)) + t) ?_
  rw [← sum_row_positions (fun n => upd (ix1 n)) r]
  refine Finset.sum_congr rfl fun n _ => ?_
  obtain ⟨h0, h1⟩ := hcol n
  have hr := hrow n
  by_cases h : n.val / 16 = r.val
  · rw [if_pos h]
    have hc : (I (ix2 n 1)).toInt.toNat < 8192 := by omega
    rw [Finset.sum_eq_single (⟨(I (ix2 n 1)).toInt.toNat, hc⟩ : Fin 8192)]
    · rw [if_pos]
      refine ⟨by rw [hr, h], ?_⟩
      show (I (ix2 n 1)).toInt = (((I (ix2 n 1)).toInt.toNat : Nat) : Int)
      omega
    · intro c _ hne
      rw [if_neg]
      rintro ⟨_, h2⟩
      apply hne
      apply Fin.ext
      show c.val = (I (ix2 n 1)).toInt.toNat
      omega
    · intro hh; exact absurd (Finset.mem_univ _) hh
  · rw [if_neg h]
    refine Finset.sum_eq_zero fun c _ => ?_
    rw [if_neg]
    rintro ⟨h2, _⟩
    apply h
    rw [hr] at h2
    exact_mod_cast h2

end Cert.Spec
-- ==== Proof.AdjTerm.lean ====
import proofs.«127076_j34282428956966_2_alg».proof.Proof.AdjScatter
import Idealize.ShloMosaic.Lib.Pipeline.Value

/-!
# The adjacency matrix built from the neighbour table

The neighbour table `idx` has 8192 rows of 16 slots. A slot is valid when its entry, read signed,
is non-negative; its column is the entry when valid and 0 otherwise, and its weight is 1 when valid
and 0 otherwise. The rows and columns of the 131072 slots, taken row by row, are joined into one
[131072, 2] array of (row, column) pairs and the weights are scattered, with addition, into an
8192 × 8192 matrix of zeros. So the entry (r, c) of the result counts the valid slots of row `r`
whose entry is `c`; and when every entry is below 8192 every valid slot is counted somewhere in
its row, so a row of the matrix sums to the number of valid slots of that row.
-/

open Idealize.ShloMosaic Idealize.ShloMosaic.ValueIdx

noncomputable section

namespace Cert.Spec

abbrev S_ : Shape := ⟨0, ![]⟩
abbrev S8192 : Shape := ⟨1, ![8192]⟩
abbrev S8192x1 : Shape := ⟨2, ![8192, 1]⟩
abbrev S8192x16 : Shape := ⟨2, ![8192, 16]⟩
abbrev S131072x1 : Shape := ⟨2, ![131072, 1]⟩

theorem bc0_8192x16 : S_.BroadcastsInDim S8192x16 (![] : Fin 0 → Fin S8192x16.rank) := by decide
theorem bc0_131072 : S_.BroadcastsInDim S131072 (![] : Fin 0 → Fin S131072.rank) := by decide
theorem bc0_8192x8192 : S_.BroadcastsInDim S8192x8192 (![] : Fin 0 → Fin S8192x8192.rank) := by decide
theorem bc_8192_8192x1 : S8192.BroadcastsInDim S8192x1 (![0] : Fin 1 → Fin S8192x1.rank) := by decide
theorem bc_8192x1_8192x16 : S8192x1.BroadcastsInDim S8192x16 (![0, 1] : Fin 2 → Fin S8192x16.rank) := by decide
theorem sc_8192x16_131072 : S8192x16.ShapeCasts S131072 := by decide
theorem bc_131072_131072x1 : S131072.BroadcastsInDim S131072x1 (![0] : Fin 1 → Fin S131072x1.rank) := by decide
theorem cat_131072x2 : Shape.Concatenates [S131072x1, S131072x1] S131072x2 1 := by decide
theorem scat_wf : ScatterDims.WF S8192x8192 S131072x2 S131072 [] [0, 1] [0, 1] 1 := by decide

/-- A slot is valid when its entry is non-negative (read signed). -/
def validT (idx : IVec S8192x16 32) : IVec S8192x16 1 :=
  cmpi .sge idx (broadcastInDim S8192x16 ![] bc0_8192x16 (constantI S_ 32 0#32))
/-- The column of a slot: its entry when valid, else 0. -/
def colT (idx : IVec S8192x16 32) : IVec S8192x16 32 :=
  select (validT idx) idx (broadcastInDim S8192x16 ![] bc0_8192x16 (constantI S_ 32 0#32))
/-- The weight of a slot: 1 when valid, else 0. -/
def valT (idx : IVec S8192x16 32) : FVec Ideal S8192x16 .f32 := uitofp .f32 (validT idx)
/-- The row number of every slot. -/
def rowT : IVec S8192x16 32 :=
  broadcastInDim S8192x16 ![0, 1] bc_8192x1_8192x16 (broadcastInDim S8192x1 ![0] bc_8192_8192x1 (iotaInDim S8192 32 0))
/-- A negative index counted from the end: 8192 is added to it. -/
def wrapT (v : IVec S131072 32) : IVec S131072 32 :=
  select (cmpi .slt v (broadcastInDim S131072 ![] bc0_131072 (constantI S_ 32 0#32)))
    (addi v (broadcastInDim S131072 ![] bc0_131072 (constantI S_ 32 8192#32))) v
/-- The (row, column) pairs of the 131072 slots, row by row. -/
def pairT (idx : IVec S8192x16 32) : IVec S131072x2 32 :=
  concatenate S131072x2 1
    [⟨S131072x1, broadcastInDim S131072x1 ![0] bc_131072_131072x1 (wrapT (shapeCast _ rowT sc_8192x16_131072))⟩,
     ⟨S131072x1, broadcastInDim S131072x1 ![0] bc_131072_131072x1 (wrapT (shapeCast _ (colT idx) sc_8192x16_131072))⟩]
    cat_131072x2
/-- The weights of the 131072 slots, row by row. -/
def updT (idx : IVec S8192x16 32) : FVec Ideal S131072 .f32 := shapeCast _ (valT idx) sc_8192x16_131072
/-- The adjacency counts: the weights scattered, with addition, into a matrix of zeros. -/
def adjT (idx : IVec S8192x16 32) : FVec Ideal S8192x8192 .f32 :=
  Host.scatterAdd (F := Ideal) (scat scat_wf)
    (broadcastInDim S8192x8192 ![] bc0_8192x8192 (constant (F := Ideal) S_ .f32 0x00000000#32)) (pairT idx) (updT idx)

/-- The slot of position `n`: row `n / 16`, slot `n % 16`. -/
abbrev slot (n : Fin 131072) : S8192x16.Idx :=
  ix2 (⟨n.val / 16, by have := n.isLt; omega⟩ : Fin 8192) (⟨n.val % 16, by omega⟩ : Fin 16)

theorem ofBool_eq_one (b : Bool) : BitVec.ofBool b = 1#1 ↔ b = true := by cases b <;> decide
theorem ofBool_eq_zero (b : Bool) : BitVec.ofBool b = 0#1 ↔ b = false := by cases b <;> decide

theorem validT_apply (idx : IVec S8192x16 32) (p : S8192x16.Idx) :
    validT idx p = 1#1 ↔ 0 ≤ (idx p).toInt := by
  show BitVec.ofBool ((0#32).sle (idx p)) = 1#1 ↔ _
  rw [ofBool_eq_one, BitVec.sle_iff_toInt_le]
  simp

theorem colT_apply (idx : IVec S8192x16 32) (p : S8192x16.Idx) :
    (colT idx p).toInt = if 0 ≤ (idx p).toInt then (idx p).toInt else 0 := by
  show (Scalar.select (validT idx p) (idx p) 0#32).toInt = _
  by_cases h : 0 ≤ (idx p).toInt
  · rw [(validT_apply idx p).2 h, select_one, if_pos h]
  · rw [eq_zero_of_ne_one (fun hh => h ((validT_apply idx p).1 hh)), select_zero, if_neg h]; rfl

theorem valT_apply (idx : IVec S8192x16 32) (p : S8192x16.Idx) :
    valT idx p = if 0 ≤ (idx p).toInt then 1 else 0 := by
  show (((validT idx p).toNat : ℝ) : EReal) = _
  by_cases h : 0 ≤ (idx p).toInt
  · rw [(validT_apply idx p).2 h, if_pos h]; simp
  · have : validT idx p = 0#1 := eq_zero_of_ne_one (fun hh => h ((validT_apply idx p).1 hh))
    rw [this, if_neg h]; simp

theorem wrapT_apply (v : IVec S131072 32) (j : S131072.Idx) (h : 0 ≤ (v j).toInt) : wrapT v j = v j := by
  show Scalar.select (IntOp.cmpi .slt (v j) 0#32) _ (v j) = v j
  have : IntOp.cmpi .slt (v j) 0#32 = 0#1 := by
    show BitVec.ofBool ((v j).slt 0#32) = 0#1
    rw [ofBool_eq_zero, Bool.eq_false_iff, Ne, BitVec.slt_iff_toInt_lt]
    simp; omega
  rw [this, select_zero]

theorem rowT_flat (n : Fin 131072) :
    shapeCast S131072 rowT sc_8192x16_131072 (ix1 n) = BitVec.ofNat 32 (n.val / 16) := by
  rw [shapeCast_apply rowT sc_8192x16_131072 (ix1 n) (slot n)
    (by rewrite [Shape.rowMajor_val_two, Shape.rowMajor_val_one]; show n.val / 16 * 16 + n.val % 16 = n.val; omega)]
  unfold rowT
  rw [broadcastInDim_apply _ bc_8192x1_8192x16 _ (slot n) (ix2 (⟨n.val / 16, by have := n.isLt; omega⟩ : Fin 8192) (0 : Fin 1))
    (fun a => match a with
      | ⟨0, _⟩ => by show n.val / 16 = if (8192 : Nat) = 1 then 0 else n.val / 16; rw [if_neg (by decide)]
      | ⟨1, _⟩ => by show 0 = if (1 : Nat) = 1 then 0 else n.val % 16; rw [if_pos rfl])]
  rw [broadcastInDim_apply _ bc_8192_8192x1 _ _ (ix1 (⟨n.val / 16, by have := n.isLt; omega⟩ : Fin 8192))
    (fun a => match a with
      | ⟨0, _⟩ => by show n.val / 16 = if (8192 : Nat) = 1 then 0 else n.val / 16; rw [if_neg (by decide)])]
  rfl

theorem colT_flat (idx : IVec S8192x16 32) (n : Fin 131072) :
    shapeCast S131072 (colT idx) sc_8192x16_131072 (ix1 n) = colT idx (slot n) :=
  shapeCast_apply (colT idx) sc_8192x16_131072 (ix1 n) (slot n)
    (by rewrite [Shape.rowMajor_val_two, Shape.rowMajor_val_one]; show n.val / 16 * 16 + n.val % 16 = n.val; omega)

theorem updT_apply (idx : IVec S8192x16 32) (n : Fin 131072) : updT idx (ix1 n) = valT idx (slot n) :=
  shapeCast_apply (valT idx) sc_8192x16_131072 (ix1 n) (slot n)
    (by rewrite [Shape.rowMajor_val_two, Shape.rowMajor_val_one]; show n.val / 16 * 16 + n.val % 16 = n.val; omega)

/-- The row component of the pair at position `n` is `n / 16`. -/
theorem pairT_row (idx : IVec S8192x16 32) (n : Fin 131072) :
    (pairT idx (ix2 n 0)).toInt = ((n.val / 16 : Nat) : Int) := by
  unfold pairT
  rw [concatenate_pair_apply_left (t := S131072x2) (s₁ := S131072x1) (s₂ := S131072x1) (1 : Fin 2) _ _ cat_131072x2
    (ix2 n (0 : Fin 2)) rfl (ix2 n (0 : Fin 1))
    (fun b => match b with
      | ⟨0, _⟩ => rfl
      | ⟨1, _⟩ => rfl)]
  rw [broadcastInDim_apply _ bc_131072_131072x1 _ _ (ix1 n)
    (fun a => match a with
      | ⟨0, _⟩ => by show n.val = if (131072 : Nat) = 1 then 0 else n.val; rw [if_neg (by decide)])]
  have hv : (BitVec.ofNat 32 (n.val / 16)).toInt = ((n.val / 16 : Nat) : Int) := by
    have := n.isLt
    rw [BitVec.toInt_eq_toNat_of_lt (by rw [BitVec.toNat_ofNat]; omega), BitVec.toNat_ofNat]
    congr 1; omega
  rw [wrapT_apply _ _ (by rw [rowT_flat, hv]; omega), rowT_flat, hv]

/-- The column component of the pair at position `n` is the column of its slot. -/
theorem pairT_col (idx : IVec S8192x16 32) (n : Fin 131072) :
    (pairT idx (ix2 n 1)).toInt = if 0 ≤ (idx (slot n)).toInt then (idx (slot n)).toInt else 0 := by
  unfold pairT
  rw [concatenate_pair_apply_right (t := S131072x2) (s₁ := S131072x1) (s₂ := S131072x1) (1 : Fin 2) _ _ cat_131072x2
    (ix2 n (1 : Fin 2)) rfl rfl (ix2 n (0 : Fin 1))
    (fun b hb => match b with
      | ⟨0, _⟩ => rfl
      | ⟨1, _⟩ => absurd rfl hb)
    rfl]
  rw [broadcastInDim_apply _ bc_131072_131072x1 _ _ (ix1 n)
    (fun a => match a with
      | ⟨0, _⟩ => by show n.val = if (131072 : Nat) = 1 then 0 else n.val; rw [if_neg (by decide)])]
  have h0 : 0 ≤ (colT idx (slot n)).toInt := by rw [colT_apply]; split <;> omega
  rw [wrapT_apply _ _ (by rw [colT_flat]; exact h0), colT_flat, colT_apply]

/-- The adjacency counts at an entry: the valid slots of row `r` whose entry is `c`. -/
theorem adjT_apply (idx : IVec S8192x16 32) (r c : Fin 8192) :
    adjT idx (ix2 r c)
      = ∑ m : Fin 16, if 0 ≤ (idx (ix2 r m)).toInt ∧ (idx (ix2 r m)).toInt = (c.val : Int) then 1 else 0 := by
  unfold adjT
  show Ideal.hostScatterAdd (scat scat_wf) _ (pairT idx) (updT idx) (ix2 r c) = _
  rw [scatterAdd_apply]
  have hz : broadcastInDim S8192x8192 ![] bc0_8192x8192 (constant (F := Ideal) S_ .f32 0x00000000#32) (ix2 r c) = (0 : EReal) := by
    show Ideal.ofBits .f32 0x00000000#32 = 0
    exact Ideal.ofBits_zero_f32
  rw [hz, zero_add]
  have hs : ∀ n : Fin 131072,
      (if (pairT idx (ix2 n 0)).toInt = (r.val : Int) ∧ (pairT idx (ix2 n 1)).toInt = (c.val : Int) then updT idx (ix1 n) else 0)
        = if n.val / 16 = r.val then
            (if 0 ≤ (idx (slot n)).toInt ∧ (idx (slot n)).toInt = (c.val : Int) then (1 : EReal) else 0) else 0 := by
    intro n
    rw [pairT_row, pairT_col, updT_apply, valT_apply]
    by_cases h1 : n.val / 16 = r.val
    · have h1' : ((n.val / 16 : Nat) : Int) = (r.val : Int) := by rw [h1]
      rw [if_pos h1]
      by_cases h2 : 0 ≤ (idx (slot n)).toInt
      · simp only [h2, h1', ↓reduceIte, true_and]
      · simp only [h2, ↓reduceIte, false_and]
        split <;> rfl
    · have h1' : ¬ ((n.val / 16 : Nat) : Int) = (r.val : Int) := fun hh => h1 (by exact_mod_cast hh)
      simp only [h1, h1', ↓reduceIte, false_and]
  simp only [hs]
  rw [sum_row_positions (fun n => if 0 ≤ (idx (slot n)).toInt ∧ (idx (slot n)).toInt = (c.val : Int) then (1 : EReal) else 0) r]
  refine Finset.sum_congr rfl fun m _ => ?_
  have hsl : slot ⟨16 * r.val + m.val, by have := r.isLt; have := m.isLt; omega⟩ = ix2 r m := by
    funext a
    match a with
    | ⟨0, _⟩ => apply Fin.ext; show (16 * r.val + m.val) / 16 = r.val; have := m.isLt; omega
    | ⟨1, _⟩ => apply Fin.ext; show (16 * r.val + m.val) % 16 = m.val; have := m.isLt; omega
  rw [hsl]

/-- The degree lemma. When every entry of the table is below 8192, row `r` of the adjacency counts
    sums to the number of valid slots of row `r`. -/
theorem adjT_rowsum (idx : IVec S8192x16 32) (hlt : ∀ p : S8192x16.Idx, (idx p).toInt < 8192) (r : Fin 8192) :
    ∑ c : Fin 8192, adjT idx (ix2 r c) = ∑ m : Fin 16, valT idx (ix2 r m) := by
  unfold adjT
  show ∑ c : Fin 8192, Ideal.hostScatterAdd (scat scat_wf) _ (pairT idx) (updT idx) (ix2 r c) = _
  rw [scatterAdd_rowsum scat_wf _ (pairT idx) (updT idx) (pairT_row idx)
    (fun n => by rw [pairT_col]; have := hlt (slot n); split <;> omega) r]
  have hz : ∀ c : Fin 8192,
      broadcastInDim S8192x8192 ![] bc0_8192x8192 (constant (F := Ideal) S_ .f32 0x00000000#32) (ix2 r c) = (0 : EReal) :=
    fun c => by show Ideal.ofBits .f32 0x00000000#32 = 0; exact Ideal.ofBits_zero_f32
  simp only [hz, Finset.sum_const_zero, zero_add]
  refine Finset.sum_congr rfl fun m _ => ?_
  rw [updT_apply]
  congr 1
  funext a
  match a with
  | ⟨0, _⟩ => apply Fin.ext; show (16 * r.val + m.val) / 16 = r.val; have := m.isLt; omega
  | ⟨1, _⟩ => apply Fin.ext; show (16 * r.val + m.val) % 16 = m.val; have := m.isLt; omega

end Cert.Spec
-- ==== Proof.KernelReads.lean ====
/-
  What each kernel region is entered with, traced back to @main's arguments (at the ideal instance).

  A region's window reads an array that some earlier item produced: a host stretch (the adjacency counts, the column of
  inverse square roots of the degrees, a cast or a reshape of a weight or a bias) or an earlier region (the adjacency
  with self loops, the embedding, the previous layer). Nothing between the producer and the reader writes that buffer,
  so the contents the reader finds are the producer's. The casts to the narrower float format are the identity here.
-/
import proofs.«127076_j34282428956966_2_alg».proof.Proof.Fold
import proofs.«127076_j34282428956966_2_alg».proof.Proof.AdjTerm
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## Buffers nobody writes between their producer and their reader -/

theorem arg0_at4 : B4 m c main_arg0 = m ((c : Thread nD τ).loc main_arg0) :=
  (B4_of m c main_arg0 (by decide)).trans <| (B3_of m c main_arg0 (by decide)).trans <| (B2_of m c main_arg0 (by decide)).trans <| (B1_of m c main_arg0 (by decide)).trans <| rfl
theorem arg2_at4 : B4 m c main_arg2 = m ((c : Thread nD τ).loc main_arg2) :=
  (B4_of m c main_arg2 (by decide)).trans <| (B3_of m c main_arg2 (by decide)).trans <| (B2_of m c main_arg2 (by decide)).trans <| (B1_of m c main_arg2 (by decide)).trans <| rfl
theorem arg3_at4 : B4 m c main_arg3 = m ((c : Thread nD τ).loc main_arg3) :=
  (B4_of m c main_arg3 (by decide)).trans <| (B3_of m c main_arg3 (by decide)).trans <| (B2_of m c main_arg3 (by decide)).trans <| (B1_of m c main_arg3 (by decide)).trans <| rfl
theorem arg4_at6 : B6 m c main_arg4 = m ((c : Thread nD τ).loc main_arg4) :=
  (B6_of m c main_arg4 (by decide)).trans <| (B5_of m c main_arg4 (by decide)).trans <| (B4_of m c main_arg4 (by decide)).trans <| (B3_of m c main_arg4 (by decide)).trans <| (B2_of m c main_arg4 (by decide)).trans <| (B1_of m c main_arg4 (by decide)).trans <| rfl
theorem arg5_at6 : B6 m c main_arg5 = m ((c : Thread nD τ).loc main_arg5) :=
  (B6_of m c main_arg5 (by decide)).trans <| (B5_of m c main_arg5 (by decide)).trans <| (B4_of m c main_arg5 (by decide)).trans <| (B3_of m c main_arg5 (by decide)).trans <| (B2_of m c main_arg5 (by decide)).trans <| (B1_of m c main_arg5 (by decide)).trans <| rfl
theorem arg6_at8 : B8 m c main_arg6 = m ((c : Thread nD τ).loc main_arg6) :=
  (B8_of m c main_arg6 (by decide)).trans <| (B7_of m c main_arg6 (by decide)).trans <| (B6_of m c main_arg6 (by decide)).trans <| (B5_of m c main_arg6 (by decide)).trans <| (B4_of m c main_arg6 (by decide)).trans <| (B3_of m c main_arg6 (by decide)).trans <| (B2_of m c main_arg6 (by decide)).trans <| (B1_of m c main_arg6 (by decide)).trans <| rfl
theorem arg7_at8 : B8 m c main_arg7 = m ((c : Thread nD τ).loc main_arg7) :=
  (B8_of m c main_arg7 (by decide)).trans <| (B7_of m c main_arg7 (by decide)).trans <| (B6_of m c main_arg7 (by decide)).trans <| (B5_of m c main_arg7 (by decide)).trans <| (B4_of m c main_arg7 (by decide)).trans <| (B3_of m c main_arg7 (by decide)).trans <| (B2_of m c main_arg7 (by decide)).trans <| (B1_of m c main_arg7 (by decide)).trans <| rfl
theorem arg8_at10 : B10 m c main_arg8 = m ((c : Thread nD τ).loc main_arg8) :=
  (B10_of m c main_arg8 (by decide)).trans <| (B9_of m c main_arg8 (by decide)).trans <| (B8_of m c main_arg8 (by decide)).trans <| (B7_of m c main_arg8 (by decide)).trans <| (B6_of m c main_arg8 (by decide)).trans <| (B5_of m c main_arg8 (by decide)).trans <| (B4_of m c main_arg8 (by decide)).trans <| (B3_of m c main_arg8 (by decide)).trans <| (B2_of m c main_arg8 (by decide)).trans <| (B1_of m c main_arg8 (by decide)).trans <| rfl
theorem arg9_at10 : B10 m c main_arg9 = m ((c : Thread nD τ).loc main_arg9) :=
  (B10_of m c main_arg9 (by decide)).trans <| (B9_of m c main_arg9 (by decide)).trans <| (B8_of m c main_arg9 (by decide)).trans <| (B7_of m c main_arg9 (by decide)).trans <| (B6_of m c main_arg9 (by decide)).trans <| (B5_of m c main_arg9 (by decide)).trans <| (B4_of m c main_arg9 (by decide)).trans <| (B3_of m c main_arg9 (by decide)).trans <| (B2_of m c main_arg9 (by decide)).trans <| (B1_of m c main_arg9 (by decide)).trans <| rfl
theorem selfloops_kept7 : E7 m c main_v31 = B4 m c main_v31 :=
  (B7_of m c main_v31 (by decide)).trans <| (B6_of m c main_v31 (by decide)).trans <| (B5_of m c main_v31 (by decide)).trans <| rfl
theorem dcol_kept7 : E7 m c main_v30 = B3 m c main_v30 :=
  (B7_of m c main_v30 (by decide)).trans <| (B6_of m c main_v30 (by decide)).trans <| (B5_of m c main_v30 (by decide)).trans <| (B4_of m c main_v30 (by decide)).trans <| rfl
theorem selfloops_kept9 : E9 m c main_v31 = B4 m c main_v31 :=
  (B9_of m c main_v31 (by decide)).trans <| (B8_of m c main_v31 (by decide)).trans <| (B7_of m c main_v31 (by decide)).trans <| (B6_of m c main_v31 (by decide)).trans <| (B5_of m c main_v31 (by decide)).trans <| rfl
theorem dcol_kept9 : E9 m c main_v30 = B3 m c main_v30 :=
  (B9_of m c main_v30 (by decide)).trans <| (B8_of m c main_v30 (by decide)).trans <| (B7_of m c main_v30 (by decide)).trans <| (B6_of m c main_v30 (by decide)).trans <| (B5_of m c main_v30 (by decide)).trans <| (B4_of m c main_v30 (by decide)).trans <| rfl
theorem selfloops_kept11 : E11 m c main_v31 = B4 m c main_v31 :=
  (B11_of m c main_v31 (by decide)).trans <| (B10_of m c main_v31 (by decide)).trans <| (B9_of m c main_v31 (by decide)).trans <| (B8_of m c main_v31 (by decide)).trans <| (B7_of m c main_v31 (by decide)).trans <| (B6_of m c main_v31 (by decide)).trans <| (B5_of m c main_v31 (by decide)).trans <| rfl
theorem dcol_kept11 : E11 m c main_v30 = B3 m c main_v30 :=
  (B11_of m c main_v30 (by decide)).trans <| (B10_of m c main_v30 (by decide)).trans <| (B9_of m c main_v30 (by decide)).trans <| (B8_of m c main_v30 (by decide)).trans <| (B7_of m c main_v30 (by decide)).trans <| (B6_of m c main_v30 (by decide)).trans <| (B5_of m c main_v30 (by decide)).trans <| (B4_of m c main_v30 (by decide)).trans <| rfl
theorem embed_kept7 : E7 m c main_v35 = B6 m c main_v35 :=
  (B7_of m c main_v35 (by decide)).trans <| rfl
theorem layer1_kept9 : E9 m c main_v38 = B8 m c main_v38 :=
  (B9_of m c main_v38 (by decide)).trans <| rfl
theorem layer2_kept11 : E11 m c main_v41 = B10 m c main_v41 :=
  (B11_of m c main_v41 (by decide)).trans <| rfl

/-! ## What the host stretches write -/

/-- The column of inverse square roots of the degrees as the opening stretch computes it: the row sums of the edge
    indicator, plus one, raised to the power the literal `0xBF000000` denotes, laid as a column. -/
def dcolTerm (idx : IVec S8192x16 32) : S8192x1.Idx → EReal :=
  shapeCast S8192x1
    (Host.powf (F := Ideal)
      (addf (F := Ideal) (Host.reduceAdd (F := Ideal) (Cert.Spec.valT idx) (constant (F := Ideal) S_ .f32 0x00000000#32) reducesTo_S8192x16_S8192_d1 h_S_)
        (broadcastInDim S8192 ![] bcast_S_S8192 (constant (F := Ideal) S_ .f32 0x3F800000#32)))
      (broadcastInDim S8192 ![] bcast_S_S8192 (constant (F := Ideal) S_ .f32 0xBF000000#32)))
    shapeCasts_S8192_S8192x1

/-- Region 0 is entered with the adjacency counts of the edge list. -/
theorem adj_entry : E3 m c main_v24 = Cert.Spec.adjT (m ((c : Thread nD τ).loc main_arg1)) := by
  show StableHlo.after hostOps0_2 (StableHlo.after hostOps0_1 (StableHlo.after hostOps0 (B0 m c))) (Proc.devRef .tc main_v24) = _
  after_results_simp
  rfl
/-- The opening stretch leaves the column of inverse square roots of the degrees in `main_v30`. -/
theorem dcol_entry : B3 m c main_v30 = dcolTerm (m ((c : Thread nD τ).loc main_arg1)) := by
  show StableHlo.after hostOps0_2 (StableHlo.after hostOps0_1 (StableHlo.after hostOps0 (B0 m c))) (Proc.devRef .tc main_v30) = _
  after_results_simp
  rfl
theorem main_v32_entry : E5 m c main_v32 = (m ((c : Thread nD τ).loc main_arg0) : S8192x128.Idx → EReal) := by
  have h : StableHlo.after hostOps1 (B4 m c) (Proc.devRef .tc main_v32) = (B4 m c main_arg0 : S8192x128.Idx → EReal) := by
    after_results
    rfl
  exact h.trans (by rw [arg0_at4 m c])
theorem main_v33_entry : E5 m c main_v33 = (m ((c : Thread nD τ).loc main_arg2) : S128x512.Idx → EReal) := by
  have h : StableHlo.after hostOps1 (B4 m c) (Proc.devRef .tc main_v33) = (B4 m c main_arg2 : S128x512.Idx → EReal) := by
    after_results
    rfl
  exact h.trans (by rw [arg2_at4 m c])
theorem main_v34_entry : E5 m c main_v34 = shapeCast S1x512 (m ((c : Thread nD τ).loc main_arg3)) shapeCasts_S512_S1x512 := by
  have h : StableHlo.after hostOps1 (B4 m c) (Proc.devRef .tc main_v34) = shapeCast S1x512 (B4 m c main_arg3) shapeCasts_S512_S1x512 := by
    after_results
    rfl
  exact h.trans (by rw [arg3_at4 m c])
theorem main_v36_entry : E7 m c main_v36 = (m ((c : Thread nD τ).loc main_arg4) : S512x512.Idx → EReal) := by
  have h : StableHlo.after hostOps2 (B6 m c) (Proc.devRef .tc main_v36) = (B6 m c main_arg4 : S512x512.Idx → EReal) := by
    after_results
    rfl
  exact h.trans (by rw [arg4_at6 m c])
theorem main_v37_entry : E7 m c main_v37 = shapeCast S1x512 (m ((c : Thread nD τ).loc main_arg5)) shapeCasts_S512_S1x512 := by
  have h : StableHlo.after hostOps2 (B6 m c) (Proc.devRef .tc main_v37) = shapeCast S1x512 (B6 m c main_arg5) shapeCasts_S512_S1x512 := by
    after_results
    rfl
  exact h.trans (by rw [arg5_at6 m c])
theorem main_v39_entry : E9 m c main_v39 = (m ((c : Thread nD τ).loc main_arg6) : S512x512.Idx → EReal) := by
  have h : StableHlo.after hostOps3 (B8 m c) (Proc.devRef .tc main_v39) = (B8 m c main_arg6 : S512x512.Idx → EReal) := by
    after_results
    rfl
  exact h.trans (by rw [arg6_at8 m c])
theorem main_v40_entry : E9 m c main_v40 = shapeCast S1x512 (m ((c : Thread nD τ).loc main_arg7)) shapeCasts_S512_S1x512 := by
  have h : StableHlo.after hostOps3 (B8 m c) (Proc.devRef .tc main_v40) = shapeCast S1x512 (B8 m c main_arg7) shapeCasts_S512_S1x512 := by
    after_results
    rfl
  exact h.trans (by rw [arg7_at8 m c])
theorem main_v42_entry : E11 m c main_v42 = (m ((c : Thread nD τ).loc main_arg8) : S512x512.Idx → EReal) := by
  have h : StableHlo.after hostOps4 (B10 m c) (Proc.devRef .tc main_v42) = (B10 m c main_arg8 : S512x512.Idx → EReal) := by
    after_results
    rfl
  exact h.trans (by rw [arg8_at10 m c])
theorem main_v43_entry : E11 m c main_v43 = shapeCast S1x512 (m ((c : Thread nD τ).loc main_arg9)) shapeCasts_S512_S1x512 := by
  have h : StableHlo.after hostOps4 (B10 m c) (Proc.devRef .tc main_v43) = shapeCast S1x512 (B10 m c main_arg9) shapeCasts_S512_S1x512 := by
    after_results
    rfl
  exact h.trans (by rw [arg9_at10 m c])

end Cert.KernelIdeal.Hand

end
-- ==== Proof.Payload0.lean ====
/- The arithmetic of the self-loop kernel at one entry of a 1024 x 1024 tile, over the exact extended reals: on the
   diagonal of the tiling the stored entry is the loaded entry plus the identity's (1 where the row and the column
   inside the tile agree, 0 elsewhere); off it the stored entry is the loaded one. -/
import proofs.«127076_j34282428956966_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The identity tile at an entry: the two position counters, compared, widened and read as a number, give 1 on the
    tile's diagonal and 0 off it (the counters stay below 1024, far from where 32-bit words wrap). -/
theorem eye_entry (p q : Fin 1024) :
    (FloatOps.sitofp (F := Ideal) .f32 ((IntOp.cmpi .eq (BitVec.ofNat 32 p.val) (BitVec.ofNat 32 q.val)).setWidth 32) : EReal)
      = if p.val = q.val then 1 else 0 := by
  show ((((IntOp.cmpi .eq (BitVec.ofNat 32 p.val) (BitVec.ofNat 32 q.val)).setWidth 32).toInt : ℝ) : EReal) = _
  have hp := p.isLt
  have hq := q.isLt
  by_cases h : p.val = q.val
  · rw [if_pos h, h]
    have e : IntOp.cmpi .eq (BitVec.ofNat 32 q.val) (BitVec.ofNat 32 q.val) = 1#1 := by simp [IntOp.cmpi]
    rw [e]
    have e2 : ((1#1 : BitVec 1).setWidth 32).toInt = 1 := by decide
    rw [e2]; simp
  · rw [if_neg h]
    have hne : (BitVec.ofNat 32 p.val == BitVec.ofNat 32 q.val) = false := by
      rw [beq_eq_false_iff_ne]
      intro e
      have := congrArg BitVec.toNat e
      simp only [BitVec.toNat_ofNat, Nat.reducePow] at this
      omega
    have e : IntOp.cmpi .eq (BitVec.ofNat 32 p.val) (BitVec.ofNat 32 q.val) = 0#1 := by simp [IntOp.cmpi, hne]
    rw [e]
    have e2 : ((0#1 : BitVec 1).setWidth 32).toInt = 0 := by decide
    rw [e2]; simp

/-- The shape cast the body puts on the loaded tile changes nothing. -/
theorem k0_pay1_eq (x : Vec Ideal S1024x1024 .f32) : k0_pay1 (F := Ideal) x = x := by
  unfold k0_pay1
  exact shapeCast_self x _

/-- Off the diagonal of the tiling the stored tile is the loaded one, entry by entry (narrowing to bf16 is exact at the
    ideal values). -/
theorem k0_pay3_apply (x : Vec Ideal S1024x1024 .f32) (p q : Fin 1024) :
    k0_pay3 (F := Ideal) x (ix2 p q) = x (ix2 p q) := by
  unfold k0_pay3
  show k0_pay1 (F := Ideal) x (ix2 p q) = _
  rw [k0_pay1_eq]

/-- On it, the loaded tile plus the identity tile. -/
theorem k0_pay2_apply (x : Vec Ideal S1024x1024 .f32) (p q : Fin 1024) :
    k0_pay2 (F := Ideal) x (ix2 p q) = x (ix2 p q) + if p.val = q.val then 1 else 0 := by
  unfold k0_pay2
  show k0_pay1 (F := Ideal) x (ix2 p q)
      + FloatOps.sitofp (F := Ideal) .f32 ((IntOp.cmpi .eq (iota .tc S1024x1024 32 [0] iota_S1024x1024_d0_w32 (ix2 p q))
          (iota .tc S1024x1024 32 [1] iota_S1024x1024_d1_w32 (ix2 p q))).setWidth 32) = _
  rw [k0_pay1_eq, iota_single_apply, iota_single_apply]
  exact congrArg (x (ix2 p q) + ·) (eye_entry p q)

end Cert.KernelIdeal.Hand

end
-- ==== Proof.Value0.lean ====
/- The value of the first kernel launch over the exact extended reals: when its 64 steps are done, the bf16 matrix it
   wrote is, entry by entry, the adjacency matrix it was given plus 1 on the main diagonal. Step `t` writes the tile in
   tile-row `t / 8`, tile-column `t % 8`; entry `(p, q)` of that tile is entry `(1024·(t / 8) + p, 1024·(t % 8) + q)`
   of the matrix, which lies on the main diagonal exactly when the tile is on the diagonal of the tiling and `p = q`;
   the 64 tiles cover the matrix. -/
import proofs.«127076_j34282428956966_2_alg».proof.Proof.Region0
import proofs.«127076_j34282428956966_2_alg».proof.Proof.Payload0
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- what every buffer of the core holds at the moment the launch starts, at the exact extended reals
variable (V : (c : Dev nD) → (b : Ref sig .tc) → Buf (Elt Ideal) ((c : Thread nD τ).loc b))

theorem zero_offsets2 : (![0, 0] : Fin 2 → Nat) = fun _ => 0 := funext fun a => by fin_cases a <;> rfl

/-- A square matrix with 1 added along its main diagonal. -/
def withSelfLoops (A : S8192x8192.Idx → EReal) : S8192x8192.Idx → EReal :=
  fun i => A i + if (i 0).val = (i 1).val then 1 else 0

theorem withSelfLoops_apply (A : S8192x8192.Idx → EReal) (r s : Fin 8192) :
    withSelfLoops A (ix2 r s) = A (ix2 r s) + if r.val = s.val then 1 else 0 := rfl

/-- Step `t` reads and writes the tile in tile-row `t / 8` and tile-column `t % 8` (checked at each of the 64 steps). -/
theorem tile_of_step0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8 :=
  (by decide +kernel : ∀ t : Fin grid0.N, _)

/-- WHAT STEP `t` WRITES BACK is tile `t` of the input matrix with self loops. -/
theorem flushed0_eq (c : Dev nD) (t : Fin cfg0.N) :
    (dat0 V c).flushed 1 t = ((cfg0.win 1).blk t).view.read (Elt Ideal) (withSelfLoops (V c main_v24)) := by
  show (cfg0.win 1).cut (grid0.coords t) ((dat0 V c).after 1 t) = _
  rw [after0_1]
  obtain ⟨e0, e1, e2, e3⟩ := tile_of_step0 t
  -- an entry of the input tile is the matrix entry at the place the output tile's entry goes to
  have hin : ∀ (p q : Fin 1024), (iblk0 V c 0 t : Vec Ideal S1024x1024 .f32) (ix2 p q)
      = (V c main_v24 : S8192x8192.Idx → EReal) (((cfg0.win 1).blk t).view.emb (ix2 p q)) := fun p q => by
    unfold iblk0
    rw [View.read_apply]
    show (V c main_v24 : S8192x8192.Idx → EReal) (((cfg0.win 0).blk t).view.emb (ix2 p q)) = _
    refine congrArg _ (funext fun a => Fin.ext ?_)
    match a with
    | ⟨0, _⟩ => show win0_0.index t (0 : Fin 2) * 1024 + 1 * p.val = win0_1.index t (0 : Fin 2) * 1024 + 1 * p.val; omega
    | ⟨1, _⟩ => show win0_0.index t (1 : Fin 2) * 1024 + 1 * q.val = win0_1.index t (1 : Fin 2) * 1024 + 1 * q.val; omega
  -- where that place is
  have hrow : ∀ (p q : Fin 1024), ((((cfg0.win 1).blk t).view.emb (ix2 p q)) 0 : Nat) = t.val / 8 * 1024 + p.val := fun p q => by
    show win0_1.index t (0 : Fin 2) * 1024 + 1 * p.val = _; omega
  have hcol : ∀ (p q : Fin 1024), ((((cfg0.win 1).blk t).view.emb (ix2 p q)) 1 : Nat) = t.val % 8 * 1024 + q.val := fun p q => by
    show win0_1.index t (1 : Fin 2) * 1024 + 1 * q.val = _; omega
  by_cases h : t.val / 8 = t.val % 8
  · rw [out0_1_diag V c t h]
    unfold out0_diag_1
    rw [View.canon_unit_zero zero_offsets2]
    simp only [View.ld_unit_zero (S := S1024x1024) zero_offsets2]
    funext j
    obtain ⟨p, q, rfl⟩ : ∃ (p : Fin 1024) (q : Fin 1024), j = ix2 p q := ⟨j 0, j 1, eq_ix2 j⟩
    have hp := p.isLt
    have hq := q.isLt
    show k0_pay2 (F := Ideal) (iblk0 V c 0 t) (ix2 p q) = withSelfLoops (V c main_v24) (((cfg0.win 1).blk t).view.emb (ix2 p q))
    refine (k0_pay2_apply (iblk0 V c 0 t) p q).trans ?_
    rw [hin p q]
    unfold withSelfLoops
    refine congrArg _ (if_congr ?_ rfl rfl)
    rw [hrow p q, hcol p q]
    omega
  · rw [out0_1_off V c t h]
    unfold out0_off_1
    rw [View.canon_unit_zero zero_offsets2]
    simp only [View.ld_unit_zero (S := S1024x1024) zero_offsets2]
    funext j
    obtain ⟨p, q, rfl⟩ : ∃ (p : Fin 1024) (q : Fin 1024), j = ix2 p q := ⟨j 0, j 1, eq_ix2 j⟩
    have hp := p.isLt
    have hq := q.isLt
    show k0_pay3 (F := Ideal) (iblk0 V c 0 t) (ix2 p q) = withSelfLoops (V c main_v24) (((cfg0.win 1).blk t).view.emb (ix2 p q))
    refine (k0_pay3_apply (iblk0 V c 0 t) p q).trans ?_
    rw [hin p q]
    unfold withSelfLoops
    rw [if_neg (by rw [hrow p q, hcol p q]; omega), add_zero]

/-- A matrix entry is in step `t`'s tile when each of its coordinates is in the tile's 1024-long range. -/
theorem mem_tile0 (t : Fin cfg0.N) (i : S8192x8192.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v31).slice (win0_1.rect t)).set ↔ _
  rw [View.set_slice_whole, Rect.mem_set_unit]
  exact Iff.rfl

/-- Every entry `(r, s)` of the matrix is in some step's tile: that of step `8·(r / 1024) + s / 1024`. -/
theorem tiles_cover0 (i : S8192x8192.Idx) :
    ∃ t : Fin cfg0.N, (cfg0.win 1).flush t = true ∧ i ∈ ((cfg0.win 1).blk t).view.set := by
  have hi0 : (i 0).val < 8192 := idx2_lt0 i
  have hi1 : (i 1).val < 8192 := idx2_lt1 i
  have hN : cfg0.N = 64 := N_0
  obtain ⟨t, ht⟩ : ∃ t : Fin cfg0.N, t.val = (i 0).val / 1024 * 8 + (i 1).val / 1024 :=
    ⟨⟨(i 0).val / 1024 * 8 + (i 1).val / 1024, by rw [hN]; omega⟩, rfl⟩
  obtain ⟨-, -, e2, e3⟩ := tile_of_step0 t
  refine ⟨t, flush0_1 t, ?_⟩
  rw [mem_tile0]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- THE MATRIX AFTER THE LAUNCH: the adjacency matrix it was given, with self loops. -/
theorem final0 (c : Dev nD) : (dat0 V c).arrAt 1 cfg0.N = withSelfLoops (V c main_v24) :=
  (dat0 V c).arrAt_eq_of_cover 1 (withSelfLoops (V c main_v24)) (fun t _ => flushed0_eq V c t) tiles_cover0

end Cert.KernelIdeal.Hand

end
-- ==== Proof.Payload1.lean ====
/- The arithmetic of the embedding kernel at one entry of a 2048 x 512 result slab, over the exact extended reals: the
   row of the feature slab against the column of the 128 x 512 weights, summed over the 128 features, plus the bias of
   that column. -/
import proofs.«127076_j34282428956966_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The dimension numbers of the embedding product: rows of the slab against columns of the weights, summed over the
    128 features. -/
abbrev embedDot := dot_S2048x128_S128x512_S2048x512_1_0_0_1_n_n

/-- Entry `(r, c)` of the product takes row `r` of the left factor, -/
theorem embedDot_lhs_row (i : S2048x512.Idx) (k : embedDot.contr.Idx) : (embedDot.lhsIdx i k 0).val = (i 0).val := by
  unfold DotDims.lhsIdx
  rw [dif_neg (show ¬(0 : Fin S2048x128.rank) ∈ embedDot.lhsBatch by decide),
    dif_pos (show (0 : Fin S2048x128.rank) ∈ embedDot.lhsNonContracting by decide)]
  rfl
/-- at the summation index, -/
theorem embedDot_lhs_col (i : S2048x512.Idx) (k : embedDot.contr.Idx) : (embedDot.lhsIdx i k 1).val = (k ⟨0, by decide⟩).val :=
  embedDot.lhsIdx_val_of_single rfl i k
/-- against the right factor at the summation index -/
theorem embedDot_rhs_row (i : S2048x512.Idx) (k : embedDot.contr.Idx) : (embedDot.rhsIdx i k 0).val = (k ⟨0, by decide⟩).val :=
  embedDot.rhsIdx_val_of_single rfl i k
/-- and column `c`. -/
theorem embedDot_rhs_col (i : S2048x512.Idx) (k : embedDot.contr.Idx) : (embedDot.rhsIdx i k 1).val = (i 1).val := by
  unfold DotDims.rhsIdx
  rw [dif_neg (show ¬(1 : Fin S128x512.rank) ∈ embedDot.rhsBatch by decide),
    dif_pos (show (1 : Fin S128x512.rank) ∈ embedDot.rhsNonContracting by decide)]
  rfl

/-- The slab product at an entry, as a sum over the 128 features. -/
theorem embed_product_apply (a : FVec Ideal S2048x128 .bf16) (b : FVec Ideal S128x512 .bf16) (p : Fin 2048) (q : Fin 512) :
    FloatOps.matmul embedDot none a b (constant S2048x512 .f32 0x00000000#32) (ix2 p q)
      = ∑ k : Fin 128, a (ix2 p k) * b (ix2 k q) := by
  rw [Ideal.matmul_constant_zero_apply, ← Equiv.sum_comp (contrEquiv1 embedDot 128 rfl rfl).symm]
  refine Finset.sum_congr rfl fun k _ => ?_
  have hk := contrEquiv1_symm_val embedDot 128 rfl rfl k
  have el : embedDot.lhsIdx (ix2 p q) ((contrEquiv1 embedDot 128 rfl rfl).symm k) = ix2 p k := funext fun a => Fin.ext (by
    match a with
    | ⟨0, _⟩ => exact embedDot_lhs_row _ _
    | ⟨1, _⟩ => exact (embedDot_lhs_col _ _).trans hk)
  have er : embedDot.rhsIdx (ix2 p q) ((contrEquiv1 embedDot 128 rfl rfl).symm k) = ix2 k q := funext fun a => Fin.ext (by
    match a with
    | ⟨0, _⟩ => exact (embedDot_rhs_row _ _).trans hk
    | ⟨1, _⟩ => exact embedDot_rhs_col _ _)
  rw [el, er]

/-- The bias row spread over the 2048 rows of a slab: entry `(r, c)` is the bias at `c`. -/
theorem bias_rows_apply (b : FVec Ideal S1x512 .f32) (p : Fin 2048) (q : Fin 512) :
    broadcastTo S2048x512 b broadcasts_S1x512_S2048x512 (ix2 p q) = b (ix2 0 q) := by
  refine broadcastTo_apply b _ (ix2 p q) (ix2 0 q) fun a => ?_
  match a with
  | ⟨0, _⟩ => rfl
  | ⟨1, _⟩ => rfl

/-- What a step stores at an entry of its result slab: the row of the feature slab against the column of the weights,
    plus the bias of that column (the narrowing to bf16 is exact at the ideal values, and the shape casts change
    nothing). -/
theorem k1_pay1_apply (x0 : Vec Ideal S2048x128 .bf16) (x1 : Vec Ideal S128x512 .bf16) (x2 : Vec Ideal S1x512 .f32)
    (p : Fin 2048) (q : Fin 512) :
    k1_pay1 (F := Ideal) x0 x1 x2 (ix2 p q) = (∑ k : Fin 128, x0 (ix2 p k) * x1 (ix2 k q)) + x2 (ix2 0 q) := by
  unfold k1_pay1
  show FloatOps.matmul (F := Ideal) embedDot none (shapeCast S2048x128 x0 shapeCasts_S2048x128_S2048x128) (shapeCast S128x512 x1 shapeCasts_S128x512_S128x512)
        (constant (F := Ideal) S2048x512 .f32 0x00000000#32) (ix2 p q)
      + broadcastTo S2048x512 (shapeCast S1x512 x2 shapeCasts_S1x512_S1x512) broadcasts_S1x512_S2048x512 (ix2 p q) = _
  rw [shapeCast_self, shapeCast_self, shapeCast_self, embed_product_apply, bias_rows_apply]

end Cert.KernelIdeal.Hand

end
-- ==== Proof.Value1.lean ====
/- The value of the embedding launch over the exact extended reals: when its 4 steps are done, the 8192 x 512 array it
   wrote is, entry by entry, the node features times the embedding weights plus the bias. Step `t` writes rows
   2048·t … 2048·t + 2047; row `p` of its result slab uses row `p` of its feature slab, which is row `2048·t + p` of the
   features, the whole weight matrix and the whole bias; the 4 slabs cover the array. -/
import proofs.«127076_j34282428956966_2_alg».proof.Proof.Region1
import proofs.«127076_j34282428956966_2_alg».proof.Proof.Payload1
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

-- what every buffer of the core holds at the moment the launch starts, at the exact extended reals
variable (V : (c : Dev nD) → (b : Ref sig .tc) → Buf (Elt Ideal) ((c : Thread nD τ).loc b))

theorem zero_offsets2' : (![0, 0] : Fin 2 → Nat) = fun _ => 0 := funext fun a => by fin_cases a <;> rfl

/-- Features times weights plus the bias row on every row: the embedding layer, entry by entry. -/
def embedded (X : S8192x128.Idx → EReal) (W : S128x512.Idx → EReal) (b : S1x512.Idx → EReal) : S8192x512.Idx → EReal :=
  fun i => (∑ k : Fin 128, X (ix2 (i 0 : Fin 8192) k) * W (ix2 k (i 1 : Fin 512))) + b (ix2 (0 : Fin 1) (i 1 : Fin 512))

theorem embedded_apply (X : S8192x128.Idx → EReal) (W : S128x512.Idx → EReal) (b : S1x512.Idx → EReal) (r : Fin 8192) (q : Fin 512) :
    embedded X W b (ix2 r q) = (∑ k : Fin 128, X (ix2 r k) * W (ix2 k q)) + b (ix2 (0 : Fin 1) q) := rfl

/-- Step `t` reads feature slab `t` and writes result slab `t`; the weights and the bias have one block, block (0, 0)
    (checked at each of the 4 steps). -/
theorem slab_of_step1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of step `t`'s feature slab is row `2048·t + p` of the features. -/
theorem slab_entry1 (c : Dev nD) (t : Fin cfg1.N) (p : Fin 2048) (k : Fin 128) (r : Fin 8192) (hr : r.val = t.val * 2048 + p.val) :
    (iblk1 V c 0 t : Vec Ideal S2048x128 .bf16) (ix2 p k) = (V c main_v32 : S8192x128.Idx → EReal) (ix2 r k) := by
  obtain ⟨e0, e1, -⟩ := slab_of_step1 t
  unfold iblk1
  rw [View.read_apply]
  show (V c main_v32 : S8192x128.Idx → EReal) (((cfg1.win 0).blk t).view.emb (ix2 p k)) = _
  refine congrArg _ (funext fun a => Fin.ext ?_)
  match a with
  | ⟨0, _⟩ => show win1_0.index t (0 : Fin 2) * 2048 + 1 * p.val = r.val; omega
  | ⟨1, _⟩ => show win1_0.index t (1 : Fin 2) * 128 + 1 * k.val = k.val; omega

/-- Every step's weight block is the weight matrix, -/
theorem weights_entry1 (c : Dev nD) (t : Fin cfg1.N) (k : Fin 128) (q : Fin 512) :
    (iblk1 V c 1 t : Vec Ideal S128x512 .bf16) (ix2 k q) = (V c main_v33 : S128x512.Idx → EReal) (ix2 k q) := by
  obtain ⟨-, -, e2, e3, -⟩ := slab_of_step1 t
  unfold iblk1
  rw [View.read_apply]
  show (V c main_v33 : S128x512.Idx → EReal) (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 512 + 1 * q.val = q.val; omega

/-- and its bias block the bias row. -/
theorem bias_entry1 (c : Dev nD) (t : Fin cfg1.N) (q : Fin 512) :
    (iblk1 V c 2 t : Vec Ideal S1x512 .f32) (ix2 (0 : Fin 1) q) = (V c main_v34 : S1x512.Idx → EReal) (ix2 (0 : Fin 1) q) := by
  obtain ⟨-, -, -, -, e4, e5, -⟩ := slab_of_step1 t
  unfold iblk1
  rw [View.read_apply]
  show (V c main_v34 : S1x512.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = q.val; omega

/-- WHAT STEP `t` WRITES BACK is slab `t` of the embedded features. -/
theorem flushed1_eq (c : Dev nD) (t : Fin cfg1.N) :
    (dat1 V c).flushed 3 t
      = ((cfg1.win 3).blk t).view.read (Elt Ideal) (embedded (V c main_v32) (V c main_v33) (V c main_v34)) := by
  show (cfg1.win 3).cut (grid1.coords t) ((dat1 V c).after 3 t) = _
  rw [after1_3]
  unfold out1_3
  rw [View.canon_unit_zero zero_offsets2']
  simp only [View.ld_unit_zero (S := S2048x128) zero_offsets2', View.ld_unit_zero (S := S128x512) zero_offsets2',
    View.ld_unit_zero (S := S1x512) zero_offsets2']
  obtain ⟨-, -, -, -, -, -, e6, e7⟩ := slab_of_step1 t
  have hN : t.val < 4 := lt_of_lt_of_eq t.isLt N_1
  funext j
  obtain ⟨p, q, rfl⟩ : ∃ (p : Fin 2048) (q : Fin 512), j = ix2 p q := ⟨j 0, j 1, eq_ix2 j⟩
  have hp := p.isLt
  have hq := q.isLt
  obtain ⟨r, hr⟩ : ∃ r : Fin 8192, r.val = t.val * 2048 + p.val := ⟨⟨t.val * 2048 + p.val, by omega⟩, rfl⟩
  have hplace : ((cfg1.win 3).blk t).view.emb (ix2 p q) = (ix2 r q : S8192x512.Idx) := funext fun a => Fin.ext (by
    match a with
    | ⟨0, _⟩ => show win1_3.index t (0 : Fin 2) * 2048 + 1 * p.val = r.val; omega
    | ⟨1, _⟩ => show win1_3.index t (1 : Fin 2) * 512 + 1 * q.val = q.val; omega)
  show k1_pay1 (F := Ideal) (iblk1 V c 0 t) (iblk1 V c 1 t) (iblk1 V c 2 t) (ix2 p q)
    = embedded (V c main_v32) (V c main_v33) (V c main_v34) (((cfg1.win 3).blk t).view.emb (ix2 p q))
  rw [hplace, embedded_apply]
  refine (k1_pay1_apply (iblk1 V c 0 t) (iblk1 V c 1 t) (iblk1 V c 2 t) p q).trans ?_
  exact congrArg₂ (· + ·)
    (Finset.sum_congr rfl fun k _ => congrArg₂ (· * ·) (slab_entry1 V c t p k r hr) (weights_entry1 V c t k q))
    (bias_entry1 V c t q)

/-- An entry of the result array is in step `t`'s slab when each of its coordinates is in the slab's range. -/
theorem mem_slab1 (t : Fin cfg1.N) (i : S8192x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v35).slice (win1_3.rect t)).set ↔ _
  rw [View.set_slice_whole, Rect.mem_set_unit]
  exact Iff.rfl

/-- Every entry `(r, q)` of the result array is in some step's slab: that of step `r / 2048`. -/
theorem slabs_cover1 (i : S8192x512.Idx) :
    ∃ t : Fin cfg1.N, (cfg1.win 3).flush t = true ∧ i ∈ ((cfg1.win 3).blk t).view.set := by
  have hi0 : (i 0).val < 8192 := idx2_lt0 i
  have hi1 : (i 1).val < 512 := idx2_lt1 i
  have hN : cfg1.N = 4 := N_1
  obtain ⟨t, ht⟩ : ∃ t : Fin cfg1.N, t.val = (i 0).val / 2048 := ⟨⟨(i 0).val / 2048, by rw [hN]; omega⟩, rfl⟩
  obtain ⟨-, -, -, -, -, -, e6, e7⟩ := slab_of_step1 t
  refine ⟨t, flush1_3 t, ?_⟩
  rw [mem_slab1]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 512 ≤ (i 1).val ∧ (i 1).val < win1_3.index t (1 : Fin 2) * 512 + 512
    omega

/-- THE ARRAY AFTER THE LAUNCH: the features times the weights plus the bias. -/
theorem final1 (c : Dev nD) :
    (dat1 V c).arrAt 3 cfg1.N = embedded (V c main_v32) (V c main_v33) (V c main_v34) :=
  (dat1 V c).arrAt_eq_of_cover 3 (embedded (V c main_v32) (V c main_v33) (V c main_v34)) (fun t _ => flushed1_eq V c t) slabs_cover1

end Cert.KernelIdeal.Hand

end
-- ==== Proof.Payload2.lean ====
/- The arithmetic of a graph-convolution layer kernel at one entry of a 2048 x 512 tile, over the exact extended reals.
   The kernel carries a running sum S: it starts it at zero, adds to it at every step the product of a 2048 x 1024 block
   of the self-looped adjacency matrix with a 1024 x 512 block of the node states whose row k is scaled by d(k), and at
   the last step of a row of blocks forms (S scaled row-wise by d) times the 512 x 512 layer weights plus the bias,
   clamped below at zero in the two inner layers. The three launches of the kernel print the same terms. -/
import proofs.«127076_j34282428956966_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The two products -/

/-- The dimension numbers of the aggregation product: rows of the adjacency block against columns of the scaled
    states, summed over the block's 1024 nodes. -/
abbrev aggDot := dot_S2048x1024_S1024x512_S2048x512_1_0_0_1_n_n
/-- The dimension numbers of the projection: rows of the scaled running sum against columns of the layer weights,
    summed over the 512 hidden features. -/
abbrev projDot := dot_S2048x512_S512x512_S2048x512_1_0_0_1_n_n

theorem aggDot_lhs_row (i : S2048x512.Idx) (k : aggDot.contr.Idx) : (aggDot.lhsIdx i k 0).val = (i 0).val := by
  unfold DotDims.lhsIdx
  rw [dif_neg (show ¬(0 : Fin S2048x1024.rank) ∈ aggDot.lhsBatch by decide),
    dif_pos (show (0 : Fin S2048x1024.rank) ∈ aggDot.lhsNonContracting by decide)]
  rfl
theorem aggDot_lhs_col (i : S2048x512.Idx) (k : aggDot.contr.Idx) : (aggDot.lhsIdx i k 1).val = (k ⟨0, by decide⟩).val :=
  aggDot.lhsIdx_val_of_single rfl i k
theorem aggDot_rhs_row (i : S2048x512.Idx) (k : aggDot.contr.Idx) : (aggDot.rhsIdx i k 0).val = (k ⟨0, by decide⟩).val :=
  aggDot.rhsIdx_val_of_single rfl i k
theorem aggDot_rhs_col (i : S2048x512.Idx) (k : aggDot.contr.Idx) : (aggDot.rhsIdx i k 1).val = (i 1).val := by
  unfold DotDims.rhsIdx
  rw [dif_neg (show ¬(1 : Fin S1024x512.rank) ∈ aggDot.rhsBatch by decide),
    dif_pos (show (1 : Fin S1024x512.rank) ∈ aggDot.rhsNonContracting by decide)]
  rfl

/-- The aggregation product at an entry, as a sum over the block's 1024 nodes. -/
theorem agg_product_apply (a : FVec Ideal S2048x1024 .bf16) (b : FVec Ideal S1024x512 .bf16) (p : Fin 2048) (q : Fin 512) :
    FloatOps.matmul aggDot none a b (constant S2048x512 .f32 0x00000000#32) (ix2 p q)
      = ∑ k : Fin 1024, a (ix2 p k) * b (ix2 k q) := by
  rw [Ideal.matmul_constant_zero_apply, ← Equiv.sum_comp (contrEquiv1 aggDot 1024 rfl rfl).symm]
  refine Finset.sum_congr rfl fun k _ => ?_
  have hk := contrEquiv1_symm_val aggDot 1024 rfl rfl k
  have el : aggDot.lhsIdx (ix2 p q) ((contrEquiv1 aggDot 1024 rfl rfl).symm k) = ix2 p k := funext fun a => Fin.ext (by
    match a with
    | ⟨0, _⟩ => exact aggDot_lhs_row _ _
    | ⟨1, _⟩ => exact (aggDot_lhs_col _ _).trans hk)
  have er : aggDot.rhsIdx (ix2 p q) ((contrEquiv1 aggDot 1024 rfl rfl).symm k) = ix2 k q := funext fun a => Fin.ext (by
    match a with
    | ⟨0, _⟩ => exact (aggDot_rhs_row _ _).trans hk
    | ⟨1, _⟩ => exact aggDot_rhs_col _ _)
  rw [el, er]

theorem projDot_lhs_row (i : S2048x512.Idx) (k : projDot.contr.Idx) : (projDot.lhsIdx i k 0).val = (i 0).val := by
  unfold DotDims.lhsIdx
  rw [dif_neg (show ¬(0 : Fin S2048x512.rank) ∈ projDot.lhsBatch by decide),
    dif_pos (show (0 : Fin S2048x512.rank) ∈ projDot.lhsNonContracting by decide)]
  rfl
theorem projDot_lhs_col (i : S2048x512.Idx) (k : projDot.contr.Idx) : (projDot.lhsIdx i k 1).val = (k ⟨0, by decide⟩).val :=
  projDot.lhsIdx_val_of_single rfl i k
theorem projDot_rhs_row (i : S2048x512.Idx) (k : projDot.contr.Idx) : (projDot.rhsIdx i k 0).val = (k ⟨0, by decide⟩).val :=
  projDot.rhsIdx_val_of_single rfl i k
theorem projDot_rhs_col (i : S2048x512.Idx) (k : projDot.contr.Idx) : (projDot.rhsIdx i k 1).val = (i 1).val := by
  unfold DotDims.rhsIdx
  rw [dif_neg (show ¬(1 : Fin S512x512.rank) ∈ projDot.rhsBatch by decide),
    dif_pos (show (1 : Fin S512x512.rank) ∈ projDot.rhsNonContracting by decide)]
  rfl

/-- The projection at an entry, as a sum over the 512 hidden features. -/
theorem proj_product_apply (a : FVec Ideal S2048x512 .bf16) (b : FVec Ideal S512x512 .bf16) (p : Fin 2048) (q : Fin 512) :
    FloatOps.matmul projDot none a b (constant S2048x512 .f32 0x00000000#32) (ix2 p q)
      = ∑ j : Fin 512, a (ix2 p j) * b (ix2 j q) := by
  rw [Ideal.matmul_constant_zero_apply, ← Equiv.sum_comp (contrEquiv1 projDot 512 rfl rfl).symm]
  refine Finset.sum_congr rfl fun k _ => ?_
  have hk := contrEquiv1_symm_val projDot 512 rfl rfl k
  have el : projDot.lhsIdx (ix2 p q) ((contrEquiv1 projDot 512 rfl rfl).symm k) = ix2 p k := funext fun a => Fin.ext (by
    match a with
    | ⟨0, _⟩ => exact projDot_lhs_row _ _
    | ⟨1, _⟩ => exact (projDot_lhs_col _ _).trans hk)
  have er : projDot.rhsIdx (ix2 p q) ((contrEquiv1 projDot 512 rfl rfl).symm k) = ix2 k q := funext fun a => Fin.ext (by
    match a with
    | ⟨0, _⟩ => exact (projDot_rhs_row _ _).trans hk
    | ⟨1, _⟩ => exact projDot_rhs_col _ _)
  rw [el, er]

/-! ## Columns and rows spread over a tile -/

/-- The column of 1024 scale factors spread along the 512 lanes: entry `(k, q)` is the factor of row `k`. -/
theorem scale_col1024_apply (d : FVec Ideal S1024x1 .f32) (k : Fin 1024) (q : Fin 512) :
    broadcastTo S1024x512 d broadcasts_S1024x1_S1024x512 (ix2 k q) = d (ix2 k (0 : Fin 1)) := by
  refine broadcastTo_apply d _ (ix2 k q) (ix2 k (0 : Fin 1)) fun a => ?_
  match a with
  | ⟨0, _⟩ => rfl
  | ⟨1, _⟩ => rfl

/-- The same for a column of 2048. -/
theorem scale_col2048_apply (d : FVec Ideal S2048x1 .f32) (p : Fin 2048) (q : Fin 512) :
    broadcastTo S2048x512 d broadcasts_S2048x1_S2048x512 (ix2 p q) = d (ix2 p (0 : Fin 1)) := by
  refine broadcastTo_apply d _ (ix2 p q) (ix2 p (0 : Fin 1)) fun a => ?_
  match a with
  | ⟨0, _⟩ => rfl
  | ⟨1, _⟩ => rfl

/-- The layer's bias row spread over the 2048 rows of a tile: entry `(p, q)` is the bias of column `q`. -/
theorem layer_bias_apply (b : FVec Ideal S1x512 .f32) (p : Fin 2048) (q : Fin 512) :
    broadcastTo S2048x512 b broadcasts_S1x512_S2048x512 (ix2 p q) = b (ix2 (0 : Fin 1) q) := by
  refine broadcastTo_apply b _ (ix2 p q) (ix2 (0 : Fin 1) q) fun a => ?_
  match a with
  | ⟨0, _⟩ => rfl
  | ⟨1, _⟩ => rfl

/-! ## The three stores of the layer kernel, at an entry -/

/-- The running sum starts at zero. -/
theorem k2_pay1_apply (p : Fin 2048) (q : Fin 512) : k2_pay1 (F := Ideal) (ix2 p q) = 0 := by
  unfold k2_pay1
  simp only [shapeCast_self]
  show Ideal.ofBits .f32 0x00000000#32 = 0
  exact Ideal.ofBits_zero_f32

/-- A step adds to the running sum, at `(p, q)`, row `p` of its adjacency block against column `q` of its block of
    states, each state row `k` scaled by `dk k` (widening and narrowing between bf16 and f32 are exact at the ideal
    values). -/
theorem k2_pay2_apply (x : Vec Ideal S1024x512 .bf16) (dk : Vec Ideal S1024x1 .f32) (acc : Vec Ideal S2048x512 .f32)
    (adj : Vec Ideal S2048x1024 .bf16) (p : Fin 2048) (q : Fin 512) :
    k2_pay2 (F := Ideal) x dk acc adj (ix2 p q)
      = acc (ix2 p q) + ∑ k : Fin 1024, adj (ix2 p k) * (x (ix2 k q) * dk (ix2 k (0 : Fin 1))) := by
  unfold k2_pay2
  simp only [shapeCast_self]
  show acc (ix2 p q) + FloatOps.matmul (F := Ideal) aggDot none adj
      (truncf .bf16 (mulf (extf .f32 x bitsLt_bf16_f32) (broadcastTo S1024x512 dk broadcasts_S1024x1_S1024x512)) bitsLt_bf16_f32)
      (constant (F := Ideal) S2048x512 .f32 0x00000000#32) (ix2 p q) = _
  rw [agg_product_apply]
  refine congrArg (acc (ix2 p q) + ·) (Finset.sum_congr rfl fun k _ => ?_)
  show adj (ix2 p k) * (x (ix2 k q) * broadcastTo S1024x512 dk broadcasts_S1024x1_S1024x512 (ix2 k q)) = _
  rw [scale_col1024_apply]

/-- The last step of a row of blocks stores, at `(p, q)`: row `p` of the running sum scaled by `di p`, against column
    `q` of the layer weights, plus the bias of column `q`, clamped below at zero. -/
theorem k2_pay3_apply (acc : Vec Ideal S2048x512 .f32) (di : Vec Ideal S2048x1 .f32) (W : Vec Ideal S512x512 .bf16)
    (b : Vec Ideal S1x512 .f32) (p : Fin 2048) (q : Fin 512) :
    k2_pay3 (F := Ideal) acc di W b (ix2 p q)
      = max ((∑ j : Fin 512, (acc (ix2 p j) * di (ix2 p (0 : Fin 1))) * W (ix2 j q)) + b (ix2 (0 : Fin 1) q)) 0 := by
  unfold k2_pay3
  simp only [shapeCast_self]
  show max (FloatOps.matmul (F := Ideal) projDot none
        (truncf .bf16 (mulf acc (broadcastTo S2048x512 di broadcasts_S2048x1_S2048x512)) bitsLt_bf16_f32) W
        (constant (F := Ideal) S2048x512 .f32 0x00000000#32) (ix2 p q)
      + broadcastTo S2048x512 b broadcasts_S1x512_S2048x512 (ix2 p q)) (Ideal.ofBits .f32 0x00000000#32) = _
  rw [proj_product_apply, layer_bias_apply, Ideal.ofBits_zero_f32]
  refine congrArg (max · 0) (congrArg (· + b (ix2 (0 : Fin 1) q)) (Finset.sum_congr rfl fun j _ => ?_))
  show (acc (ix2 p j) * broadcastTo S2048x512 di broadcasts_S2048x1_S2048x512 (ix2 p j)) * W (ix2 j q) = _
  rw [scale_col2048_apply]

/-- The output layer stores the same without the clamp. -/
theorem k4_pay3_apply (acc : Vec Ideal S2048x512 .f32) (di : Vec Ideal S2048x1 .f32) (W : Vec Ideal S512x512 .bf16)
    (b : Vec Ideal S1x512 .f32) (p : Fin 2048) (q : Fin 512) :
    k4_pay3 (F := Ideal) acc di W b (ix2 p q)
      = (∑ j : Fin 512, (acc (ix2 p j) * di (ix2 p (0 : Fin 1))) * W (ix2 j q)) + b (ix2 (0 : Fin 1) q) := by
  unfold k4_pay3
  simp only [shapeCast_self]
  show FloatOps.matmul (F := Ideal) projDot none
        (truncf .bf16 (mulf acc (broadcastTo S2048x512 di broadcasts_S2048x1_S2048x512)) bitsLt_bf16_f32) W
        (constant (F := Ideal) S2048x512 .f32 0x00000000#32) (ix2 p q)
      + broadcastTo S2048x512 b broadcasts_S1x512_S2048x512 (ix2 p q) = _
  rw [proj_product_apply, layer_bias_apply]
  refine congrArg (· + b (ix2 (0 : Fin 1) q)) (Finset.sum_congr rfl fun j _ => ?_)
  show (acc (ix2 p j) * broadcastTo S2048x512 di broadcasts_S2048x1_S2048x512 (ix2 p j)) * W (ix2 j q) = _
  rw [scale_col2048_apply]

/-! ## The second and third launch print the same terms -/

theorem k3_pay1_eq : k3_pay1 (F := Ideal) = k2_pay1 := rfl
theorem k3_pay2_eq : k3_pay2 (F := Ideal) = k2_pay2 := rfl
theorem k3_pay3_eq : k3_pay3 (F := Ideal) = k2_pay3 := rfl
theorem k4_pay1_eq : k4_pay1 (F := Ideal) = k2_pay1 := rfl
theorem k4_pay2_eq : k4_pay2 (F := Ideal) = k2_pay2 := rfl

/-- The same facts under the second and third launch's names. -/
theorem k3_pay1_apply (p : Fin 2048) (q : Fin 512) : k3_pay1 (F := Ideal) (ix2 p q) = 0 := k2_pay1_apply p q
theorem k4_pay1_apply (p : Fin 2048) (q : Fin 512) : k4_pay1 (F := Ideal) (ix2 p q) = 0 := k2_pay1_apply p q
theorem k3_pay2_apply (x : Vec Ideal S1024x512 .bf16) (dk : Vec Ideal S1024x1 .f32) (acc : Vec Ideal S2048x512 .f32)
    (adj : Vec Ideal S2048x1024 .bf16) (p : Fin 2048) (q : Fin 512) :
    k3_pay2 (F := Ideal) x dk acc adj (ix2 p q)
      = acc (ix2 p q) + ∑ k : Fin 1024, adj (ix2 p k) * (x (ix2 k q) * dk (ix2 k (0 : Fin 1))) := k2_pay2_apply x dk acc adj p q
theorem k4_pay2_apply (x : Vec Ideal S1024x512 .bf16) (dk : Vec Ideal S1024x1 .f32) (acc : Vec Ideal S2048x512 .f32)
    (adj : Vec Ideal S2048x1024 .bf16) (p : Fin 2048) (q : Fin 512) :
    k4_pay2 (F := Ideal) x dk acc adj (ix2 p q)
      = acc (ix2 p q) + ∑ k : Fin 1024, adj (ix2 p k) * (x (ix2 k q) * dk (ix2 k (0 : Fin 1))) := k2_pay2_apply x dk acc adj p q
theorem k3_pay3_apply (acc : Vec Ideal S2048x512 .f32) (di : Vec Ideal S2048x1 .f32) (W : Vec Ideal S512x512 .bf16)
    (b : Vec Ideal S1x512 .f32) (p : Fin 2048) (q : Fin 512) :
    k3_pay3 (F := Ideal) acc di W b (ix2 p q)
      = max ((∑ j : Fin 512, (acc (ix2 p j) * di (ix2 p (0 : Fin 1))) * W (ix2 j q)) + b (ix2 (0 : Fin 1) q)) 0 :=
  k2_pay3_apply acc di W b p q

end Cert.KernelIdeal.Hand

end
-- ==== Proof.LayerSum.lean ====
/- The sum a graph-convolution layer takes over all 8192 nodes, cut into the 8 blocks of 1024 nodes the kernel adds one
   at a time, and the layer's result as one function of its five arrays. Pure arithmetic over the exact extended reals:
   nothing here mentions a kernel launch. -/
import proofs.«127076_j34282428956966_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## A sum over 8192 indices as 8 blocks of 1024 -/

section Blocks
variable {M : Type} [AddCommMonoid M]

/-- The part of `∑ j, g j` that falls in block `s`: the indices `1024·s … 1024·s + 1023` (nothing when `s ≥ 8`). -/
def blockSum (g : Fin 8192 → M) (s : ℕ) : M :=
  if h : s < 8 then ∑ m : Fin 1024, g ⟨s * 1024 + m.val, by have := m.isLt; omega⟩ else 0

theorem blockSum_of_lt (g : Fin 8192 → M) {s : ℕ} (h : s < 8) :
    blockSum g s = ∑ m : Fin 1024, g ⟨s * 1024 + m.val, by have := m.isLt; omega⟩ := dif_pos h

/-- The eight blocks together are the whole sum: an index `j` is `1024·(j / 1024) + j % 1024`. -/
theorem sum_blockSum (g : Fin 8192 → M) : ∑ s ∈ Finset.range 8, blockSum g s = ∑ j : Fin 8192, g j := by
  rw [Finset.sum_range]
  have hb : ∀ s : Fin 8, blockSum g s.val = ∑ m : Fin 1024, g (finProdFinEquiv (s, m)) := fun s => by
    rw [blockSum_of_lt g s.isLt]
    refine Finset.sum_congr rfl fun m _ => congrArg g (Fin.ext ?_)
    show s.val * 1024 + m.val = m.val + 1024 * s.val
    omega
  simp only [hb]
  exact (Fintype.sum_prod_type (fun x : Fin 8 × Fin 1024 => g (finProdFinEquiv x))).symm.trans
    (Equiv.sum_comp (finProdFinEquiv (m := 8) (n := 1024)) g)

end Blocks

/-! ## The layer, entry by entry -/

/-- What node `j` contributes to feature `q` of node `r`'s aggregate: the adjacency entry `(r, j)` times node `j`'s state
    scaled by `d j`. -/
def aggTerm (A : S8192x8192.Idx → EReal) (X : S8192x512.Idx → EReal) (d : S8192x1.Idx → EReal) (r : Fin 8192) (q : Fin 512) :
    Fin 8192 → EReal :=
  fun j => A (ix2 r j) * (X (ix2 j q) * d (ix2 j (0 : Fin 1)))

/-- A layer before its activation: the aggregate of every node, scaled by `d r`, through the layer's weights, plus
    the bias. -/
def layerLin (A : S8192x8192.Idx → EReal) (X : S8192x512.Idx → EReal) (d : S8192x1.Idx → EReal) (W : S512x512.Idx → EReal)
    (b : S1x512.Idx → EReal) : S8192x512.Idx → EReal :=
  fun i => (∑ j : Fin 512, ((∑ k : Fin 8192, aggTerm A X d (i 0 : Fin 8192) j k) * d (ix2 (i 0 : Fin 8192) (0 : Fin 1)))
      * W (ix2 j (i 1 : Fin 512))) + b (ix2 (0 : Fin 1) (i 1 : Fin 512))

theorem layerLin_apply (A : S8192x8192.Idx → EReal) (X : S8192x512.Idx → EReal) (d : S8192x1.Idx → EReal)
    (W : S512x512.Idx → EReal) (b : S1x512.Idx → EReal) (r : Fin 8192) (q : Fin 512) :
    layerLin A X d W b (ix2 r q)
      = (∑ j : Fin 512, ((∑ k : Fin 8192, A (ix2 r k) * (X (ix2 k j) * d (ix2 k (0 : Fin 1)))) * d (ix2 r (0 : Fin 1))) * W (ix2 j q))
        + b (ix2 (0 : Fin 1) q) := rfl

/-- An inner layer: the same, clamped below at zero. -/
def layerOut (A : S8192x8192.Idx → EReal) (X : S8192x512.Idx → EReal) (d : S8192x1.Idx → EReal) (W : S512x512.Idx → EReal)
    (b : S1x512.Idx → EReal) : S8192x512.Idx → EReal :=
  fun i => max (layerLin A X d W b i) 0

theorem layerOut_apply (A : S8192x8192.Idx → EReal) (X : S8192x512.Idx → EReal) (d : S8192x1.Idx → EReal)
    (W : S512x512.Idx → EReal) (b : S1x512.Idx → EReal) (r : Fin 8192) (q : Fin 512) :
    layerOut A X d W b (ix2 r q)
      = max ((∑ j : Fin 512, ((∑ k : Fin 8192, A (ix2 r k) * (X (ix2 k j) * d (ix2 k (0 : Fin 1)))) * d (ix2 r (0 : Fin 1))) * W (ix2 j q))
        + b (ix2 (0 : Fin 1) q)) 0 := rfl

end Cert.KernelIdeal.Hand

end
-- ==== Proof.Value2.lean ====
/- The value of the first graph-convolution launch over the exact extended reals: when its 32 steps are done, the
   8192 x 512 array it wrote is, entry by entry, max 0 ( (Â · (X scaled row-wise by d)) scaled row-wise by d, times W, plus
   b ), where Â is the self-looped adjacency matrix, X the node states, d the column of scale factors, W and b the
   layer's weights and bias. The grid is 4 row blocks of 2048 nodes by 8 column blocks of 1024 nodes; inside a row
   block the kernel adds one column block's contribution per step to a running sum (proved by induction on the step)
   and at the eighth forms and writes back the row block of the result; the 4 row blocks cover the array. -/
import proofs.«127076_j34282428956966_2_alg».proof.Proof.Region2
import proofs.«127076_j34282428956966_2_alg».proof.Proof.Payload2
import proofs.«127076_j34282428956966_2_alg».proof.Proof.LayerSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Value
-- what every buffer of the core holds at the moment the launch starts, at the exact extended reals
variable (V : (c : Dev nD) → (b : Ref sig .tc) → Buf (Elt Ideal) ((c : Thread nD τ).loc b))

/-- Step `t` of the 4 x 8 grid works on row block `t / 8` of the adjacency matrix and of the result, and on column block
    `t % 8` of the adjacency matrix, which is row block `t % 8` of the node states and of their scale factors; the
    weights and the bias have one block (checked at each of the 32 steps). -/
theorem block_of_step2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val % 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0
    ∧ win2_6.index t (0 : Fin 2) = t.val / 8 ∧ win2_6.index t (1 : Fin 2) = 0 :=
  (by decide +kernel : ∀ t : Fin grid2.N, _)

/-! ## A block entry is an array entry -/

/-- Entry `(p, k)` of step `t`'s adjacency block is entry `(2048·(t / 8) + p, 1024·(t % 8) + k)` of the matrix. -/
theorem adj_entry2 (c : Dev nD) (t : Fin cfg2.N) (p : Fin 2048) (k : Fin 1024) (r j : Fin 8192)
    (hr : r.val = t.val / 8 * 2048 + p.val) (hj : j.val = t.val % 8 * 1024 + k.val) :
    (iblk2 V c 0 t : Vec Ideal S2048x1024 .bf16) (ix2 p k) = (V c main_v31 : S8192x8192.Idx → EReal) (ix2 r j) := by
  obtain ⟨e0, e1, -⟩ := block_of_step2 t
  unfold iblk2
  rw [View.read_apply]
  show (V c main_v31 : S8192x8192.Idx → EReal) (((cfg2.win 0).blk t).view.emb (ix2 p k)) = _
  refine congrArg _ (funext fun a => Fin.ext ?_)
  match a with
  | ⟨0, _⟩ => show win2_0.index t (0 : Fin 2) * 2048 + 1 * p.val = r.val; omega
  | ⟨1, _⟩ => show win2_0.index t (1 : Fin 2) * 1024 + 1 * k.val = j.val; omega

/-- Row `k` of step `t`'s block of node states is the state of node `1024·(t % 8) + k`, -/
theorem state_entry2 (c : Dev nD) (t : Fin cfg2.N) (k : Fin 1024) (q : Fin 512) (j : Fin 8192)
    (hj : j.val = t.val % 8 * 1024 + k.val) :
    (iblk2 V c 1 t : Vec Ideal S1024x512 .bf16) (ix2 k q) = (V c main_v35 : S8192x512.Idx → EReal) (ix2 j q) := by
  obtain ⟨-, -, e2, e3, -⟩ := block_of_step2 t
  unfold iblk2
  rw [View.read_apply]
  show (V c main_v35 : S8192x512.Idx → EReal) (((cfg2.win 1).blk t).view.emb (ix2 k q)) = _
  refine congrArg _ (funext fun a => Fin.ext ?_)
  match a with
  | ⟨0, _⟩ => show win2_1.index t (0 : Fin 2) * 1024 + 1 * k.val = j.val; omega
  | ⟨1, _⟩ => show win2_1.index t (1 : Fin 2) * 512 + 1 * q.val = q.val; omega

/-- and its scale factor that node's. -/
theorem scale_entry2 (c : Dev nD) (t : Fin cfg2.N) (k : Fin 1024) (j : Fin 8192) (hj : j.val = t.val % 8 * 1024 + k.val) :
    (iblk2 V c 2 t : Vec Ideal S1024x1 .f32) (ix2 k (0 : Fin 1)) = (V c main_v30 : S8192x1.Idx → EReal) (ix2 j (0 : Fin 1)) := by
  obtain ⟨-, -, -, -, e4, e5, -⟩ := block_of_step2 t
  unfold iblk2
  rw [View.read_apply]
  show (V c main_v30 : S8192x1.Idx → EReal) (((cfg2.win 2).blk t).view.emb (ix2 k (0 : Fin 1))) = _
  refine congrArg _ (funext fun a => Fin.ext ?_)
  match a with
  | ⟨0, _⟩ => show win2_2.index t (0 : Fin 2) * 1024 + 1 * k.val = j.val; omega
  | ⟨1, _⟩ => show win2_2.index t (1 : Fin 2) * 1 + 1 * 0 = 0; omega

/-- Every step's weight block is the layer's weight matrix, -/
theorem weights_entry2 (c : Dev nD) (t : Fin cfg2.N) (j q : Fin 512) :
    (iblk2 V c 3 t : Vec Ideal S512x512 .bf16) (ix2 j q) = (V c main_v36 : S512x512.Idx → EReal) (ix2 j q) := by
  obtain ⟨-, -, -, -, -, -, e6, e7, -⟩ := block_of_step2 t
  unfold iblk2
  rw [View.read_apply]
  show (V c main_v36 : S512x512.Idx → EReal) (((cfg2.win 3).blk t).view.emb (ix2 j q)) = _
  refine congrArg _ (funext fun a => Fin.ext ?_)
  match a with
  | ⟨0, _⟩ => show win2_3.index t (0 : Fin 2) * 512 + 1 * j.val = j.val; omega
  | ⟨1, _⟩ => show win2_3.index t (1 : Fin 2) * 512 + 1 * q.val = q.val; omega

/-- its bias block the layer's bias row, -/
theorem bias_entry2 (c : Dev nD) (t : Fin cfg2.N) (q : Fin 512) :
    (iblk2 V c 4 t : Vec Ideal S1x512 .f32) (ix2 (0 : Fin 1) q) = (V c main_v37 : S1x512.Idx → EReal) (ix2 (0 : Fin 1) q) := by
  obtain ⟨-, -, -, -, -, -, -, -, e8, e9, -⟩ := block_of_step2 t
  unfold iblk2
  rw [View.read_apply]
  show (V c main_v37 : S1x512.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 512 + 1 * q.val = q.val; omega

/-- and row `p` of its second block of scale factors is the factor of node `2048·(t / 8) + p`. -/
theorem rowscale_entry2 (c : Dev nD) (t : Fin cfg2.N) (p : Fin 2048) (r : Fin 8192) (hr : r.val = t.val / 8 * 2048 + p.val) :
    (iblk2 V c 5 t : Vec Ideal S2048x1 .f32) (ix2 p (0 : Fin 1)) = (V c main_v30 : S8192x1.Idx → EReal) (ix2 r (0 : Fin 1)) := by
  obtain ⟨-, -, -, -, -, -, -, -, -, -, e10, e11, -⟩ := block_of_step2 t
  unfold iblk2
  rw [View.read_apply]
  show (V c main_v30 : S8192x1.Idx → EReal) (((cfg2.win 5).blk t).view.emb (ix2 p (0 : Fin 1))) = _
  refine congrArg _ (funext fun a => Fin.ext ?_)
  match a with
  | ⟨0, _⟩ => show win2_5.index t (0 : Fin 2) * 2048 + 1 * p.val = r.val; omega
  | ⟨1, _⟩ => show win2_5.index t (1 : Fin 2) * 1 + 1 * 0 = 0; omega

/-! ## The running sum, step by step -/

/-- One step adds, at entry `(p, q)`, the contributions of the 1024 nodes of column block `t % 8` to feature `q` of node
    `2048·(t / 8) + p`. -/
theorem accStep2_apply (c : Dev nD) (t : Fin cfg2.N) (acc : Vec Ideal S2048x512 .f32) (p : Fin 2048) (q : Fin 512)
    (r : Fin 8192) (hr : r.val = t.val / 8 * 2048 + p.val) :
    accStep2 V c t acc (ix2 p q)
      = acc (ix2 p q) + blockSum (aggTerm (V c main_v31) (V c main_v35) (V c main_v30) r q) (t.val % 8) := by
  have h8 : t.val % 8 < 8 := Nat.mod_lt _ (by decide)
  unfold accStep2
  refine (k2_pay2_apply (iblk2 V c 1 t) (iblk2 V c 2 t) acc (iblk2 V c 0 t) p q).trans ?_
  rw [blockSum_of_lt _ h8]
  refine congrArg (acc (ix2 p q) + ·) (Finset.sum_congr rfl fun k _ => ?_)
  have hk := k.isLt
  exact congrArg₂ (· * ·) (adj_entry2 V c t p k r ⟨t.val % 8 * 1024 + k.val, by omega⟩ hr rfl)
    (congrArg₂ (· * ·) (state_entry2 V c t k q ⟨t.val % 8 * 1024 + k.val, by omega⟩ rfl)
      (scale_entry2 V c t k ⟨t.val % 8 * 1024 + k.val, by omega⟩ rfl))

/-- THE RUNNING SUM after step `n`, by induction on the step: the contributions of the column blocks `0 … n % 8` (it is
    restarted from zero whenever a new row block begins, and a step inside a row block keeps the row block). -/
theorem accAt2_apply (c : Dev nD) : ∀ (n : ℕ) (hn : n < cfg2.N) (p : Fin 2048) (q : Fin 512) (r : Fin 8192),
    r.val = n / 8 * 2048 + p.val →
    accAt2 V c n hn (ix2 p q)
      = ∑ s ∈ Finset.range (n % 8 + 1), blockSum (aggTerm (V c main_v31) (V c main_v35) (V c main_v30) r q) s := by
  intro n
  induction n with
  | zero =>
    intro hn p q r hr
    rw [accAt2_first V c ⟨0, hn⟩ rfl, accStep2_apply V c ⟨0, hn⟩ _ p q r hr, k2_pay1_apply, zero_add]
    exact (Finset.sum_range_one _).symm
  | succ n ih =>
    intro hn p q r hr
    by_cases h0 : (n + 1) % 8 = 0
    · rw [accAt2_first V c ⟨n + 1, hn⟩ h0, accStep2_apply V c ⟨n + 1, hn⟩ _ p q r hr, k2_pay1_apply, zero_add]
      show blockSum _ ((n + 1) % 8) = _
      rw [h0]
      exact (Finset.sum_range_one _).symm
    · rw [accAt2_next V c ⟨n + 1, hn⟩ h0, accStep2_apply V c ⟨n + 1, hn⟩ _ p q r hr]
      show accAt2 V c n _ (ix2 p q) + blockSum _ ((n + 1) % 8) = _
      rw [ih (Nat.lt_of_succ_lt hn) p q r (by omega)]
      have e : (n + 1) % 8 = n % 8 + 1 := by omega
      rw [e, Finset.sum_range_succ _ (n % 8 + 1)]

/-- At the last step of a row block the running sum is the sum over all 8192 nodes. -/
theorem accAt2_last (c : Dev nD) (t : Fin cfg2.N) (h7 : t.val % 8 = 7) (p : Fin 2048) (q : Fin 512) (r : Fin 8192)
    (hr : r.val = t.val / 8 * 2048 + p.val) :
    accAt2 V c t.val t.isLt (ix2 p q)
      = ∑ k : Fin 8192, aggTerm (V c main_v31) (V c main_v35) (V c main_v30) r q k := by
  rw [accAt2_apply V c t.val t.isLt p q r hr, h7]
  exact sum_blockSum _

/-! ## What is written back, and the array after the launch -/

/-- WHAT A LAST STEP `t` WRITES BACK is row block `t / 8` of the layer's result — for any bookkeeping of the launch that
    leaves `outAt2` in the result buffer. -/
theorem flushed2_eq_of {c : Dev nD} (dat : Dat τ (Elt Ideal) Unit ℕ (UR sig nD τ) ℕ cfg2 c)
    (hafter : ∀ t, dat.after 6 t = outAt2 V c t) (t : Fin cfg2.N) (hf : (cfg2.win 6).flush t = true) :
    dat.flushed 6 t = ((cfg2.win 6).blk t).view.read (Elt Ideal)
      (layerOut (V c main_v31) (V c main_v35) (V c main_v30) (V c main_v36) (V c main_v37)) := by
  have h7 : t.val % 8 = 7 := (flush2_6 t).mp hf
  have hN : t.val < 32 := lt_of_lt_of_eq t.isLt N_2
  obtain ⟨-, -, -, -, -, -, -, -, -, -, -, -, e12, e13⟩ := block_of_step2 t
  show (cfg2.win 6).cut (grid2.coords t) (dat.after 6 t) = _
  rw [hafter]
  unfold outAt2
  funext y
  obtain ⟨p, q, rfl⟩ : ∃ (p : Fin 2048) (q : Fin 512), y = ix2 p q := ⟨y 0, y 1, eq_ix2 y⟩
  have hp := p.isLt
  have hq := q.isLt
  obtain ⟨r, hr⟩ : ∃ r : Fin 8192, r.val = t.val / 8 * 2048 + p.val := ⟨⟨t.val / 8 * 2048 + p.val, by omega⟩, rfl⟩
  have hplace : ((cfg2.win 6).blk t).view.emb (ix2 p q) = (ix2 r q : S8192x512.Idx) := funext fun a => Fin.ext (by
    match a with
    | ⟨0, _⟩ => show win2_6.index t (0 : Fin 2) * 2048 + 1 * p.val = r.val; omega
    | ⟨1, _⟩ => show win2_6.index t (1 : Fin 2) * 512 + 1 * q.val = q.val; omega)
  show k2_pay3 (F := Ideal) (accAt2 V c t.val t.isLt) (iblk2 V c 5 t) (iblk2 V c 3 t) (iblk2 V c 4 t) (ix2 p q)
    = layerOut (V c main_v31) (V c main_v35) (V c main_v30) (V c main_v36) (V c main_v37) (((cfg2.win 6).blk t).view.emb (ix2 p q))
  rw [hplace, layerOut_apply]
  refine (k2_pay3_apply (accAt2 V c t.val t.isLt) (iblk2 V c 5 t) (iblk2 V c 3 t) (iblk2 V c 4 t) p q).trans ?_
  exact congrArg (max · 0) (congrArg₂ (· + ·)
    (Finset.sum_congr rfl fun j _ => congrArg₂ (· * ·)
      (congrArg₂ (· * ·) (accAt2_last V c t h7 p j r hr) (rowscale_entry2 V c t p r hr)) (weights_entry2 V c t j q))
    (bias_entry2 V c t q))

/-- An entry of the result array is in step `t`'s row block when each of its coordinates is in the block's range. -/
theorem mem_rows2 (t : Fin cfg2.N) (i : S8192x512.Idx) :
    i ∈ ((cfg2.win 6).blk t).view.set ↔ ∀ a : Fin 2, win2_6.index t a * S2048x512.size a ≤ (i a).val
      ∧ (i a).val < win2_6.index t a * S2048x512.size a + S2048x512.size a := by
  show i ∈ ((View.whole main_v38).slice (win2_6.rect t)).set ↔ _
  rw [View.set_slice_whole, Rect.mem_set_unit]
  exact Iff.rfl

/-- Every entry `(r, q)` of the result array is written back by some step: the last step `8·(r / 2048) + 7` of its row
    block. -/
theorem rows_cover2 (i : S8192x512.Idx) :
    ∃ t : Fin cfg2.N, (cfg2.win 6).flush t = true ∧ i ∈ ((cfg2.win 6).blk t).view.set := by
  have hi0 : (i 0).val < 8192 := idx2_lt0 i
  have hi1 : (i 1).val < 512 := idx2_lt1 i
  have hN : cfg2.N = 32 := N_2
  obtain ⟨t, ht⟩ : ∃ t : Fin cfg2.N, t.val = (i 0).val / 2048 * 8 + 7 := ⟨⟨(i 0).val / 2048 * 8 + 7, by rw [hN]; omega⟩, rfl⟩
  obtain ⟨-, -, -, -, -, -, -, -, -, -, -, -, e12, e13⟩ := block_of_step2 t
  refine ⟨t, (flush2_6 t).mpr (by omega), ?_⟩
  rw [mem_rows2]
  intro a
  match a with
  | ⟨0, _⟩ =>
    show win2_6.index t (0 : Fin 2) * 2048 ≤ (i 0).val ∧ (i 0).val < win2_6.index t (0 : Fin 2) * 2048 + 2048
    omega
  | ⟨1, _⟩ =>
    show win2_6.index t (1 : Fin 2) * 512 ≤ (i 1).val ∧ (i 1).val < win2_6.index t (1 : Fin 2) * 512 + 512
    omega

/-- THE ARRAY AFTER THE LAUNCH, for any such bookkeeping: the layer's result. -/
theorem final2_of {c : Dev nD} (dat : Dat τ (Elt Ideal) Unit ℕ (UR sig nD τ) ℕ cfg2 c)
    (hafter : ∀ t, dat.after 6 t = outAt2 V c t) :
    dat.arrAt 6 cfg2.N = layerOut (V c main_v31) (V c main_v35) (V c main_v30) (V c main_v36) (V c main_v37) :=
  dat.arrAt_eq_of_cover 6 _ (fun t hf => flushed2_eq_of V dat hafter t hf) rows_cover2

/-- What a last step writes back, for the launch's own bookkeeping. -/
theorem flushed2_eq (c : Dev nD) (t : Fin cfg2.N) (hf : (cfg2.win 6).flush t = true) :
    (dat2 V c).flushed 6 t = ((cfg2.win 6).blk t).view.read (Elt Ideal)
      (layerOut (V c main_v31) (V c main_v35) (V c main_v30) (V c main_v36) (V c main_v37)) :=
  flushed2_eq_of V (dat2 V c) (after2_6 V c) t hf

/-- THE ARRAY AFTER THE LAUNCH: the layer's result, entry by entry, of the five arrays the launch was given. -/
theorem final2 (c : Dev nD) :
    (dat2 V c).arrAt 6 cfg2.N = layerOut (V c main_v31) (V c main_v35) (V c main_v30) (V c main_v36) (V c main_v37) :=
  final2_of V (dat2 V c) (after2_6 V c)

end Value

end Cert.KernelIdeal.Hand

end
-- ==== Proof.Value3.lean ====
/- The value of the second graph-convolution launch over the exact extended reals: when its 32 steps are done, the
   8192 x 512 array it wrote is, entry by entry, max 0 ( (Â · (X scaled row-wise by d)) scaled row-wise by d, times W, plus
   b ), where Â is the self-looped adjacency matrix, X the node states, d the column of scale factors, W and b the
   layer's weights and bias. The grid is 4 row blocks of 2048 nodes by 8 column blocks of 1024 nodes; inside a row
   block the kernel adds one column block's contribution per step to a running sum (proved by induction on the step)
   and at the eighth forms and writes back the row block of the result; the 4 row blocks cover the array. -/
import proofs.«127076_j34282428956966_2_alg».proof.Proof.Region3
import proofs.«127076_j34282428956966_2_alg».proof.Proof.Payload2
import proofs.«127076_j34282428956966_2_alg».proof.Proof.LayerSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Value
-- what every buffer of the core holds at the moment the launch starts, at the exact extended reals
variable (V : (c : Dev nD) → (b : Ref sig .tc) → Buf (Elt Ideal) ((c : Thread nD τ).loc b))

/-- Step `t` of the 4 x 8 grid works on row block `t / 8` of the adjacency matrix and of the result, and on column block
    `t % 8` of the adjacency matrix, which is row block `t % 8` of the node states and of their scale factors; the
    weights and the bias have one block (checked at each of the 32 steps). -/
theorem block_of_step3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val % 8 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 8 ∧ win3_5.index t (1 : Fin 2) = 0
    ∧ win3_6.index t (0 : Fin 2) = t.val / 8 ∧ win3_6.index t (1 : Fin 2) = 0 :=
  (by decide +kernel : ∀ t : Fin grid3.N, _)

/-! ## A block entry is an array entry -/

/-- Entry `(p, k)` of step `t`'s adjacency block is entry `(2048·(t / 8) + p, 1024·(t % 8) + k)` of the matrix. -/
theorem adj_entry3 (c : Dev nD) (t : Fin cfg3.N) (p : Fin 2048) (k : Fin 1024) (r j : Fin 8192)
    (hr : r.val = t.val / 8 * 2048 + p.val) (hj : j.val = t.val % 8 * 1024 + k.val) :
    (iblk3 V c 0 t : Vec Ideal S2048x1024 .bf16) (ix2 p k) = (V c main_v31 : S8192x8192.Idx → EReal) (ix2 r j) := by
  obtain ⟨e0, e1, -⟩ := block_of_step3 t
  unfold iblk3
  rw [View.read_apply]
  show (V c main_v31 : S8192x8192.Idx → EReal) (((cfg3.win 0).blk t).view.emb (ix2 p k)) = _
  refine congrArg _ (funext fun a => Fin.ext ?_)
  match a with
  | ⟨0, _⟩ => show win3_0.index t (0 : Fin 2) * 2048 + 1 * p.val = r.val; omega
  | ⟨1, _⟩ => show win3_0.index t (1 : Fin 2) * 1024 + 1 * k.val = j.val; omega

/-- Row `k` of step `t`'s block of node states is the state of node `1024·(t % 8) + k`, -/
theorem state_entry3 (c : Dev nD) (t : Fin cfg3.N) (k : Fin 1024) (q : Fin 512) (j : Fin 8192)
    (hj : j.val = t.val % 8 * 1024 + k.val) :
    (iblk3 V c 1 t : Vec Ideal S1024x512 .bf16) (ix2 k q) = (V c main_v38 : S8192x512.Idx → EReal) (ix2 j q) := by
  obtain ⟨-, -, e2, e3, -⟩ := block_of_step3 t
  unfold iblk3
  rw [View.read_apply]
  show (V c main_v38 : S8192x512.Idx → EReal) (((cfg3.win 1).blk t).view.emb (ix2 k q)) = _
  refine congrArg _ (funext fun a => Fin.ext ?_)
  match a with
  | ⟨0, _⟩ => show win3_1.index t (0 : Fin 2) * 1024 + 1 * k.val = j.val; omega
  | ⟨1, _⟩ => show win3_1.index t (1 : Fin 2) * 512 + 1 * q.val = q.val; omega

/-- and its scale factor that node's. -/
theorem scale_entry3 (c : Dev nD) (t : Fin cfg3.N) (k : Fin 1024) (j : Fin 8192) (hj : j.val = t.val % 8 * 1024 + k.val) :
    (iblk3 V c 2 t : Vec Ideal S1024x1 .f32) (ix2 k (0 : Fin 1)) = (V c main_v30 : S8192x1.Idx → EReal) (ix2 j (0 : Fin 1)) := by
  obtain ⟨-, -, -, -, e4, e5, -⟩ := block_of_step3 t
  unfold iblk3
  rw [View.read_apply]
  show (V c main_v30 : S8192x1.Idx → EReal) (((cfg3.win 2).blk t).view.emb (ix2 k (0 : Fin 1))) = _
  refine congrArg _ (funext fun a => Fin.ext ?_)
  match a with
  | ⟨0, _⟩ => show win3_2.index t (0 : Fin 2) * 1024 + 1 * k.val = j.val; omega
  | ⟨1, _⟩ => show win3_2.index t (1 : Fin 2) * 1 + 1 * 0 = 0; omega

/-- Every step's weight block is the layer's weight matrix, -/
theorem weights_entry3 (c : Dev nD) (t : Fin cfg3.N) (j q : Fin 512) :
    (iblk3 V c 3 t : Vec Ideal S512x512 .bf16) (ix2 j q) = (V c main_v39 : S512x512.Idx → EReal) (ix2 j q) := by
  obtain ⟨-, -, -, -, -, -, e6, e7, -⟩ := block_of_step3 t
  unfold iblk3
  rw [View.read_apply]
  show (V c main_v39 : S512x512.Idx → EReal) (((cfg3.win 3).blk t).view.emb (ix2 j q)) = _
  refine congrArg _ (funext fun a => Fin.ext ?_)
  match a with
  | ⟨0, _⟩ => show win3_3.index t (0 : Fin 2) * 512 + 1 * j.val = j.val; omega
  | ⟨1, _⟩ => show win3_3.index t (1 : Fin 2) * 512 + 1 * q.val = q.val; omega

/-- its bias block the layer's bias row, -/
theorem bias_entry3 (c : Dev nD) (t : Fin cfg3.N) (q : Fin 512) :
    (iblk3 V c 4 t : Vec Ideal S1x512 .f32) (ix2 (0 : Fin 1) q) = (V c main_v40 : S1x512.Idx → EReal) (ix2 (0 : Fin 1) q) := by
  obtain ⟨-, -, -, -, -, -, -, -, e8, e9, -⟩ := block_of_step3 t
  unfold iblk3
  rw [View.read_apply]
  show (V c main_v40 : S1x512.Idx → EReal) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 512 + 1 * q.val = q.val; omega

/-- and row `p` of its second block of scale factors is the factor of node `2048·(t / 8) + p`. -/
theorem rowscale_entry3 (c : Dev nD) (t : Fin cfg3.N) (p : Fin 2048) (r : Fin 8192) (hr : r.val = t.val / 8 * 2048 + p.val) :
    (iblk3 V c 5 t : Vec Ideal S2048x1 .f32) (ix2 p (0 : Fin 1)) = (V c main_v30 : S8192x1.Idx → EReal) (ix2 r (0 : Fin 1)) := by
  obtain ⟨-, -, -, -, -, -, -, -, -, -, e10, e11, -⟩ := block_of_step3 t
  unfold iblk3
  rw [View.read_apply]
  show (V c main_v30 : S8192x1.Idx → EReal) (((cfg3.win 5).blk t).view.emb (ix2 p (0 : Fin 1))) = _
  refine congrArg _ (funext fun a => Fin.ext ?_)
  match a with
  | ⟨0, _⟩ => show win3_5.index t (0 : Fin 2) * 2048 + 1 * p.val = r.val; omega
  | ⟨1, _⟩ => show win3_5.index t (1 : Fin 2) * 1 + 1 * 0 = 0; omega

/-! ## The running sum, step by step -/

/-- One step adds, at entry `(p, q)`, the contributions of the 1024 nodes of column block `t % 8` to feature `q` of node
    `2048·(t / 8) + p`. -/
theorem accStep3_apply (c : Dev nD) (t : Fin cfg3.N) (acc : Vec Ideal S2048x512 .f32) (p : Fin 2048) (q : Fin 512)
    (r : Fin 8192) (hr : r.val = t.val / 8 * 2048 + p.val) :
    accStep3 V c t acc (ix2 p q)
      = acc (ix2 p q) + blockSum (aggTerm (V c main_v31) (V c main_v38) (V c main_v30) r q) (t.val % 8) := by
  have h8 : t.val % 8 < 8 := Nat.mod_lt _ (by decide)
  unfold accStep3
  refine (k3_pay2_apply (iblk3 V c 1 t) (iblk3 V c 2 t) acc (iblk3 V c 0 t) p q).trans ?_
  rw [blockSum_of_lt _ h8]
  refine congrArg (acc (ix2 p q) + ·) (Finset.sum_congr rfl fun k _ => ?_)
  have hk := k.isLt
  exact congrArg₂ (· * ·) (adj_entry3 V c t p k r ⟨t.val % 8 * 1024 + k.val, by omega⟩ hr rfl)
    (congrArg₂ (· * ·) (state_entry3 V c t k q ⟨t.val % 8 * 1024 + k.val, by omega⟩ rfl)
      (scale_entry3 V c t k ⟨t.val % 8 * 1024 + k.val, by omega⟩ rfl))

/-- THE RUNNING SUM after step `n`, by induction on the step: the contributions of the column blocks `0 … n % 8` (it is
    restarted from zero whenever a new row block begins, and a step inside a row block keeps the row block). -/
theorem accAt3_apply (c : Dev nD) : ∀ (n : ℕ) (hn : n < cfg3.N) (p : Fin 2048) (q : Fin 512) (r : Fin 8192),
    r.val = n / 8 * 2048 + p.val →
    accAt3 V c n hn (ix2 p q)
      = ∑ s ∈ Finset.range (n % 8 + 1), blockSum (aggTerm (V c main_v31) (V c main_v38) (V c main_v30) r q) s := by
  intro n
  induction n with
  | zero =>
    intro hn p q r hr
    rw [accAt3_first V c ⟨0, hn⟩ rfl, accStep3_apply V c ⟨0, hn⟩ _ p q r hr, k3_pay1_apply, zero_add]
    exact (Finset.sum_range_one _).symm
  | succ n ih =>
    intro hn p q r hr
    by_cases h0 : (n + 1) % 8 = 0
    · rw [accAt3_first V c ⟨n + 1, hn⟩ h0, accStep3_apply V c ⟨n + 1, hn⟩ _ p q r hr, k3_pay1_apply, zero_add]
      show blockSum _ ((n + 1) % 8) = _
      rw [h0]
      exact (Finset.sum_range_one _).symm
    · rw [accAt3_next V c ⟨n + 1, hn⟩ h0, accStep3_apply V c ⟨n + 1, hn⟩ _ p q r hr]
      show accAt3 V c n _ (ix2 p q) + blockSum _ ((n + 1) % 8) = _
      rw [ih (Nat.lt_of_succ_lt hn) p q r (by omega)]
      have e : (n + 1) % 8 = n % 8 + 1 := by omega
      rw [e, Finset.sum_range_succ _ (n % 8 + 1)]

/-- At the last step of a row block the running sum is the sum over all 8192 nodes. -/
theorem accAt3_last (c : Dev nD) (t : Fin cfg3.N) (h7 : t.val % 8 = 7) (p : Fin 2048) (q : Fin 512) (r : Fin 8192)
    (hr : r.val = t.val / 8 * 2048 + p.val) :
    accAt3 V c t.val t.isLt (ix2 p q)
      = ∑ k : Fin 8192, aggTerm (V c main_v31) (V c main_v38) (V c main_v30) r q k := by
  rw [accAt3_apply V c t.val t.isLt p q r hr, h7]
  exact sum_blockSum _

/-! ## What is written back, and the array after the launch -/

/-- WHAT A LAST STEP `t` WRITES BACK is row block `t / 8` of the layer's result — for any bookkeeping of the launch that
    leaves `outAt3` in the result buffer. -/
theorem flushed3_eq_of {c : Dev nD} (dat : Dat τ (Elt Ideal) Unit ℕ (UR sig nD τ) ℕ cfg3 c)
    (hafter : ∀ t, dat.after 6 t = outAt3 V c t) (t : Fin cfg3.N) (hf : (cfg3.win 6).flush t = true) :
    dat.flushed 6 t = ((cfg3.win 6).blk t).view.read (Elt Ideal)
      (layerOut (V c main_v31) (V c main_v38) (V c main_v30) (V c main_v39) (V c main_v40)) := by
  have h7 : t.val % 8 = 7 := (flush3_6 t).mp hf
  have hN : t.val < 32 := lt_of_lt_of_eq t.isLt N_3
  obtain ⟨-, -, -, -, -, -, -, -, -, -, -, -, e12, e13⟩ := block_of_step3 t
  show (cfg3.win 6).cut (grid3.coords t) (dat.after 6 t) = _
  rw [hafter]
  unfold outAt3
  funext y
  obtain ⟨p, q, rfl⟩ : ∃ (p : Fin 2048) (q : Fin 512), y = ix2 p q := ⟨y 0, y 1, eq_ix2 y⟩
  have hp := p.isLt
  have hq := q.isLt
  obtain ⟨r, hr⟩ : ∃ r : Fin 8192, r.val = t.val / 8 * 2048 + p.val := ⟨⟨t.val / 8 * 2048 + p.val, by omega⟩, rfl⟩
  have hplace : ((cfg3.win 6).blk t).view.emb (ix2 p q) = (ix2 r q : S8192x512.Idx) := funext fun a => Fin.ext (by
    match a with
    | ⟨0, _⟩ => show win3_6.index t (0 : Fin 2) * 2048 + 1 * p.val = r.val; omega
    | ⟨1, _⟩ => show win3_6.index t (1 : Fin 2) * 512 + 1 * q.val = q.val; omega)
  show k3_pay3 (F := Ideal) (accAt3 V c t.val t.isLt) (iblk3 V c 5 t) (iblk3 V c 3 t) (iblk3 V c 4 t) (ix2 p q)
    = layerOut (V c main_v31) (V c main_v38) (V c main_v30) (V c main_v39) (V c main_v40) (((cfg3.win 6).blk t).view.emb (ix2 p q))
  rw [hplace, layerOut_apply]
  refine (k3_pay3_apply (accAt3 V c t.val t.isLt) (iblk3 V c 5 t) (iblk3 V c 3 t) (iblk3 V c 4 t) p q).trans ?_
  exact congrArg (max · 0) (congrArg₂ (· + ·)
    (Finset.sum_congr rfl fun j _ => congrArg₂ (· * ·)
      (congrArg₂ (· * ·) (accAt3_last V c t h7 p j r hr) (rowscale_entry3 V c t p r hr)) (weights_entry3 V c t j q))
    (bias_entry3 V c t q))

/-- An entry of the result array is in step `t`'s row block when each of its coordinates is in the block's range. -/
theorem mem_rows3 (t : Fin cfg3.N) (i : S8192x512.Idx) :
    i ∈ ((cfg3.win 6).blk t).view.set ↔ ∀ a : Fin 2, win3_6.index t a * S2048x512.size a ≤ (i a).val
      ∧ (i a).val < win3_6.index t a * S2048x512.size a + S2048x512.size a := by
  show i ∈ ((View.whole main_v41).slice (win3_6.rect t)).set ↔ _
  rw [View.set_slice_whole, Rect.mem_set_unit]
  exact Iff.rfl

/-- Every entry `(r, q)` of the result array is written back by some step: the last step `8·(r / 2048) + 7` of its row
    block. -/
theorem rows_cover3 (i : S8192x512.Idx) :
    ∃ t : Fin cfg3.N, (cfg3.win 6).flush t = true ∧ i ∈ ((cfg3.win 6).blk t).view.set := by
  have hi0 : (i 0).val < 8192 := idx2_lt0 i
  have hi1 : (i 1).val < 512 := idx2_lt1 i
  have hN : cfg3.N = 32 := N_3
  obtain ⟨t, ht⟩ : ∃ t : Fin cfg3.N, t.val = (i 0).val / 2048 * 8 + 7 := ⟨⟨(i 0).val / 2048 * 8 + 7, by rw [hN]; omega⟩, rfl⟩
  obtain ⟨-, -, -, -, -, -, -, -, -, -, -, -, e12, e13⟩ := block_of_step3 t
  refine ⟨t, (flush3_6 t).mpr (by omega), ?_⟩
  rw [mem_rows3]
  intro a
  match a with
  | ⟨0, _⟩ =>
    show win3_6.index t (0 : Fin 2) * 2048 ≤ (i 0).val ∧ (i 0).val < win3_6.index t (0 : Fin 2) * 2048 + 2048
    omega
  | ⟨1, _⟩ =>
    show win3_6.index t (1 : Fin 2) * 512 ≤ (i 1).val ∧ (i 1).val < win3_6.index t (1 : Fin 2) * 512 + 512
    omega

/-- THE ARRAY AFTER THE LAUNCH, for any such bookkeeping: the layer's result. -/
theorem final3_of {c : Dev nD} (dat : Dat τ (Elt Ideal) Unit ℕ (UR sig nD τ) ℕ cfg3 c)
    (hafter : ∀ t, dat.after 6 t = outAt3 V c t) :
    dat.arrAt 6 cfg3.N = layerOut (V c main_v31) (V c main_v38) (V c main_v30) (V c main_v39) (V c main_v40) :=
  dat.arrAt_eq_of_cover 6 _ (fun t hf => flushed3_eq_of V dat hafter t hf) rows_cover3

/-- What a last step writes back, for the launch's own bookkeeping. -/
theorem flushed3_eq (c : Dev nD) (t : Fin cfg3.N) (hf : (cfg3.win 6).flush t = true) :
    (dat3 V c).flushed 6 t = ((cfg3.win 6).blk t).view.read (Elt Ideal)
      (layerOut (V c main_v31) (V c main_v38) (V c main_v30) (V c main_v39) (V c main_v40)) :=
  flushed3_eq_of V (dat3 V c) (after3_6 V c) t hf

/-- THE ARRAY AFTER THE LAUNCH: the layer's result, entry by entry, of the five arrays the launch was given. -/
theorem final3 (c : Dev nD) :
    (dat3 V c).arrAt 6 cfg3.N = layerOut (V c main_v31) (V c main_v38) (V c main_v30) (V c main_v39) (V c main_v40) :=
  final3_of V (dat3 V c) (after3_6 V c)

end Value

end Cert.KernelIdeal.Hand

end
-- ==== Proof.Value4.lean ====
/- The value of the third (output) graph-convolution launch over the exact extended reals: when its 32 steps are done, the
   8192 x 512 array it wrote is, entry by entry, ( (Â · (X scaled row-wise by d)) scaled row-wise by d, times W, plus
   b ), where Â is the self-looped adjacency matrix, X the node states, d the column of scale factors, W and b the
   layer's weights and bias. The grid is 4 row blocks of 2048 nodes by 8 column blocks of 1024 nodes; inside a row
   block the kernel adds one column block's contribution per step to a running sum (proved by induction on the step)
   and at the eighth forms and writes back the row block of the result; the 4 row blocks cover the array. -/
import proofs.«127076_j34282428956966_2_alg».proof.Proof.Region4
import proofs.«127076_j34282428956966_2_alg».proof.Proof.Payload2
import proofs.«127076_j34282428956966_2_alg».proof.Proof.LayerSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

section Value
-- what every buffer of the core holds at the moment the launch starts, at the exact extended reals
variable (V : (c : Dev nD) → (b : Ref sig .tc) → Buf (Elt Ideal) ((c : Thread nD τ).loc b))

/-- Step `t` of the 4 x 8 grid works on row block `t / 8` of the adjacency matrix and of the result, and on column block
    `t % 8` of the adjacency matrix, which is row block `t % 8` of the node states and of their scale factors; the
    weights and the bias have one block (checked at each of the 32 steps). -/
theorem block_of_step4 : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val % 8 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val / 8 ∧ win4_5.index t (1 : Fin 2) = 0
    ∧ win4_6.index t (0 : Fin 2) = t.val / 8 ∧ win4_6.index t (1 : Fin 2) = 0 :=
  (by decide +kernel : ∀ t : Fin grid4.N, _)

/-! ## A block entry is an array entry -/

/-- Entry `(p, k)` of step `t`'s adjacency block is entry `(2048·(t / 8) + p, 1024·(t % 8) + k)` of the matrix. -/
theorem adj_entry4 (c : Dev nD) (t : Fin cfg4.N) (p : Fin 2048) (k : Fin 1024) (r j : Fin 8192)
    (hr : r.val = t.val / 8 * 2048 + p.val) (hj : j.val = t.val % 8 * 1024 + k.val) :
    (iblk4 V c 0 t : Vec Ideal S2048x1024 .bf16) (ix2 p k) = (V c main_v31 : S8192x8192.Idx → EReal) (ix2 r j) := by
  obtain ⟨e0, e1, -⟩ := block_of_step4 t
  unfold iblk4
  rw [View.read_apply]
  show (V c main_v31 : S8192x8192.Idx → EReal) (((cfg4.win 0).blk t).view.emb (ix2 p k)) = _
  refine congrArg _ (funext fun a => Fin.ext ?_)
  match a with
  | ⟨0, _⟩ => show win4_0.index t (0 : Fin 2) * 2048 + 1 * p.val = r.val; omega
  | ⟨1, _⟩ => show win4_0.index t (1 : Fin 2) * 1024 + 1 * k.val = j.val; omega

/-- Row `k` of step `t`'s block of node states is the state of node `1024·(t % 8) + k`, -/
theorem state_entry4 (c : Dev nD) (t : Fin cfg4.N) (k : Fin 1024) (q : Fin 512) (j : Fin 8192)
    (hj : j.val = t.val % 8 * 1024 + k.val) :
    (iblk4 V c 1 t : Vec Ideal S1024x512 .bf16) (ix2 k q) = (V c main_v41 : S8192x512.Idx → EReal) (ix2 j q) := by
  obtain ⟨-, -, e2, e3, -⟩ := block_of_step4 t
  unfold iblk4
  rw [View.read_apply]
  show (V c main_v41 : S8192x512.Idx → EReal) (((cfg4.win 1).blk t).view.emb (ix2 k q)) = _
  refine congrArg _ (funext fun a => Fin.ext ?_)
  match a with
  | ⟨0, _⟩ => show win4_1.index t (0 : Fin 2) * 1024 + 1 * k.val = j.val; omega
  | ⟨1, _⟩ => show win4_1.index t (1 : Fin 2) * 512 + 1 * q.val = q.val; omega

/-- and its scale factor that node's. -/
theorem scale_entry4 (c : Dev nD) (t : Fin cfg4.N) (k : Fin 1024) (j : Fin 8192) (hj : j.val = t.val % 8 * 1024 + k.val) :
    (iblk4 V c 2 t : Vec Ideal S1024x1 .f32) (ix2 k (0 : Fin 1)) = (V c main_v30 : S8192x1.Idx → EReal) (ix2 j (0 : Fin 1)) := by
  obtain ⟨-, -, -, -, e4, e5, -⟩ := block_of_step4 t
  unfold iblk4
  rw [View.read_apply]
  show (V c main_v30 : S8192x1.Idx → EReal) (((cfg4.win 2).blk t).view.emb (ix2 k (0 : Fin 1))) = _
  refine congrArg _ (funext fun a => Fin.ext ?_)
  match a with
  | ⟨0, _⟩ => show win4_2.index t (0 : Fin 2) * 1024 + 1 * k.val = j.val; omega
  | ⟨1, _⟩ => show win4_2.index t (1 : Fin 2) * 1 + 1 * 0 = 0; omega

/-- Every step's weight block is the layer's weight matrix, -/
theorem weights_entry4 (c : Dev nD) (t : Fin cfg4.N) (j q : Fin 512) :
    (iblk4 V c 3 t : Vec Ideal S512x512 .bf16) (ix2 j q) = (V c main_v42 : S512x512.Idx → EReal) (ix2 j q) := by
  obtain ⟨-, -, -, -, -, -, e6, e7, -⟩ := block_of_step4 t
  unfold iblk4
  rw [View.read_apply]
  show (V c main_v42 : S512x512.Idx → EReal) (((cfg4.win 3).blk t).view.emb (ix2 j q)) = _
  refine congrArg _ (funext fun a => Fin.ext ?_)
  match a with
  | ⟨0, _⟩ => show win4_3.index t (0 : Fin 2) * 512 + 1 * j.val = j.val; omega
  | ⟨1, _⟩ => show win4_3.index t (1 : Fin 2) * 512 + 1 * q.val = q.val; omega

/-- its bias block the layer's bias row, -/
theorem bias_entry4 (c : Dev nD) (t : Fin cfg4.N) (q : Fin 512) :
    (iblk4 V c 4 t : Vec Ideal S1x512 .f32) (ix2 (0 : Fin 1) q) = (V c main_v43 : S1x512.Idx → EReal) (ix2 (0 : Fin 1) q) := by
  obtain ⟨-, -, -, -, -, -, -, -, e8, e9, -⟩ := block_of_step4 t
  unfold iblk4
  rw [View.read_apply]
  show (V c main_v43 : S1x512.Idx → EReal) (((cfg4.win 4).blk t).view.emb (ix2 (0 : Fin 1) q)) = _
  refine congrArg _ (funext fun a => Fin.ext ?_)
  match a with
  | ⟨0, _⟩ => show win4_4.index t (0 : Fin 2) * 1 + 1 * 0 = 0; omega
  | ⟨1, _⟩ => show win4_4.index t (1 : Fin 2) * 512 + 1 * q.val = q.val; omega

/-- and row `p` of its second block of scale factors is the factor of node `2048·(t / 8) + p`. -/
theorem rowscale_entry4 (c : Dev nD) (t : Fin cfg4.N) (p : Fin 2048) (r : Fin 8192) (hr : r.val = t.val / 8 * 2048 + p.val) :
    (iblk4 V c 5 t : Vec Ideal S2048x1 .f32) (ix2 p (0 : Fin 1)) = (V c main_v30 : S8192x1.Idx → EReal) (ix2 r (0 : Fin 1)) := by
  obtain ⟨-, -, -, -, -, -, -, -, -, -, e10, e11, -⟩ := block_of_step4 t
  unfold iblk4
  rw [View.read_apply]
  show (V c main_v30 : S8192x1.Idx → EReal) (((cfg4.win 5).blk t).view.emb (ix2 p (0 : Fin 1))) = _
  refine congrArg _ (funext fun a => Fin.ext ?_)
  match a with
  | ⟨0, _⟩ => show win4_5.index t (0 : Fin 2) * 2048 + 1 * p.val = r.val; omega
  | ⟨1, _⟩ => show win4_5.index t (1 : Fin 2) * 1 + 1 * 0 = 0; omega

/-! ## The running sum, step by step -/

/-- One step adds, at entry `(p, q)`, the contributions of the 1024 nodes of column block `t % 8` to feature `q` of node
    `2048·(t / 8) + p`. -/
theorem accStep4_apply (c : Dev nD) (t : Fin cfg4.N) (acc : Vec Ideal S2048x512 .f32) (p : Fin 2048) (q : Fin 512)
    (r : Fin 8192) (hr : r.val = t.val / 8 * 2048 + p.val) :
    accStep4 V c t acc (ix2 p q)
      = acc (ix2 p q) + blockSum (aggTerm (V c main_v31) (V c main_v41) (V c main_v30) r q) (t.val % 8) := by
  have h8 : t.val % 8 < 8 := Nat.mod_lt _ (by decide)
  unfold accStep4
  refine (k4_pay2_apply (iblk4 V c 1 t) (iblk4 V c 2 t) acc (iblk4 V c 0 t) p q).trans ?_
  rw [blockSum_of_lt _ h8]
  refine congrArg (acc (ix2 p q) + ·) (Finset.sum_congr rfl fun k _ => ?_)
  have hk := k.isLt
  exact congrArg₂ (· * ·) (adj_entry4 V c t p k r ⟨t.val % 8 * 1024 + k.val, by omega⟩ hr rfl)
    (congrArg₂ (· * ·) (state_entry4 V c t k q ⟨t.val % 8 * 1024 + k.val, by omega⟩ rfl)
      (scale_entry4 V c t k ⟨t.val % 8 * 1024 + k.val, by omega⟩ rfl))

/-- THE RUNNING SUM after step `n`, by induction on the step: the contributions of the column blocks `0 … n % 8` (it is
    restarted from zero whenever a new row block begins, and a step inside a row block keeps the row block). -/
theorem accAt4_apply (c : Dev nD) : ∀ (n : ℕ) (hn : n < cfg4.N) (p : Fin 2048) (q : Fin 512) (r : Fin 8192),
    r.val = n / 8 * 2048 + p.val →
    accAt4 V c n hn (ix2 p q)
      = ∑ s ∈ Finset.range (n % 8 + 1), blockSum (aggTerm (V c main_v31) (V c main_v41) (V c main_v30) r q) s := by
  intro n
  induction n with
  | zero =>
    intro hn p q r hr
    rw [accAt4_first V c ⟨0, hn⟩ rfl, accStep4_apply V c ⟨0, hn⟩ _ p q r hr, k4_pay1_apply, zero_add]
    exact (Finset.sum_range_one _).symm
  | succ n ih =>
    intro hn p q r hr
    by_cases h0 : (n + 1) % 8 = 0
    · rw [accAt4_first V c ⟨n + 1, hn⟩ h0, accStep4_apply V c ⟨n + 1, hn⟩ _ p q r hr, k4_pay1_apply, zero_add]
      show blockSum _ ((n + 1) % 8) = _
      rw [h0]
      exact (Finset.sum_range_one _).symm
    · rw [accAt4_next V c ⟨n + 1, hn⟩ h0, accStep4_apply V c ⟨n + 1, hn⟩ _ p q r hr]
      show accAt4 V c n _ (ix2 p q) + blockSum _ ((n + 1) % 8) = _
      rw [ih (Nat.lt_of_succ_lt hn) p q r (by omega)]
      have e : (n + 1) % 8 = n % 8 + 1 := by omega
      rw [e, Finset.sum_range_succ _ (n % 8 + 1)]

/-- At the last step of a row block the running sum is the sum over all 8192 nodes. -/
theorem accAt4_last (c : Dev nD) (t : Fin cfg4.N) (h7 : t.val % 8 = 7) (p : Fin 2048) (q : Fin 512) (r : Fin 8192)
    (hr : r.val = t.val / 8 * 2048 + p.val) :
    accAt4 V c t.val t.isLt (ix2 p q)
      = ∑ k : Fin 8192, aggTerm (V c main_v31) (V c main_v41) (V c main_v30) r q k := by
  rw [accAt4_apply V c t.val t.isLt p q r hr, h7]
  exact sum_blockSum _

/-! ## What is written back, and the array after the launch -/

/-- WHAT A LAST STEP `t` WRITES BACK is row block `t / 8` of the layer's result — for any bookkeeping of the launch that
    leaves `outAt4` in the result buffer. -/
theorem flushed4_eq_of {c : Dev nD} (dat : Dat τ (Elt Ideal) Unit ℕ (UR sig nD τ) ℕ cfg4 c)
    (hafter : ∀ t, dat.after 6 t = outAt4 V c t) (t : Fin cfg4.N) (hf : (cfg4.win 6).flush t = true) :
    dat.flushed 6 t = ((cfg4.win 6).blk t).view.read (Elt Ideal)
      (layerLin (V c main_v31) (V c main_v41) (V c main_v30) (V c main_v42) (V c main_v43)) := by
  have h7 : t.val % 8 = 7 := (flush4_6 t).mp hf
  have hN : t.val < 32 := lt_of_lt_of_eq t.isLt N_4
  obtain ⟨-, -, -, -, -, -, -, -, -, -, -, -, e12, e13⟩ := block_of_step4 t
  show (cfg4.win 6).cut (grid4.coords t) (dat.after 6 t) = _
  rw [hafter]
  unfold outAt4
  funext y
  obtain ⟨p, q, rfl⟩ : ∃ (p : Fin 2048) (q : Fin 512), y = ix2 p q := ⟨y 0, y 1, eq_ix2 y⟩
  have hp := p.isLt
  have hq := q.isLt
  obtain ⟨r, hr⟩ : ∃ r : Fin 8192, r.val = t.val / 8 * 2048 + p.val := ⟨⟨t.val / 8 * 2048 + p.val, by omega⟩, rfl⟩
  have hplace : ((cfg4.win 6).blk t).view.emb (ix2 p q) = (ix2 r q : S8192x512.Idx) := funext fun a => Fin.ext (by
    match a with
    | ⟨0, _⟩ => show win4_6.index t (0 : Fin 2) * 2048 + 1 * p.val = r.val; omega
    | ⟨1, _⟩ => show win4_6.index t (1 : Fin 2) * 512 + 1 * q.val = q.val; omega)
  show k4_pay3 (F := Ideal) (accAt4 V c t.val t.isLt) (iblk4 V c 5 t) (iblk4 V c 3 t) (iblk4 V c 4 t) (ix2 p q)
    = layerLin (V c main_v31) (V c main_v41) (V c main_v30) (V c main_v42) (V c main_v43) (((cfg4.win 6).blk t).view.emb (ix2 p q))
  rw [hplace, layerLin_apply]
  refine (k4_pay3_apply (accAt4 V c t.val t.isLt) (iblk4 V c 5 t) (iblk4 V c 3 t) (iblk4 V c 4 t) p q).trans ?_
  exact (congrArg₂ (· + ·)
    (Finset.sum_congr rfl fun j _ => congrArg₂ (· * ·)
      (congrArg₂ (· * ·) (accAt4_last V c t h7 p j r hr) (rowscale_entry4 V c t p r hr)) (weights_entry4 V c t j q))
    (bias_entry4 V c t q))

/-- An entry of the result array is in step `t`'s row block when each of its coordinates is in the block's range. -/
theorem mem_rows4 (t : Fin cfg4.N) (i : S8192x512.Idx) :
    i ∈ ((cfg4.win 6).blk t).view.set ↔ ∀ a : Fin 2, win4_6.index t a * S2048x512.size a ≤ (i a).val
      ∧ (i a).val < win4_6.index t a * S2048x512.size a + S2048x512.size a := by
  show i ∈ ((View.whole main_v44).slice (win4_6.rect t)).set ↔ _
  rw [View.set_slice_whole, Rect.mem_set_unit]
  exact Iff.rfl

/-- Every entry `(r, q)` of the result array is written back by some step: the last step `8·(r / 2048) + 7` of its row
    block. -/
theorem rows_cover4 (i : S8192x512.Idx) :
    ∃ t : Fin cfg4.N, (cfg4.win 6).flush t = true ∧ i ∈ ((cfg4.win 6).blk t).view.set := by
  have hi0 : (i 0).val < 8192 := idx2_lt0 i
  have hi1 : (i 1).val < 512 := idx2_lt1 i
  have hN : cfg4.N = 32 := N_4
  obtain ⟨t, ht⟩ : ∃ t : Fin cfg4.N, t.val = (i 0).val / 2048 * 8 + 7 := ⟨⟨(i 0).val / 2048 * 8 + 7, by rw [hN]; omega⟩, rfl⟩
  obtain ⟨-, -, -, -, -, -, -, -, -, -, -, -, e12, e13⟩ := block_of_step4 t
  refine ⟨t, (flush4_6 t).mpr (by omega), ?_⟩
  rw [mem_rows4]
  intro a
  match a with
  | ⟨0, _⟩ =>
    show win4_6.index t (0 : Fin 2) * 2048 ≤ (i 0).val ∧ (i 0).val < win4_6.index t (0 : Fin 2) * 2048 + 2048
    omega
  | ⟨1, _⟩ =>
    show win4_6.index t (1 : Fin 2) * 512 ≤ (i 1).val ∧ (i 1).val < win4_6.index t (1 : Fin 2) * 512 + 512
    omega

/-- THE ARRAY AFTER THE LAUNCH, for any such bookkeeping: the layer's result. -/
theorem final4_of {c : Dev nD} (dat : Dat τ (Elt Ideal) Unit ℕ (UR sig nD τ) ℕ cfg4 c)
    (hafter : ∀ t, dat.after 6 t = outAt4 V c t) :
    dat.arrAt 6 cfg4.N = layerLin (V c main_v31) (V c main_v41) (V c main_v30) (V c main_v42) (V c main_v43) :=
  dat.arrAt_eq_of_cover 6 _ (fun t hf => flushed4_eq_of V dat hafter t hf) rows_cover4

/-- What a last step writes back, for the launch's own bookkeeping. -/
theorem flushed4_eq (c : Dev nD) (t : Fin cfg4.N) (hf : (cfg4.win 6).flush t = true) :
    (dat4 V c).flushed 6 t = ((cfg4.win 6).blk t).view.read (Elt Ideal)
      (layerLin (V c main_v31) (V c main_v41) (V c main_v30) (V c main_v42) (V c main_v43)) :=
  flushed4_eq_of V (dat4 V c) (after4_6 V c) t hf

/-- THE ARRAY AFTER THE LAUNCH: the layer's result, entry by entry, of the five arrays the launch was given. -/
theorem final4 (c : Dev nD) :
    (dat4 V c).arrAt 6 cfg4.N = layerLin (V c main_v31) (V c main_v41) (V c main_v30) (V c main_v42) (V c main_v43) :=
  final4_of V (dat4 V c) (after4_6 V c)

end Value

end Cert.KernelIdeal.Hand

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«127076_j34282428956966_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.Spec.lean ====
import proofs.«127076_j34282428956966_2_alg».proof.Proof.AdjTerm
import proofs.«127076_j34282428956966_2_alg».proof.Proof.LibFiniteOps

/-!
# The three-layer graph convolution as one function of its arguments, in two arrangements

With `a(i,k)` the adjacency counts plus the identity, both programs compute, per layer,
`act((y · W) + b)` where `y` is the neighbourhood average of the layer's input `x` under the
symmetric normalisation by degrees.

* The reference sums each row of `a` to get the degree, takes `deg ^ (-1/2)` where the degree is
  positive (and 0 elsewhere), scales the matrix entrywise, `a(i,k) · d(i) · d(k)`, and multiplies.
* The kernel counts the valid slots of a row and adds one for the degree, takes `deg ^ (-1/2)`,
  scales the rows of `x` by `d(k)` before the product with `a` and the rows of the product by
  `d(i)` after it.

When every entry of the neighbour table is below 8192 the two degrees agree (each row of the counts
sums to the number of valid slots of the row) and are at least 1, so the two normalisers agree; and
when every float input is a real number every intermediate value is a real number, so the factor
`d(i)` moves across the finite sum and the two arrangements give the same result.
-/

open Idealize.ShloMosaic Idealize.ShloMosaic.ValueIdx LibFinite
open scoped BigOperators

noncomputable section

namespace Cert.Spec

abbrev S8192x128 : Shape := ⟨2, ![8192, 128]⟩
abbrev S128x512 : Shape := ⟨2, ![128, 512]⟩
abbrev S512 : Shape := ⟨1, ![512]⟩
abbrev S512x512 : Shape := ⟨2, ![512, 512]⟩
abbrev S8192x512 : Shape := ⟨2, ![8192, 512]⟩

/-! ## The algebra, over any finite index type -/

/-- Moving the row factor across the sum: for real numbers, scaling the matrix entry by both
    normalisers and then multiplying by `x` is scaling `x` first and the sum afterwards. -/
theorem scaled_sum_law {ι : Type*} [Fintype ι] (a x d : ι → EReal) (di : EReal)
    (ha : ∀ k, IsReal (a k)) (hx : ∀ k, IsReal (x k)) (hd : ∀ k, IsReal (d k)) (hdi : IsReal di) :
    ∑ k, (a k * di * d k) * x k = (∑ k, a k * (x k * d k)) * di := by
  obtain ⟨δ, rfl⟩ := hdi
  choose α hα using ha
  choose ξ hξ using hx
  choose β hβ using hd
  obtain rfl : a = fun k => (α k : EReal) := funext hα
  obtain rfl : x = fun k => (ξ k : EReal) := funext hξ
  obtain rfl : d = fun k => (β k : EReal) := funext hβ
  simp only [← EReal.coe_mul, ← coe_finset_sum]
  refine congrArg Real.toEReal ?_
  rw [Finset.sum_mul]
  exact Finset.sum_congr rfl fun k _ => by ring

/-- A sum over 8192 indices, taken as 8 consecutive blocks of 1024. -/
theorem sum_blocks {M : Type*} [AddCommMonoid M] (f : Fin 8192 → M) :
    ∑ k : Fin 8192, f k
      = ∑ b : Fin 8, ∑ t : Fin 1024, f ⟨1024 * b.val + t.val, by have := b.isLt; have := t.isLt; omega⟩ := by
  rw [← Equiv.sum_comp (finProdFinEquiv : Fin 8 × Fin 1024 ≃ Fin (8 * 1024)), Fintype.sum_prod_type]
  refine Finset.sum_congr rfl fun b _ => Finset.sum_congr rfl fun t _ => congrArg f (Fin.ext ?_)
  show t.val + 1024 * b.val = 1024 * b.val + t.val
  omega

/-! ## The pieces -/

/-- The adjacency counts plus the identity. -/
def adjI (idx : IVec S8192x16 32) (r c : Fin 8192) : EReal := adjT idx (ix2 r c) + (if r.val = c.val then 1 else 0)

/-- The exponent `-1/2`, as the float constant both programs carry. -/
def negHalf : EReal := Ideal.ofBits .f32 0xBF000000#32

/-- The kernel's degree: the valid slots of the row, plus one. -/
def degK (idx : IVec S8192x16 32) (r : Fin 8192) : EReal := (∑ m : Fin 16, valT idx (ix2 r m)) + 1
/-- The kernel's normaliser. -/
def dK (idx : IVec S8192x16 32) (r : Fin 8192) : EReal := Ideal.pow (degK idx r) negHalf

/-- The reference's degree: the row sum of the counts plus the identity. -/
def degR (idx : IVec S8192x16 32) (r : Fin 8192) : EReal := ∑ c : Fin 8192, adjI idx r c
/-- The reference's normaliser: the power where the degree is positive, else 0. -/
def dR (idx : IVec S8192x16 32) (r : Fin 8192) : EReal := if 0 < degR idx r then Ideal.pow (degR idx r) negHalf else 0

/-- The embedding `X · W + b`. -/
def emb (X : S8192x128.Idx → EReal) (W : S128x512.Idx → EReal) (b : S512.Idx → EReal) (n : Fin 8192) (j : Fin 512) : EReal :=
  (∑ k : Fin 128, X (ix2 n k) * W (ix2 k j)) + b (ix1 j)

/-- The activation: `max(z, 0)` on the first two layers, nothing on the last. -/
def act (relu : Bool) (z : EReal) : EReal := if relu then max z 0 else z

/-- One layer, the kernel's arrangement. -/
def layerK (idx : IVec S8192x16 32) (x : Fin 8192 → Fin 512 → EReal) (W : S512x512.Idx → EReal) (b : S512.Idx → EReal)
    (relu : Bool) (i : Fin 8192) (j : Fin 512) : EReal :=
  act relu ((∑ q : Fin 512, ((∑ k : Fin 8192, adjI idx i k * (x k q * dK idx k)) * dK idx i) * W (ix2 q j)) + b (ix1 j))

/-- One layer, the reference's arrangement. -/
def layerR (idx : IVec S8192x16 32) (x : Fin 8192 → Fin 512 → EReal) (W : S512x512.Idx → EReal) (b : S512.Idx → EReal)
    (relu : Bool) (i : Fin 8192) (j : Fin 512) : EReal :=
  act relu ((∑ q : Fin 512, (∑ k : Fin 8192, (adjI idx i k * dR idx i * dR idx k) * x k q) * W (ix2 q j)) + b (ix1 j))

/-- The whole network, the kernel's arrangement. -/
def GK (X : S8192x128.Idx → EReal) (idx : IVec S8192x16 32) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal) (n : Fin 8192) (j : Fin 512) : EReal :=
  layerK idx (layerK idx (layerK idx (emb X Wemb bemb) W1 b1 true) W2 b2 true) W3 b3 false n j

/-- The whole network, the reference's arrangement. -/
def GR (X : S8192x128.Idx → EReal) (idx : IVec S8192x16 32) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal) (n : Fin 8192) (j : Fin 512) : EReal :=
  layerR idx (layerR idx (layerR idx (emb X Wemb bemb) W1 b1 true) W2 b2 true) W3 b3 false n j

/-! ## Every intermediate value is a real number -/

theorem isReal_valT (idx : IVec S8192x16 32) (p : S8192x16.Idx) : IsReal (valT idx p) := by
  rw [valT_apply]; split
  · exact isReal_one
  · exact isReal_zero

theorem isReal_adjI (idx : IVec S8192x16 32) (r c : Fin 8192) : IsReal (adjI idx r c) := by
  unfold adjI
  refine IsReal.add ?_ (by split; exact isReal_one; exact isReal_zero)
  rw [adjT_apply]
  exact isReal_sum _ _ fun m _ => by split; exact isReal_one; exact isReal_zero

/-- The kernel's degree is a real number, at least 1. -/
theorem degK_real (idx : IVec S8192x16 32) (r : Fin 8192) : ∃ δ : ℝ, 1 ≤ δ ∧ degK idx r = (δ : EReal) := by
  refine ⟨(∑ m : Fin 16, if 0 ≤ (idx (ix2 r m)).toInt then (1 : ℝ) else 0) + 1, ?_, ?_⟩
  · have : (0 : ℝ) ≤ ∑ m : Fin 16, if 0 ≤ (idx (ix2 r m)).toInt then (1 : ℝ) else 0 :=
      Finset.sum_nonneg fun m _ => by split <;> norm_num
    linarith
  · unfold degK
    rw [EReal.coe_add, coe_finset_sum]
    refine congrArg (· + (1 : EReal)) (Finset.sum_congr rfl fun m _ => ?_)
    rw [valT_apply]; split <;> simp

/-- The constant is the real number `-1/2`. -/
theorem negHalf_eq : negHalf = ((-(1 / 2) : ℝ) : EReal) := by
  unfold negHalf
  simp [Ideal.ofBits, Ideal.ieee, -EReal.coe_mul]
  norm_num

theorem negHalf_real : ∃ y : ℝ, negHalf = (y : EReal) := ⟨_, negHalf_eq⟩

theorem isReal_dK (idx : IVec S8192x16 32) (r : Fin 8192) : IsReal (dK idx r) := by
  obtain ⟨δ, _, hδ⟩ := degK_real idx r
  obtain ⟨y, hy⟩ := negHalf_real
  unfold dK
  rw [hδ, hy]
  exact ⟨Real.rpow δ y, rfl⟩

/-! ## The two degrees and the two normalisers agree -/

theorem degR_eq_degK (idx : IVec S8192x16 32) (hlt : ∀ p : S8192x16.Idx, (idx p).toInt < 8192) (r : Fin 8192) :
    degR idx r = degK idx r := by
  unfold degR degK adjI
  have hd : ∀ c : Fin 8192, (if r.val = c.val then (1 : EReal) else 0) = if r = c then 1 else 0 :=
    fun c => if_congr (Fin.val_inj) rfl rfl
  simp only [hd]
  rw [Finset.sum_add_distrib, adjT_rowsum idx hlt r, Finset.sum_ite_eq Finset.univ r (fun _ => (1 : EReal)), if_pos (Finset.mem_univ r)]

theorem dR_eq_dK (idx : IVec S8192x16 32) (hlt : ∀ p : S8192x16.Idx, (idx p).toInt < 8192) (r : Fin 8192) :
    dR idx r = dK idx r := by
  unfold dR dK
  rw [degR_eq_degK idx hlt r]
  obtain ⟨δ, h1, hδ⟩ := degK_real idx r
  rw [if_pos]
  rw [hδ]
  exact_mod_cast (by linarith : (0 : ℝ) < δ)

/-! ## The two arrangements agree, layer by layer -/

/-- Every entry is a real number. -/
def Real2 (x : Fin 8192 → Fin 512 → EReal) : Prop := ∀ k q, IsReal (x k q)

theorem isReal_act (relu : Bool) {z : EReal} (hz : IsReal z) : IsReal (act relu z) := by
  unfold act; split
  · exact hz.max isReal_zero
  · exact hz

theorem real2_emb {X : S8192x128.Idx → EReal} {W : S128x512.Idx → EReal} {b : S512.Idx → EReal}
    (hX : AllReal X) (hW : AllReal W) (hb : AllReal b) : Real2 (emb X W b) := fun n j =>
  (isReal_sum _ _ fun k _ => (hX _).mul (hW _)).add (hb _)

theorem real2_layerK (idx : IVec S8192x16 32) {x : Fin 8192 → Fin 512 → EReal} {W : S512x512.Idx → EReal} {b : S512.Idx → EReal}
    (relu : Bool) (hx : Real2 x) (hW : AllReal W) (hb : AllReal b) : Real2 (layerK idx x W b relu) := fun i j =>
  isReal_act relu
    ((isReal_sum _ _ fun q _ =>
      (((isReal_sum _ _ fun k _ => (isReal_adjI idx i k).mul ((hx k q).mul (isReal_dK idx k)))).mul (isReal_dK idx i)).mul (hW _)).add (hb _))

theorem layerR_eq_layerK (idx : IVec S8192x16 32) (hlt : ∀ p : S8192x16.Idx, (idx p).toInt < 8192)
    {x : Fin 8192 → Fin 512 → EReal} (W : S512x512.Idx → EReal) (b : S512.Idx → EReal) (relu : Bool) (hx : Real2 x) :
    layerR idx x W b relu = layerK idx x W b relu := by
  funext i j
  unfold layerR layerK
  refine congrArg (fun t => act relu (t + b (ix1 j))) (Finset.sum_congr rfl fun q _ => ?_)
  refine congrArg (· * W (ix2 q j)) ?_
  simp only [dR_eq_dK idx hlt]
  exact scaled_sum_law (fun k => adjI idx i k) (fun k => x k q) (fun k => dK idx k) (dK idx i)
    (fun k => isReal_adjI idx i k) (fun k => hx k q) (fun k => isReal_dK idx k) (isReal_dK idx i)

/-- The reference's arrangement and the kernel's give the same network, when the neighbour table's
    entries are below 8192 and the float inputs of the embedding and of the first two layers are
    real numbers. -/
theorem GR_eq_GK (X : S8192x128.Idx → EReal) (idx : IVec S8192x16 32) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal)
    (hlt : ∀ p : S8192x16.Idx, (idx p).toInt < 8192)
    (hX : AllReal X) (hWemb : AllReal Wemb) (hbemb : AllReal bemb)
    (hW1 : AllReal W1) (hb1 : AllReal b1) (hW2 : AllReal W2) (hb2 : AllReal b2) :
    GR X idx Wemb bemb W1 b1 W2 b2 W3 b3 = GK X idx Wemb bemb W1 b1 W2 b2 W3 b3 := by
  funext n j
  unfold GR GK
  have h0 : Real2 (emb X Wemb bemb) := real2_emb hX hWemb hbemb
  have h1 : Real2 (layerK idx (emb X Wemb bemb) W1 b1 true) := real2_layerK idx true h0 hW1 hb1
  have h2 : Real2 (layerK idx (layerK idx (emb X Wemb bemb) W1 b1 true) W2 b2 true) := real2_layerK idx true h1 hW2 hb2
  rw [layerR_eq_layerK idx hlt W1 b1 true h0, layerR_eq_layerK idx hlt W2 b2 true h1, layerR_eq_layerK idx hlt W3 b3 false h2]

end Cert.Spec
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Values.lean ====
import proofs.«127076_j34282428956966_2_alg».proof.Proof.Spec
import proofs.«127076_j34282428956966_2_alg».proof.Proof.LibKeepdims

/-!
# The two programs' results as whole-array functions, and their equality

`kernelValue` is the result array in the shape the kernel's run produces it: the adjacency counts
with ones added on the diagonal, the normaliser as an [8192, 1] column (the valid slots of a row
summed, plus one, to the power `-1/2`), each bias as a [1, 512] row, and three layers each of which
scales the rows of its input by the column, multiplies by the matrix, scales the rows of the product,
multiplies by the weights and adds the bias. `referenceValue` is the same network in the reference's
arrangement (the matrix normalised entry by entry first). They are equal when the neighbour table's
entries are below 8192 and the float inputs are real numbers.
-/

open Idealize.ShloMosaic Idealize.ShloMosaic.ValueIdx LibFinite
open scoped BigOperators

noncomputable section

namespace Cert.Spec

abbrev S1x512 : Shape := ⟨2, ![1, 512]⟩

theorem red_8192x16 : S8192x16.ReducesTo [1] S8192 := by decide
theorem pos_S_ : 0 < S_.numel := by decide
theorem bc0_8192 : S_.BroadcastsInDim S8192 (![] : Fin 0 → Fin S8192.rank) := by decide
theorem sc_8192_8192x1 : S8192.ShapeCasts S8192x1 := by decide
theorem sc_512_1x512 : S512.ShapeCasts S1x512 := by decide

/-- Ones added on the diagonal. -/
def selfLoops (A : S8192x8192.Idx → EReal) : S8192x8192.Idx → EReal :=
  fun i => A i + if (i 0).val = (i 1).val then 1 else 0

/-- The embedding `X · W + b`, the bias a [1, 512] row. -/
def embedded (X : S8192x128.Idx → EReal) (W : S128x512.Idx → EReal) (b : S1x512.Idx → EReal) : S8192x512.Idx → EReal :=
  fun i => (∑ k : Fin 128, X (ix2 (i 0) k) * W (ix2 k (i 1))) + b (ix2 (0 : Fin 1) (i 1))

/-- One layer before its activation: rows of `X` scaled by `d`, the product with `A`, its rows
    scaled by `d`, the product with `W`, the bias. -/
def layerPre (A : S8192x8192.Idx → EReal) (X : S8192x512.Idx → EReal) (d : S8192x1.Idx → EReal) (W : S512x512.Idx → EReal)
    (b : S1x512.Idx → EReal) : S8192x512.Idx → EReal :=
  fun i => (∑ j : Fin 512, ((∑ k : Fin 8192, A (ix2 (i 0) k) * (X (ix2 k j) * d (ix2 k (0 : Fin 1)))) * d (ix2 (i 0) (0 : Fin 1)))
    * W (ix2 j (i 1))) + b (ix2 (0 : Fin 1) (i 1))

/-- One layer followed by `max(·, 0)`. -/
def layerRelu (A : S8192x8192.Idx → EReal) (X : S8192x512.Idx → EReal) (d : S8192x1.Idx → EReal) (W : S512x512.Idx → EReal)
    (b : S1x512.Idx → EReal) : S8192x512.Idx → EReal :=
  fun i => max (layerPre A X d W b i) 0

/-- The normaliser as an [8192, 1] column: the weights of each row summed from zero, one added,
    raised to the power `-1/2`, and the vector re-laid as a column. -/
def dcol (idx : IVec S8192x16 32) : S8192x1.Idx → EReal :=
  shapeCast S8192x1
    (Host.powf (F := Ideal)
      (addf (Host.reduceAdd (F := Ideal) (valT idx) (constant (F := Ideal) S_ .f32 0x00000000#32) red_8192x16 pos_S_)
        (broadcastInDim S8192 ![] bc0_8192 (constant (F := Ideal) S_ .f32 0x3F800000#32)))
      (broadcastInDim S8192 ![] bc0_8192 (constant (F := Ideal) S_ .f32 0xBF000000#32)))
    sc_8192_8192x1

/-- A bias vector re-laid as a [1, 512] row. -/
def row (v : S512.Idx → EReal) : S1x512.Idx → EReal := shapeCast S1x512 v sc_512_1x512

/-- The result, as the kernel's run arranges it. -/
def kernelValue (idx : IVec S8192x16 32) (X : S8192x128.Idx → EReal) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal) : S8192x512.Idx → EReal :=
  let A' := selfLoops (adjT idx)
  let d := dcol idx
  let x0 := embedded X Wemb (row bemb)
  let x1 := layerRelu A' x0 d W1 (row b1)
  let x2 := layerRelu A' x1 d W2 (row b2)
  layerPre A' x2 d W3 (row b3)

/-- The result, as the reference arranges it. -/
def referenceValue (idx : IVec S8192x16 32) (X : S8192x128.Idx → EReal) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal) : S8192x512.Idx → EReal :=
  fun i => GR X idx Wemb bemb W1 b1 W2 b2 W3 b3 (i 0) (i 1)

/-! ## Readings -/

theorem row_apply (v : S512.Idx → EReal) (j : Fin 512) : row v (ix2 (0 : Fin 1) j) = v (ix1 j) :=
  shapeCast_apply v sc_512_1x512 _ _
    (by rewrite [Shape.rowMajor_val_one, Shape.rowMajor_val_two]; show j.val = 0 * 512 + j.val; omega)

/-- The column at row `r` is the kernel's normaliser of row `r`. -/
theorem dcol_apply (idx : IVec S8192x16 32) (r : Fin 8192) : dcol idx (ix2 r (0 : Fin 1)) = dK idx r := by
  unfold dcol
  rw [Cert.LibKeepdims.shapeCast_a_a1_apply _ sc_8192_8192x1 r 0]
  have hr : Host.reduceAdd (F := Ideal) (valT idx) (constant (F := Ideal) S_ .f32 0x00000000#32) red_8192x16 pos_S_ (ix1 r)
      = ∑ m : Fin 16, valT idx (ix2 r m) := by
    simp only [Host.reduceAdd, Ideal.hostReduceAdd_def]
    rw [Ideal.hostReduceAdd_single red_8192x16 (by decide)]
    have h0 : constant (F := Ideal) S_ .f32 0x00000000#32 (Shape.Idx.first pos_S_) = (0 : EReal) := by
      show Ideal.ofBits .f32 0x00000000#32 = 0
      exact Ideal.ofBits_zero_f32
    rw [h0, zero_add]
    refine Finset.sum_congr rfl fun m _ => congrArg (valT idx) (funext fun a => Fin.ext ?_)
    match a with
    | ⟨0, _⟩ => rfl
    | ⟨1, _⟩ => rfl
  show Ideal.pow (Host.reduceAdd (F := Ideal) (valT idx) (constant (F := Ideal) S_ .f32 0x00000000#32) red_8192x16 pos_S_ (ix1 r)
      + Ideal.ofBits .f32 0x3F800000#32) (Ideal.ofBits .f32 0xBF000000#32) = _
  rw [hr, f32_one]
  rfl

theorem selfLoops_adjT (idx : IVec S8192x16 32) (r c : Fin 8192) : selfLoops (adjT idx) (ix2 r c) = adjI idx r c := rfl

theorem embedded_eq (X : S8192x128.Idx → EReal) (W : S128x512.Idx → EReal) (b : S512.Idx → EReal) (n : Fin 8192) (j : Fin 512) :
    embedded X W (row b) (ix2 n j) = emb X W b n j := by
  show (∑ k : Fin 128, X (ix2 n k) * W (ix2 k j)) + row b (ix2 (0 : Fin 1) j) = _
  rw [row_apply]; rfl

theorem layerPre_eq (idx : IVec S8192x16 32) (X : S8192x512.Idx → EReal) (W : S512x512.Idx → EReal) (b : S512.Idx → EReal)
    (n : Fin 8192) (j : Fin 512) :
    layerPre (selfLoops (adjT idx)) X (dcol idx) W (row b) (ix2 n j) = layerK idx (fun k q => X (ix2 k q)) W b false n j := by
  show (∑ q : Fin 512, ((∑ k : Fin 8192, selfLoops (adjT idx) (ix2 n k) * (X (ix2 k q) * dcol idx (ix2 k (0 : Fin 1))))
      * dcol idx (ix2 n (0 : Fin 1))) * W (ix2 q j)) + row b (ix2 (0 : Fin 1) j) = _
  simp only [dcol_apply, row_apply, selfLoops_adjT]
  rfl

theorem layerRelu_eq (idx : IVec S8192x16 32) (X : S8192x512.Idx → EReal) (W : S512x512.Idx → EReal) (b : S512.Idx → EReal)
    (n : Fin 8192) (j : Fin 512) :
    layerRelu (selfLoops (adjT idx)) X (dcol idx) W (row b) (ix2 n j) = layerK idx (fun k q => X (ix2 k q)) W b true n j := by
  show max (layerPre (selfLoops (adjT idx)) X (dcol idx) W (row b) (ix2 n j)) 0 = _
  rw [layerPre_eq]
  rfl

/-- The kernel's arrangement, entry by entry. -/
theorem kernelValue_apply (idx : IVec S8192x16 32) (X : S8192x128.Idx → EReal) (Wemb : S128x512.Idx → EReal) (bemb : S512.Idx → EReal)
    (W1 : S512x512.Idx → EReal) (b1 : S512.Idx → EReal) (W2 : S512x512.Idx → EReal) (b2 : S512.Idx → EReal)
    (W3 : S512x512.Idx → EReal) (b3 : S512.Idx → EReal) (n : Fin 8192) (j : Fin 512) :
    kernelValue idx X Wemb bemb W1 b1 W2 b2 W3 b3 (ix2 n j) = GK X idx Wemb bemb W1 b1 W2 b2 W3 b3 n j := by
  unfold kernelValue GK
  rw [layerPre_eq]
  have e2 : (fun k q => layerRelu (selfLoops (adjT idx)) (layerRelu (selfLoops (adjT idx)) (embedded X Wemb (row bemb)) (dcol idx) W1 (row b1))
        (dcol idx) W2 (row b2) (ix2 k q))
      = layerK idx (fun k q => layerRelu (selfLoops (adjT idx)) (embedded X Wemb (row bemb)) (dcol idx) W1 (row b1) (ix2 k q)) W2 b2 true :=
    funext fun k => funext fun q => layerRelu_eq idx _ W2 b2 k q
  have e1 : (fun k q => layerRelu (selfLoops (adjT idx)) (embedded X Wemb (row bemb)) (dcol idx) W1 (row b1) (ix2 k q))
      = layerK idx (fun k q => embedded X Wemb (row bemb) (ix2 k q)) W1 b1 true :=
    funext fun k => funext fun q => layerRelu_eq idx _ W1 b1 k q
  have e0 : (fun k q => embedded X Wemb (row bemb) (ix2 k q)) = emb X Wemb bemb :=
    funext fun k => funext fun q => embedded_eq X Wemb bemb k q
  rw [e2, e1, e0]

/-- The two programs' results agree: with every entry of the neighbour table below 8192 and every
    float input of the embedding and of the first two layers a real number, the kernel's arrangement
    and the reference's are the same array. -/
theorem kernelValue_eq_referenceValue (idx : IVec S8192x16 32) (X : S8192x128.Idx → EReal) (Wemb : S128x512.Idx → EReal)
    (bemb : S512.Idx → EReal) (W1 : S512x512.Idx → EReal) (b1 : S512.Idx → EReal) (W2 : S512x512.Idx → EReal) (b2 : S512.Idx → EReal)
    (W3 : S512x512.Idx → EReal) (b3 : S512.Idx → EReal)
    (hlt : ∀ p : S8192x16.Idx, (idx p).toInt < 8192)
    (hX : AllReal X) (hWemb : AllReal Wemb) (hbemb : AllReal bemb)
    (hW1 : AllReal W1) (hb1 : AllReal b1) (hW2 : AllReal W2) (hb2 : AllReal b2) :
    kernelValue idx X Wemb bemb W1 b1 W2 b2 W3 b3 = referenceValue idx X Wemb bemb W1 b1 W2 b2 W3 b3 := by
  funext i
  obtain ⟨n, j, rfl⟩ : ∃ (n : Fin 8192) (j : Fin 512), i = ix2 n j := ⟨i 0, i 1, eq_ix2 i⟩
  rw [kernelValue_apply]
  show _ = GR X idx Wemb bemb W1 b1 W2 b2 W3 b3 n j
  rw [GR_eq_GK X idx Wemb bemb W1 b1 W2 b2 W3 b3 hlt hX hWemb hbemb hW1 hb1 hW2 hb2]

end Cert.Spec
-- ==== Proof.KernelValue.lean ====
/-
  The idealized kernel's result as one function of @main's arguments.

  The run (MainRun.lean) ends with the result buffer at what the last layer's write-backs leave. Each region's output
  array is a closed function of the arrays it was entered with (Value0 … Value4), and each of those arrays is either
  an earlier region's output or a host stretch's value of the arguments (KernelReads.lean). Unfolding from the last
  region back to the first gives the result as: the adjacency counts of the edge list with self loops added, the column
  d of inverse square roots of (valid edges per row, plus one), the embedding X·W_emb + b_emb, then three layers
  x ↦ ((A'·(x scaled by d on its rows)) scaled by d on its rows)·W + b, the first two followed by max(·, 0).
-/
import proofs.«127076_j34282428956966_2_alg».proof.Proof.KernelReads
import proofs.«127076_j34282428956966_2_alg».proof.Proof.Value0
import proofs.«127076_j34282428956966_2_alg».proof.Proof.Value1
import proofs.«127076_j34282428956966_2_alg».proof.Proof.Value2
import proofs.«127076_j34282428956966_2_alg».proof.Proof.Value3
import proofs.«127076_j34282428956966_2_alg».proof.Proof.Value4
import proofs.«127076_j34282428956966_2_alg».proof.Proof.Values

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-! ## The program-side functions are the specification's -/

theorem withSelfLoops_eq : @withSelfLoops = @Cert.Spec.selfLoops := rfl
theorem embedded_eq : @embedded = @Cert.Spec.embedded := rfl
theorem layerOut_eq : @layerOut = @Cert.Spec.layerRelu := rfl
theorem layerLin_eq : @layerLin = @Cert.Spec.layerPre := rfl
theorem dcolTerm_eq : @dcolTerm = @Cert.Spec.dcol := rfl

/-! ## Region by region -/

/-- After region 0: the adjacency counts with the self loops added. -/
theorem selfloops_value : B4 m c main_v31 = Cert.Spec.selfLoops (Cert.Spec.adjT (m ((c : Thread nD τ).loc main_arg1))) := by
  rw [B4_out m c, final0 (E3 m) c, adj_entry m c, withSelfLoops_eq]
/-- After region 1: the embedding. -/
theorem embed_value : B6 m c main_v35 = Cert.Spec.embedded (m ((c : Thread nD τ).loc main_arg0)) (m ((c : Thread nD τ).loc main_arg2)) (Cert.Spec.row (m ((c : Thread nD τ).loc main_arg3))) := by
  rw [B6_out m c, final1 (E5 m) c, main_v32_entry m c, main_v33_entry m c, main_v34_entry m c, embedded_eq]
  rfl
/-- After region 2: the first layer. -/
theorem layer1_value : B8 m c main_v38 = Cert.Spec.layerRelu (Cert.Spec.selfLoops (Cert.Spec.adjT (m ((c : Thread nD τ).loc main_arg1)))) (Cert.Spec.embedded (m ((c : Thread nD τ).loc main_arg0)) (m ((c : Thread nD τ).loc main_arg2)) (Cert.Spec.row (m ((c : Thread nD τ).loc main_arg3))))
    (Cert.Spec.dcol (m ((c : Thread nD τ).loc main_arg1))) (m ((c : Thread nD τ).loc main_arg4)) (Cert.Spec.row (m ((c : Thread nD τ).loc main_arg5))) := by
  rw [B8_out m c, final2 (E7 m) c, selfloops_kept7 m c, embed_kept7 m c, dcol_kept7 m c, main_v36_entry m c, main_v37_entry m c,
    selfloops_value m c, embed_value m c, dcol_entry m c, layerOut_eq, dcolTerm_eq]
  rfl
/-- After region 3: the second layer. -/
theorem layer2_value : B10 m c main_v41 = Cert.Spec.layerRelu (Cert.Spec.selfLoops (Cert.Spec.adjT (m ((c : Thread nD τ).loc main_arg1))))
    (Cert.Spec.layerRelu (Cert.Spec.selfLoops (Cert.Spec.adjT (m ((c : Thread nD τ).loc main_arg1)))) (Cert.Spec.embedded (m ((c : Thread nD τ).loc main_arg0)) (m ((c : Thread nD τ).loc main_arg2)) (Cert.Spec.row (m ((c : Thread nD τ).loc main_arg3))))
      (Cert.Spec.dcol (m ((c : Thread nD τ).loc main_arg1))) (m ((c : Thread nD τ).loc main_arg4)) (Cert.Spec.row (m ((c : Thread nD τ).loc main_arg5))))
    (Cert.Spec.dcol (m ((c : Thread nD τ).loc main_arg1))) (m ((c : Thread nD τ).loc main_arg6)) (Cert.Spec.row (m ((c : Thread nD τ).loc main_arg7))) := by
  rw [B10_out m c, final3 (E9 m) c, selfloops_kept9 m c, layer1_kept9 m c, dcol_kept9 m c, main_v39_entry m c, main_v40_entry m c,
    selfloops_value m c, layer1_value m c, dcol_entry m c, layerOut_eq, dcolTerm_eq]
  rfl

/-- THE RESULT: what the last region leaves in the result buffer is the specification's kernel value of the arguments. -/
theorem result_eq : (dat4 (E11 m) c).arrAt 6 cfg4.N
    = Cert.Spec.kernelValue (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final4 (E11 m) c, selfloops_kept11 m c, layer2_kept11 m c, dcol_kept11 m c, main_v42_entry m c, main_v43_entry m c,
    selfloops_value m c, layer2_value m c, dcol_entry m c, layerLin_eq, dcolTerm_eq]
  rfl

end Cert.KernelIdeal.Hand

end
-- ==== Proof.RefValue.lean ====
import proofs.«127076_j34282428956966_2_alg».proof.Proof.RefRead
import proofs.«127076_j34282428956966_2_alg».proof.Proof.Values

/-!
# The reference program computes `referenceValue`

The reference's stages are read one operation at a time, at explicit (row, column) coordinates:
the adjacency counts plus the identity, their row sums (the degrees), the guarded power (the
normaliser), the matrix scaled entry by entry, the embedding, and the three layers.
-/

open Idealize.ShloMosaic Idealize.ShloMosaic.ValueIdx LibFinite
open Cert.ReferenceIdeal Cert.ReferenceIdeal.Gen Cert.ReferenceIdeal.ReadP
open scoped BigOperators

noncomputable section

namespace Cert.ReferenceIdeal.RefValue

open Cert.Spec (adjT adjI degR dR negHalf emb layerR GR referenceValue)

/-- The reference's scatter is the adjacency counts. -/
theorem ref_scatter (x1 : IVec S8192x16 32) : val_main_v24 (F := Ideal) x1 = adjT x1 := rfl

/-- An entry of the identity matrix, as the reference builds it: the row number compared with the
    column number. -/
theorem eye_entry (r c : Fin 8192) :
    FloatOps.uitofp (F := Ideal) .f32 (IntOp.cmpi .eq (IntOp.addi (BitVec.ofNat 32 r.val) 0#32) (BitVec.ofNat 32 c.val))
      = if r.val = c.val then (1 : EReal) else 0 := by
  show (((BitVec.ofBool (BitVec.ofNat 32 r.val + 0#32 == BitVec.ofNat 32 c.val)).toNat : ℝ) : EReal) = _
  have hr := r.isLt
  have hc := c.isLt
  by_cases h : r.val = c.val
  · rw [if_pos h, h]; simp
  · rw [if_neg h]
    have hne : (BitVec.ofNat 32 r.val + 0#32 == BitVec.ofNat 32 c.val) = false := by
      rw [BitVec.add_zero, beq_eq_false_iff_ne]
      intro heq
      apply h
      have := congrArg BitVec.toNat heq
      rw [BitVec.toNat_ofNat, BitVec.toNat_ofNat] at this
      omega
    rw [hne]; simp

/-- The counts plus the identity. -/
theorem ref_adjI (x1 : IVec S8192x16 32) (r c : Fin 8192) : val_main_v31 (F := Ideal) x1 (ix2 r c) = adjI x1 r c := by
  rw [val_main_v31_apply, val_main_v30_apply, val_main_v29_apply, val_main_v28_apply, val_main_v27_apply, val_main_c_5_apply,
    val_main_v25_apply, val_main_v26_apply, ref_scatter]
  show adjT x1 (ix2 r c) + _ = adjT x1 (ix2 r c) + _
  exact congrArg (adjT x1 (ix2 r c) + ·) (eye_entry r c)

/-- The degrees: row sums. -/
theorem ref_deg (x1 : IVec S8192x16 32) (r : Fin 8192) : val_main_v32 (F := Ideal) x1 (ix1 r) = degR x1 r := by
  rw [val_main_v32_apply, val_main_cst_6_apply]
  have hi : ∀ k : Fin 8192, idx_main_v32 (ix1 r) k = ix2 r k := fun k => funext fun a => Fin.ext (by
    match a with
    | ⟨0, _⟩ => rfl
    | ⟨1, _⟩ => rfl)
  simp only [hi, ref_adjI]
  show Ideal.ofBits .f32 0x00000000#32 + _ = _
  rw [Ideal.ofBits_zero_f32, zero_add]
  rfl

/-- The normaliser: the power where the degree is positive, else zero. -/
theorem ref_dinv (x1 : IVec S8192x16 32) (r : Fin 8192) : val_main_v37 (F := Ideal) x1 (ix1 r) = dR x1 r := by
  rw [val_main_v37_apply, val_main_v34_apply, val_main_v36_apply, val_main_v33_apply, val_main_cst_7_apply, val_main_v35_apply,
    val_main_cst_8_apply, val_main_call1_v1_apply, val_main_call1_v0_apply, val_main_cst_9_apply, ref_deg]
  show Scalar.select (Ideal.cmp .ogt (degR x1 r) (Ideal.ofBits .f32 0x00000000#32))
    (Ideal.pow (degR x1 r) (Ideal.ofBits .f32 0xBF000000#32)) (Ideal.ofBits .f32 0x00000000#32) = _
  rw [Ideal.ofBits_zero_f32]
  unfold Cert.Spec.dR
  by_cases h : 0 < degR x1 r
  · have : Ideal.cmp .ogt (degR x1 r) 0 = 1#1 := by
      show BitVec.ofBool (decide (0 < degR x1 r)) = 1#1
      rw [decide_eq_true h]; rfl
    rw [this, select_one, if_pos h]; rfl
  · have : Ideal.cmp .ogt (degR x1 r) 0 = 0#1 := by
      show BitVec.ofBool (decide (0 < degR x1 r)) = 0#1
      rw [decide_eq_false h]; rfl
    rw [this, select_zero, if_neg h]

/-- The matrix scaled entry by entry by the normalisers of its row and of its column. -/
theorem ref_An (x1 : IVec S8192x16 32) (r c : Fin 8192) :
    val_main_v43 (F := Ideal) x1 (ix2 r c) = adjI x1 r c * dR x1 r * dR x1 c := by
  rw [val_main_v43_apply, val_main_v40_apply, val_main_v39_apply, val_main_v38_apply, val_main_v42_apply, val_main_v41_apply, ref_adjI]
  have h1 : idx_main_v38 (idx_main_v39 (ix2 r c)) = ix1 r := funext fun a => Fin.ext (by
    match a with
    | ⟨0, _⟩ => rfl)
  have h2 : idx_main_v41 (idx_main_v42 (ix2 r c)) = ix1 c := funext fun a => Fin.ext (by
    match a with
    | ⟨0, _⟩ => rfl)
  rw [h1, h2, ref_dinv, ref_dinv]
  rfl

/-! ## The embedding and the three layers -/

/-- The embedding. -/
theorem ref_x0 (x0 : S8192x128.Idx → EReal) (x2 : S128x512.Idx → EReal) (x3 : S512.Idx → EReal) (n : Fin 8192) (j : Fin 512) :
    val_main_v47 (F := Ideal) x0 x2 x3 (ix2 n j) = emb x0 x2 x3 n j := by
  rw [val_main_v47_apply, val_main_v44_apply, val_main_v46_apply, val_main_v45_apply]
  have hl : ∀ k : Fin 128, lidx_main_v44 (ix2 n j) k = ix2 n k := fun k => funext fun a => Fin.ext (by
    match a with
    | ⟨0, _⟩ => rfl
    | ⟨1, _⟩ => rfl)
  have hr : ∀ k : Fin 128, ridx_main_v44 (ix2 n j) k = ix2 k j := fun k => funext fun a => Fin.ext (by
    match a with
    | ⟨0, _⟩ => rfl
    | ⟨1, _⟩ => rfl)
  have hb : idx_main_v45 (idx_main_v46 (ix2 n j)) = ix1 j := funext fun a => Fin.ext (by
    match a with
    | ⟨0, _⟩ => rfl)
  simp only [hl, hr, hb]
  rfl

/-- The first layer. -/
theorem ref_layer1 (x0 : S8192x128.Idx → EReal) (x1 : IVec S8192x16 32) (x2 : S128x512.Idx → EReal) (x3 : S512.Idx → EReal)
    (x4 : S512x512.Idx → EReal) (x5 : S512.Idx → EReal) (n : Fin 8192) (j : Fin 512) :
    val_main_v53 (F := Ideal) x0 x1 x2 x3 x4 x5 (ix2 n j) = layerR x1 (emb x0 x2 x3) x4 x5 true n j := by
  rw [val_main_v53_apply, val_main_v52_apply, val_main_v49_apply, val_main_call2_v0_apply, val_main_call2_cst_apply,
    val_main_v51_apply, val_main_v50_apply]
  have hl : ∀ q : Fin 512, lidx_main_v49 (ix2 n j) q = ix2 n q := fun q => funext fun a => Fin.ext (by
    match a with
    | ⟨0, _⟩ => rfl
    | ⟨1, _⟩ => rfl)
  have hr : ∀ q : Fin 512, ridx_main_v49 (ix2 n j) q = ix2 q j := fun q => funext fun a => Fin.ext (by
    match a with
    | ⟨0, _⟩ => rfl
    | ⟨1, _⟩ => rfl)
  have hb : idx_main_v50 (idx_main_v51 (ix2 n j)) = ix1 j := funext fun a => Fin.ext (by
    match a with
    | ⟨0, _⟩ => rfl)
  have hl' : ∀ (q : Fin 512) (k : Fin 8192), lidx_main_v48 (ix2 n q) k = ix2 n k := fun q k => funext fun a => Fin.ext (by
    match a with
    | ⟨0, _⟩ => rfl
    | ⟨1, _⟩ => rfl)
  have hr' : ∀ (q : Fin 512) (k : Fin 8192), ridx_main_v48 (ix2 n q) k = ix2 k q := fun q k => funext fun a => Fin.ext (by
    match a with
    | ⟨0, _⟩ => rfl
    | ⟨1, _⟩ => rfl)
  simp only [hl, hr, hb, val_main_v48_apply, hl', hr', ref_An, ref_x0]
  show max (_ + x5 (ix1 j)) (Ideal.ofBits .f32 0x00000000#32) = _
  rw [Ideal.ofBits_zero_f32]
  rfl

/-- The second layer. -/
theorem ref_layer2 (x0 : S8192x128.Idx → EReal) (x1 : IVec S8192x16 32) (x2 : S128x512.Idx → EReal) (x3 : S512.Idx → EReal)
    (x4 : S512x512.Idx → EReal) (x5 : S512.Idx → EReal) (x6 : S512x512.Idx → EReal) (x7 : S512.Idx → EReal) (n : Fin 8192) (j : Fin 512) :
    val_main_v59 (F := Ideal) x0 x1 x2 x3 x4 x5 x6 x7 (ix2 n j)
      = layerR x1 (layerR x1 (emb x0 x2 x3) x4 x5 true) x6 x7 true n j := by
  rw [val_main_v59_apply, val_main_v58_apply, val_main_v55_apply, val_main_call3_v0_apply, val_main_call3_cst_apply,
    val_main_v57_apply, val_main_v56_apply]
  have hl : ∀ q : Fin 512, lidx_main_v55 (ix2 n j) q = ix2 n q := fun q => funext fun a => Fin.ext (by
    match a with
    | ⟨0, _⟩ => rfl
    | ⟨1, _⟩ => rfl)
  have hr : ∀ q : Fin 512, ridx_main_v55 (ix2 n j) q = ix2 q j := fun q => funext fun a => Fin.ext (by
    match a with
    | ⟨0, _⟩ => rfl
    | ⟨1, _⟩ => rfl)
  have hb : idx_main_v56 (idx_main_v57 (ix2 n j)) = ix1 j := funext fun a => Fin.ext (by
    match a with
    | ⟨0, _⟩ => rfl)
  have hl' : ∀ (q : Fin 512) (k : Fin 8192), lidx_main_v54 (ix2 n q) k = ix2 n k := fun q k => funext fun a => Fin.ext (by
    match a with
    | ⟨0, _⟩ => rfl
    | ⟨1, _⟩ => rfl)
  have hr' : ∀ (q : Fin 512) (k : Fin 8192), ridx_main_v54 (ix2 n q) k = ix2 k q := fun q k => funext fun a => Fin.ext (by
    match a with
    | ⟨0, _⟩ => rfl
    | ⟨1, _⟩ => rfl)
  simp only [hl, hr, hb, val_main_v54_apply, hl', hr', ref_An, ref_layer1]
  show max (_ + x7 (ix1 j)) (Ideal.ofBits .f32 0x00000000#32) = _
  rw [Ideal.ofBits_zero_f32]
  rfl

/-- The third layer, which has no activation. -/
theorem ref_layer3 (x0 : S8192x128.Idx → EReal) (x1 : IVec S8192x16 32) (x2 : S128x512.Idx → EReal) (x3 : S512.Idx → EReal)
    (x4 : S512x512.Idx → EReal) (x5 : S512.Idx → EReal) (x6 : S512x512.Idx → EReal) (x7 : S512.Idx → EReal)
    (x8 : S512x512.Idx → EReal) (x9 : S512.Idx → EReal) (n : Fin 8192) (j : Fin 512) :
    val_main_v64 (F := Ideal) x0 x1 x2 x3 x4 x5 x6 x7 x8 x9 (ix2 n j) = GR x0 x1 x2 x3 x4 x5 x6 x7 x8 x9 n j := by
  rw [val_main_v64_apply, val_main_v61_apply, val_main_v63_apply, val_main_v62_apply]
  have hl : ∀ q : Fin 512, lidx_main_v61 (ix2 n j) q = ix2 n q := fun q => funext fun a => Fin.ext (by
    match a with
    | ⟨0, _⟩ => rfl
    | ⟨1, _⟩ => rfl)
  have hr : ∀ q : Fin 512, ridx_main_v61 (ix2 n j) q = ix2 q j := fun q => funext fun a => Fin.ext (by
    match a with
    | ⟨0, _⟩ => rfl
    | ⟨1, _⟩ => rfl)
  have hb : idx_main_v62 (idx_main_v63 (ix2 n j)) = ix1 j := funext fun a => Fin.ext (by
    match a with
    | ⟨0, _⟩ => rfl)
  have hl' : ∀ (q : Fin 512) (k : Fin 8192), lidx_main_v60 (ix2 n q) k = ix2 n k := fun q k => funext fun a => Fin.ext (by
    match a with
    | ⟨0, _⟩ => rfl
    | ⟨1, _⟩ => rfl)
  have hr' : ∀ (q : Fin 512) (k : Fin 8192), ridx_main_v60 (ix2 n q) k = ix2 k q := fun q k => funext fun a => Fin.ext (by
    match a with
    | ⟨0, _⟩ => rfl
    | ⟨1, _⟩ => rfl)
  simp only [hl, hr, hb, val_main_v60_apply, hl', hr', ref_An, ref_layer2]
  rfl

/-- The reference's result is `referenceValue` of its arguments. -/
theorem reference_value (x0 : S8192x128.Idx → EReal) (x1 : IVec S8192x16 32) (x2 : S128x512.Idx → EReal) (x3 : S512.Idx → EReal)
    (x4 : S512x512.Idx → EReal) (x5 : S512.Idx → EReal) (x6 : S512x512.Idx → EReal) (x7 : S512.Idx → EReal)
    (x8 : S512x512.Idx → EReal) (x9 : S512.Idx → EReal) :
    val_main_v64 (F := Ideal) x0 x1 x2 x3 x4 x5 x6 x7 x8 x9 = referenceValue x1 x0 x2 x3 x4 x5 x6 x7 x8 x9 := by
  funext i
  obtain ⟨n, j, rfl⟩ : ∃ (n : Fin 8192) (j : Fin 512), i = ix2 n j := ⟨i 0, i 1, eq_ix2 i⟩
  rw [ref_layer3]
  rfl

end Cert.ReferenceIdeal.RefValue
-- ==== Proof.PreFacts.lean ====
import proofs.«127076_j34282428956966_2_alg».proof.Pre_finite_inputs
import proofs.«127076_j34282428956966_2_alg».proof.Proof.LibFinite
import Idealize.ShloMosaic.Lib.ReduceAll
import Idealize.ShloMosaic.Lib.ValueIdx

/-!
# What the precondition says of the arguments

The precondition is a conjunction of ten tests, each a conjunction over all the entries of one
argument: for a float argument, that the absolute value of the entry is below `+∞`; for the
neighbour table, that the entry, read signed, is below 8192. An entry of the extended reals whose
absolute value is below `+∞` is neither infinity, so it is a real number.
-/

open Idealize.ShloMosaic LibFinite

namespace Cert.PreFacts

open Cert.Pre_finite_inputs (S_ S8192x128 S8192x16 S128x512 S512 S512x512)

instance : Subsingleton S_.Idx := ⟨fun a b => funext fun d => d.elim0⟩

/-- An extended real whose absolute value is below `+∞` is a real number. -/
theorem isReal_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  have hlt : max x (-x) < ⊤ := by
    by_contra hn
    have h' : BitVec.ofBool (decide (max x (-x) < ⊤)) = 1#1 := h
    rw [decide_eq_false hn] at h'
    exact absurd h' (by decide)
  induction x using EReal.rec with
  | bot => simp at hlt
  | top => simp at hlt
  | coe r => exact ⟨r, rfl⟩

/-- One float test: every entry passes, so every entry is a real number. -/
theorem allReal_of_test {s : Shape} {axes : List (Fin s.rank)} (x : FVec Ideal s .f32)
    (bc : S_.BroadcastsInDim s (![] : Fin 0 → Fin s.rank)) (red : s.ReducesTo axes S_) (hu : 0 < S_.numel)
    (h : Host.reduce IntOp.andi
        (cmpf .olt (Host.absf x) (broadcastInDim s ![] bc (constant (F := Ideal) S_ .f32 0x7F800000#32)))
        (constantI S_ 1 1#1) red hu ValueIdx.ix0 = 1#1) : AllReal x := by
  intro i
  have hi := Host.reduce_andi_all _ _ red hu ValueIdx.ix0 h i
  exact isReal_of_abs_lt_inf (x i) hi

/-- From the precondition: every float argument is entrywise a real number, and every entry of the
    neighbour table is below 8192. -/
theorem of_pre [Cert.Pre_finite_inputs.Facts]
    (a0 : FVec Ideal S8192x128 .f32) (a1 : IVec S8192x16 32) (a2 : FVec Ideal S128x512 .f32) (a3 : FVec Ideal S512 .f32)
    (a4 : FVec Ideal S512x512 .f32) (a5 : FVec Ideal S512 .f32) (a6 : FVec Ideal S512x512 .f32) (a7 : FVec Ideal S512 .f32)
    (a8 : FVec Ideal S512x512 .f32) (a9 : FVec Ideal S512 .f32)
    (h : Cert.Pre_finite_inputs.fn (F := Ideal) a0 a1 a2 a3 a4 a5 a6 a7 a8 a9 = fun _ => 1#1) :
    AllReal a0 ∧ (∀ p : S8192x16.Idx, (a1 p).toInt < 8192) ∧ AllReal a2 ∧ AllReal a3 ∧ AllReal a4 ∧ AllReal a5 ∧ AllReal a6
      ∧ AllReal a7 ∧ AllReal a8 ∧ AllReal a9 := by
  have h0 := congrFun h ValueIdx.ix0
  dsimp only [Cert.Pre_finite_inputs.fn, Cert.Pre_finite_inputs.fn_part1, Cert.Pre_finite_inputs.fn_part2] at h0
  obtain ⟨h43, h46⟩ := IntOp.andi_eq_one.1 h0
  obtain ⟨h38, h42⟩ := IntOp.andi_eq_one.1 h43
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨allReal_of_test a0 _ _ _ h3, ?_, allReal_of_test a2 _ _ _ h7, allReal_of_test a3 _ _ _ h12,
    allReal_of_test a4 _ _ _ h17, allReal_of_test a5 _ _ _ h22, allReal_of_test a6 _ _ _ h27, allReal_of_test a7 _ _ _ h32,
    allReal_of_test a8 _ _ _ h37, allReal_of_test a9 _ _ _ h42⟩
  intro p
  have hp := Host.reduce_andi_all _ _ _ _ ValueIdx.ix0 h46 p
  have := IntOp.cmpi_slt.1 hp
  exact this

end Cert.PreFacts
-- ==== Proof.lean ====
/-
  A three-layer graph convolution on TPU against its jnp reference: the claim and its proof.

  From an edge list (16 neighbour indices per node, a negative index meaning "no neighbour") both programs build the
  dense matrix A of edge counts by a scatter-add, add the identity, and normalise symmetrically by the inverse square
  roots of the degrees; they embed the node features, x₀ = X·W_emb + b_emb, and apply three layers
  x ↦ (D^{-1/2}(A+I)D^{-1/2} · x)·W + b, the first two followed by max(·, 0).

  They differ in two ways. The reference takes the degree of node r as the r-th row sum of A + I, and forms the normalised
  matrix before multiplying; the kernel takes it as (number of non-negative indices in row r) + 1, never forms the
  normalised matrix, and instead scales the rows of x by d before the product with A + I and the rows of the product
  by d after it, the product itself accumulated over eight blocks of 1024 columns.
  * The two degrees agree exactly when every edge that is counted also lands in A: an index ≥ 8192 is counted by the
    kernel but dropped by the scatter. Hence the precondition's bound on the indices; under it each row of A sums to
    the number of non-negative indices of that row (Cert.Spec.adjT_rowsum), the degree is at least 1, and the
    reference's guard "degree > 0" is inert.
  * The two arrangements of a layer agree by distributivity, ∑ₖ (a_rk · d_r · d_k) · x_kj = (∑ₖ a_rk · (x_kj · d_k)) · d_r,
    which holds on the reals but not at infinities: hence the precondition's finiteness of the float inputs, which
    makes every intermediate value a real number (Cert.Spec.kernelValue_eq_referenceValue).

  The kernel is five pipelined kernel regions between stretches of host operations; MainRun.lean runs it and names what
  the result buffer ends with, KernelValue.lean unfolds that to one function of the arguments. The reference is host
  operations only; its run and its value read operation by operation are RefRun.lean, RefRead.lean and RefValue.lean.
  The word-level kernel (the same program read at bit patterns) is run the same way for its frame. Nothing was
  rewritten between the word-level and the idealized kernel, so that conjunct is trivially true.
-/
import proofs.«127076_j34282428956966_2_alg».proof.Defs
import proofs.«127076_j34282428956966_2_alg».proof.Proof.Gen.Kernel
import proofs.«127076_j34282428956966_2_alg».proof.Proof.Gen.KernelIdeal
import proofs.«127076_j34282428956966_2_alg».proof.Proof.Gen.ReferenceIdeal
import proofs.«127076_j34282428956966_2_alg».proof.Proof.Gen.Pre_finite_inputs
import proofs.«127076_j34282428956966_2_alg».proof.Proof.MainRun
import proofs.«127076_j34282428956966_2_alg».proof.Proof.WordMainRun
import proofs.«127076_j34282428956966_2_alg».proof.Proof.RefRun
import proofs.«127076_j34282428956966_2_alg».proof.Proof.RefRead
import proofs.«127076_j34282428956966_2_alg».proof.Proof.KernelValue
import proofs.«127076_j34282428956966_2_alg».proof.Proof.RefValue
import proofs.«127076_j34282428956966_2_alg».proof.Proof.PreFacts
import Idealize.ShloMosaic.Adequacy
import Idealize.ShloMosaic.Init

noncomputable section

namespace Cert.Proof

open Idealize.ShloMosaic Idealize.SL.Sem

/-- The word-level kernel terminates without a fault and leaves its arguments alone: its run, the result forgotten. -/
theorem frame_word : Cert.frame_Kernel := fun m ρ _ =>
  (θ_run Cert.Kernel.defs _ _).mono (fun _ h c => (h c).2) (Cert.Kernel.Hand.run (F := Bits) m ρ)

/-- So does the idealized kernel. -/
theorem frame_ideal : Cert.frame_KernelIdeal := fun m ρ _ =>
  (θ_run Cert.KernelIdeal.defs _ _).mono (fun _ h c => (h c).2) (Cert.KernelIdeal.Hand.run (F := Ideal) m ρ)

/-- And the reference, a sequence of host operations. -/
theorem frame_reference : Cert.frame_ReferenceIdeal := fun m ρ _ =>
  (θ_run Cert.ReferenceIdeal.defs _ _).mono (fun _ h c => (h c).2) (Cert.ReferenceIdeal.ValueP.run (F := Ideal) m ρ)

/-- The idealized kernel is the word-level kernel's own text read over the extended reals: no operation was rewritten. -/
theorem preserves : Cert.preserves_Kernel_KernelIdeal := trivial

/-- From memories that agree on the arguments, finite floats and indices below 8192, both programs end with the same
    array of extended reals: the kernel's value of the arguments. -/
theorem algebraic : Cert.algebraic_KernelIdeal_ReferenceIdeal := by
  intro m ρ m' ρ' hpre hagree
  refine ⟨fun c => Cert.Spec.kernelValue (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.result_eq m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hX, hlt, hWemb, hbemb, hW1, hb1, hW2, hb2, _, _⟩ := Cert.PreFacts.of_pre _ _ _ _ _ _ _ _ _ _ (hpre c)
    obtain ⟨e0, e1, e2, e3, e4, e5, e6, e7, e8, e9⟩ := hagree c
    rw [Cert.ReferenceIdeal.ReadP.val_main_v64_eq, Cert.ReferenceIdeal.RefValue.reference_value,
      e0, e1, e2, e3, e4, e5, e6, e7, e8, e9]
    exact (Cert.Spec.kernelValue_eq_referenceValue _ _ _ _ _ _ _ _ _ _ hlt hX hWemb hbemb hW1 hb1 hW2 hb2).symm

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
